-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S64 .f32) (main_arg11 : FVec F S64x128 .f32) (main_arg12 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg11
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg7 : FVec F S64x128 .f32) (main_arg8 : FVec F S64 .f32) (main_arg9 : FVec F S64x128 .f32) (main_arg10 : FVec F S64 .f32) (main_arg11 : FVec F S64x128 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg7
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg9
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x64 .f32) (main_arg1 : FVec F S1000000x64 .f32) (main_arg2 : IVec S1000000 32) (main_arg3 : IVec S1000000 32) (main_arg4 : IVec S1000000 32) (main_arg5 : FVec F S64x128 .f32) (main_arg6 : FVec F S64 .f32) (main_arg7 : FVec F S64x128 .f32) (main_arg8 : FVec F S64 .f32) (main_arg9 : FVec F S64x128 .f32) (main_arg10 : FVec F S64 .f32) (main_arg11 : FVec F S64x128 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S64x64 : Shape := ⟨2, ![64, 64]⟩
abbrev S1x64 : Shape := ⟨2, ![1, 64]⟩
abbrev S10000x64 : Shape := ⟨2, ![10000, 64]⟩
abbrev S100000 : Shape := ⟨1, ![100000]⟩
abbrev S100000x1 : Shape := ⟨2, ![100000, 1]⟩
abbrev S10000x1 : Shape := ⟨2, ![10000, 1]⟩
abbrev S1x1 : Shape := ⟨2, ![1, 1]⟩
abbrev S10000 : Shape := ⟨1, ![10000]⟩
abbrev S1 : Shape := ⟨1, ![1]⟩

abbrev nBuf : Space → Nat
  | .hbm => 159
  | .vmem => 88
  | .smem => 0
  | _ => 0

abbrev hbmTy0_0 (i : Nat) : BufTy := match i % 128 with
  | 0 => ⟨S100000x64, .f32⟩
  | 1 => ⟨S1000000x64, .f32⟩
  | 2 => ⟨S1000000, .i32⟩
  | 3 => ⟨S1000000, .i32⟩
  | 4 => ⟨S1000000, .i32⟩
  | 5 => ⟨S64x128, .f32⟩
  | 6 => ⟨S64, .f32⟩
  | 7 => ⟨S64x128, .f32⟩
  | 8 => ⟨S64, .f32⟩
  | 9 => ⟨S64x128, .f32⟩
  | 10 => ⟨S64, .f32⟩
  | 11 => ⟨S64x128, .f32⟩
  | 12 => ⟨S64, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x64, .f32⟩
  | 22 => ⟨S64x64, .f32⟩
  | 23 => ⟨S64x64, .f32⟩
  | 24 => ⟨S64x64, .f32⟩
  | 25 => ⟨S64x64, .f32⟩
  | 26 => ⟨S1x64, .f32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S_, .f32⟩
  | 33 => ⟨S1000000, .f32⟩
  | 34 => ⟨S_, .f32⟩
  | 35 => ⟨S100000, .f32⟩
  | 36 => ⟨S1000000x1, .i32⟩
  | 37 => ⟨S100000, .f32⟩
  | 38 => ⟨S100000x1, .f32⟩
  | 39 => ⟨S64x64, .f32⟩
  | 40 => ⟨S64x64, .f32⟩
  | 41 => ⟨S64x64, .f32⟩
  | 42 => ⟨S64x64, .f32⟩
  | 43 => ⟨S1x64, .f32⟩
  | 44 => ⟨S100000x64, .f32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x64, .f32⟩
  | 54 => ⟨S64x64, .f32⟩
  | 55 => ⟨S64x64, .f32⟩
  | 56 => ⟨S64x64, .f32⟩
  | 57 => ⟨S64x64, .f32⟩
  | 58 => ⟨S1x64, .f32⟩
  | 59 => ⟨S1000000x64, .f32⟩
  | 60 => ⟨S_, .f32⟩
  | 61 => ⟨S100000x64, .f32⟩
  | 62 => ⟨S1000000x1, .i32⟩
  | 63 => ⟨S100000x64, .f32⟩
  | 64 => ⟨S_, .f32⟩
  | 65 => ⟨S1000000, .f32⟩
  | 66 => ⟨S_, .f32⟩
  | 67 => ⟨S100000, .f32⟩
  | 68 => ⟨S1000000x1, .i32⟩
  | 69 => ⟨S100000, .f32⟩
  | 70 => ⟨S100000x1, .f32⟩
  | 71 => ⟨S64x64, .f32⟩
  | 72 => ⟨S64x64, .f32⟩
  | 73 => ⟨S64x64, .f32⟩
  | 74 => ⟨S64x64, .f32⟩
  | 75 => ⟨S1x64, .f32⟩
  | 76 => ⟨S100000x64, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S64x64, .f32⟩
  | 96 => ⟨S64x64, .f32⟩
  | 97 => ⟨S64x64, .f32⟩
  | 98 => ⟨S64x64, .f32⟩
  | 99 => ⟨S1x64, .f32⟩
  | 100 => ⟨S1000000x64, .f32⟩
  | 101 => ⟨S_, .f32⟩
  | 102 => ⟨S100000x64, .f32⟩
  | 103 => ⟨S1000000x1, .i32⟩
  | 104 => ⟨S100000x64, .f32⟩
  | 105 => ⟨S_, .f32⟩
  | 106 => ⟨S1000000, .f32⟩
  | 107 => ⟨S_, .f32⟩
  | 108 => ⟨S100000, .f32⟩
  | 109 => ⟨S1000000x1, .i32⟩
  | 110 => ⟨S100000, .f32⟩
  | 111 => ⟨S100000x1, .f32⟩
  | 112 => ⟨S64x64, .f32⟩
  | 113 => ⟨S64x64, .f32⟩
  | 114 => ⟨S64x64, .f32⟩
  | 115 => ⟨S64x64, .f32⟩
  | 116 => ⟨S1x64, .f32⟩
  | 117 => ⟨S100000x64, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x64, .f32⟩
  | 127 => ⟨S64x64, .f32⟩
  | _ => ⟨S100000x64, .f32⟩

abbrev hbmTy0_1 (i : Nat) : BufTy := match i % 128 with
  | 0 => ⟨S64x64, .f32⟩
  | 1 => ⟨S64x64, .f32⟩
  | 2 => ⟨S64x64, .f32⟩
  | 3 => ⟨S1x64, .f32⟩
  | 4 => ⟨S1000000x64, .f32⟩
  | 5 => ⟨S_, .f32⟩
  | 6 => ⟨S100000x64, .f32⟩
  | 7 => ⟨S1000000x1, .i32⟩
  | 8 => ⟨S100000x64, .f32⟩
  | 9 => ⟨S_, .f32⟩
  | 10 => ⟨S1000000, .f32⟩
  | 11 => ⟨S_, .f32⟩
  | 12 => ⟨S100000, .f32⟩
  | 13 => ⟨S1000000x1, .i32⟩
  | 14 => ⟨S100000, .f32⟩
  | 15 => ⟨S100000x1, .f32⟩
  | 16 => ⟨S64x64, .f32⟩
  | 17 => ⟨S64x64, .f32⟩
  | 18 => ⟨S64x64, .f32⟩
  | 19 => ⟨S64x64, .f32⟩
  | 20 => ⟨S1x64, .f32⟩
  | 21 => ⟨S100000x64, .f32⟩
  | 22 => ⟨S1x1, .f32⟩
  | 23 => ⟨S_, .f32⟩
  | 24 => ⟨S_, .f32⟩
  | 25 => ⟨S_, .f32⟩
  | 26 => ⟨S1x1, .f32⟩
  | 27 => ⟨S_, .f32⟩
  | 28 => ⟨S_, .f32⟩
  | 29 => ⟨S_, .f32⟩
  | 30 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x1, .f32⟩
  | .local _ .vmem, ⟨34, _⟩ => ⟨S10000x1, .f32⟩
  | .local _ .vmem, ⟨35, _⟩ => ⟨S64x64, .f32⟩
  | .local _ .vmem, ⟨36, _⟩ => ⟨S64x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S64x64, .f32⟩
  | .local _ .vmem, ⟨45, _⟩ => ⟨S64x64, .f32⟩
  | .local _ .vmem, ⟨46, _⟩ => ⟨S1x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x1, .f32⟩
  | .local _ .vmem, ⟨54, _⟩ => ⟨S10000x1, .f32⟩
  | .local _ .vmem, ⟨55, _⟩ => ⟨S64x64, .f32⟩
  | .local _ .vmem, ⟨56, _⟩ => ⟨S64x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S64x64, .f32⟩
  | .local _ .vmem, ⟨65, _⟩ => ⟨S64x64, .f32⟩
  | .local _ .vmem, ⟨66, _⟩ => ⟨S1x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x1, .f32⟩
  | .local _ .vmem, ⟨74, _⟩ => ⟨S10000x1, .f32⟩
  | .local _ .vmem, ⟨75, _⟩ => ⟨S64x64, .f32⟩
  | .local _ .vmem, ⟨76, _⟩ => ⟨S64x64, .f32⟩
  | .local _ .vmem, ⟨77, _⟩ => ⟨S1x64, .f32⟩
  | .local _ .vmem, ⟨78, _⟩ => ⟨S10000x64, .f32⟩
  | .local _ .vmem, ⟨79, _⟩ => ⟨S10000x64, .f32⟩
  | .local _ .vmem, ⟨80, _⟩ => ⟨S10000x64, .f32⟩
  | .local _ .vmem, ⟨81, _⟩ => ⟨S10000x64, .f32⟩
  | .local _ .vmem, ⟨82, _⟩ => ⟨S1x1, .f32⟩
  | .local _ .vmem, ⟨83, _⟩ => ⟨S1x1, .f32⟩
  | .local _ .vmem, ⟨84, _⟩ => ⟨S10000x64, .f32⟩
  | .local _ .vmem, ⟨85, _⟩ => ⟨S10000x64, .f32⟩
  | .local _ .vmem, ⟨86, _⟩ => ⟨S1x1, .f32⟩
  | .local _ .vmem, ⟨87, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_12 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_15 : Ref sig .tc := ⟨.hbm, 118, rfl⟩
abbrev main_v88 : Ref sig .tc := ⟨.hbm, 119, rfl⟩
abbrev main_v89 : Ref sig .tc := ⟨.hbm, 120, rfl⟩
abbrev main_c_16 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_17 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_18 : Ref sig .tc := ⟨.hbm, 137, rfl⟩
abbrev main_v104 : Ref sig .tc := ⟨.hbm, 138, rfl⟩
abbrev main_cst_19 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_20 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_21 : Ref sig .tc := ⟨.hbm, 156, rfl⟩
abbrev main_v120 : Ref sig .tc := ⟨.hbm, 157, rfl⟩
abbrev main_v121 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg5_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg1_1 : Ref sig .tc := ⟨.vmem, 72, rfl⟩
abbrev cc7_stg2_0 : Ref sig .tc := ⟨.vmem, 73, rfl⟩
abbrev cc7_stg2_1 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg6_0 : Ref sig .tc := ⟨.vmem, 78, rfl⟩
abbrev cc7_stg6_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_scratch0 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_scratch0 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem5_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem5_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem2_1 : DmaSem sig := 74
abbrev cc7_sem3_0 : DmaSem sig := 75
abbrev cc7_sem4_0 : DmaSem sig := 76
abbrev cc7_sem5_0 : DmaSem sig := 77
abbrev cc7_sem6_0 : DmaSem sig := 78
abbrev cc7_sem6_1 : DmaSem sig := 79
abbrev cc8_sem0_0 : DmaSem sig := 80
abbrev cc8_sem0_1 : DmaSem sig := 81
abbrev cc8_sem1_0 : DmaSem sig := 82
abbrev cc9_sem0_0 : DmaSem sig := 83
abbrev cc9_sem0_1 : DmaSem sig := 84
abbrev cc9_sem1_0 : DmaSem sig := 85

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S10000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_10 : BitVec 32 := 0#32
  let v33 : BitVec 1 := Scalar.cmpi .ne v32 c0_i32_10
  v33

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_10 : BitVec 32 := 0#32
  let v33 : BitVec 1 := Scalar.cmpi .ne v32 c0_i32_10
  v33

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S64x128_S64x64_0_0 : S64x128.Slices ![0, 0] S64x64
  transposes_S64x64_S64x64_1_0 : S64x64.Transposes [1, 0] S64x64
  slices_S64x128_S64x64_0_64 : S64x128.Slices ![0, 64] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S10000x64_S10000 : S10000x64.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S_ : S1x1.ShapeCasts S_
  gather_S100000x64_S1000000x1_S1000000x64_1_0_n_n_0_1_164_wf : GatherDims.WF S100000x64 S1000000x1 S1000000x64 [1] [0] [] [0] [] 1 ![1, 64]
  dot_S10000x64_S64x64_S10000x64_1_0_0_1_n_n_wf : DotDims.WF S10000x64 S64x64 S10000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S1000000x64_S1000000x1_S1000000x64_1_0_n_n_0_1_164_wf : GatherDims.WF S1000000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1000000x64.size a
  hwx0_5 : ∀ i : grid0.Coords, EltTy.bits .f32 = 32 ∨ (Rect.block (s := S1000000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1000000x64.size a
  hwx2_0 : ∀ i : grid2.Coords, EltTy.bits .f32 = 32 ∨ (Rect.block (s := S1000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1000000x64.size a
  hwx2_1 : ∀ i : grid2.Coords, EltTy.bits .f32 = 32 ∨ (Rect.block (s := S1000000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S1000000x64.size a
  hwx2_5 : ∀ i : grid2.Coords, EltTy.bits .f32 = 32 ∨ (Rect.block (s := S1000000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1000000x64.size a
  hwx4_0 : ∀ i : grid4.Coords, EltTy.bits .f32 = 32 ∨ (Rect.block (s := S1000000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S1000000x64.size a
  hwx4_1 : ∀ i : grid4.Coords, EltTy.bits .f32 = 32 ∨ (Rect.block (s := S1000000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S1000000x64.size a
  hwx4_5 : ∀ i : grid4.Coords, EltTy.bits .f32 = 32 ∨ (Rect.block (s := S1000000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S1000000x64.size a
  hwx6_0 : ∀ i : grid6.Coords, EltTy.bits .f32 = 32 ∨ (Rect.block (s := S1000000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S1000000x64.size a
  hwx6_1 : ∀ i : grid6.Coords, EltTy.bits .f32 = 32 ∨ (Rect.block (s := S1000000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S1000000x64.size a
  hwx6_5 : ∀ i : grid6.Coords, EltTy.bits .f32 = 32 ∨ (Rect.block (s := S1000000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S100000x1.size a
  hwx7_2 : ∀ i : grid7.Coords, EltTy.bits .f32 = 32 ∨ (Rect.block (s := S100000x1) S10000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x64.size a ≤ S100000x64.size a
  hwx7_6 : ∀ i : grid7.Coords, EltTy.bits .f32 = 32 ∨ (Rect.block (s := S100000x64) S10000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x1.size a ≤ S1x1.size a
  hwx8_1 : ∀ i : grid8.Coords, EltTy.bits .f32 = 32 ∨ (Rect.block (s := S1x1) S1x1.size (cc8_transform_1 i) (hinb8_1 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x1.size a ≤ S1x1.size a
  hwx9_1 : ∀ i : grid9.Coords, EltTy.bits .f32 = 32 ∨ (Rect.block (s := S1x1) S1x1.size (cc9_transform_1 i) (hinb9_1 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S1000000x64_S1000000x1_S1000000x64_1_0_n_n_0_1_164 : GatherDims S1000000x64 S1000000x1 S1000000x64 where
  offsetDims := [1]
  collapsedSliceDims := [0]
  operandBatchingDims := []
  startIndicesBatchingDims := []
  startIndexMap := [0]
  indexVectorDim := 1
  sliceSizes := ![1, 64]
  wf := gather_S1000000x64_S1000000x1_S1000000x64_1_0_n_n_0_1_164_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v26) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v67) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_arg0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v94) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v60) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v96) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v98) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v99) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v100) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v87) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v103) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v108) S10000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v110) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v112) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v113) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v114) S10000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v53) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v115) S1x1.size cc8_transform_1 reads8_1 true true 1 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev idle8 : Fin 2 → grid8.Coords → Bool := fun | 0 => fun _ => false | 1 => fun i => !(k8_cond2 i == 1#1) | ⟨_ + 2, h⟩ => absurd h (Nat.not_lt.2 (Nat.le_add_left _ _))

abbrev win9_0 : Pipeline.Window sig grid9 :=
  Pipeline.Window.ofSpec (Memref.whole main_v114) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v118) S1x1.size cc9_transform_1 reads9_1 true true 1 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev idle9 : Fin 2 → grid9.Coords → Bool := fun | 0 => fun _ => false | 1 => fun i => !(k9_cond2 i == 1#1) | ⟨_ + 2, h⟩ => absurd h (Nat.not_lt.2 (Nat.le_add_left _ _))

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S1000000x128 : Shape := ⟨2, ![1000000, 128]⟩
abbrev S128x64 : Shape := ⟨2, ![128, 64]⟩
abbrev S1x64 : Shape := ⟨2, ![1, 64]⟩
abbrev S100000 : Shape := ⟨1, ![100000]⟩
abbrev S100000x1 : Shape := ⟨2, ![100000, 1]⟩
abbrev S100000x128 : Shape := ⟨2, ![100000, 128]⟩

abbrev nBuf : Space → Nat
  | .hbm => 227
  | .vmem => 0
  | .smem => 0
  | _ => 0

abbrev hbmTy0_0 (i : Nat) : BufTy := match i % 128 with
  | 0 => ⟨S100000x64, .f32⟩
  | 1 => ⟨S1000000x64, .f32⟩
  | 2 => ⟨S1000000, .i32⟩
  | 3 => ⟨S1000000, .i32⟩
  | 4 => ⟨S1000000, .i32⟩
  | 5 => ⟨S64x128, .f32⟩
  | 6 => ⟨S64, .f32⟩
  | 7 => ⟨S64x128, .f32⟩
  | 8 => ⟨S64, .f32⟩
  | 9 => ⟨S64x128, .f32⟩
  | 10 => ⟨S64, .f32⟩
  | 11 => ⟨S64x128, .f32⟩
  | 12 => ⟨S64, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x64, .f32⟩
  | 22 => ⟨S1000000x128, .f32⟩
  | 23 => ⟨S128x64, .f32⟩
  | 24 => ⟨S1000000x64, .f32⟩
  | 25 => ⟨S1x64, .f32⟩
  | 26 => ⟨S1000000x64, .f32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S_, .f32⟩
  | 33 => ⟨S1000000, .f32⟩
  | 34 => ⟨S_, .f32⟩
  | 35 => ⟨S100000, .f32⟩
  | 36 => ⟨S1000000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S100000x128, .f32⟩
  | 45 => ⟨S128x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x64, .f32⟩
  | 62 => ⟨S1000000x128, .f32⟩
  | 63 => ⟨S128x64, .f32⟩
  | 64 => ⟨S1000000x64, .f32⟩
  | 65 => ⟨S1x64, .f32⟩
  | 66 => ⟨S1000000x64, .f32⟩
  | 67 => ⟨S1000000x64, .f32⟩
  | 68 => ⟨S_, .f32⟩
  | 69 => ⟨S100000x64, .f32⟩
  | 70 => ⟨S1000000x1, .i32⟩
  | 71 => ⟨S100000x64, .f32⟩
  | 72 => ⟨S_, .f32⟩
  | 73 => ⟨S1000000, .f32⟩
  | 74 => ⟨S_, .f32⟩
  | 75 => ⟨S100000, .f32⟩
  | 76 => ⟨S1000000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x64, .f32⟩
  | 83 => ⟨S100000x64, .f32⟩
  | 84 => ⟨S100000x128, .f32⟩
  | 85 => ⟨S128x64, .f32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x64, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x64, .f32⟩
  | 111 => ⟨S1000000x128, .f32⟩
  | 112 => ⟨S128x64, .f32⟩
  | 113 => ⟨S1000000x64, .f32⟩
  | 114 => ⟨S1x64, .f32⟩
  | 115 => ⟨S1000000x64, .f32⟩
  | 116 => ⟨S1000000x64, .f32⟩
  | 117 => ⟨S_, .f32⟩
  | 118 => ⟨S100000x64, .f32⟩
  | 119 => ⟨S1000000x1, .i32⟩
  | 120 => ⟨S100000x64, .f32⟩
  | 121 => ⟨S_, .f32⟩
  | 122 => ⟨S1000000, .f32⟩
  | 123 => ⟨S_, .f32⟩
  | 124 => ⟨S100000, .f32⟩
  | 125 => ⟨S1000000x1, .i32⟩
  | 126 => ⟨S100000, .f32⟩
  | 127 => ⟨S_, .f32⟩
  | _ => ⟨S100000x64, .f32⟩

abbrev hbmTy0_1 (i : Nat) : BufTy := match i % 128 with
  | 0 => ⟨S100000, .f32⟩
  | 1 => ⟨S100000, .f32⟩
  | 2 => ⟨S100000x1, .f32⟩
  | 3 => ⟨S100000x64, .f32⟩
  | 4 => ⟨S100000x64, .f32⟩
  | 5 => ⟨S100000x128, .f32⟩
  | 6 => ⟨S128x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x128, .f32⟩
  | 24 => ⟨S128x64, .f32⟩
  | 25 => ⟨S1000000x64, .f32⟩
  | 26 => ⟨S1x64, .f32⟩
  | 27 => ⟨S1000000x64, .f32⟩
  | 28 => ⟨S1000000x64, .f32⟩
  | 29 => ⟨S_, .f32⟩
  | 30 => ⟨S100000x64, .f32⟩
  | 31 => ⟨S1000000x1, .i32⟩
  | 32 => ⟨S100000x64, .f32⟩
  | 33 => ⟨S_, .f32⟩
  | 34 => ⟨S1000000, .f32⟩
  | 35 => ⟨S_, .f32⟩
  | 36 => ⟨S100000, .f32⟩
  | 37 => ⟨S1000000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S100000x128, .f32⟩
  | 46 => ⟨S128x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S100000x64, .f32⟩
  | 59 => ⟨S100000x64, .i1⟩
  | 60 => ⟨S100000x64, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S_, .f32⟩
  | 74 => ⟨S_, .f32⟩
  | 75 => ⟨S_, .f32⟩
  | 76 => ⟨S_, .f32⟩
  | 77 => ⟨S100000x64, .f32⟩
  | 78 => ⟨S100000x64, .f32⟩
  | 79 => ⟨S100000x64, .f32⟩
  | 80 => ⟨S100000x64, .f32⟩
  | 81 => ⟨S100000x64, .i1⟩
  | 82 => ⟨S100000x64, .f32⟩
  | 83 => ⟨S100000x64, .f32⟩
  | 84 => ⟨S100000x64, .f32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S100000x64, .f32⟩
  | 94 => ⟨S_, .f32⟩
  | 95 => ⟨S_, .f32⟩
  | 96 => ⟨S_, .f32⟩
  | 97 => ⟨S_, .f32⟩
  | 98 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_cst : Ref sig .tc := ⟨.hbm, 90, rfl⟩
abbrev main_call1_v0 : Ref sig .tc := ⟨.hbm, 91, rfl⟩
abbrev main_v63 : Ref sig .tc := ⟨.hbm, 92, rfl⟩
abbrev main_c_10 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_call2_cst : Ref sig .tc := ⟨.hbm, 139, rfl⟩
abbrev main_call2_v0 : Ref sig .tc := ⟨.hbm, 140, rfl⟩
abbrev main_v102 : Ref sig .tc := ⟨.hbm, 141, rfl⟩
abbrev main_c_18 : Ref sig .tc := ⟨.hbm, 142, rfl⟩
abbrev main_v103 : Ref sig .tc := ⟨.hbm, 143, rfl⟩
abbrev main_v104 : Ref sig .tc := ⟨.hbm, 144, rfl⟩
abbrev main_c_19 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_20 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_21 : Ref sig .tc := ⟨.hbm, 161, rfl⟩
abbrev main_v119 : Ref sig .tc := ⟨.hbm, 162, rfl⟩
abbrev main_cst_22 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_23 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_call3_cst : Ref sig .tc := ⟨.hbm, 179, rfl⟩
abbrev main_call3_v0 : Ref sig .tc := ⟨.hbm, 180, rfl⟩
abbrev main_v134 : Ref sig .tc := ⟨.hbm, 181, rfl⟩
abbrev main_cst_24 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_25 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_26 : Ref sig .tc := ⟨.hbm, 200, rfl⟩
abbrev main_v151 : Ref sig .tc := ⟨.hbm, 201, rfl⟩
abbrev main_cst_27 : Ref sig .tc := ⟨.hbm, 202, rfl⟩
abbrev main_v152 : Ref sig .tc := ⟨.hbm, 203, rfl⟩
abbrev main_cst_28 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_cst_29 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_30 : Ref sig .tc := ⟨.hbm, 222, rfl⟩
abbrev main_v169 : Ref sig .tc := ⟨.hbm, 223, rfl⟩
abbrev main_cst_31 : Ref sig .tc := ⟨.hbm, 224, rfl⟩
abbrev main_v170 : Ref sig .tc := ⟨.hbm, 225, rfl⟩
abbrev main_v171 : Ref sig .tc := ⟨.hbm, 226, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  transposes_S64x128_S128x64_1_0 : S64x128.Transposes [1, 0] S128x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S_d0_1 : S100000x64.ReducesTo [0, 1] S_
  h_S_ : 0 < S_.numel
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []
  gather_S1000000x64_S1000000x1_S1000000x64_1_0_n_n_0_1_164_wf : GatherDims.WF S1000000x64 S1000000x1 S1000000x64 [1] [0] [] [0] [] 1 ![1, 64]

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S1000000x64_S1000000x1_S1000000x64_1_0_n_n_0_1_164 : GatherDims S1000000x64 S1000000x1 S1000000x64 where
  offsetDims := [1]
  collapsedSliceDims := [0]
  operandBatchingDims := []
  startIndicesBatchingDims := []
  startIndexMap := [0]
  indexVectorDim := 1
  sliceSizes := ![1, 64]
  wf := gather_S1000000x64_S1000000x1_S1000000x64_1_0_n_n_0_1_164_wf

class Facts : Prop extends Facts₀ where

variable [Facts]
-- ==== Proof.RefSpec.lean ====
import proofs.«176382_j6528350290006_1_alg».proof.Proof.Gen.ReferenceIdeal

/-! # The reference program's stages as functions of their array operands

The reference computes two rounds of message passing over a graph of 100000 nodes and 1000000 edges, twice (once
on the given edge features, once on edge features permuted by an index array), and adds the two losses of the
final node encodings. Each stage is spelt here with the program's own operations, in the program's operand
order, as a function of the arrays it reads: gathering node rows along the edges' source indices, one message
per edge, scattering the messages and the edge counts to the destination nodes, the node update, the loss. -/

noncomputable section

namespace Cert.ReferenceIdeal.RefSpec

open Cert.ReferenceIdeal Cert.ReferenceIdeal.Facts₀ Cert.ReferenceIdeal.Facts
open Idealize.ShloMosaic Idealize.SL.Sem

variable {F : FTy → Type} [FloatOps F]

/-- A node array `[100000, 64]`. -/
abbrev AN (F : FTy → Type) : Type := (⟨S100000x64, .f32⟩ : BufTy).Contents (Elt F)
/-- An edge array `[1000000, 64]`. -/
abbrev AE (F : FTy → Type) : Type := (⟨S1000000x64, .f32⟩ : BufTy).Contents (Elt F)
/-- An index per edge. -/
abbrev AI (F : FTy → Type) : Type := (⟨S1000000, .i32⟩ : BufTy).Contents (Elt F)
/-- A weight `[64, 128]`. -/
abbrev AW (F : FTy → Type) : Type := (⟨S64x128, .f32⟩ : BufTy).Contents (Elt F)
/-- A bias `[64]`. -/
abbrev AB (F : FTy → Type) : Type := (⟨S64, .f32⟩ : BufTy).Contents (Elt F)
/-- A value per node. -/
abbrev AC (F : FTy → Type) : Type := (⟨S100000, .f32⟩ : BufTy).Contents (Elt F)
/-- A scalar. -/
abbrev AS (F : FTy → Type) : Type := (⟨S_, .f32⟩ : BufTy).Contents (Elt F)

/-- An index array with its negative entries wrapped by the table's length `n`, as a column of start indices. -/
def rWrap (n : BitVec 32) (idx : AI F) : (⟨S1000000x1, .i32⟩ : BufTy).Contents (Elt F) :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 n))) idx)

/-- Row `src e` of the node array, for every edge `e`. -/
def rGath (h : AN F) (src : AI F) : AE F :=
  Host.gather gather_S100000x64_S1000000x1_S1000000x64_1_0_n_n_0_1_164 h (rWrap 100000#32 src)

/-- Row `perm e` of the edge array, for every edge `e`. -/
def rGathE (ef : AE F) (perm : AI F) : AE F :=
  Host.gather gather_S1000000x64_S1000000x1_S1000000x64_1_0_n_n_0_1_164 ef (rWrap 1000000#32 perm)

/-- One message per edge: the gathered node row beside the edge's feature row, against the transposed weight, plus
    the bias. -/
def rMsg (hs ef : AE F) (W : AW F) (b : AB F) : AE F :=
  addf
    (Host.dotGeneral dot_S1000000x128_S128x64_S1000000x64_1_0_0_1_n_n none
      (concatenate S1000000x128 1 [⟨S1000000x64, hs⟩, ⟨S1000000x64, ef⟩] concatenates_S1000000x64_S1000000x64_S1000000x128_d1)
      (transpose S128x64 [1, 0] W transposes_S64x128_S128x64_1_0))
    (broadcastInDim S1000000x64 ![0, 1] bcast_S1x64_S1000000x64_0_1 (broadcastInDim S1x64 ![1] bcast_S64_S1x64_1 b))

/-- The messages summed at their destination nodes, from zeros. -/
def rScat (dst : AI F) (msg : AE F) : AN F :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst) msg

/-- The number of edges arriving at each node: ones summed at the destination nodes, from zeros. -/
def rCnt (dst : AI F) : AC F :=
  Host.scatterAdd scatter_S100000_S1000000x1_S1000000_n_0_0_1
    (broadcastInDim S100000 ![] bcast_S_S100000 (constant S_ .f32 0x00000000#32))
    (broadcastInDim S1000000x1 ![0] bcast_S1000000_S1000000x1_0 dst)
    (broadcastInDim S1000000 ![] bcast_S_S1000000 (constant S_ .f32 0x3F800000#32))

/-- The node update: the node's row beside its summed messages divided by its edge count (at least one), against the
    transposed weight, plus the bias, cut off below at zero. -/
def rUpd (h s : AN F) (cnt : AC F) (W : AW F) (b : AB F) : AN F :=
  maximumf
    (addf
      (Host.dotGeneral dot_S100000x128_S128x64_S100000x64_1_0_0_1_n_n none
        (concatenate S100000x128 1
          [⟨S100000x64, h⟩,
           ⟨S100000x64, Host.divf s
              (broadcastInDim S100000x64 ![0, 1] bcast_S100000x1_S100000x64_0_1
                (broadcastInDim S100000x1 ![0] bcast_S100000_S100000x1_0
                  (maximumf cnt (broadcastInDim S100000 ![] bcast_S_S100000 (constant S_ .f32 0x3F800000#32)))))⟩]
          concatenates_S100000x64_S100000x64_S100000x128_d1)
        (transpose S128x64 [1, 0] W transposes_S64x128_S128x64_1_0))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- One round of message passing. -/
def rLayer (h : AN F) (ef : AE F) (src dst : AI F) (Wm : AW F) (bm : AB F) (Wa : AW F) (ba : AB F) : AN F :=
  rUpd h (rScat dst (rMsg (rGath h src) ef Wm bm)) (rCnt dst) Wa ba

/-- The loss of a node array against the constant target `tgt`: per entry the stable `max 0 x + log (1 + exp (-|x|))`
    (guarded by a comparison of `0 - x` with itself) less `x` times the target, summed over the array from zero and
    divided by the number of entries. -/
def rLoss (tgt : BitVec 32) (x : AN F) : AS F :=
  Host.divf
    (Host.reduceAdd
      (subf
        (select
          (cmpf .une (subf (broadcastInDim S100000x64 ![] bcast_S_S100000x64 (constant S_ .f32 0x00000000#32)) x)
            (subf (broadcastInDim S100000x64 ![] bcast_S_S100000x64 (constant S_ .f32 0x00000000#32)) x))
          (addf (broadcastInDim S100000x64 ![] bcast_S_S100000x64 (constant S_ .f32 0x00000000#32)) x)
          (addf (maximumf (broadcastInDim S100000x64 ![] bcast_S_S100000x64 (constant S_ .f32 0x00000000#32)) x)
            (Host.log1p (Host.exp (Host.negf (Host.absf
              (subf (broadcastInDim S100000x64 ![] bcast_S_S100000x64 (constant S_ .f32 0x00000000#32)) x)))))))
        (mulf x (broadcastInDim S100000x64 ![] bcast_S_S100000x64 (constant S_ .f32 tgt))))
      (constant S_ .f32 0x00000000#32) reducesTo_S100000x64_S_d0_1 h_S_)
    (constant S_ .f32 0x4AC35000#32)

/-- The program's result: the loss of two rounds on the given edge features against target one, plus the loss of two
    rounds on the permuted edge features against target zero. -/
def rTotal (a0 : AN F) (a1 : AE F) (a2 a3 a4 : AI F) (a5 : AW F) (a6 : AB F) (a7 : AW F) (a8 : AB F) (a9 : AW F) (a10 : AB F)
    (a11 : AW F) (a12 : AB F) : AS F :=
  addf (rLoss 0x3F800000#32 (rLayer (rLayer a0 a1 a2 a3 a5 a6 a7 a8) a1 a2 a3 a9 a10 a11 a12))
    (rLoss 0x00000000#32
      (rLayer (rLayer a0 (rGathE a1 a4) a2 a3 a5 a6 a7 a8) (rGathE a1 a4) a2 a3 a9 a10 a11 a12))

end Cert.ReferenceIdeal.RefSpec

end
-- ==== Proof.RefRun.lean ====
import proofs.«176382_j6528350290006_1_alg».proof.Proof.Gen.ReferenceIdeal
import proofs.«176382_j6528350290006_1_alg».proof.Proof.RefSpec
import Idealize.ShloMosaic.Lib.StableHlo.Run

/-! # The reference program's run, read stage by stage

The reference program is a straight line of host operations. Its run leaves every buffer at the fold of the
operations' results over the launch contents. The line is cut into ten consecutive pieces, one per stage of the
computation; after each piece the one array later pieces read is named by its stage function of the argument
arrays, so that no intermediate term is ever expanded twice. -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's 214 operations, in order (a called function's operations stand in its call's place). -/
abbrev ops : List (HloOp τ sig (Elt F)) :=
  [ nullary main_c (constantI S_ 32 0#32),
    unary main_c main_v0 (broadcastInDim S1000000 ![] bcast_S_S1000000 : (⟨S_, .i32⟩ : BufTy).Contents (Elt F) → (⟨S1000000, .i32⟩ : BufTy).Contents (Elt F)),
    binary main_arg2 main_v0 main_v1 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v2 (broadcastInDim S1000000 ![] bcast_S_S1000000 : (⟨S_, .i32⟩ : BufTy).Contents (Elt F) → (⟨S1000000, .i32⟩ : BufTy).Contents (Elt F)),
    binary main_arg2 main_v2 main_v3 (addi : (⟨S1000000, .i32⟩ : BufTy).Contents (Elt F) → (⟨S1000000, .i32⟩ : BufTy).Contents (Elt F) → (⟨S1000000, .i32⟩ : BufTy).Contents (Elt F)),
    ternary main_v1 main_v3 main_arg2 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v4 main_v5 (broadcastInDim S1000000x1 ![0] bcast_S1000000_S1000000x1_0 : (⟨S1000000, .i32⟩ : BufTy).Contents (Elt F) → (⟨S1000000x1, .i32⟩ : BufTy).Contents (Elt F)),
    binary main_arg0 main_v5 main_v6 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v6 main_arg1 main_v7 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg5 main_v8 ((transpose S128x64 [1, 0] · transposes_S64x128_S128x64_1_0) : (⟨S64x128, .f32⟩ : BufTy).Contents (Elt F) → (⟨S128x64, .f32⟩ : BufTy).Contents (Elt F)),
    binary main_v7 main_v8 main_v9 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg6 main_v10 (broadcastInDim S1x64 ![1] bcast_S64_S1x64_1 : (⟨S64, .f32⟩ : BufTy).Contents (Elt F) → (⟨S1x64, .f32⟩ : BufTy).Contents (Elt F)),
    unary main_v10 main_v11 (broadcastInDim S1000000x64 ![0, 1] bcast_S1x64_S1000000x64_0_1 : (⟨S1x64, .f32⟩ : BufTy).Contents (Elt F) → (⟨S1000000x64, .f32⟩ : BufTy).Contents (Elt F)),
    binary main_v9 main_v11 main_v12 (addf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    unary main_cst main_v13 (broadcastInDim S100000x64 ![] bcast_S_S100000x64 : (⟨S_, .f32⟩ : BufTy).Contents (Elt F) → (⟨S100000x64, .f32⟩ : BufTy).Contents (Elt F)),
    unary main_arg3 main_v14 (broadcastInDim S1000000x1 ![0] bcast_S1000000_S1000000x1_0 : (⟨S1000000, .i32⟩ : BufTy).Contents (Elt F) → (⟨S1000000x1, .i32⟩ : BufTy).Contents (Elt F)),
    ternary main_v13 main_v14 main_v12 main_v15 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_1 (constant S_ .f32 0x3F800000#32),
    unary main_cst_1 main_v16 (broadcastInDim S1000000 ![] bcast_S_S1000000 : (⟨S_, .f32⟩ : BufTy).Contents (Elt F) → (⟨S1000000, .f32⟩ : BufTy).Contents (Elt F)),
    nullary main_cst_2 (constant S_ .f32 0x00000000#32),
    unary main_cst_2 main_v17 (broadcastInDim S100000 ![] bcast_S_S100000 : (⟨S_, .f32⟩ : BufTy).Contents (Elt F) → (⟨S100000, .f32⟩ : BufTy).Contents (Elt F)),
    unary main_arg3 main_v18 (broadcastInDim S1000000x1 ![0] bcast_S1000000_S1000000x1_0 : (⟨S1000000, .i32⟩ : BufTy).Contents (Elt F) → (⟨S1000000x1, .i32⟩ : BufTy).Contents (Elt F)),
    ternary main_v17 main_v18 main_v16 main_v19 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_3 (constant S_ .f32 0x3F800000#32),
    unary main_cst_3 main_v20 (broadcastInDim S100000 ![] bcast_S_S100000 : (⟨S_, .f32⟩ : BufTy).Contents (Elt F) → (⟨S100000, .f32⟩ : BufTy).Contents (Elt F)),
    binary main_v19 main_v20 main_v21 (maximumf : (⟨S100000, .f32⟩ : BufTy).Contents (Elt F) → (⟨S100000, .f32⟩ : BufTy).Contents (Elt F) → (⟨S100000, .f32⟩ : BufTy).Contents (Elt F)),
    unary main_v21 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x64 ![0, 1] bcast_S100000x1_S100000x64_0_1 : (⟨S100000x1, .f32⟩ : BufTy).Contents (Elt F) → (⟨S100000x64, .f32⟩ : BufTy).Contents (Elt F)),
    binary main_v15 main_v23 main_v24 (Host.divf : (⟨S100000x64, .f32⟩ : BufTy).Contents (Elt F) → (⟨S100000x64, .f32⟩ : BufTy).Contents (Elt F) → (⟨S100000x64, .f32⟩ : BufTy).Contents (Elt F)),
    binary main_arg0 main_v24 main_v25 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg7 main_v26 ((transpose S128x64 [1, 0] · transposes_S64x128_S128x64_1_0) : (⟨S64x128, .f32⟩ : BufTy).Contents (Elt F) → (⟨S128x64, .f32⟩ : BufTy).Contents (Elt F)),
    binary main_v25 main_v26 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v27 main_v29 main_v30 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v30) (TRef.of (T := ⟨S100000x64, .f32⟩) main_call0_v0) (TRef.of (T := ⟨S100000x64, .f32⟩) main_v31) maximumf,
    nullary main_c_4 (constantI S_ 32 0#32),
    unary main_c_4 main_v32 (broadcastInDim S1000000 ![] bcast_S_S1000000 : (⟨S_, .i32⟩ : BufTy).Contents (Elt F) → (⟨S1000000, .i32⟩ : BufTy).Contents (Elt F)),
    binary main_arg2 main_v32 main_v33 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 100000#32),
    unary main_c_5 main_v34 (broadcastInDim S1000000 ![] bcast_S_S1000000 : (⟨S_, .i32⟩ : BufTy).Contents (Elt F) → (⟨S1000000, .i32⟩ : BufTy).Contents (Elt F)),
    binary main_arg2 main_v34 main_v35 (addi : (⟨S1000000, .i32⟩ : BufTy).Contents (Elt F) → (⟨S1000000, .i32⟩ : BufTy).Contents (Elt F) → (⟨S1000000, .i32⟩ : BufTy).Contents (Elt F)),
    ternary main_v33 main_v35 main_arg2 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v36 main_v37 (broadcastInDim S1000000x1 ![0] bcast_S1000000_S1000000x1_0 : (⟨S1000000, .i32⟩ : BufTy).Contents (Elt F) → (⟨S1000000x1, .i32⟩ : BufTy).Contents (Elt F)),
    binary main_v31 main_v37 main_v38 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v38 main_arg1 main_v39 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg9 main_v40 ((transpose S128x64 [1, 0] · transposes_S64x128_S128x64_1_0) : (⟨S64x128, .f32⟩ : BufTy).Contents (Elt F) → (⟨S128x64, .f32⟩ : BufTy).Contents (Elt F)),
    binary main_v39 main_v40 main_v41 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg10 main_v42 (broadcastInDim S1x64 ![1] bcast_S64_S1x64_1 : (⟨S64, .f32⟩ : BufTy).Contents (Elt F) → (⟨S1x64, .f32⟩ : BufTy).Contents (Elt F)),
    unary main_v42 main_v43 (broadcastInDim S1000000x64 ![0, 1] bcast_S1x64_S1000000x64_0_1 : (⟨S1x64, .f32⟩ : BufTy).Contents (Elt F) → (⟨S1000000x64, .f32⟩ : BufTy).Contents (Elt F)),
    binary main_v41 main_v43 main_v44 (addf : (⟨S1000000x64, .f32⟩ : BufTy).Contents (Elt F) → (⟨S1000000x64, .f32⟩ : BufTy).Contents (Elt F) → (⟨S1000000x64, .f32⟩ : BufTy).Contents (Elt F)),
    nullary main_cst_6 (constant S_ .f32 0x00000000#32),
    unary main_cst_6 main_v45 (broadcastInDim S100000x64 ![] bcast_S_S100000x64 : (⟨S_, .f32⟩ : BufTy).Contents (Elt F) → (⟨S100000x64, .f32⟩ : BufTy).Contents (Elt F)),
    unary main_arg3 main_v46 (broadcastInDim S1000000x1 ![0] bcast_S1000000_S1000000x1_0 : (⟨S1000000, .i32⟩ : BufTy).Contents (Elt F) → (⟨S1000000x1, .i32⟩ : BufTy).Contents (Elt F)),
    ternary main_v45 main_v46 main_v44 main_v47 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_7 (constant S_ .f32 0x3F800000#32),
    unary main_cst_7 main_v48 (broadcastInDim S1000000 ![] bcast_S_S1000000 : (⟨S_, .f32⟩ : BufTy).Contents (Elt F) → (⟨S1000000, .f32⟩ : BufTy).Contents (Elt F)),
    nullary main_cst_8 (constant S_ .f32 0x00000000#32),
    unary main_cst_8 main_v49 (broadcastInDim S100000 ![] bcast_S_S100000 : (⟨S_, .f32⟩ : BufTy).Contents (Elt F) → (⟨S100000, .f32⟩ : BufTy).Contents (Elt F)),
    unary main_arg3 main_v50 (broadcastInDim S1000000x1 ![0] bcast_S1000000_S1000000x1_0 : (⟨S1000000, .i32⟩ : BufTy).Contents (Elt F) → (⟨S1000000x1, .i32⟩ : BufTy).Contents (Elt F)),
    ternary main_v49 main_v50 main_v48 main_v51 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_9 (constant S_ .f32 0x3F800000#32),
    unary main_cst_9 main_v52 (broadcastInDim S100000 ![] bcast_S_S100000 : (⟨S_, .f32⟩ : BufTy).Contents (Elt F) → (⟨S100000, .f32⟩ : BufTy).Contents (Elt F)),
    binary main_v51 main_v52 main_v53 (maximumf : (⟨S100000, .f32⟩ : BufTy).Contents (Elt F) → (⟨S100000, .f32⟩ : BufTy).Contents (Elt F) → (⟨S100000, .f32⟩ : BufTy).Contents (Elt F)),
    unary main_v53 main_v54 (broadcastInDim S100000x1 ![0] bcast_S100000_S100000x1_0 : (⟨S100000, .f32⟩ : BufTy).Contents (Elt F) → (⟨S100000x1, .f32⟩ : BufTy).Contents (Elt F)),
    unary main_v54 main_v55 (broadcastInDim S100000x64 ![0, 1] bcast_S100000x1_S100000x64_0_1 : (⟨S100000x1, .f32⟩ : BufTy).Contents (Elt F) → (⟨S100000x64, .f32⟩ : BufTy).Contents (Elt F)),
    binary main_v47 main_v55 main_v56 (Host.divf : (⟨S100000x64, .f32⟩ : BufTy).Contents (Elt F) → (⟨S100000x64, .f32⟩ : BufTy).Contents (Elt F) → (⟨S100000x64, .f32⟩ : BufTy).Contents (Elt F)),
    binary main_v31 main_v56 main_v57 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg11 main_v58 ((transpose S128x64 [1, 0] · transposes_S64x128_S128x64_1_0) : (⟨S64x128, .f32⟩ : BufTy).Contents (Elt F) → (⟨S128x64, .f32⟩ : BufTy).Contents (Elt F)),
    binary main_v57 main_v58 main_v59 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v62) (TRef.of (T := ⟨S100000x64, .f32⟩) main_call1_v0) (TRef.of (T := ⟨S100000x64, .f32⟩) main_v63) maximumf,
    nullary main_c_10 (constantI S_ 32 0#32),
    unary main_c_10 main_v64 (broadcastInDim S1000000 ![] bcast_S_S1000000 : (⟨S_, .i32⟩ : BufTy).Contents (Elt F) → (⟨S1000000, .i32⟩ : BufTy).Contents (Elt F)),
    binary main_arg4 main_v64 main_v65 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 1000000#32),
    unary main_c_11 main_v66 (broadcastInDim S1000000 ![] bcast_S_S1000000 : (⟨S_, .i32⟩ : BufTy).Contents (Elt F) → (⟨S1000000, .i32⟩ : BufTy).Contents (Elt F)),
    binary main_arg4 main_v66 main_v67 (addi : (⟨S1000000, .i32⟩ : BufTy).Contents (Elt F) → (⟨S1000000, .i32⟩ : BufTy).Contents (Elt F) → (⟨S1000000, .i32⟩ : BufTy).Contents (Elt F)),
    ternary main_v65 main_v67 main_arg4 main_v68 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v68 main_v69 (broadcastInDim S1000000x1 ![0] bcast_S1000000_S1000000x1_0 : (⟨S1000000, .i32⟩ : BufTy).Contents (Elt F) → (⟨S1000000x1, .i32⟩ : BufTy).Contents (Elt F)),
    binary main_arg1 main_v69 main_v70 ((fun x i => Host.gather gather_S1000000x64_S1000000x1_S1000000x64_1_0_n_n_0_1_164 x i) : (⟨S1000000x64, .f32⟩ : BufTy).Contents (Elt F) → (⟨S1000000x1, .i32⟩ : BufTy).Contents (Elt F) → (⟨S1000000x64, .f32⟩ : BufTy).Contents (Elt F)),
    nullary main_c_12 (constantI S_ 32 0#32),
    unary main_c_12 main_v71 (broadcastInDim S1000000 ![] bcast_S_S1000000 : (⟨S_, .i32⟩ : BufTy).Contents (Elt F) → (⟨S1000000, .i32⟩ : BufTy).Contents (Elt F)),
    binary main_arg2 main_v71 main_v72 (cmpi .slt : (⟨S1000000, .i32⟩ : BufTy).Contents (Elt F) → (⟨S1000000, .i32⟩ : BufTy).Contents (Elt F) → (⟨S1000000, .i1⟩ : BufTy).Contents (Elt F)),
    nullary main_c_13 (constantI S_ 32 100000#32),
    unary main_c_13 main_v73 (broadcastInDim S1000000 ![] bcast_S_S1000000 : (⟨S_, .i32⟩ : BufTy).Contents (Elt F) → (⟨S1000000, .i32⟩ : BufTy).Contents (Elt F)),
    binary main_arg2 main_v73 main_v74 (addi : (⟨S1000000, .i32⟩ : BufTy).Contents (Elt F) → (⟨S1000000, .i32⟩ : BufTy).Contents (Elt F) → (⟨S1000000, .i32⟩ : BufTy).Contents (Elt F)),
    ternary main_v72 main_v74 main_arg2 main_v75 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v75 main_v76 (broadcastInDim S1000000x1 ![0] bcast_S1000000_S1000000x1_0 : (⟨S1000000, .i32⟩ : BufTy).Contents (Elt F) → (⟨S1000000x1, .i32⟩ : BufTy).Contents (Elt F)),
    binary main_arg0 main_v76 main_v77 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v77 main_v70 main_v78 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg5 main_v79 ((transpose S128x64 [1, 0] · transposes_S64x128_S128x64_1_0) : (⟨S64x128, .f32⟩ : BufTy).Contents (Elt F) → (⟨S128x64, .f32⟩ : BufTy).Contents (Elt F)),
    binary main_v78 main_v79 main_v80 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg6 main_v81 (broadcastInDim S1x64 ![1] bcast_S64_S1x64_1 : (⟨S64, .f32⟩ : BufTy).Contents (Elt F) → (⟨S1x64, .f32⟩ : BufTy).Contents (Elt F)),
    unary main_v81 main_v82 (broadcastInDim S1000000x64 ![0, 1] bcast_S1x64_S1000000x64_0_1 : (⟨S1x64, .f32⟩ : BufTy).Contents (Elt F) → (⟨S1000000x64, .f32⟩ : BufTy).Contents (Elt F)),
    binary main_v80 main_v82 main_v83 (addf : (⟨S1000000x64, .f32⟩ : BufTy).Contents (Elt F) → (⟨S1000000x64, .f32⟩ : BufTy).Contents (Elt F) → (⟨S1000000x64, .f32⟩ : BufTy).Contents (Elt F)),
    nullary main_cst_14 (constant S_ .f32 0x00000000#32),
    unary main_cst_14 main_v84 (broadcastInDim S100000x64 ![] bcast_S_S100000x64 : (⟨S_, .f32⟩ : BufTy).Contents (Elt F) → (⟨S100000x64, .f32⟩ : BufTy).Contents (Elt F)),
    unary main_arg3 main_v85 (broadcastInDim S1000000x1 ![0] bcast_S1000000_S1000000x1_0 : (⟨S1000000, .i32⟩ : BufTy).Contents (Elt F) → (⟨S1000000x1, .i32⟩ : BufTy).Contents (Elt F)),
    ternary main_v84 main_v85 main_v83 main_v86 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_15 (constant S_ .f32 0x3F800000#32),
    unary main_cst_15 main_v87 (broadcastInDim S1000000 ![] bcast_S_S1000000 : (⟨S_, .f32⟩ : BufTy).Contents (Elt F) → (⟨S1000000, .f32⟩ : BufTy).Contents (Elt F)),
    nullary main_cst_16 (constant S_ .f32 0x00000000#32),
    unary main_cst_16 main_v88 (broadcastInDim S100000 ![] bcast_S_S100000 : (⟨S_, .f32⟩ : BufTy).Contents (Elt F) → (⟨S100000, .f32⟩ : BufTy).Contents (Elt F)),
    unary main_arg3 main_v89 (broadcastInDim S1000000x1 ![0] bcast_S1000000_S1000000x1_0 : (⟨S1000000, .i32⟩ : BufTy).Contents (Elt F) → (⟨S1000000x1, .i32⟩ : BufTy).Contents (Elt F)),
    ternary main_v88 main_v89 main_v87 main_v90 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_17 (constant S_ .f32 0x3F800000#32),
    unary main_cst_17 main_v91 (broadcastInDim S100000 ![] bcast_S_S100000 : (⟨S_, .f32⟩ : BufTy).Contents (Elt F) → (⟨S100000, .f32⟩ : BufTy).Contents (Elt F)),
    binary main_v90 main_v91 main_v92 (maximumf : (⟨S100000, .f32⟩ : BufTy).Contents (Elt F) → (⟨S100000, .f32⟩ : BufTy).Contents (Elt F) → (⟨S100000, .f32⟩ : BufTy).Contents (Elt F)),
    unary main_v92 main_v93 (broadcastInDim S100000x1 ![0] bcast_S100000_S100000x1_0 : (⟨S100000, .f32⟩ : BufTy).Contents (Elt F) → (⟨S100000x1, .f32⟩ : BufTy).Contents (Elt F)),
    unary main_v93 main_v94 (broadcastInDim S100000x64 ![0, 1] bcast_S100000x1_S100000x64_0_1 : (⟨S100000x1, .f32⟩ : BufTy).Contents (Elt F) → (⟨S100000x64, .f32⟩ : BufTy).Contents (Elt F)),
    binary main_v86 main_v94 main_v95 (Host.divf : (⟨S100000x64, .f32⟩ : BufTy).Contents (Elt F) → (⟨S100000x64, .f32⟩ : BufTy).Contents (Elt F) → (⟨S100000x64, .f32⟩ : BufTy).Contents (Elt F)),
    binary main_arg0 main_v95 main_v96 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg7 main_v97 ((transpose S128x64 [1, 0] · transposes_S64x128_S128x64_1_0) : (⟨S64x128, .f32⟩ : BufTy).Contents (Elt F) → (⟨S128x64, .f32⟩ : BufTy).Contents (Elt F)),
    binary main_v96 main_v97 main_v98 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v98 main_v100 main_v101 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v101) (TRef.of (T := ⟨S100000x64, .f32⟩) main_call2_v0) (TRef.of (T := ⟨S100000x64, .f32⟩) main_v102) maximumf,
    nullary main_c_18 (constantI S_ 32 0#32),
    unary main_c_18 main_v103 (broadcastInDim S1000000 ![] bcast_S_S1000000 : (⟨S_, .i32⟩ : BufTy).Contents (Elt F) → (⟨S1000000, .i32⟩ : BufTy).Contents (Elt F)),
    binary main_arg2 main_v103 main_v104 (cmpi .slt : (⟨S1000000, .i32⟩ : BufTy).Contents (Elt F) → (⟨S1000000, .i32⟩ : BufTy).Contents (Elt F) → (⟨S1000000, .i1⟩ : BufTy).Contents (Elt F)),
    nullary main_c_19 (constantI S_ 32 100000#32),
    unary main_c_19 main_v105 (broadcastInDim S1000000 ![] bcast_S_S1000000 : (⟨S_, .i32⟩ : BufTy).Contents (Elt F) → (⟨S1000000, .i32⟩ : BufTy).Contents (Elt F)),
    binary main_arg2 main_v105 main_v106 (addi : (⟨S1000000, .i32⟩ : BufTy).Contents (Elt F) → (⟨S1000000, .i32⟩ : BufTy).Contents (Elt F) → (⟨S1000000, .i32⟩ : BufTy).Contents (Elt F)),
    ternary main_v104 main_v106 main_arg2 main_v107 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v107 main_v108 (broadcastInDim S1000000x1 ![0] bcast_S1000000_S1000000x1_0 : (⟨S1000000, .i32⟩ : BufTy).Contents (Elt F) → (⟨S1000000x1, .i32⟩ : BufTy).Contents (Elt F)),
    binary main_v102 main_v108 main_v109 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v109 main_v70 main_v110 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg9 main_v111 ((transpose S128x64 [1, 0] · transposes_S64x128_S128x64_1_0) : (⟨S64x128, .f32⟩ : BufTy).Contents (Elt F) → (⟨S128x64, .f32⟩ : BufTy).Contents (Elt F)),
    binary main_v110 main_v111 main_v112 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg10 main_v113 (broadcastInDim S1x64 ![1] bcast_S64_S1x64_1 : (⟨S64, .f32⟩ : BufTy).Contents (Elt F) → (⟨S1x64, .f32⟩ : BufTy).Contents (Elt F)),
    unary main_v113 main_v114 (broadcastInDim S1000000x64 ![0, 1] bcast_S1x64_S1000000x64_0_1 : (⟨S1x64, .f32⟩ : BufTy).Contents (Elt F) → (⟨S1000000x64, .f32⟩ : BufTy).Contents (Elt F)),
    binary main_v112 main_v114 main_v115 (addf : (⟨S1000000x64, .f32⟩ : BufTy).Contents (Elt F) → (⟨S1000000x64, .f32⟩ : BufTy).Contents (Elt F) → (⟨S1000000x64, .f32⟩ : BufTy).Contents (Elt F)),
    nullary main_cst_20 (constant S_ .f32 0x00000000#32),
    unary main_cst_20 main_v116 (broadcastInDim S100000x64 ![] bcast_S_S100000x64 : (⟨S_, .f32⟩ : BufTy).Contents (Elt F) → (⟨S100000x64, .f32⟩ : BufTy).Contents (Elt F)),
    unary main_arg3 main_v117 (broadcastInDim S1000000x1 ![0] bcast_S1000000_S1000000x1_0 : (⟨S1000000, .i32⟩ : BufTy).Contents (Elt F) → (⟨S1000000x1, .i32⟩ : BufTy).Contents (Elt F)),
    ternary main_v116 main_v117 main_v115 main_v118 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_21 (constant S_ .f32 0x3F800000#32),
    unary main_cst_21 main_v119 (broadcastInDim S1000000 ![] bcast_S_S1000000 : (⟨S_, .f32⟩ : BufTy).Contents (Elt F) → (⟨S1000000, .f32⟩ : BufTy).Contents (Elt F)),
    nullary main_cst_22 (constant S_ .f32 0x00000000#32),
    unary main_cst_22 main_v120 (broadcastInDim S100000 ![] bcast_S_S100000 : (⟨S_, .f32⟩ : BufTy).Contents (Elt F) → (⟨S100000, .f32⟩ : BufTy).Contents (Elt F)),
    unary main_arg3 main_v121 (broadcastInDim S1000000x1 ![0] bcast_S1000000_S1000000x1_0 : (⟨S1000000, .i32⟩ : BufTy).Contents (Elt F) → (⟨S1000000x1, .i32⟩ : BufTy).Contents (Elt F)),
    ternary main_v120 main_v121 main_v119 main_v122 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_23 (constant S_ .f32 0x3F800000#32),
    unary main_cst_23 main_v123 (broadcastInDim S100000 ![] bcast_S_S100000 : (⟨S_, .f32⟩ : BufTy).Contents (Elt F) → (⟨S100000, .f32⟩ : BufTy).Contents (Elt F)),
    binary main_v122 main_v123 main_v124 (maximumf : (⟨S100000, .f32⟩ : BufTy).Contents (Elt F) → (⟨S100000, .f32⟩ : BufTy).Contents (Elt F) → (⟨S100000, .f32⟩ : BufTy).Contents (Elt F)),
    unary main_v124 main_v125 (broadcastInDim S100000x1 ![0] bcast_S100000_S100000x1_0 : (⟨S100000, .f32⟩ : BufTy).Contents (Elt F) → (⟨S100000x1, .f32⟩ : BufTy).Contents (Elt F)),
    unary main_v125 main_v126 (broadcastInDim S100000x64 ![0, 1] bcast_S100000x1_S100000x64_0_1 : (⟨S100000x1, .f32⟩ : BufTy).Contents (Elt F) → (⟨S100000x64, .f32⟩ : BufTy).Contents (Elt F)),
    binary main_v118 main_v126 main_v127 (Host.divf : (⟨S100000x64, .f32⟩ : BufTy).Contents (Elt F) → (⟨S100000x64, .f32⟩ : BufTy).Contents (Elt F) → (⟨S100000x64, .f32⟩ : BufTy).Contents (Elt F)),
    binary main_v102 main_v127 main_v128 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg11 main_v129 ((transpose S128x64 [1, 0] · transposes_S64x128_S128x64_1_0) : (⟨S64x128, .f32⟩ : BufTy).Contents (Elt F) → (⟨S128x64, .f32⟩ : BufTy).Contents (Elt F)),
    binary main_v128 main_v129 main_v130 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v131 (broadcastInDim S1x64 ![1] bcast_S64_S1x64_1 : (⟨S64, .f32⟩ : BufTy).Contents (Elt F) → (⟨S1x64, .f32⟩ : BufTy).Contents (Elt F)),
    unary main_v131 main_v132 (broadcastInDim S100000x64 ![0, 1] bcast_S1x64_S100000x64_0_1 : (⟨S1x64, .f32⟩ : BufTy).Contents (Elt F) → (⟨S100000x64, .f32⟩ : BufTy).Contents (Elt F)),
    binary main_v130 main_v132 main_v133 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v133) (TRef.of (T := ⟨S100000x64, .f32⟩) main_call3_v0) (TRef.of (T := ⟨S100000x64, .f32⟩) main_v134) maximumf,
    nullary main_cst_24 (constant S_ .f32 0x00000000#32),
    unary main_cst_24 main_v135 (broadcastInDim S100000x64 ![] bcast_S_S100000x64 : (⟨S_, .f32⟩ : BufTy).Contents (Elt F) → (⟨S100000x64, .f32⟩ : BufTy).Contents (Elt F)),
    binary main_v135 main_v63 main_v136 (maximumf : (⟨S100000x64, .f32⟩ : BufTy).Contents (Elt F) → (⟨S100000x64, .f32⟩ : BufTy).Contents (Elt F) → (⟨S100000x64, .f32⟩ : BufTy).Contents (Elt F)),
    unary main_cst_24 main_v137 (broadcastInDim S100000x64 ![] bcast_S_S100000x64 : (⟨S_, .f32⟩ : BufTy).Contents (Elt F) → (⟨S100000x64, .f32⟩ : BufTy).Contents (Elt F)),
    binary main_v137 main_v63 main_v138 (subf : (⟨S100000x64, .f32⟩ : BufTy).Contents (Elt F) → (⟨S100000x64, .f32⟩ : BufTy).Contents (Elt F) → (⟨S100000x64, .f32⟩ : BufTy).Contents (Elt F)),
    binary main_v138 main_v138 main_v139 (cmpf .une : (⟨S100000x64, .f32⟩ : BufTy).Contents (Elt F) → (⟨S100000x64, .f32⟩ : BufTy).Contents (Elt F) → (⟨S100000x64, .i1⟩ : BufTy).Contents (Elt F)),
    unary main_cst_24 main_v140 (broadcastInDim S100000x64 ![] bcast_S_S100000x64 : (⟨S_, .f32⟩ : BufTy).Contents (Elt F) → (⟨S100000x64, .f32⟩ : BufTy).Contents (Elt F)),
    binary main_v140 main_v63 main_v141 (addf : (⟨S100000x64, .f32⟩ : BufTy).Contents (Elt F) → (⟨S100000x64, .f32⟩ : BufTy).Contents (Elt F) → (⟨S100000x64, .f32⟩ : BufTy).Contents (Elt F)),
    unary main_v138 main_v142 (Host.absf : (⟨S100000x64, .f32⟩ : BufTy).Contents (Elt F) → (⟨S100000x64, .f32⟩ : BufTy).Contents (Elt F)),
    unary main_v142 main_v143 (Host.negf : (⟨S100000x64, .f32⟩ : BufTy).Contents (Elt F) → (⟨S100000x64, .f32⟩ : BufTy).Contents (Elt F)),
    unary main_v143 main_v144 (Host.exp : (⟨S100000x64, .f32⟩ : BufTy).Contents (Elt F) → (⟨S100000x64, .f32⟩ : BufTy).Contents (Elt F)),
    unary main_v144 main_v145 (Host.log1p : (⟨S100000x64, .f32⟩ : BufTy).Contents (Elt F) → (⟨S100000x64, .f32⟩ : BufTy).Contents (Elt F)),
    binary main_v136 main_v145 main_v146 (addf : (⟨S100000x64, .f32⟩ : BufTy).Contents (Elt F) → (⟨S100000x64, .f32⟩ : BufTy).Contents (Elt F) → (⟨S100000x64, .f32⟩ : BufTy).Contents (Elt F)),
    ternary main_v139 main_v141 main_v146 main_v147 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    nullary main_cst_25 (constant S_ .f32 0x3F800000#32),
    unary main_cst_25 main_v148 (broadcastInDim S100000x64 ![] bcast_S_S100000x64 : (⟨S_, .f32⟩ : BufTy).Contents (Elt F) → (⟨S100000x64, .f32⟩ : BufTy).Contents (Elt F)),
    binary main_v63 main_v148 main_v149 (mulf : (⟨S100000x64, .f32⟩ : BufTy).Contents (Elt F) → (⟨S100000x64, .f32⟩ : BufTy).Contents (Elt F) → (⟨S100000x64, .f32⟩ : BufTy).Contents (Elt F)),
    binary main_v147 main_v149 main_v150 (subf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x00000000#32),
    binary main_v150 main_cst_26 main_v151 ((fun x v => Host.reduceAdd x v reducesTo_S100000x64_S_d0_1 h_S_) : (⟨S100000x64, .f32⟩ : BufTy).Contents (Elt F) → (⟨S_, .f32⟩ : BufTy).Contents (Elt F) → (⟨S_, .f32⟩ : BufTy).Contents (Elt F)),
    nullary main_cst_27 (constant S_ .f32 0x4AC35000#32),
    binary main_v151 main_cst_27 main_v152 (Host.divf : (⟨S_, .f32⟩ : BufTy).Contents (Elt F) → (⟨S_, .f32⟩ : BufTy).Contents (Elt F) → (⟨S_, .f32⟩ : BufTy).Contents (Elt F)),
    nullary main_cst_28 (constant S_ .f32 0x00000000#32),
    unary main_cst_28 main_v153 (broadcastInDim S100000x64 ![] bcast_S_S100000x64 : (⟨S_, .f32⟩ : BufTy).Contents (Elt F) → (⟨S100000x64, .f32⟩ : BufTy).Contents (Elt F)),
    binary main_v153 main_v134 main_v154 (maximumf : (⟨S100000x64, .f32⟩ : BufTy).Contents (Elt F) → (⟨S100000x64, .f32⟩ : BufTy).Contents (Elt F) → (⟨S100000x64, .f32⟩ : BufTy).Contents (Elt F)),
    unary main_cst_28 main_v155 (broadcastInDim S100000x64 ![] bcast_S_S100000x64 : (⟨S_, .f32⟩ : BufTy).Contents (Elt F) → (⟨S100000x64, .f32⟩ : BufTy).Contents (Elt F)),
    binary main_v155 main_v134 main_v156 (subf : (⟨S100000x64, .f32⟩ : BufTy).Contents (Elt F) → (⟨S100000x64, .f32⟩ : BufTy).Contents (Elt F) → (⟨S100000x64, .f32⟩ : BufTy).Contents (Elt F)),
    binary main_v156 main_v156 main_v157 (cmpf .une : (⟨S100000x64, .f32⟩ : BufTy).Contents (Elt F) → (⟨S100000x64, .f32⟩ : BufTy).Contents (Elt F) → (⟨S100000x64, .i1⟩ : BufTy).Contents (Elt F)),
    unary main_cst_28 main_v158 (broadcastInDim S100000x64 ![] bcast_S_S100000x64 : (⟨S_, .f32⟩ : BufTy).Contents (Elt F) → (⟨S100000x64, .f32⟩ : BufTy).Contents (Elt F)),
    binary main_v158 main_v134 main_v159 (addf : (⟨S100000x64, .f32⟩ : BufTy).Contents (Elt F) → (⟨S100000x64, .f32⟩ : BufTy).Contents (Elt F) → (⟨S100000x64, .f32⟩ : BufTy).Contents (Elt F)),
    unary main_v156 main_v160 (Host.absf : (⟨S100000x64, .f32⟩ : BufTy).Contents (Elt F) → (⟨S100000x64, .f32⟩ : BufTy).Contents (Elt F)),
    unary main_v160 main_v161 (Host.negf : (⟨S100000x64, .f32⟩ : BufTy).Contents (Elt F) → (⟨S100000x64, .f32⟩ : BufTy).Contents (Elt F)),
    unary main_v161 main_v162 (Host.exp : (⟨S100000x64, .f32⟩ : BufTy).Contents (Elt F) → (⟨S100000x64, .f32⟩ : BufTy).Contents (Elt F)),
    unary main_v162 main_v163 (Host.log1p : (⟨S100000x64, .f32⟩ : BufTy).Contents (Elt F) → (⟨S100000x64, .f32⟩ : BufTy).Contents (Elt F)),
    binary main_v154 main_v163 main_v164 (addf : (⟨S100000x64, .f32⟩ : BufTy).Contents (Elt F) → (⟨S100000x64, .f32⟩ : BufTy).Contents (Elt F) → (⟨S100000x64, .f32⟩ : BufTy).Contents (Elt F)),
    ternary main_v157 main_v159 main_v164 main_v165 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    nullary main_cst_29 (constant S_ .f32 0x00000000#32),
    unary main_cst_29 main_v166 (broadcastInDim S100000x64 ![] bcast_S_S100000x64 : (⟨S_, .f32⟩ : BufTy).Contents (Elt F) → (⟨S100000x64, .f32⟩ : BufTy).Contents (Elt F)),
    binary main_v134 main_v166 main_v167 (mulf : (⟨S100000x64, .f32⟩ : BufTy).Contents (Elt F) → (⟨S100000x64, .f32⟩ : BufTy).Contents (Elt F) → (⟨S100000x64, .f32⟩ : BufTy).Contents (Elt F)),
    binary main_v165 main_v167 main_v168 (subf : (⟨S100000x64, .f32⟩ : BufTy).Contents (Elt F) → (⟨S100000x64, .f32⟩ : BufTy).Contents (Elt F) → (⟨S100000x64, .f32⟩ : BufTy).Contents (Elt F)),
    nullary main_cst_30 (constant S_ .f32 0x00000000#32),
    binary main_v168 main_cst_30 main_v169 ((fun x v => Host.reduceAdd x v reducesTo_S100000x64_S_d0_1 h_S_) : (⟨S100000x64, .f32⟩ : BufTy).Contents (Elt F) → (⟨S_, .f32⟩ : BufTy).Contents (Elt F) → (⟨S_, .f32⟩ : BufTy).Contents (Elt F)),
    nullary main_cst_31 (constant S_ .f32 0x4AC35000#32),
    binary main_v169 main_cst_31 main_v170 (Host.divf : (⟨S_, .f32⟩ : BufTy).Contents (Elt F) → (⟨S_, .f32⟩ : BufTy).Contents (Elt F) → (⟨S_, .f32⟩ : BufTy).Contents (Elt F)),
    binary main_v152 main_v170 main_v171 (addf : (⟨S_, .f32⟩ : BufTy).Contents (Elt F) → (⟨S_, .f32⟩ : BufTy).Contents (Elt F) → (⟨S_, .f32⟩ : BufTy).Contents (Elt F)) ]

/-- Piece 0 of the program's operations. -/
abbrev ops0 : List (HloOp τ sig (Elt F)) :=
  [ nullary main_c (constantI S_ 32 0#32),
    unary main_c main_v0 (broadcastInDim S1000000 ![] bcast_S_S1000000 : (⟨S_, .i32⟩ : BufTy).Contents (Elt F) → (⟨S1000000, .i32⟩ : BufTy).Contents (Elt F)),
    binary main_arg2 main_v0 main_v1 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v2 (broadcastInDim S1000000 ![] bcast_S_S1000000 : (⟨S_, .i32⟩ : BufTy).Contents (Elt F) → (⟨S1000000, .i32⟩ : BufTy).Contents (Elt F)),
    binary main_arg2 main_v2 main_v3 (addi : (⟨S1000000, .i32⟩ : BufTy).Contents (Elt F) → (⟨S1000000, .i32⟩ : BufTy).Contents (Elt F) → (⟨S1000000, .i32⟩ : BufTy).Contents (Elt F)),
    ternary main_v1 main_v3 main_arg2 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v4 main_v5 (broadcastInDim S1000000x1 ![0] bcast_S1000000_S1000000x1_0 : (⟨S1000000, .i32⟩ : BufTy).Contents (Elt F) → (⟨S1000000x1, .i32⟩ : BufTy).Contents (Elt F)),
    binary main_arg0 main_v5 main_v6 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v6 main_arg1 main_v7 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg5 main_v8 ((transpose S128x64 [1, 0] · transposes_S64x128_S128x64_1_0) : (⟨S64x128, .f32⟩ : BufTy).Contents (Elt F) → (⟨S128x64, .f32⟩ : BufTy).Contents (Elt F)),
    binary main_v7 main_v8 main_v9 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg6 main_v10 (broadcastInDim S1x64 ![1] bcast_S64_S1x64_1 : (⟨S64, .f32⟩ : BufTy).Contents (Elt F) → (⟨S1x64, .f32⟩ : BufTy).Contents (Elt F)),
    unary main_v10 main_v11 (broadcastInDim S1000000x64 ![0, 1] bcast_S1x64_S1000000x64_0_1 : (⟨S1x64, .f32⟩ : BufTy).Contents (Elt F) → (⟨S1000000x64, .f32⟩ : BufTy).Contents (Elt F)),
    binary main_v9 main_v11 main_v12 (addf : (⟨S1000000x64, .f32⟩ : BufTy).Contents (Elt F) → (⟨S1000000x64, .f32⟩ : BufTy).Contents (Elt F) → (⟨S1000000x64, .f32⟩ : BufTy).Contents (Elt F)) ]

/-- Piece 1 of the program's operations. -/
abbrev ops1 : List (HloOp τ sig (Elt F)) :=
  [ nullary main_cst (constant S_ .f32 0x00000000#32),
    unary main_cst main_v13 (broadcastInDim S100000x64 ![] bcast_S_S100000x64 : (⟨S_, .f32⟩ : BufTy).Contents (Elt F) → (⟨S100000x64, .f32⟩ : BufTy).Contents (Elt F)),
    unary main_arg3 main_v14 (broadcastInDim S1000000x1 ![0] bcast_S1000000_S1000000x1_0 : (⟨S1000000, .i32⟩ : BufTy).Contents (Elt F) → (⟨S1000000x1, .i32⟩ : BufTy).Contents (Elt F)),
    ternary main_v13 main_v14 main_v12 main_v15 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_1 (constant S_ .f32 0x3F800000#32),
    unary main_cst_1 main_v16 (broadcastInDim S1000000 ![] bcast_S_S1000000 : (⟨S_, .f32⟩ : BufTy).Contents (Elt F) → (⟨S1000000, .f32⟩ : BufTy).Contents (Elt F)),
    nullary main_cst_2 (constant S_ .f32 0x00000000#32),
    unary main_cst_2 main_v17 (broadcastInDim S100000 ![] bcast_S_S100000 : (⟨S_, .f32⟩ : BufTy).Contents (Elt F) → (⟨S100000, .f32⟩ : BufTy).Contents (Elt F)),
    unary main_arg3 main_v18 (broadcastInDim S1000000x1 ![0] bcast_S1000000_S1000000x1_0 : (⟨S1000000, .i32⟩ : BufTy).Contents (Elt F) → (⟨S1000000x1, .i32⟩ : BufTy).Contents (Elt F)),
    ternary main_v17 main_v18 main_v16 main_v19 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_3 (constant S_ .f32 0x3F800000#32),
    unary main_cst_3 main_v20 (broadcastInDim S100000 ![] bcast_S_S100000 : (⟨S_, .f32⟩ : BufTy).Contents (Elt F) → (⟨S100000, .f32⟩ : BufTy).Contents (Elt F)),
    binary main_v19 main_v20 main_v21 (maximumf : (⟨S100000, .f32⟩ : BufTy).Contents (Elt F) → (⟨S100000, .f32⟩ : BufTy).Contents (Elt F) → (⟨S100000, .f32⟩ : BufTy).Contents (Elt F)),
    unary main_v21 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x64 ![0, 1] bcast_S100000x1_S100000x64_0_1 : (⟨S100000x1, .f32⟩ : BufTy).Contents (Elt F) → (⟨S100000x64, .f32⟩ : BufTy).Contents (Elt F)),
    binary main_v15 main_v23 main_v24 (Host.divf : (⟨S100000x64, .f32⟩ : BufTy).Contents (Elt F) → (⟨S100000x64, .f32⟩ : BufTy).Contents (Elt F) → (⟨S100000x64, .f32⟩ : BufTy).Contents (Elt F)),
    binary main_arg0 main_v24 main_v25 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg7 main_v26 ((transpose S128x64 [1, 0] · transposes_S64x128_S128x64_1_0) : (⟨S64x128, .f32⟩ : BufTy).Contents (Elt F) → (⟨S128x64, .f32⟩ : BufTy).Contents (Elt F)),
    binary main_v25 main_v26 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v27 main_v29 main_v30 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v30) (TRef.of (T := ⟨S100000x64, .f32⟩) main_call0_v0) (TRef.of (T := ⟨S100000x64, .f32⟩) main_v31) maximumf ]

/-- Piece 2 of the program's operations. -/
abbrev ops2 : List (HloOp τ sig (Elt F)) :=
  [ nullary main_c_4 (constantI S_ 32 0#32),
    unary main_c_4 main_v32 (broadcastInDim S1000000 ![] bcast_S_S1000000 : (⟨S_, .i32⟩ : BufTy).Contents (Elt F) → (⟨S1000000, .i32⟩ : BufTy).Contents (Elt F)),
    binary main_arg2 main_v32 main_v33 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 100000#32),
    unary main_c_5 main_v34 (broadcastInDim S1000000 ![] bcast_S_S1000000 : (⟨S_, .i32⟩ : BufTy).Contents (Elt F) → (⟨S1000000, .i32⟩ : BufTy).Contents (Elt F)),
    binary main_arg2 main_v34 main_v35 (addi : (⟨S1000000, .i32⟩ : BufTy).Contents (Elt F) → (⟨S1000000, .i32⟩ : BufTy).Contents (Elt F) → (⟨S1000000, .i32⟩ : BufTy).Contents (Elt F)),
    ternary main_v33 main_v35 main_arg2 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v36 main_v37 (broadcastInDim S1000000x1 ![0] bcast_S1000000_S1000000x1_0 : (⟨S1000000, .i32⟩ : BufTy).Contents (Elt F) → (⟨S1000000x1, .i32⟩ : BufTy).Contents (Elt F)),
    binary main_v31 main_v37 main_v38 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v38 main_arg1 main_v39 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg9 main_v40 ((transpose S128x64 [1, 0] · transposes_S64x128_S128x64_1_0) : (⟨S64x128, .f32⟩ : BufTy).Contents (Elt F) → (⟨S128x64, .f32⟩ : BufTy).Contents (Elt F)),
    binary main_v39 main_v40 main_v41 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg10 main_v42 (broadcastInDim S1x64 ![1] bcast_S64_S1x64_1 : (⟨S64, .f32⟩ : BufTy).Contents (Elt F) → (⟨S1x64, .f32⟩ : BufTy).Contents (Elt F)),
    unary main_v42 main_v43 (broadcastInDim S1000000x64 ![0, 1] bcast_S1x64_S1000000x64_0_1 : (⟨S1x64, .f32⟩ : BufTy).Contents (Elt F) → (⟨S1000000x64, .f32⟩ : BufTy).Contents (Elt F)),
    binary main_v41 main_v43 main_v44 (addf : (⟨S1000000x64, .f32⟩ : BufTy).Contents (Elt F) → (⟨S1000000x64, .f32⟩ : BufTy).Contents (Elt F) → (⟨S1000000x64, .f32⟩ : BufTy).Contents (Elt F)) ]

/-- Piece 3 of the program's operations. -/
abbrev ops3 : List (HloOp τ sig (Elt F)) :=
  [ nullary main_cst_6 (constant S_ .f32 0x00000000#32),
    unary main_cst_6 main_v45 (broadcastInDim S100000x64 ![] bcast_S_S100000x64 : (⟨S_, .f32⟩ : BufTy).Contents (Elt F) → (⟨S100000x64, .f32⟩ : BufTy).Contents (Elt F)),
    unary main_arg3 main_v46 (broadcastInDim S1000000x1 ![0] bcast_S1000000_S1000000x1_0 : (⟨S1000000, .i32⟩ : BufTy).Contents (Elt F) → (⟨S1000000x1, .i32⟩ : BufTy).Contents (Elt F)),
    ternary main_v45 main_v46 main_v44 main_v47 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_7 (constant S_ .f32 0x3F800000#32),
    unary main_cst_7 main_v48 (broadcastInDim S1000000 ![] bcast_S_S1000000 : (⟨S_, .f32⟩ : BufTy).Contents (Elt F) → (⟨S1000000, .f32⟩ : BufTy).Contents (Elt F)),
    nullary main_cst_8 (constant S_ .f32 0x00000000#32),
    unary main_cst_8 main_v49 (broadcastInDim S100000 ![] bcast_S_S100000 : (⟨S_, .f32⟩ : BufTy).Contents (Elt F) → (⟨S100000, .f32⟩ : BufTy).Contents (Elt F)),
    unary main_arg3 main_v50 (broadcastInDim S1000000x1 ![0] bcast_S1000000_S1000000x1_0 : (⟨S1000000, .i32⟩ : BufTy).Contents (Elt F) → (⟨S1000000x1, .i32⟩ : BufTy).Contents (Elt F)),
    ternary main_v49 main_v50 main_v48 main_v51 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_9 (constant S_ .f32 0x3F800000#32),
    unary main_cst_9 main_v52 (broadcastInDim S100000 ![] bcast_S_S100000 : (⟨S_, .f32⟩ : BufTy).Contents (Elt F) → (⟨S100000, .f32⟩ : BufTy).Contents (Elt F)),
    binary main_v51 main_v52 main_v53 (maximumf : (⟨S100000, .f32⟩ : BufTy).Contents (Elt F) → (⟨S100000, .f32⟩ : BufTy).Contents (Elt F) → (⟨S100000, .f32⟩ : BufTy).Contents (Elt F)),
    unary main_v53 main_v54 (broadcastInDim S100000x1 ![0] bcast_S100000_S100000x1_0 : (⟨S100000, .f32⟩ : BufTy).Contents (Elt F) → (⟨S100000x1, .f32⟩ : BufTy).Contents (Elt F)),
    unary main_v54 main_v55 (broadcastInDim S100000x64 ![0, 1] bcast_S100000x1_S100000x64_0_1 : (⟨S100000x1, .f32⟩ : BufTy).Contents (Elt F) → (⟨S100000x64, .f32⟩ : BufTy).Contents (Elt F)),
    binary main_v47 main_v55 main_v56 (Host.divf : (⟨S100000x64, .f32⟩ : BufTy).Contents (Elt F) → (⟨S100000x64, .f32⟩ : BufTy).Contents (Elt F) → (⟨S100000x64, .f32⟩ : BufTy).Contents (Elt F)),
    binary main_v31 main_v56 main_v57 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg11 main_v58 ((transpose S128x64 [1, 0] · transposes_S64x128_S128x64_1_0) : (⟨S64x128, .f32⟩ : BufTy).Contents (Elt F) → (⟨S128x64, .f32⟩ : BufTy).Contents (Elt F)),
    binary main_v57 main_v58 main_v59 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v62) (TRef.of (T := ⟨S100000x64, .f32⟩) main_call1_v0) (TRef.of (T := ⟨S100000x64, .f32⟩) main_v63) maximumf ]

/-- Piece 4 of the program's operations. -/
abbrev ops4 : List (HloOp τ sig (Elt F)) :=
  [ nullary main_c_10 (constantI S_ 32 0#32),
    unary main_c_10 main_v64 (broadcastInDim S1000000 ![] bcast_S_S1000000 : (⟨S_, .i32⟩ : BufTy).Contents (Elt F) → (⟨S1000000, .i32⟩ : BufTy).Contents (Elt F)),
    binary main_arg4 main_v64 main_v65 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 1000000#32),
    unary main_c_11 main_v66 (broadcastInDim S1000000 ![] bcast_S_S1000000 : (⟨S_, .i32⟩ : BufTy).Contents (Elt F) → (⟨S1000000, .i32⟩ : BufTy).Contents (Elt F)),
    binary main_arg4 main_v66 main_v67 (addi : (⟨S1000000, .i32⟩ : BufTy).Contents (Elt F) → (⟨S1000000, .i32⟩ : BufTy).Contents (Elt F) → (⟨S1000000, .i32⟩ : BufTy).Contents (Elt F)),
    ternary main_v65 main_v67 main_arg4 main_v68 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v68 main_v69 (broadcastInDim S1000000x1 ![0] bcast_S1000000_S1000000x1_0 : (⟨S1000000, .i32⟩ : BufTy).Contents (Elt F) → (⟨S1000000x1, .i32⟩ : BufTy).Contents (Elt F)),
    binary main_arg1 main_v69 main_v70 ((fun x i => Host.gather gather_S1000000x64_S1000000x1_S1000000x64_1_0_n_n_0_1_164 x i) : (⟨S1000000x64, .f32⟩ : BufTy).Contents (Elt F) → (⟨S1000000x1, .i32⟩ : BufTy).Contents (Elt F) → (⟨S1000000x64, .f32⟩ : BufTy).Contents (Elt F)),
    nullary main_c_12 (constantI S_ 32 0#32),
    unary main_c_12 main_v71 (broadcastInDim S1000000 ![] bcast_S_S1000000 : (⟨S_, .i32⟩ : BufTy).Contents (Elt F) → (⟨S1000000, .i32⟩ : BufTy).Contents (Elt F)),
    binary main_arg2 main_v71 main_v72 (cmpi .slt : (⟨S1000000, .i32⟩ : BufTy).Contents (Elt F) → (⟨S1000000, .i32⟩ : BufTy).Contents (Elt F) → (⟨S1000000, .i1⟩ : BufTy).Contents (Elt F)),
    nullary main_c_13 (constantI S_ 32 100000#32),
    unary main_c_13 main_v73 (broadcastInDim S1000000 ![] bcast_S_S1000000 : (⟨S_, .i32⟩ : BufTy).Contents (Elt F) → (⟨S1000000, .i32⟩ : BufTy).Contents (Elt F)),
    binary main_arg2 main_v73 main_v74 (addi : (⟨S1000000, .i32⟩ : BufTy).Contents (Elt F) → (⟨S1000000, .i32⟩ : BufTy).Contents (Elt F) → (⟨S1000000, .i32⟩ : BufTy).Contents (Elt F)),
    ternary main_v72 main_v74 main_arg2 main_v75 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v75 main_v76 (broadcastInDim S1000000x1 ![0] bcast_S1000000_S1000000x1_0 : (⟨S1000000, .i32⟩ : BufTy).Contents (Elt F) → (⟨S1000000x1, .i32⟩ : BufTy).Contents (Elt F)),
    binary main_arg0 main_v76 main_v77 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v77 main_v70 main_v78 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg5 main_v79 ((transpose S128x64 [1, 0] · transposes_S64x128_S128x64_1_0) : (⟨S64x128, .f32⟩ : BufTy).Contents (Elt F) → (⟨S128x64, .f32⟩ : BufTy).Contents (Elt F)),
    binary main_v78 main_v79 main_v80 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg6 main_v81 (broadcastInDim S1x64 ![1] bcast_S64_S1x64_1 : (⟨S64, .f32⟩ : BufTy).Contents (Elt F) → (⟨S1x64, .f32⟩ : BufTy).Contents (Elt F)),
    unary main_v81 main_v82 (broadcastInDim S1000000x64 ![0, 1] bcast_S1x64_S1000000x64_0_1 : (⟨S1x64, .f32⟩ : BufTy).Contents (Elt F) → (⟨S1000000x64, .f32⟩ : BufTy).Contents (Elt F)),
    binary main_v80 main_v82 main_v83 (addf : (⟨S1000000x64, .f32⟩ : BufTy).Contents (Elt F) → (⟨S1000000x64, .f32⟩ : BufTy).Contents (Elt F) → (⟨S1000000x64, .f32⟩ : BufTy).Contents (Elt F)) ]

/-- Piece 5 of the program's operations. -/
abbrev ops5 : List (HloOp τ sig (Elt F)) :=
  [ nullary main_cst_14 (constant S_ .f32 0x00000000#32),
    unary main_cst_14 main_v84 (broadcastInDim S100000x64 ![] bcast_S_S100000x64 : (⟨S_, .f32⟩ : BufTy).Contents (Elt F) → (⟨S100000x64, .f32⟩ : BufTy).Contents (Elt F)),
    unary main_arg3 main_v85 (broadcastInDim S1000000x1 ![0] bcast_S1000000_S1000000x1_0 : (⟨S1000000, .i32⟩ : BufTy).Contents (Elt F) → (⟨S1000000x1, .i32⟩ : BufTy).Contents (Elt F)),
    ternary main_v84 main_v85 main_v83 main_v86 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_15 (constant S_ .f32 0x3F800000#32),
    unary main_cst_15 main_v87 (broadcastInDim S1000000 ![] bcast_S_S1000000 : (⟨S_, .f32⟩ : BufTy).Contents (Elt F) → (⟨S1000000, .f32⟩ : BufTy).Contents (Elt F)),
    nullary main_cst_16 (constant S_ .f32 0x00000000#32),
    unary main_cst_16 main_v88 (broadcastInDim S100000 ![] bcast_S_S100000 : (⟨S_, .f32⟩ : BufTy).Contents (Elt F) → (⟨S100000, .f32⟩ : BufTy).Contents (Elt F)),
    unary main_arg3 main_v89 (broadcastInDim S1000000x1 ![0] bcast_S1000000_S1000000x1_0 : (⟨S1000000, .i32⟩ : BufTy).Contents (Elt F) → (⟨S1000000x1, .i32⟩ : BufTy).Contents (Elt F)),
    ternary main_v88 main_v89 main_v87 main_v90 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_17 (constant S_ .f32 0x3F800000#32),
    unary main_cst_17 main_v91 (broadcastInDim S100000 ![] bcast_S_S100000 : (⟨S_, .f32⟩ : BufTy).Contents (Elt F) → (⟨S100000, .f32⟩ : BufTy).Contents (Elt F)),
    binary main_v90 main_v91 main_v92 (maximumf : (⟨S100000, .f32⟩ : BufTy).Contents (Elt F) → (⟨S100000, .f32⟩ : BufTy).Contents (Elt F) → (⟨S100000, .f32⟩ : BufTy).Contents (Elt F)),
    unary main_v92 main_v93 (broadcastInDim S100000x1 ![0] bcast_S100000_S100000x1_0 : (⟨S100000, .f32⟩ : BufTy).Contents (Elt F) → (⟨S100000x1, .f32⟩ : BufTy).Contents (Elt F)),
    unary main_v93 main_v94 (broadcastInDim S100000x64 ![0, 1] bcast_S100000x1_S100000x64_0_1 : (⟨S100000x1, .f32⟩ : BufTy).Contents (Elt F) → (⟨S100000x64, .f32⟩ : BufTy).Contents (Elt F)),
    binary main_v86 main_v94 main_v95 (Host.divf : (⟨S100000x64, .f32⟩ : BufTy).Contents (Elt F) → (⟨S100000x64, .f32⟩ : BufTy).Contents (Elt F) → (⟨S100000x64, .f32⟩ : BufTy).Contents (Elt F)),
    binary main_arg0 main_v95 main_v96 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg7 main_v97 ((transpose S128x64 [1, 0] · transposes_S64x128_S128x64_1_0) : (⟨S64x128, .f32⟩ : BufTy).Contents (Elt F) → (⟨S128x64, .f32⟩ : BufTy).Contents (Elt F)),
    binary main_v96 main_v97 main_v98 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v98 main_v100 main_v101 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v101) (TRef.of (T := ⟨S100000x64, .f32⟩) main_call2_v0) (TRef.of (T := ⟨S100000x64, .f32⟩) main_v102) maximumf ]

/-- Piece 6 of the program's operations. -/
abbrev ops6 : List (HloOp τ sig (Elt F)) :=
  [ nullary main_c_18 (constantI S_ 32 0#32),
    unary main_c_18 main_v103 (broadcastInDim S1000000 ![] bcast_S_S1000000 : (⟨S_, .i32⟩ : BufTy).Contents (Elt F) → (⟨S1000000, .i32⟩ : BufTy).Contents (Elt F)),
    binary main_arg2 main_v103 main_v104 (cmpi .slt : (⟨S1000000, .i32⟩ : BufTy).Contents (Elt F) → (⟨S1000000, .i32⟩ : BufTy).Contents (Elt F) → (⟨S1000000, .i1⟩ : BufTy).Contents (Elt F)),
    nullary main_c_19 (constantI S_ 32 100000#32),
    unary main_c_19 main_v105 (broadcastInDim S1000000 ![] bcast_S_S1000000 : (⟨S_, .i32⟩ : BufTy).Contents (Elt F) → (⟨S1000000, .i32⟩ : BufTy).Contents (Elt F)),
    binary main_arg2 main_v105 main_v106 (addi : (⟨S1000000, .i32⟩ : BufTy).Contents (Elt F) → (⟨S1000000, .i32⟩ : BufTy).Contents (Elt F) → (⟨S1000000, .i32⟩ : BufTy).Contents (Elt F)),
    ternary main_v104 main_v106 main_arg2 main_v107 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v107 main_v108 (broadcastInDim S1000000x1 ![0] bcast_S1000000_S1000000x1_0 : (⟨S1000000, .i32⟩ : BufTy).Contents (Elt F) → (⟨S1000000x1, .i32⟩ : BufTy).Contents (Elt F)),
    binary main_v102 main_v108 main_v109 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    binary main_v109 main_v70 main_v110 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    unary main_arg9 main_v111 ((transpose S128x64 [1, 0] · transposes_S64x128_S128x64_1_0) : (⟨S64x128, .f32⟩ : BufTy).Contents (Elt F) → (⟨S128x64, .f32⟩ : BufTy).Contents (Elt F)),
    binary main_v110 main_v111 main_v112 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg10 main_v113 (broadcastInDim S1x64 ![1] bcast_S64_S1x64_1 : (⟨S64, .f32⟩ : BufTy).Contents (Elt F) → (⟨S1x64, .f32⟩ : BufTy).Contents (Elt F)),
    unary main_v113 main_v114 (broadcastInDim S1000000x64 ![0, 1] bcast_S1x64_S1000000x64_0_1 : (⟨S1x64, .f32⟩ : BufTy).Contents (Elt F) → (⟨S1000000x64, .f32⟩ : BufTy).Contents (Elt F)),
    binary main_v112 main_v114 main_v115 (addf : (⟨S1000000x64, .f32⟩ : BufTy).Contents (Elt F) → (⟨S1000000x64, .f32⟩ : BufTy).Contents (Elt F) → (⟨S1000000x64, .f32⟩ : BufTy).Contents (Elt F)) ]

/-- Piece 7 of the program's operations. -/
abbrev ops7 : List (HloOp τ sig (Elt F)) :=
  [ nullary main_cst_20 (constant S_ .f32 0x00000000#32),
    unary main_cst_20 main_v116 (broadcastInDim S100000x64 ![] bcast_S_S100000x64 : (⟨S_, .f32⟩ : BufTy).Contents (Elt F) → (⟨S100000x64, .f32⟩ : BufTy).Contents (Elt F)),
    unary main_arg3 main_v117 (broadcastInDim S1000000x1 ![0] bcast_S1000000_S1000000x1_0 : (⟨S1000000, .i32⟩ : BufTy).Contents (Elt F) → (⟨S1000000x1, .i32⟩ : BufTy).Contents (Elt F)),
    ternary main_v116 main_v117 main_v115 main_v118 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_21 (constant S_ .f32 0x3F800000#32),
    unary main_cst_21 main_v119 (broadcastInDim S1000000 ![] bcast_S_S1000000 : (⟨S_, .f32⟩ : BufTy).Contents (Elt F) → (⟨S1000000, .f32⟩ : BufTy).Contents (Elt F)),
    nullary main_cst_22 (constant S_ .f32 0x00000000#32),
    unary main_cst_22 main_v120 (broadcastInDim S100000 ![] bcast_S_S100000 : (⟨S_, .f32⟩ : BufTy).Contents (Elt F) → (⟨S100000, .f32⟩ : BufTy).Contents (Elt F)),
    unary main_arg3 main_v121 (broadcastInDim S1000000x1 ![0] bcast_S1000000_S1000000x1_0 : (⟨S1000000, .i32⟩ : BufTy).Contents (Elt F) → (⟨S1000000x1, .i32⟩ : BufTy).Contents (Elt F)),
    ternary main_v120 main_v121 main_v119 main_v122 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_23 (constant S_ .f32 0x3F800000#32),
    unary main_cst_23 main_v123 (broadcastInDim S100000 ![] bcast_S_S100000 : (⟨S_, .f32⟩ : BufTy).Contents (Elt F) → (⟨S100000, .f32⟩ : BufTy).Contents (Elt F)),
    binary main_v122 main_v123 main_v124 (maximumf : (⟨S100000, .f32⟩ : BufTy).Contents (Elt F) → (⟨S100000, .f32⟩ : BufTy).Contents (Elt F) → (⟨S100000, .f32⟩ : BufTy).Contents (Elt F)),
    unary main_v124 main_v125 (broadcastInDim S100000x1 ![0] bcast_S100000_S100000x1_0 : (⟨S100000, .f32⟩ : BufTy).Contents (Elt F) → (⟨S100000x1, .f32⟩ : BufTy).Contents (Elt F)),
    unary main_v125 main_v126 (broadcastInDim S100000x64 ![0, 1] bcast_S100000x1_S100000x64_0_1 : (⟨S100000x1, .f32⟩ : BufTy).Contents (Elt F) → (⟨S100000x64, .f32⟩ : BufTy).Contents (Elt F)),
    binary main_v118 main_v126 main_v127 (Host.divf : (⟨S100000x64, .f32⟩ : BufTy).Contents (Elt F) → (⟨S100000x64, .f32⟩ : BufTy).Contents (Elt F) → (⟨S100000x64, .f32⟩ : BufTy).Contents (Elt F)),
    binary main_v102 main_v127 main_v128 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg11 main_v129 ((transpose S128x64 [1, 0] · transposes_S64x128_S128x64_1_0) : (⟨S64x128, .f32⟩ : BufTy).Contents (Elt F) → (⟨S128x64, .f32⟩ : BufTy).Contents (Elt F)),
    binary main_v128 main_v129 main_v130 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v131 (broadcastInDim S1x64 ![1] bcast_S64_S1x64_1 : (⟨S64, .f32⟩ : BufTy).Contents (Elt F) → (⟨S1x64, .f32⟩ : BufTy).Contents (Elt F)),
    unary main_v131 main_v132 (broadcastInDim S100000x64 ![0, 1] bcast_S1x64_S100000x64_0_1 : (⟨S1x64, .f32⟩ : BufTy).Contents (Elt F) → (⟨S100000x64, .f32⟩ : BufTy).Contents (Elt F)),
    binary main_v130 main_v132 main_v133 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v133) (TRef.of (T := ⟨S100000x64, .f32⟩) main_call3_v0) (TRef.of (T := ⟨S100000x64, .f32⟩) main_v134) maximumf ]

/-- Piece 8 of the program's operations. -/
abbrev ops8 : List (HloOp τ sig (Elt F)) :=
  [ nullary main_cst_24 (constant S_ .f32 0x00000000#32),
    unary main_cst_24 main_v135 (broadcastInDim S100000x64 ![] bcast_S_S100000x64 : (⟨S_, .f32⟩ : BufTy).Contents (Elt F) → (⟨S100000x64, .f32⟩ : BufTy).Contents (Elt F)),
    binary main_v135 main_v63 main_v136 (maximumf : (⟨S100000x64, .f32⟩ : BufTy).Contents (Elt F) → (⟨S100000x64, .f32⟩ : BufTy).Contents (Elt F) → (⟨S100000x64, .f32⟩ : BufTy).Contents (Elt F)),
    unary main_cst_24 main_v137 (broadcastInDim S100000x64 ![] bcast_S_S100000x64 : (⟨S_, .f32⟩ : BufTy).Contents (Elt F) → (⟨S100000x64, .f32⟩ : BufTy).Contents (Elt F)),
    binary main_v137 main_v63 main_v138 (subf : (⟨S100000x64, .f32⟩ : BufTy).Contents (Elt F) → (⟨S100000x64, .f32⟩ : BufTy).Contents (Elt F) → (⟨S100000x64, .f32⟩ : BufTy).Contents (Elt F)),
    binary main_v138 main_v138 main_v139 (cmpf .une : (⟨S100000x64, .f32⟩ : BufTy).Contents (Elt F) → (⟨S100000x64, .f32⟩ : BufTy).Contents (Elt F) → (⟨S100000x64, .i1⟩ : BufTy).Contents (Elt F)),
    unary main_cst_24 main_v140 (broadcastInDim S100000x64 ![] bcast_S_S100000x64 : (⟨S_, .f32⟩ : BufTy).Contents (Elt F) → (⟨S100000x64, .f32⟩ : BufTy).Contents (Elt F)),
    binary main_v140 main_v63 main_v141 (addf : (⟨S100000x64, .f32⟩ : BufTy).Contents (Elt F) → (⟨S100000x64, .f32⟩ : BufTy).Contents (Elt F) → (⟨S100000x64, .f32⟩ : BufTy).Contents (Elt F)),
    unary main_v138 main_v142 (Host.absf : (⟨S100000x64, .f32⟩ : BufTy).Contents (Elt F) → (⟨S100000x64, .f32⟩ : BufTy).Contents (Elt F)),
    unary main_v142 main_v143 (Host.negf : (⟨S100000x64, .f32⟩ : BufTy).Contents (Elt F) → (⟨S100000x64, .f32⟩ : BufTy).Contents (Elt F)),
    unary main_v143 main_v144 (Host.exp : (⟨S100000x64, .f32⟩ : BufTy).Contents (Elt F) → (⟨S100000x64, .f32⟩ : BufTy).Contents (Elt F)),
    unary main_v144 main_v145 (Host.log1p : (⟨S100000x64, .f32⟩ : BufTy).Contents (Elt F) → (⟨S100000x64, .f32⟩ : BufTy).Contents (Elt F)),
    binary main_v136 main_v145 main_v146 (addf : (⟨S100000x64, .f32⟩ : BufTy).Contents (Elt F) → (⟨S100000x64, .f32⟩ : BufTy).Contents (Elt F) → (⟨S100000x64, .f32⟩ : BufTy).Contents (Elt F)),
    ternary main_v139 main_v141 main_v146 main_v147 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    nullary main_cst_25 (constant S_ .f32 0x3F800000#32),
    unary main_cst_25 main_v148 (broadcastInDim S100000x64 ![] bcast_S_S100000x64 : (⟨S_, .f32⟩ : BufTy).Contents (Elt F) → (⟨S100000x64, .f32⟩ : BufTy).Contents (Elt F)),
    binary main_v63 main_v148 main_v149 (mulf : (⟨S100000x64, .f32⟩ : BufTy).Contents (Elt F) → (⟨S100000x64, .f32⟩ : BufTy).Contents (Elt F) → (⟨S100000x64, .f32⟩ : BufTy).Contents (Elt F)),
    binary main_v147 main_v149 main_v150 (subf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x00000000#32),
    binary main_v150 main_cst_26 main_v151 ((fun x v => Host.reduceAdd x v reducesTo_S100000x64_S_d0_1 h_S_) : (⟨S100000x64, .f32⟩ : BufTy).Contents (Elt F) → (⟨S_, .f32⟩ : BufTy).Contents (Elt F) → (⟨S_, .f32⟩ : BufTy).Contents (Elt F)),
    nullary main_cst_27 (constant S_ .f32 0x4AC35000#32),
    binary main_v151 main_cst_27 main_v152 (Host.divf : (⟨S_, .f32⟩ : BufTy).Contents (Elt F) → (⟨S_, .f32⟩ : BufTy).Contents (Elt F) → (⟨S_, .f32⟩ : BufTy).Contents (Elt F)) ]

/-- Piece 9 of the program's operations. -/
abbrev ops9 : List (HloOp τ sig (Elt F)) :=
  [ nullary main_cst_28 (constant S_ .f32 0x00000000#32),
    unary main_cst_28 main_v153 (broadcastInDim S100000x64 ![] bcast_S_S100000x64 : (⟨S_, .f32⟩ : BufTy).Contents (Elt F) → (⟨S100000x64, .f32⟩ : BufTy).Contents (Elt F)),
    binary main_v153 main_v134 main_v154 (maximumf : (⟨S100000x64, .f32⟩ : BufTy).Contents (Elt F) → (⟨S100000x64, .f32⟩ : BufTy).Contents (Elt F) → (⟨S100000x64, .f32⟩ : BufTy).Contents (Elt F)),
    unary main_cst_28 main_v155 (broadcastInDim S100000x64 ![] bcast_S_S100000x64 : (⟨S_, .f32⟩ : BufTy).Contents (Elt F) → (⟨S100000x64, .f32⟩ : BufTy).Contents (Elt F)),
    binary main_v155 main_v134 main_v156 (subf : (⟨S100000x64, .f32⟩ : BufTy).Contents (Elt F) → (⟨S100000x64, .f32⟩ : BufTy).Contents (Elt F) → (⟨S100000x64, .f32⟩ : BufTy).Contents (Elt F)),
    binary main_v156 main_v156 main_v157 (cmpf .une : (⟨S100000x64, .f32⟩ : BufTy).Contents (Elt F) → (⟨S100000x64, .f32⟩ : BufTy).Contents (Elt F) → (⟨S100000x64, .i1⟩ : BufTy).Contents (Elt F)),
    unary main_cst_28 main_v158 (broadcastInDim S100000x64 ![] bcast_S_S100000x64 : (⟨S_, .f32⟩ : BufTy).Contents (Elt F) → (⟨S100000x64, .f32⟩ : BufTy).Contents (Elt F)),
    binary main_v158 main_v134 main_v159 (addf : (⟨S100000x64, .f32⟩ : BufTy).Contents (Elt F) → (⟨S100000x64, .f32⟩ : BufTy).Contents (Elt F) → (⟨S100000x64, .f32⟩ : BufTy).Contents (Elt F)),
    unary main_v156 main_v160 (Host.absf : (⟨S100000x64, .f32⟩ : BufTy).Contents (Elt F) → (⟨S100000x64, .f32⟩ : BufTy).Contents (Elt F)),
    unary main_v160 main_v161 (Host.negf : (⟨S100000x64, .f32⟩ : BufTy).Contents (Elt F) → (⟨S100000x64, .f32⟩ : BufTy).Contents (Elt F)),
    unary main_v161 main_v162 (Host.exp : (⟨S100000x64, .f32⟩ : BufTy).Contents (Elt F) → (⟨S100000x64, .f32⟩ : BufTy).Contents (Elt F)),
    unary main_v162 main_v163 (Host.log1p : (⟨S100000x64, .f32⟩ : BufTy).Contents (Elt F) → (⟨S100000x64, .f32⟩ : BufTy).Contents (Elt F)),
    binary main_v154 main_v163 main_v164 (addf : (⟨S100000x64, .f32⟩ : BufTy).Contents (Elt F) → (⟨S100000x64, .f32⟩ : BufTy).Contents (Elt F) → (⟨S100000x64, .f32⟩ : BufTy).Contents (Elt F)),
    ternary main_v157 main_v159 main_v164 main_v165 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    nullary main_cst_29 (constant S_ .f32 0x00000000#32),
    unary main_cst_29 main_v166 (broadcastInDim S100000x64 ![] bcast_S_S100000x64 : (⟨S_, .f32⟩ : BufTy).Contents (Elt F) → (⟨S100000x64, .f32⟩ : BufTy).Contents (Elt F)),
    binary main_v134 main_v166 main_v167 (mulf : (⟨S100000x64, .f32⟩ : BufTy).Contents (Elt F) → (⟨S100000x64, .f32⟩ : BufTy).Contents (Elt F) → (⟨S100000x64, .f32⟩ : BufTy).Contents (Elt F)),
    binary main_v165 main_v167 main_v168 (subf : (⟨S100000x64, .f32⟩ : BufTy).Contents (Elt F) → (⟨S100000x64, .f32⟩ : BufTy).Contents (Elt F) → (⟨S100000x64, .f32⟩ : BufTy).Contents (Elt F)),
    nullary main_cst_30 (constant S_ .f32 0x00000000#32),
    binary main_v168 main_cst_30 main_v169 ((fun x v => Host.reduceAdd x v reducesTo_S100000x64_S_d0_1 h_S_) : (⟨S100000x64, .f32⟩ : BufTy).Contents (Elt F) → (⟨S_, .f32⟩ : BufTy).Contents (Elt F) → (⟨S_, .f32⟩ : BufTy).Contents (Elt F)),
    nullary main_cst_31 (constant S_ .f32 0x4AC35000#32),
    binary main_v169 main_cst_31 main_v170 (Host.divf : (⟨S_, .f32⟩ : BufTy).Contents (Elt F) → (⟨S_, .f32⟩ : BufTy).Contents (Elt F) → (⟨S_, .f32⟩ : BufTy).Contents (Elt F)),
    binary main_v152 main_v170 main_v171 (addf : (⟨S_, .f32⟩ : BufTy).Contents (Elt F) → (⟨S_, .f32⟩ : BufTy).Contents (Elt F) → (⟨S_, .f32⟩ : BufTy).Contents (Elt F)) ]

/-- The line is its ten pieces in order. -/
theorem ops_eq : (ops : List (HloOp τ sig (Elt F))) = ops0 ++ ops1 ++ ops2 ++ ops3 ++ ops4 ++ ops5 ++ ops6 ++ ops7 ++ ops8 ++ ops9 := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., nullary_bufs_sub .., binary_bufs_sub .., nullary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., nullary_bufs_sub .., binary_bufs_sub .., nullary_bufs_sub .., binary_bufs_sub .., binary_bufs_sub ..⟩

/-- Every execution of the program terminates with each buffer at the fold of the operations over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The valuations after each piece -/

/-- The fold over two lines in a row is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A written buffer lies in the image of any list of references that has it. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

variable (m : (ℓ : Loc nD τ sig) → Buf (Elt F) ℓ) (c : Dev nD)

/-- An argument array as launched. -/
abbrev argv (r : Ref sig .tc) : Buf (Elt F) ((c.tc : Thread nD τ).loc r) := m ((c.tc : Thread nD τ).loc r)

/-- The device's buffers at launch … -/
def V0 : Valuation τ sig (Elt F) := launchContents m c
/-- … and after piece 0. -/
def V1 : Valuation τ sig (Elt F) := after ops0 (V0 m c)
/-- … and after piece 1. -/
def V2 : Valuation τ sig (Elt F) := after ops1 (V1 m c)
/-- … and after piece 2. -/
def V3 : Valuation τ sig (Elt F) := after ops2 (V2 m c)
/-- … and after piece 3. -/
def V4 : Valuation τ sig (Elt F) := after ops3 (V3 m c)
/-- … and after piece 4. -/
def V5 : Valuation τ sig (Elt F) := after ops4 (V4 m c)
/-- … and after piece 5. -/
def V6 : Valuation τ sig (Elt F) := after ops5 (V5 m c)
/-- … and after piece 6. -/
def V7 : Valuation τ sig (Elt F) := after ops6 (V6 m c)
/-- … and after piece 7. -/
def V8 : Valuation τ sig (Elt F) := after ops7 (V7 m c)
/-- … and after piece 8. -/
def V9 : Valuation τ sig (Elt F) := after ops8 (V8 m c)
/-- … and after piece 9. -/
def V10 : Valuation τ sig (Elt F) := after ops9 (V9 m c)

/-- After the whole line the buffers are those after the tenth piece. -/
theorem after_ops : after ops (launchContents m c) = V10 m c := by
  rw [ops_eq]
  simp only [after_append]
  rfl

/-! ## What each piece leaves untouched -/

/-- The buffers piece 0 writes. -/
abbrev wr0 : List (Ref sig .tc) := [main_c, main_v0, main_v1, main_c_0, main_v2, main_v3, main_v4, main_v5, main_v6, main_v7, main_v8, main_v9, main_v10, main_v11, main_v12]
theorem ops0_writes : (ops0 : List (HloOp τ sig (Elt F))).Forall fun op => op.writes ⊆ (wr0.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 0 does not write keeps its contents across it. -/
theorem keep0 (r : Ref sig .tc) (hr : r ∉ wr0) : V1 m c (Proc.devRef .tc r) = V0 m c (Proc.devRef .tc r) :=
  after_of_writes_sub ops0 _ ops0_writes hr

/-- The buffers piece 1 writes. -/
abbrev wr1 : List (Ref sig .tc) := [main_cst, main_v13, main_v14, main_v15, main_cst_1, main_v16, main_cst_2, main_v17, main_v18, main_v19, main_cst_3, main_v20, main_v21, main_v22, main_v23, main_v24, main_v25, main_v26, main_v27, main_v28, main_v29, main_v30, main_call0_cst, main_call0_v0, main_v31]
theorem ops1_writes : (ops1 : List (HloOp τ sig (Elt F))).Forall fun op => op.writes ⊆ (wr1.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 1 does not write keeps its contents across it. -/
theorem keep1 (r : Ref sig .tc) (hr : r ∉ wr1) : V2 m c (Proc.devRef .tc r) = V1 m c (Proc.devRef .tc r) :=
  after_of_writes_sub ops1 _ ops1_writes hr

/-- The buffers piece 2 writes. -/
abbrev wr2 : List (Ref sig .tc) := [main_c_4, main_v32, main_v33, main_c_5, main_v34, main_v35, main_v36, main_v37, main_v38, main_v39, main_v40, main_v41, main_v42, main_v43, main_v44]
theorem ops2_writes : (ops2 : List (HloOp τ sig (Elt F))).Forall fun op => op.writes ⊆ (wr2.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 2 does not write keeps its contents across it. -/
theorem keep2 (r : Ref sig .tc) (hr : r ∉ wr2) : V3 m c (Proc.devRef .tc r) = V2 m c (Proc.devRef .tc r) :=
  after_of_writes_sub ops2 _ ops2_writes hr

/-- The buffers piece 3 writes. -/
abbrev wr3 : List (Ref sig .tc) := [main_cst_6, main_v45, main_v46, main_v47, main_cst_7, main_v48, main_cst_8, main_v49, main_v50, main_v51, main_cst_9, main_v52, main_v53, main_v54, main_v55, main_v56, main_v57, main_v58, main_v59, main_v60, main_v61, main_v62, main_call1_cst, main_call1_v0, main_v63]
theorem ops3_writes : (ops3 : List (HloOp τ sig (Elt F))).Forall fun op => op.writes ⊆ (wr3.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 3 does not write keeps its contents across it. -/
theorem keep3 (r : Ref sig .tc) (hr : r ∉ wr3) : V4 m c (Proc.devRef .tc r) = V3 m c (Proc.devRef .tc r) :=
  after_of_writes_sub ops3 _ ops3_writes hr

/-- The buffers piece 4 writes. -/
abbrev wr4 : List (Ref sig .tc) := [main_c_10, main_v64, main_v65, main_c_11, main_v66, main_v67, main_v68, main_v69, main_v70, main_c_12, main_v71, main_v72, main_c_13, main_v73, main_v74, main_v75, main_v76, main_v77, main_v78, main_v79, main_v80, main_v81, main_v82, main_v83]
theorem ops4_writes : (ops4 : List (HloOp τ sig (Elt F))).Forall fun op => op.writes ⊆ (wr4.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 4 does not write keeps its contents across it. -/
theorem keep4 (r : Ref sig .tc) (hr : r ∉ wr4) : V5 m c (Proc.devRef .tc r) = V4 m c (Proc.devRef .tc r) :=
  after_of_writes_sub ops4 _ ops4_writes hr

/-- The buffers piece 5 writes. -/
abbrev wr5 : List (Ref sig .tc) := [main_cst_14, main_v84, main_v85, main_v86, main_cst_15, main_v87, main_cst_16, main_v88, main_v89, main_v90, main_cst_17, main_v91, main_v92, main_v93, main_v94, main_v95, main_v96, main_v97, main_v98, main_v99, main_v100, main_v101, main_call2_cst, main_call2_v0, main_v102]
theorem ops5_writes : (ops5 : List (HloOp τ sig (Elt F))).Forall fun op => op.writes ⊆ (wr5.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 5 does not write keeps its contents across it. -/
theorem keep5 (r : Ref sig .tc) (hr : r ∉ wr5) : V6 m c (Proc.devRef .tc r) = V5 m c (Proc.devRef .tc r) :=
  after_of_writes_sub ops5 _ ops5_writes hr

/-- The buffers piece 6 writes. -/
abbrev wr6 : List (Ref sig .tc) := [main_c_18, main_v103, main_v104, main_c_19, main_v105, main_v106, main_v107, main_v108, main_v109, main_v110, main_v111, main_v112, main_v113, main_v114, main_v115]
theorem ops6_writes : (ops6 : List (HloOp τ sig (Elt F))).Forall fun op => op.writes ⊆ (wr6.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 6 does not write keeps its contents across it. -/
theorem keep6 (r : Ref sig .tc) (hr : r ∉ wr6) : V7 m c (Proc.devRef .tc r) = V6 m c (Proc.devRef .tc r) :=
  after_of_writes_sub ops6 _ ops6_writes hr

/-- The buffers piece 7 writes. -/
abbrev wr7 : List (Ref sig .tc) := [main_cst_20, main_v116, main_v117, main_v118, main_cst_21, main_v119, main_cst_22, main_v120, main_v121, main_v122, main_cst_23, main_v123, main_v124, main_v125, main_v126, main_v127, main_v128, main_v129, main_v130, main_v131, main_v132, main_v133, main_call3_cst, main_call3_v0, main_v134]
theorem ops7_writes : (ops7 : List (HloOp τ sig (Elt F))).Forall fun op => op.writes ⊆ (wr7.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 7 does not write keeps its contents across it. -/
theorem keep7 (r : Ref sig .tc) (hr : r ∉ wr7) : V8 m c (Proc.devRef .tc r) = V7 m c (Proc.devRef .tc r) :=
  after_of_writes_sub ops7 _ ops7_writes hr

/-- The buffers piece 8 writes. -/
abbrev wr8 : List (Ref sig .tc) := [main_cst_24, main_v135, main_v136, main_v137, main_v138, main_v139, main_v140, main_v141, main_v142, main_v143, main_v144, main_v145, main_v146, main_v147, main_cst_25, main_v148, main_v149, main_v150, main_cst_26, main_v151, main_cst_27, main_v152]
theorem ops8_writes : (ops8 : List (HloOp τ sig (Elt F))).Forall fun op => op.writes ⊆ (wr8.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 8 does not write keeps its contents across it. -/
theorem keep8 (r : Ref sig .tc) (hr : r ∉ wr8) : V9 m c (Proc.devRef .tc r) = V8 m c (Proc.devRef .tc r) :=
  after_of_writes_sub ops8 _ ops8_writes hr

/-- The buffers piece 9 writes. -/
abbrev wr9 : List (Ref sig .tc) := [main_cst_28, main_v153, main_v154, main_v155, main_v156, main_v157, main_v158, main_v159, main_v160, main_v161, main_v162, main_v163, main_v164, main_v165, main_cst_29, main_v166, main_v167, main_v168, main_cst_30, main_v169, main_cst_31, main_v170, main_v171]
theorem ops9_writes : (ops9 : List (HloOp τ sig (Elt F))).Forall fun op => op.writes ⊆ (wr9.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- A buffer piece 9 does not write keeps its contents across it. -/
theorem keep9 (r : Ref sig .tc) (hr : r ∉ wr9) : V10 m c (Proc.devRef .tc r) = V9 m c (Proc.devRef .tc r) :=
  after_of_writes_sub ops9 _ ops9_writes hr

/-! ## The argument arrays after each piece: as launched -/

theorem arg0_at0 : V0 m c (Proc.devRef .tc main_arg0) = (argv m c main_arg0) := rfl
theorem arg1_at0 : V0 m c (Proc.devRef .tc main_arg1) = (argv m c main_arg1) := rfl
theorem arg2_at0 : V0 m c (Proc.devRef .tc main_arg2) = (argv m c main_arg2) := rfl
theorem arg3_at0 : V0 m c (Proc.devRef .tc main_arg3) = (argv m c main_arg3) := rfl
theorem arg4_at0 : V0 m c (Proc.devRef .tc main_arg4) = (argv m c main_arg4) := rfl
theorem arg5_at0 : V0 m c (Proc.devRef .tc main_arg5) = (argv m c main_arg5) := rfl
theorem arg6_at0 : V0 m c (Proc.devRef .tc main_arg6) = (argv m c main_arg6) := rfl
theorem arg7_at0 : V0 m c (Proc.devRef .tc main_arg7) = (argv m c main_arg7) := rfl
theorem arg8_at0 : V0 m c (Proc.devRef .tc main_arg8) = (argv m c main_arg8) := rfl
theorem arg9_at0 : V0 m c (Proc.devRef .tc main_arg9) = (argv m c main_arg9) := rfl
theorem arg10_at0 : V0 m c (Proc.devRef .tc main_arg10) = (argv m c main_arg10) := rfl
theorem arg11_at0 : V0 m c (Proc.devRef .tc main_arg11) = (argv m c main_arg11) := rfl
theorem arg12_at0 : V0 m c (Proc.devRef .tc main_arg12) = (argv m c main_arg12) := rfl
theorem arg0_at1 : V1 m c (Proc.devRef .tc main_arg0) = (argv m c main_arg0) := (keep0 m c main_arg0 (by decide)).trans (arg0_at0 m c)
theorem arg1_at1 : V1 m c (Proc.devRef .tc main_arg1) = (argv m c main_arg1) := (keep0 m c main_arg1 (by decide)).trans (arg1_at0 m c)
theorem arg2_at1 : V1 m c (Proc.devRef .tc main_arg2) = (argv m c main_arg2) := (keep0 m c main_arg2 (by decide)).trans (arg2_at0 m c)
theorem arg3_at1 : V1 m c (Proc.devRef .tc main_arg3) = (argv m c main_arg3) := (keep0 m c main_arg3 (by decide)).trans (arg3_at0 m c)
theorem arg4_at1 : V1 m c (Proc.devRef .tc main_arg4) = (argv m c main_arg4) := (keep0 m c main_arg4 (by decide)).trans (arg4_at0 m c)
theorem arg5_at1 : V1 m c (Proc.devRef .tc main_arg5) = (argv m c main_arg5) := (keep0 m c main_arg5 (by decide)).trans (arg5_at0 m c)
theorem arg6_at1 : V1 m c (Proc.devRef .tc main_arg6) = (argv m c main_arg6) := (keep0 m c main_arg6 (by decide)).trans (arg6_at0 m c)
theorem arg7_at1 : V1 m c (Proc.devRef .tc main_arg7) = (argv m c main_arg7) := (keep0 m c main_arg7 (by decide)).trans (arg7_at0 m c)
theorem arg8_at1 : V1 m c (Proc.devRef .tc main_arg8) = (argv m c main_arg8) := (keep0 m c main_arg8 (by decide)).trans (arg8_at0 m c)
theorem arg9_at1 : V1 m c (Proc.devRef .tc main_arg9) = (argv m c main_arg9) := (keep0 m c main_arg9 (by decide)).trans (arg9_at0 m c)
theorem arg10_at1 : V1 m c (Proc.devRef .tc main_arg10) = (argv m c main_arg10) := (keep0 m c main_arg10 (by decide)).trans (arg10_at0 m c)
theorem arg11_at1 : V1 m c (Proc.devRef .tc main_arg11) = (argv m c main_arg11) := (keep0 m c main_arg11 (by decide)).trans (arg11_at0 m c)
theorem arg12_at1 : V1 m c (Proc.devRef .tc main_arg12) = (argv m c main_arg12) := (keep0 m c main_arg12 (by decide)).trans (arg12_at0 m c)
theorem arg0_at2 : V2 m c (Proc.devRef .tc main_arg0) = (argv m c main_arg0) := (keep1 m c main_arg0 (by decide)).trans (arg0_at1 m c)
theorem arg1_at2 : V2 m c (Proc.devRef .tc main_arg1) = (argv m c main_arg1) := (keep1 m c main_arg1 (by decide)).trans (arg1_at1 m c)
theorem arg2_at2 : V2 m c (Proc.devRef .tc main_arg2) = (argv m c main_arg2) := (keep1 m c main_arg2 (by decide)).trans (arg2_at1 m c)
theorem arg3_at2 : V2 m c (Proc.devRef .tc main_arg3) = (argv m c main_arg3) := (keep1 m c main_arg3 (by decide)).trans (arg3_at1 m c)
theorem arg4_at2 : V2 m c (Proc.devRef .tc main_arg4) = (argv m c main_arg4) := (keep1 m c main_arg4 (by decide)).trans (arg4_at1 m c)
theorem arg5_at2 : V2 m c (Proc.devRef .tc main_arg5) = (argv m c main_arg5) := (keep1 m c main_arg5 (by decide)).trans (arg5_at1 m c)
theorem arg6_at2 : V2 m c (Proc.devRef .tc main_arg6) = (argv m c main_arg6) := (keep1 m c main_arg6 (by decide)).trans (arg6_at1 m c)
theorem arg7_at2 : V2 m c (Proc.devRef .tc main_arg7) = (argv m c main_arg7) := (keep1 m c main_arg7 (by decide)).trans (arg7_at1 m c)
theorem arg8_at2 : V2 m c (Proc.devRef .tc main_arg8) = (argv m c main_arg8) := (keep1 m c main_arg8 (by decide)).trans (arg8_at1 m c)
theorem arg9_at2 : V2 m c (Proc.devRef .tc main_arg9) = (argv m c main_arg9) := (keep1 m c main_arg9 (by decide)).trans (arg9_at1 m c)
theorem arg10_at2 : V2 m c (Proc.devRef .tc main_arg10) = (argv m c main_arg10) := (keep1 m c main_arg10 (by decide)).trans (arg10_at1 m c)
theorem arg11_at2 : V2 m c (Proc.devRef .tc main_arg11) = (argv m c main_arg11) := (keep1 m c main_arg11 (by decide)).trans (arg11_at1 m c)
theorem arg12_at2 : V2 m c (Proc.devRef .tc main_arg12) = (argv m c main_arg12) := (keep1 m c main_arg12 (by decide)).trans (arg12_at1 m c)
theorem arg0_at3 : V3 m c (Proc.devRef .tc main_arg0) = (argv m c main_arg0) := (keep2 m c main_arg0 (by decide)).trans (arg0_at2 m c)
theorem arg1_at3 : V3 m c (Proc.devRef .tc main_arg1) = (argv m c main_arg1) := (keep2 m c main_arg1 (by decide)).trans (arg1_at2 m c)
theorem arg2_at3 : V3 m c (Proc.devRef .tc main_arg2) = (argv m c main_arg2) := (keep2 m c main_arg2 (by decide)).trans (arg2_at2 m c)
theorem arg3_at3 : V3 m c (Proc.devRef .tc main_arg3) = (argv m c main_arg3) := (keep2 m c main_arg3 (by decide)).trans (arg3_at2 m c)
theorem arg4_at3 : V3 m c (Proc.devRef .tc main_arg4) = (argv m c main_arg4) := (keep2 m c main_arg4 (by decide)).trans (arg4_at2 m c)
theorem arg5_at3 : V3 m c (Proc.devRef .tc main_arg5) = (argv m c main_arg5) := (keep2 m c main_arg5 (by decide)).trans (arg5_at2 m c)
theorem arg6_at3 : V3 m c (Proc.devRef .tc main_arg6) = (argv m c main_arg6) := (keep2 m c main_arg6 (by decide)).trans (arg6_at2 m c)
theorem arg7_at3 : V3 m c (Proc.devRef .tc main_arg7) = (argv m c main_arg7) := (keep2 m c main_arg7 (by decide)).trans (arg7_at2 m c)
theorem arg8_at3 : V3 m c (Proc.devRef .tc main_arg8) = (argv m c main_arg8) := (keep2 m c main_arg8 (by decide)).trans (arg8_at2 m c)
theorem arg9_at3 : V3 m c (Proc.devRef .tc main_arg9) = (argv m c main_arg9) := (keep2 m c main_arg9 (by decide)).trans (arg9_at2 m c)
theorem arg10_at3 : V3 m c (Proc.devRef .tc main_arg10) = (argv m c main_arg10) := (keep2 m c main_arg10 (by decide)).trans (arg10_at2 m c)
theorem arg11_at3 : V3 m c (Proc.devRef .tc main_arg11) = (argv m c main_arg11) := (keep2 m c main_arg11 (by decide)).trans (arg11_at2 m c)
theorem arg12_at3 : V3 m c (Proc.devRef .tc main_arg12) = (argv m c main_arg12) := (keep2 m c main_arg12 (by decide)).trans (arg12_at2 m c)
theorem arg0_at4 : V4 m c (Proc.devRef .tc main_arg0) = (argv m c main_arg0) := (keep3 m c main_arg0 (by decide)).trans (arg0_at3 m c)
theorem arg1_at4 : V4 m c (Proc.devRef .tc main_arg1) = (argv m c main_arg1) := (keep3 m c main_arg1 (by decide)).trans (arg1_at3 m c)
theorem arg2_at4 : V4 m c (Proc.devRef .tc main_arg2) = (argv m c main_arg2) := (keep3 m c main_arg2 (by decide)).trans (arg2_at3 m c)
theorem arg3_at4 : V4 m c (Proc.devRef .tc main_arg3) = (argv m c main_arg3) := (keep3 m c main_arg3 (by decide)).trans (arg3_at3 m c)
theorem arg4_at4 : V4 m c (Proc.devRef .tc main_arg4) = (argv m c main_arg4) := (keep3 m c main_arg4 (by decide)).trans (arg4_at3 m c)
theorem arg5_at4 : V4 m c (Proc.devRef .tc main_arg5) = (argv m c main_arg5) := (keep3 m c main_arg5 (by decide)).trans (arg5_at3 m c)
theorem arg6_at4 : V4 m c (Proc.devRef .tc main_arg6) = (argv m c main_arg6) := (keep3 m c main_arg6 (by decide)).trans (arg6_at3 m c)
theorem arg7_at4 : V4 m c (Proc.devRef .tc main_arg7) = (argv m c main_arg7) := (keep3 m c main_arg7 (by decide)).trans (arg7_at3 m c)
theorem arg8_at4 : V4 m c (Proc.devRef .tc main_arg8) = (argv m c main_arg8) := (keep3 m c main_arg8 (by decide)).trans (arg8_at3 m c)
theorem arg9_at4 : V4 m c (Proc.devRef .tc main_arg9) = (argv m c main_arg9) := (keep3 m c main_arg9 (by decide)).trans (arg9_at3 m c)
theorem arg10_at4 : V4 m c (Proc.devRef .tc main_arg10) = (argv m c main_arg10) := (keep3 m c main_arg10 (by decide)).trans (arg10_at3 m c)
theorem arg11_at4 : V4 m c (Proc.devRef .tc main_arg11) = (argv m c main_arg11) := (keep3 m c main_arg11 (by decide)).trans (arg11_at3 m c)
theorem arg12_at4 : V4 m c (Proc.devRef .tc main_arg12) = (argv m c main_arg12) := (keep3 m c main_arg12 (by decide)).trans (arg12_at3 m c)
theorem arg0_at5 : V5 m c (Proc.devRef .tc main_arg0) = (argv m c main_arg0) := (keep4 m c main_arg0 (by decide)).trans (arg0_at4 m c)
theorem arg1_at5 : V5 m c (Proc.devRef .tc main_arg1) = (argv m c main_arg1) := (keep4 m c main_arg1 (by decide)).trans (arg1_at4 m c)
theorem arg2_at5 : V5 m c (Proc.devRef .tc main_arg2) = (argv m c main_arg2) := (keep4 m c main_arg2 (by decide)).trans (arg2_at4 m c)
theorem arg3_at5 : V5 m c (Proc.devRef .tc main_arg3) = (argv m c main_arg3) := (keep4 m c main_arg3 (by decide)).trans (arg3_at4 m c)
theorem arg4_at5 : V5 m c (Proc.devRef .tc main_arg4) = (argv m c main_arg4) := (keep4 m c main_arg4 (by decide)).trans (arg4_at4 m c)
theorem arg5_at5 : V5 m c (Proc.devRef .tc main_arg5) = (argv m c main_arg5) := (keep4 m c main_arg5 (by decide)).trans (arg5_at4 m c)
theorem arg6_at5 : V5 m c (Proc.devRef .tc main_arg6) = (argv m c main_arg6) := (keep4 m c main_arg6 (by decide)).trans (arg6_at4 m c)
theorem arg7_at5 : V5 m c (Proc.devRef .tc main_arg7) = (argv m c main_arg7) := (keep4 m c main_arg7 (by decide)).trans (arg7_at4 m c)
theorem arg8_at5 : V5 m c (Proc.devRef .tc main_arg8) = (argv m c main_arg8) := (keep4 m c main_arg8 (by decide)).trans (arg8_at4 m c)
theorem arg9_at5 : V5 m c (Proc.devRef .tc main_arg9) = (argv m c main_arg9) := (keep4 m c main_arg9 (by decide)).trans (arg9_at4 m c)
theorem arg10_at5 : V5 m c (Proc.devRef .tc main_arg10) = (argv m c main_arg10) := (keep4 m c main_arg10 (by decide)).trans (arg10_at4 m c)
theorem arg11_at5 : V5 m c (Proc.devRef .tc main_arg11) = (argv m c main_arg11) := (keep4 m c main_arg11 (by decide)).trans (arg11_at4 m c)
theorem arg12_at5 : V5 m c (Proc.devRef .tc main_arg12) = (argv m c main_arg12) := (keep4 m c main_arg12 (by decide)).trans (arg12_at4 m c)
theorem arg0_at6 : V6 m c (Proc.devRef .tc main_arg0) = (argv m c main_arg0) := (keep5 m c main_arg0 (by decide)).trans (arg0_at5 m c)
theorem arg1_at6 : V6 m c (Proc.devRef .tc main_arg1) = (argv m c main_arg1) := (keep5 m c main_arg1 (by decide)).trans (arg1_at5 m c)
theorem arg2_at6 : V6 m c (Proc.devRef .tc main_arg2) = (argv m c main_arg2) := (keep5 m c main_arg2 (by decide)).trans (arg2_at5 m c)
theorem arg3_at6 : V6 m c (Proc.devRef .tc main_arg3) = (argv m c main_arg3) := (keep5 m c main_arg3 (by decide)).trans (arg3_at5 m c)
theorem arg4_at6 : V6 m c (Proc.devRef .tc main_arg4) = (argv m c main_arg4) := (keep5 m c main_arg4 (by decide)).trans (arg4_at5 m c)
theorem arg5_at6 : V6 m c (Proc.devRef .tc main_arg5) = (argv m c main_arg5) := (keep5 m c main_arg5 (by decide)).trans (arg5_at5 m c)
theorem arg6_at6 : V6 m c (Proc.devRef .tc main_arg6) = (argv m c main_arg6) := (keep5 m c main_arg6 (by decide)).trans (arg6_at5 m c)
theorem arg7_at6 : V6 m c (Proc.devRef .tc main_arg7) = (argv m c main_arg7) := (keep5 m c main_arg7 (by decide)).trans (arg7_at5 m c)
theorem arg8_at6 : V6 m c (Proc.devRef .tc main_arg8) = (argv m c main_arg8) := (keep5 m c main_arg8 (by decide)).trans (arg8_at5 m c)
theorem arg9_at6 : V6 m c (Proc.devRef .tc main_arg9) = (argv m c main_arg9) := (keep5 m c main_arg9 (by decide)).trans (arg9_at5 m c)
theorem arg10_at6 : V6 m c (Proc.devRef .tc main_arg10) = (argv m c main_arg10) := (keep5 m c main_arg10 (by decide)).trans (arg10_at5 m c)
theorem arg11_at6 : V6 m c (Proc.devRef .tc main_arg11) = (argv m c main_arg11) := (keep5 m c main_arg11 (by decide)).trans (arg11_at5 m c)
theorem arg12_at6 : V6 m c (Proc.devRef .tc main_arg12) = (argv m c main_arg12) := (keep5 m c main_arg12 (by decide)).trans (arg12_at5 m c)
theorem arg0_at7 : V7 m c (Proc.devRef .tc main_arg0) = (argv m c main_arg0) := (keep6 m c main_arg0 (by decide)).trans (arg0_at6 m c)
theorem arg1_at7 : V7 m c (Proc.devRef .tc main_arg1) = (argv m c main_arg1) := (keep6 m c main_arg1 (by decide)).trans (arg1_at6 m c)
theorem arg2_at7 : V7 m c (Proc.devRef .tc main_arg2) = (argv m c main_arg2) := (keep6 m c main_arg2 (by decide)).trans (arg2_at6 m c)
theorem arg3_at7 : V7 m c (Proc.devRef .tc main_arg3) = (argv m c main_arg3) := (keep6 m c main_arg3 (by decide)).trans (arg3_at6 m c)
theorem arg4_at7 : V7 m c (Proc.devRef .tc main_arg4) = (argv m c main_arg4) := (keep6 m c main_arg4 (by decide)).trans (arg4_at6 m c)
theorem arg5_at7 : V7 m c (Proc.devRef .tc main_arg5) = (argv m c main_arg5) := (keep6 m c main_arg5 (by decide)).trans (arg5_at6 m c)
theorem arg6_at7 : V7 m c (Proc.devRef .tc main_arg6) = (argv m c main_arg6) := (keep6 m c main_arg6 (by decide)).trans (arg6_at6 m c)
theorem arg7_at7 : V7 m c (Proc.devRef .tc main_arg7) = (argv m c main_arg7) := (keep6 m c main_arg7 (by decide)).trans (arg7_at6 m c)
theorem arg8_at7 : V7 m c (Proc.devRef .tc main_arg8) = (argv m c main_arg8) := (keep6 m c main_arg8 (by decide)).trans (arg8_at6 m c)
theorem arg9_at7 : V7 m c (Proc.devRef .tc main_arg9) = (argv m c main_arg9) := (keep6 m c main_arg9 (by decide)).trans (arg9_at6 m c)
theorem arg10_at7 : V7 m c (Proc.devRef .tc main_arg10) = (argv m c main_arg10) := (keep6 m c main_arg10 (by decide)).trans (arg10_at6 m c)
theorem arg11_at7 : V7 m c (Proc.devRef .tc main_arg11) = (argv m c main_arg11) := (keep6 m c main_arg11 (by decide)).trans (arg11_at6 m c)
theorem arg12_at7 : V7 m c (Proc.devRef .tc main_arg12) = (argv m c main_arg12) := (keep6 m c main_arg12 (by decide)).trans (arg12_at6 m c)
theorem arg0_at8 : V8 m c (Proc.devRef .tc main_arg0) = (argv m c main_arg0) := (keep7 m c main_arg0 (by decide)).trans (arg0_at7 m c)
theorem arg1_at8 : V8 m c (Proc.devRef .tc main_arg1) = (argv m c main_arg1) := (keep7 m c main_arg1 (by decide)).trans (arg1_at7 m c)
theorem arg2_at8 : V8 m c (Proc.devRef .tc main_arg2) = (argv m c main_arg2) := (keep7 m c main_arg2 (by decide)).trans (arg2_at7 m c)
theorem arg3_at8 : V8 m c (Proc.devRef .tc main_arg3) = (argv m c main_arg3) := (keep7 m c main_arg3 (by decide)).trans (arg3_at7 m c)
theorem arg4_at8 : V8 m c (Proc.devRef .tc main_arg4) = (argv m c main_arg4) := (keep7 m c main_arg4 (by decide)).trans (arg4_at7 m c)
theorem arg5_at8 : V8 m c (Proc.devRef .tc main_arg5) = (argv m c main_arg5) := (keep7 m c main_arg5 (by decide)).trans (arg5_at7 m c)
theorem arg6_at8 : V8 m c (Proc.devRef .tc main_arg6) = (argv m c main_arg6) := (keep7 m c main_arg6 (by decide)).trans (arg6_at7 m c)
theorem arg7_at8 : V8 m c (Proc.devRef .tc main_arg7) = (argv m c main_arg7) := (keep7 m c main_arg7 (by decide)).trans (arg7_at7 m c)
theorem arg8_at8 : V8 m c (Proc.devRef .tc main_arg8) = (argv m c main_arg8) := (keep7 m c main_arg8 (by decide)).trans (arg8_at7 m c)
theorem arg9_at8 : V8 m c (Proc.devRef .tc main_arg9) = (argv m c main_arg9) := (keep7 m c main_arg9 (by decide)).trans (arg9_at7 m c)
theorem arg10_at8 : V8 m c (Proc.devRef .tc main_arg10) = (argv m c main_arg10) := (keep7 m c main_arg10 (by decide)).trans (arg10_at7 m c)
theorem arg11_at8 : V8 m c (Proc.devRef .tc main_arg11) = (argv m c main_arg11) := (keep7 m c main_arg11 (by decide)).trans (arg11_at7 m c)
theorem arg12_at8 : V8 m c (Proc.devRef .tc main_arg12) = (argv m c main_arg12) := (keep7 m c main_arg12 (by decide)).trans (arg12_at7 m c)
theorem arg0_at9 : V9 m c (Proc.devRef .tc main_arg0) = (argv m c main_arg0) := (keep8 m c main_arg0 (by decide)).trans (arg0_at8 m c)
theorem arg1_at9 : V9 m c (Proc.devRef .tc main_arg1) = (argv m c main_arg1) := (keep8 m c main_arg1 (by decide)).trans (arg1_at8 m c)
theorem arg2_at9 : V9 m c (Proc.devRef .tc main_arg2) = (argv m c main_arg2) := (keep8 m c main_arg2 (by decide)).trans (arg2_at8 m c)
theorem arg3_at9 : V9 m c (Proc.devRef .tc main_arg3) = (argv m c main_arg3) := (keep8 m c main_arg3 (by decide)).trans (arg3_at8 m c)
theorem arg4_at9 : V9 m c (Proc.devRef .tc main_arg4) = (argv m c main_arg4) := (keep8 m c main_arg4 (by decide)).trans (arg4_at8 m c)
theorem arg5_at9 : V9 m c (Proc.devRef .tc main_arg5) = (argv m c main_arg5) := (keep8 m c main_arg5 (by decide)).trans (arg5_at8 m c)
theorem arg6_at9 : V9 m c (Proc.devRef .tc main_arg6) = (argv m c main_arg6) := (keep8 m c main_arg6 (by decide)).trans (arg6_at8 m c)
theorem arg7_at9 : V9 m c (Proc.devRef .tc main_arg7) = (argv m c main_arg7) := (keep8 m c main_arg7 (by decide)).trans (arg7_at8 m c)
theorem arg8_at9 : V9 m c (Proc.devRef .tc main_arg8) = (argv m c main_arg8) := (keep8 m c main_arg8 (by decide)).trans (arg8_at8 m c)
theorem arg9_at9 : V9 m c (Proc.devRef .tc main_arg9) = (argv m c main_arg9) := (keep8 m c main_arg9 (by decide)).trans (arg9_at8 m c)
theorem arg10_at9 : V9 m c (Proc.devRef .tc main_arg10) = (argv m c main_arg10) := (keep8 m c main_arg10 (by decide)).trans (arg10_at8 m c)
theorem arg11_at9 : V9 m c (Proc.devRef .tc main_arg11) = (argv m c main_arg11) := (keep8 m c main_arg11 (by decide)).trans (arg11_at8 m c)
theorem arg12_at9 : V9 m c (Proc.devRef .tc main_arg12) = (argv m c main_arg12) := (keep8 m c main_arg12 (by decide)).trans (arg12_at8 m c)
theorem arg0_at10 : V10 m c (Proc.devRef .tc main_arg0) = (argv m c main_arg0) := (keep9 m c main_arg0 (by decide)).trans (arg0_at9 m c)
theorem arg1_at10 : V10 m c (Proc.devRef .tc main_arg1) = (argv m c main_arg1) := (keep9 m c main_arg1 (by decide)).trans (arg1_at9 m c)
theorem arg2_at10 : V10 m c (Proc.devRef .tc main_arg2) = (argv m c main_arg2) := (keep9 m c main_arg2 (by decide)).trans (arg2_at9 m c)
theorem arg3_at10 : V10 m c (Proc.devRef .tc main_arg3) = (argv m c main_arg3) := (keep9 m c main_arg3 (by decide)).trans (arg3_at9 m c)
theorem arg4_at10 : V10 m c (Proc.devRef .tc main_arg4) = (argv m c main_arg4) := (keep9 m c main_arg4 (by decide)).trans (arg4_at9 m c)
theorem arg5_at10 : V10 m c (Proc.devRef .tc main_arg5) = (argv m c main_arg5) := (keep9 m c main_arg5 (by decide)).trans (arg5_at9 m c)
theorem arg6_at10 : V10 m c (Proc.devRef .tc main_arg6) = (argv m c main_arg6) := (keep9 m c main_arg6 (by decide)).trans (arg6_at9 m c)
theorem arg7_at10 : V10 m c (Proc.devRef .tc main_arg7) = (argv m c main_arg7) := (keep9 m c main_arg7 (by decide)).trans (arg7_at9 m c)
theorem arg8_at10 : V10 m c (Proc.devRef .tc main_arg8) = (argv m c main_arg8) := (keep9 m c main_arg8 (by decide)).trans (arg8_at9 m c)
theorem arg9_at10 : V10 m c (Proc.devRef .tc main_arg9) = (argv m c main_arg9) := (keep9 m c main_arg9 (by decide)).trans (arg9_at9 m c)
theorem arg10_at10 : V10 m c (Proc.devRef .tc main_arg10) = (argv m c main_arg10) := (keep9 m c main_arg10 (by decide)).trans (arg10_at9 m c)
theorem arg11_at10 : V10 m c (Proc.devRef .tc main_arg11) = (argv m c main_arg11) := (keep9 m c main_arg11 (by decide)).trans (arg11_at9 m c)
theorem arg12_at10 : V10 m c (Proc.devRef .tc main_arg12) = (argv m c main_arg12) := (keep9 m c main_arg12 (by decide)).trans (arg12_at9 m c)

/-! ## The stages -/

/-- The node encodings after one and two rounds on the given edge features … -/
def Hp0 : RefSpec.AN F := RefSpec.rLayer (argv m c main_arg0) (argv m c main_arg1) (argv m c main_arg2) (argv m c main_arg3) (argv m c main_arg5) (argv m c main_arg6) (argv m c main_arg7) (argv m c main_arg8)
def Hp1 : RefSpec.AN F := RefSpec.rLayer (Hp0 m c) (argv m c main_arg1) (argv m c main_arg2) (argv m c main_arg3) (argv m c main_arg9) (argv m c main_arg10) (argv m c main_arg11) (argv m c main_arg12)
/-- … the permuted edge features … -/
def EFn : RefSpec.AE F := RefSpec.rGathE (argv m c main_arg1) (argv m c main_arg4)
/-- … and the node encodings after one and two rounds on those. -/
def Hn0 : RefSpec.AN F := RefSpec.rLayer (argv m c main_arg0) (EFn m c) (argv m c main_arg2) (argv m c main_arg3) (argv m c main_arg5) (argv m c main_arg6) (argv m c main_arg7) (argv m c main_arg8)
def Hn1 : RefSpec.AN F := RefSpec.rLayer (Hn0 m c) (EFn m c) (argv m c main_arg2) (argv m c main_arg3) (argv m c main_arg9) (argv m c main_arg10) (argv m c main_arg11) (argv m c main_arg12)

/-- Piece 0 leaves the first round's messages. -/
theorem msg_p0 : V1 m c (Proc.devRef .tc main_v12) = RefSpec.rMsg (RefSpec.rGath (argv m c main_arg0) (argv m c main_arg2)) (argv m c main_arg1) (argv m c main_arg5) (argv m c main_arg6) := by
  show after ops0 (V0 m c) (Proc.devRef .tc main_v12) = _
  simp only [ops0]
  after_results
  rfl

/-- Piece 1 leaves the first round's node encoding. -/
theorem upd_p0 : V2 m c (Proc.devRef .tc main_v31) = Hp0 m c := by
  show after ops1 (V1 m c) (Proc.devRef .tc main_v31) = _
  simp only [ops1]
  after_results
  rw [msg_p0 m c, arg0_at1 m c, arg3_at1 m c, arg7_at1 m c, arg8_at1 m c]
  rfl

/-- Piece 2 leaves the second round's messages. -/
theorem msg_p1 : V3 m c (Proc.devRef .tc main_v44) = RefSpec.rMsg (RefSpec.rGath (Hp0 m c) (argv m c main_arg2)) (argv m c main_arg1) (argv m c main_arg9) (argv m c main_arg10) := by
  show after ops2 (V2 m c) (Proc.devRef .tc main_v44) = _
  simp only [ops2]
  after_results
  rw [upd_p0 m c, arg2_at2 m c, arg1_at2 m c, arg9_at2 m c, arg10_at2 m c]
  rfl

theorem v31_at3 : V3 m c (Proc.devRef .tc main_v31) = Hp0 m c := (keep2 m c main_v31 (by decide)).trans (upd_p0 m c)

/-- Piece 3 leaves the second round's node encoding. -/
theorem upd_p1 : V4 m c (Proc.devRef .tc main_v63) = Hp1 m c := by
  show after ops3 (V3 m c) (Proc.devRef .tc main_v63) = _
  simp only [ops3]
  after_results
  rw [msg_p1 m c, v31_at3 m c, arg3_at3 m c, arg11_at3 m c, arg12_at3 m c]
  rfl

/-- Piece 4 leaves the permuted edge features and the first round's messages on them. -/
theorem efn_at5 : V5 m c (Proc.devRef .tc main_v70) = EFn m c := by
  show after ops4 (V4 m c) (Proc.devRef .tc main_v70) = _
  simp only [ops4]
  after_results
  rw [arg1_at4 m c, arg4_at4 m c]
  rfl
set_option maxHeartbeats 2000000 in
theorem msg_n0 : V5 m c (Proc.devRef .tc main_v83) = RefSpec.rMsg (RefSpec.rGath (argv m c main_arg0) (argv m c main_arg2)) (EFn m c) (argv m c main_arg5) (argv m c main_arg6) := by
  show after ops4 (V4 m c) (Proc.devRef .tc main_v83) = _
  simp only [ops4]
  after_results
  rw [arg0_at4 m c, arg1_at4 m c, arg2_at4 m c, arg4_at4 m c, arg5_at4 m c, arg6_at4 m c]
  rfl

/-- Piece 5 leaves the first round's node encoding on the permuted features. -/
theorem upd_n0 : V6 m c (Proc.devRef .tc main_v102) = Hn0 m c := by
  show after ops5 (V5 m c) (Proc.devRef .tc main_v102) = _
  simp only [ops5]
  after_results
  rw [msg_n0 m c, arg0_at5 m c, arg3_at5 m c, arg7_at5 m c, arg8_at5 m c]
  rfl

theorem efn_at6 : V6 m c (Proc.devRef .tc main_v70) = EFn m c := (keep5 m c main_v70 (by decide)).trans (efn_at5 m c)

/-- Piece 6 leaves the second round's messages on the permuted features. -/
theorem msg_n1 : V7 m c (Proc.devRef .tc main_v115) = RefSpec.rMsg (RefSpec.rGath (Hn0 m c) (argv m c main_arg2)) (EFn m c) (argv m c main_arg9) (argv m c main_arg10) := by
  show after ops6 (V6 m c) (Proc.devRef .tc main_v115) = _
  simp only [ops6]
  after_results
  rw [upd_n0 m c, efn_at6 m c, arg2_at6 m c, arg9_at6 m c, arg10_at6 m c]
  rfl

theorem v102_at7 : V7 m c (Proc.devRef .tc main_v102) = Hn0 m c := (keep6 m c main_v102 (by decide)).trans (upd_n0 m c)

/-- Piece 7 leaves the second round's node encoding on the permuted features. -/
theorem upd_n1 : V8 m c (Proc.devRef .tc main_v134) = Hn1 m c := by
  show after ops7 (V7 m c) (Proc.devRef .tc main_v134) = _
  simp only [ops7]
  after_results
  rw [msg_n1 m c, v102_at7 m c, arg3_at7 m c, arg11_at7 m c, arg12_at7 m c]
  rfl

theorem v63_at8 : V8 m c (Proc.devRef .tc main_v63) = Hp1 m c :=
  (keep7 m c main_v63 (by decide)).trans ((keep6 m c main_v63 (by decide)).trans ((keep5 m c main_v63 (by decide)).trans
    ((keep4 m c main_v63 (by decide)).trans (upd_p1 m c))))

/-- Piece 8 leaves the loss of the encoding on the given features against target one. -/
theorem loss_p : V9 m c (Proc.devRef .tc main_v152) = RefSpec.rLoss 0x3F800000#32 (Hp1 m c) := by
  show after ops8 (V8 m c) (Proc.devRef .tc main_v152) = _
  simp only [ops8]
  after_results
  rw [v63_at8 m c]
  rfl

theorem v134_at9 : V9 m c (Proc.devRef .tc main_v134) = Hn1 m c := (keep8 m c main_v134 (by decide)).trans (upd_n1 m c)

set_option maxHeartbeats 2000000 in
/-- Piece 9 leaves the loss of the encoding on the permuted features against target zero, and the two losses' sum. -/
theorem total_at10 : V10 m c (Proc.devRef .tc main_v171)
    = RefSpec.rTotal (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) (argv m c main_arg12) := by
  show after ops9 (V9 m c) (Proc.devRef .tc main_v171) = _
  simp only [ops9]
  after_results
  rw [v134_at9 m c, loss_p m c]
  rfl

/-! ## The run, read -/

/-- Every execution of the reference program terminates with its result at the stage functions' composition of the
    argument arrays, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v171)
        = RefSpec.rTotal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v171).trans ((congrFun (after_ops m c) _).trans (total_at10 m c)),
      (h c main_arg0).trans ((congrFun (after_ops m c) _).trans (arg0_at10 m c)),
      (h c main_arg1).trans ((congrFun (after_ops m c) _).trans (arg1_at10 m c)),
      (h c main_arg2).trans ((congrFun (after_ops m c) _).trans (arg2_at10 m c)),
      (h c main_arg3).trans ((congrFun (after_ops m c) _).trans (arg3_at10 m c)),
      (h c main_arg4).trans ((congrFun (after_ops m c) _).trans (arg4_at10 m c)),
      (h c main_arg5).trans ((congrFun (after_ops m c) _).trans (arg5_at10 m c)),
      (h c main_arg6).trans ((congrFun (after_ops m c) _).trans (arg6_at10 m c)),
      (h c main_arg7).trans ((congrFun (after_ops m c) _).trans (arg7_at10 m c)),
      (h c main_arg8).trans ((congrFun (after_ops m c) _).trans (arg8_at10 m c)),
      (h c main_arg9).trans ((congrFun (after_ops m c) _).trans (arg9_at10 m c)),
      (h c main_arg10).trans ((congrFun (after_ops m c) _).trans (arg10_at10 m c)),
      (h c main_arg11).trans ((congrFun (after_ops m c) _).trans (arg11_at10 m c)),
      (h c main_arg12).trans ((congrFun (after_ops m c) _).trans (arg12_at10 m c))⟩)
    (run_raw m ρ)

end Cert.ReferenceIdeal.HandRun

end
-- ==== Proof.KbRegion0.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or carried from an earlier point with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or carried from an earlier point with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or carried from an earlier point with the same block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or carried from an earlier point with the same block index. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or carried from an earlier point with the same block index. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: the one store, of the body's arithmetic on the input blocks. -/
def out0 (x0 : Vec F S10000x64 .f32) (x1 : Vec F S10000x64 .f32) (x2 : Vec F S64x64 .f32) (x3 : Vec F S64x64 .f32) (x4 : Vec F S1x64 .f32) : Vec F S10000x64 .f32 :=
  View.canon [⟨(Rect.unit (s := S10000x64) ![0, 0] S10000x64.size inb_S10000x64_S10000x64_0_0), k0_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

theorem cover0 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out0` of the inputs. -/
theorem sound_kernel0 (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0 x0 x1 x2 x3 x4)) -∗ K ⟨⟩))
      ⊢ wp frame (wpE (defs₀ (F := F)) Variants.none c none) E (cc0__message_kernel i arg1 harg1 arg2 harg2 arg3 harg3 arg4 harg4 arg5 harg5 arg6 harg6) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The pipeline's proof data at region entry contents `V`: every input buffer keeps its block, the output buffer holds the body's result on the input blocks; nothing owed, full shares, the class-A invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Blocks

end
-- ==== Proof.KbRegion1.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or carried from an earlier point with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or carried from an earlier point with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or carried from an earlier point with the same block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or carried from an earlier point with the same block index. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or carried from an earlier point with the same block index. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or carried from an earlier point with the same block index. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: the one store, of the body's arithmetic on the input blocks. -/
def out1 (x0 : Vec F S10000x64 .f32) (x1 : Vec F S10000x64 .f32) (x2 : Vec F S10000x1 .f32) (x3 : Vec F S64x64 .f32) (x4 : Vec F S64x64 .f32) (x5 : Vec F S1x64 .f32) : Vec F S10000x64 .f32 :=
  View.canon [⟨(Rect.unit (s := S10000x64) ![0, 0] S10000x64.size inb_S10000x64_S10000x64_0_0), k1_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S10000x1) ![0, 0] S10000x1.size inb_S10000x1_S10000x1_0_0)) (View.ld x3 (Rect.unit (s := S64x64) ![0, 0] S64x64.size inb_S64x64_S64x64_0_0)) (View.ld x4 (Rect.unit (s := S64x64) ![0, 0] S64x64.size inb_S64x64_S64x64_0_0)) (View.ld x5 (Rect.unit (s := S1x64) ![0, 0] S1x64.size inb_S1x64_S1x64_0_0))⟩]

theorem cover1 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out1` of the inputs. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 : Vec F S10000x64 .f32) (x1 : Vec F S10000x64 .f32) (x2 : Vec F S10000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1 x0 x1 x2 x3 x4 x5)) -∗ K ⟨⟩))
      ⊢ wp frame (wpE (defs₀ (F := F)) Variants.none c none) E (cc1__update_kernel i arg1 harg1 arg2 harg2 arg3 harg3 arg4 harg4 arg5 harg5 arg6 harg6 arg7 harg7) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The pipeline's proof data at region entry contents `V`: every input buffer keeps its block, the output buffer holds the body's result on the input blocks; nothing owed, full shares, the class-A invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Blocks

end
-- ==== Proof.KbRegion2.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or carried from an earlier point with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or carried from an earlier point with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or carried from an earlier point with the same block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or carried from an earlier point with the same block index. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or carried from an earlier point with the same block index. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: the one store, of the body's arithmetic on the input blocks. -/
def out2 (x0 : Vec F S10000x64 .f32) (x1 : Vec F S10000x64 .f32) (x2 : Vec F S64x64 .f32) (x3 : Vec F S64x64 .f32) (x4 : Vec F S1x64 .f32) : Vec F S10000x64 .f32 :=
  View.canon [⟨(Rect.unit (s := S10000x64) ![0, 0] S10000x64.size inb_S10000x64_S10000x64_0_0), k2_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

theorem cover2 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out2` of the inputs. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2 x0 x1 x2 x3 x4)) -∗ K ⟨⟩))
      ⊢ wp frame (wpE (defs₀ (F := F)) Variants.none c none) E (cc2__message_kernel i arg1 harg1 arg2 harg2 arg3 harg3 arg4 harg4 arg5 harg5 arg6 harg6) K := by
  simp only [cc2__message_kernel_eq_skeleton]; unfold cc2__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The pipeline's proof data at region entry contents `V`: every input buffer keeps its block, the output buffer holds the body's result on the input blocks; nothing owed, full shares, the class-A invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Blocks

end
-- ==== Proof.KbRegion3.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or carried from an earlier point with the same block index. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or carried from an earlier point with the same block index. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or carried from an earlier point with the same block index. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or carried from an earlier point with the same block index. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or carried from an earlier point with the same block index. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or carried from an earlier point with the same block index. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: the one store, of the body's arithmetic on the input blocks. -/
def out3 (x0 : Vec F S10000x64 .f32) (x1 : Vec F S10000x64 .f32) (x2 : Vec F S10000x1 .f32) (x3 : Vec F S64x64 .f32) (x4 : Vec F S64x64 .f32) (x5 : Vec F S1x64 .f32) : Vec F S10000x64 .f32 :=
  View.canon [⟨(Rect.unit (s := S10000x64) ![0, 0] S10000x64.size inb_S10000x64_S10000x64_0_0), k3_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S10000x1) ![0, 0] S10000x1.size inb_S10000x1_S10000x1_0_0)) (View.ld x3 (Rect.unit (s := S64x64) ![0, 0] S64x64.size inb_S64x64_S64x64_0_0)) (View.ld x4 (Rect.unit (s := S64x64) ![0, 0] S64x64.size inb_S64x64_S64x64_0_0)) (View.ld x5 (Rect.unit (s := S1x64) ![0, 0] S1x64.size inb_S1x64_S1x64_0_0))⟩]

theorem cover3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out3` of the inputs. -/
theorem sound_kernel3 (c : Dev nD) (E : Set ℕ) (i : grid3.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 : Vec F S10000x64 .f32) (x1 : Vec F S10000x64 .f32) (x2 : Vec F S10000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3 x0 x1 x2 x3 x4 x5)) -∗ K ⟨⟩))
      ⊢ wp frame (wpE (defs₀ (F := F)) Variants.none c none) E (cc3__update_kernel i arg1 harg1 arg2 harg2 arg3 harg3 arg4 harg4 arg5 harg5 arg6 harg6 arg7 harg7) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The pipeline's proof data at region entry contents `V`: every input buffer keeps its block, the output buffer holds the body's result on the input blocks; nothing owed, full shares, the class-A invariant. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Blocks

end
-- ==== Proof.KbRegion4.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or carried from an earlier point with the same block index. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or carried from an earlier point with the same block index. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or carried from an earlier point with the same block index. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or carried from an earlier point with the same block index. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or carried from an earlier point with the same block index. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The output block after the body: the one store, of the body's arithmetic on the input blocks. -/
def out4 (x0 : Vec F S10000x64 .f32) (x1 : Vec F S10000x64 .f32) (x2 : Vec F S64x64 .f32) (x3 : Vec F S64x64 .f32) (x4 : Vec F S1x64 .f32) : Vec F S10000x64 .f32 :=
  View.canon [⟨(Rect.unit (s := S10000x64) ![0, 0] S10000x64.size inb_S10000x64_S10000x64_0_0), k4_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

theorem cover4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out4` of the inputs. -/
theorem sound_kernel4 (c : Dev nD) (E : Set ℕ) (i : grid4.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4 x0 x1 x2 x3 x4)) -∗ K ⟨⟩))
      ⊢ wp frame (wpE (defs₀ (F := F)) Variants.none c none) E (cc4__message_kernel i arg1 harg1 arg2 harg2 arg3 harg3 arg4 harg4 arg5 harg5 arg6 harg6) K := by
  simp only [cc4__message_kernel_eq_skeleton]; unfold cc4__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-- The pipeline's proof data at region entry contents `V`: every input buffer keeps its block, the output buffer holds the body's result on the input blocks; nothing owed, full shares, the class-A invariant. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Blocks

end
-- ==== Proof.KbRegion5.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or carried from an earlier point with the same block index. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or carried from an earlier point with the same block index. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or carried from an earlier point with the same block index. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or carried from an earlier point with the same block index. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or carried from an earlier point with the same block index. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, fetched there or carried from an earlier point with the same block index. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: the one store, of the body's arithmetic on the input blocks. -/
def out5 (x0 : Vec F S10000x64 .f32) (x1 : Vec F S10000x64 .f32) (x2 : Vec F S10000x1 .f32) (x3 : Vec F S64x64 .f32) (x4 : Vec F S64x64 .f32) (x5 : Vec F S1x64 .f32) : Vec F S10000x64 .f32 :=
  View.canon [⟨(Rect.unit (s := S10000x64) ![0, 0] S10000x64.size inb_S10000x64_S10000x64_0_0), k5_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S10000x1) ![0, 0] S10000x1.size inb_S10000x1_S10000x1_0_0)) (View.ld x3 (Rect.unit (s := S64x64) ![0, 0] S64x64.size inb_S64x64_S64x64_0_0)) (View.ld x4 (Rect.unit (s := S64x64) ![0, 0] S64x64.size inb_S64x64_S64x64_0_0)) (View.ld x5 (Rect.unit (s := S1x64) ![0, 0] S1x64.size inb_S1x64_S1x64_0_0))⟩]

theorem cover5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out5` of the inputs. -/
theorem sound_kernel5 (c : Dev nD) (E : Set ℕ) (i : grid5.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 : Vec F S10000x64 .f32) (x1 : Vec F S10000x64 .f32) (x2 : Vec F S10000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5 x0 x1 x2 x3 x4 x5)) -∗ K ⟨⟩))
      ⊢ wp frame (wpE (defs₀ (F := F)) Variants.none c none) E (cc5__update_kernel i arg1 harg1 arg2 harg2 arg3 harg3 arg4 harg4 arg5 harg5 arg6 harg6 arg7 harg7) K := by
  simp only [cc5__update_kernel_eq_skeleton]; unfold cc5__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-- The pipeline's proof data at region entry contents `V`: every input buffer keeps its block, the output buffer holds the body's result on the input blocks; nothing owed, full shares, the class-A invariant. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.Kernel.Blocks

end
-- ==== Proof.KbRegion6.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or carried from an earlier point with the same block index. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or carried from an earlier point with the same block index. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or carried from an earlier point with the same block index. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or carried from an earlier point with the same block index. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or carried from an earlier point with the same block index. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The output block after the body: the one store, of the body's arithmetic on the input blocks. -/
def out6 (x0 : Vec F S10000x64 .f32) (x1 : Vec F S10000x64 .f32) (x2 : Vec F S64x64 .f32) (x3 : Vec F S64x64 .f32) (x4 : Vec F S1x64 .f32) : Vec F S10000x64 .f32 :=
  View.canon [⟨(Rect.unit (s := S10000x64) ![0, 0] S10000x64.size inb_S10000x64_S10000x64_0_0), k6_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

theorem cover6 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out6` of the inputs. -/
theorem sound_kernel6 (c : Dev nD) (E : Set ℕ) (i : grid6.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6 x0 x1 x2 x3 x4)) -∗ K ⟨⟩))
      ⊢ wp frame (wpE (defs₀ (F := F)) Variants.none c none) E (cc6__message_kernel i arg1 harg1 arg2 harg2 arg3 harg3 arg4 harg4 arg5 harg5 arg6 harg6) K := by
  simp only [cc6__message_kernel_eq_skeleton]; unfold cc6__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-- The pipeline's proof data at region entry contents `V`: every input buffer keeps its block, the output buffer holds the body's result on the input blocks; nothing owed, full shares, the class-A invariant. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.Kernel.Blocks

end
-- ==== Proof.KbRegion7.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or carried from an earlier point with the same block index. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or carried from an earlier point with the same block index. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or carried from an earlier point with the same block index. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or carried from an earlier point with the same block index. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or carried from an earlier point with the same block index. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, fetched there or carried from an earlier point with the same block index. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- The output block after the body: the one store, of the body's arithmetic on the input blocks. -/
def out7 (x0 : Vec F S10000x64 .f32) (x1 : Vec F S10000x64 .f32) (x2 : Vec F S10000x1 .f32) (x3 : Vec F S64x64 .f32) (x4 : Vec F S64x64 .f32) (x5 : Vec F S1x64 .f32) : Vec F S10000x64 .f32 :=
  View.canon [⟨(Rect.unit (s := S10000x64) ![0, 0] S10000x64.size inb_S10000x64_S10000x64_0_0), k7_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S10000x1) ![0, 0] S10000x1.size inb_S10000x1_S10000x1_0_0)) (View.ld x3 (Rect.unit (s := S64x64) ![0, 0] S64x64.size inb_S64x64_S64x64_0_0)) (View.ld x4 (Rect.unit (s := S64x64) ![0, 0] S64x64.size inb_S64x64_S64x64_0_0)) (View.ld x5 (Rect.unit (s := S1x64) ![0, 0] S1x64.size inb_S1x64_S1x64_0_0))⟩]

theorem cover7 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out7` of the inputs. -/
theorem sound_kernel7 (c : Dev nD) (E : Set ℕ) (i : grid7.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 : Vec F S10000x64 .f32) (x1 : Vec F S10000x64 .f32) (x2 : Vec F S10000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7 x0 x1 x2 x3 x4 x5)) -∗ K ⟨⟩))
      ⊢ wp frame (wpE (defs₀ (F := F)) Variants.none c none) E (cc7__update_kernel i arg1 harg1 arg2 harg2 arg3 harg3 arg4 harg4 arg5 harg5 arg6 harg6 arg7 harg7) K := by
  simp only [cc7__update_kernel_eq_skeleton]; unfold cc7__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7 _)

/-- The pipeline's proof data at region entry contents `V`: every input buffer keeps its block, the output buffer holds the body's result on the input blocks; nothing owed, full shares, the class-A invariant. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

end Cert.Kernel.Blocks

end
-- ==== Proof.KbRegion8.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The first conditional of the body (the accumulator is reset): taken at the first grid point only. -/
abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val % 10 = 0 :=
  (by decide +kernel : ∀ t : Fin grid8.N, cond8_0 (grid8.coords t) ↔ t.val % 10 = 0)
/-- The second conditional (the accumulator is copied to the output): taken at the last grid point only. -/
abbrev cond8_1 (i : grid8.Coords) : Prop := k8_cond2 i = 1#1
theorem hcond8_1 : ∀ t : Fin cfg8.N, cond8_1 (grid8.coords t) ↔ t.val % 10 = 9 :=
  (by decide +kernel : ∀ t : Fin grid8.N, cond8_1 (grid8.coords t) ↔ t.val % 10 = 9)

theorem liveAt8_0 : ∀ t : Fin cfg8.N, cfg8.idle 0 (grid8.coords t) = false := by decide +kernel
theorem idleAt8_1_A : ∀ t : Fin cfg8.N, cond8_0 (grid8.coords t) → ¬cond8_1 (grid8.coords t) → cfg8.idle 1 (grid8.coords t) = true := by decide +kernel
theorem noFlush8_1_A : ∀ t : Fin cfg8.N, cond8_0 (grid8.coords t) → ¬cond8_1 (grid8.coords t) → (cfg8.win 1).flush t = false := by decide +kernel
theorem idleAt8_1_B : ∀ t : Fin cfg8.N, ¬cond8_0 (grid8.coords t) → ¬cond8_1 (grid8.coords t) → cfg8.idle 1 (grid8.coords t) = true := by decide +kernel
theorem noFlush8_1_B : ∀ t : Fin cfg8.N, ¬cond8_0 (grid8.coords t) → ¬cond8_1 (grid8.coords t) → (cfg8.win 1).flush t = false := by decide +kernel
theorem liveAt8_1_C : ∀ t : Fin cfg8.N, ¬cond8_0 (grid8.coords t) → cond8_1 (grid8.coords t) → cfg8.idle 1 (grid8.coords t) = false := by decide +kernel

abbrev VO8 : View sig .tc .vmem S1x1 .f32 := (Memref.whole cc8_stg1_0 : Memref sig .tc .vmem S1x1 .f32).view
abbrev ms8_0 (t : Fin cfg8.N) : Memref sig .tc .vmem S10000x64 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x1 .f32 := win8_1.stage (cfg8.slots t 1)
abbrev hs8_1 (t : Fin cfg8.N) : (ms8_1 t).IsWhole := hstage8_1 ((cfg8.slots t 1).cast nbuf8_1)
abbrev scM8 : Memref sig .tc .vmem S1x1 .f32 := Memref.whole cc8_scratch0
abbrev VS8 : View sig .tc .vmem S1x1 .f32 := scM8.view

/-- The class invariant with the accumulator split out of the scoped rest: the accumulator owned at some contents, every other scoped buffer unopened, the generator register at some state. -/
theorem PhiA8_eq (c : Dev nD) :
    (Pipeline.ΦA spec8 c : sProp 𝕄)
      = iprop(iprop(iprop((∃ d, owns (c : Thread nD τ) scM8 fullShare d)) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

set_option maxHeartbeats 4000000 in
/-- The body at the first grid point: the accumulator is reset, then the block's sum is added; the output buffer is left untouched. -/
noncomputable def kernelRun8_A (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond8_0 i) (hc1 : ¬cond8_1 i)
    (x0 : Vec F S10000x64 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc8__bce_kernel i arg1 harg1 arg2 harg2 arg3 harg3) K } := by
  refine ⟨[], ?_, fun xi1 E K => ?run⟩
  case run =>
    simp only [cc8__bce_kernel_eq_skeleton]; unfold cc8__bce_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- The body at a middle grid point: the block's sum is added to the carried accumulator; the output buffer is left untouched. -/
noncomputable def kernelRun8_B (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : ¬cond8_1 i)
    (x0 : Vec F S10000x64 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc8__bce_kernel i arg1 harg1 arg2 harg2 arg3 harg3) K } := by
  refine ⟨[], ?_, fun xi1 E K => ?run⟩
  case run =>
    simp only [cc8__bce_kernel_eq_skeleton]; unfold cc8__bce_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- The body at the last grid point: the block's sum is added to the carried accumulator, and the accumulator is copied to the output buffer. -/
noncomputable def kernelRun8_C (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc8__bce_kernel i arg1 harg1 arg2 harg2 arg3 harg3) K } := by
  refine ⟨?_, ?_, fun E K => ?run⟩
  case run =>
    simp only [cc8__bce_kernel_eq_skeleton]; unfold cc8__bce_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

def out8_A_1 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond8_0 i) (hc1 : ¬cond8_1 i)
    (x0 : Vec F S10000x64 .f32) : Vec F S1x1 .f32 :=
  VO8.read (Elt F) (VO8.writes (Elt F) VO8.junk (kernelRun8_A c i arg1 harg1 arg2 harg2 arg3 harg3 hc0 hc1 x0).1)

theorem scover8_A_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond8_0 i) (hc1 : ¬cond8_1 i)
    (x0 : Vec F S10000x64 .f32) (y : S1x1.Idx) :
    ∃ pc ∈ (kernelRun8_A c i arg1 harg1 arg2 harg2 arg3 harg3 hc0 hc1 x0).2.1, y ∈ pc.1.set :=
  View.cover_of_tiledL (kernelRun8_A c i arg1 harg1 arg2 harg2 arg3 harg3 hc0 hc1 x0).2.1 S1x1.size (by sl_kernel_rfl) y

/-- What the first grid point leaves in the accumulator. -/
def sout8_A_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond8_0 i) (hc1 : ¬cond8_1 i)
    (x0 : Vec F S10000x64 .f32) : Vec F S1x1 .f32 :=
  VS8.read (Elt F) (VS8.writes (Elt F) VS8.junk (kernelRun8_A c i arg1 harg1 arg2 harg2 arg3 harg3 hc0 hc1 x0).2.1)

def out8_B_1 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : ¬cond8_1 i)
    (x0 : Vec F S10000x64 .f32) (xs0 : Vec F S1x1 .f32) : Vec F S1x1 .f32 :=
  VO8.read (Elt F) (VO8.writes (Elt F) VO8.junk (kernelRun8_B c i arg1 harg1 arg2 harg2 arg3 harg3 hc0 hc1 x0 xs0).1)

theorem scover8_B_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : ¬cond8_1 i)
    (x0 : Vec F S10000x64 .f32) (xs0 : Vec F S1x1 .f32) (y : S1x1.Idx) :
    ∃ pc ∈ (kernelRun8_B c i arg1 harg1 arg2 harg2 arg3 harg3 hc0 hc1 x0 xs0).2.1, y ∈ pc.1.set :=
  View.cover_of_tiledL (kernelRun8_B c i arg1 harg1 arg2 harg2 arg3 harg3 hc0 hc1 x0 xs0).2.1 S1x1.size (by sl_kernel_rfl) y

/-- What a middle grid point leaves in the accumulator, from what the point before left. -/
def sout8_B_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : ¬cond8_1 i)
    (x0 : Vec F S10000x64 .f32) (xs0 : Vec F S1x1 .f32) : Vec F S1x1 .f32 :=
  VS8.read (Elt F) (VS8.writes (Elt F) VS8.junk (kernelRun8_B c i arg1 harg1 arg2 harg2 arg3 harg3 hc0 hc1 x0 xs0).2.1)

theorem cover8_C_1 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) (y : S1x1.Idx) :
    ∃ pc ∈ (kernelRun8_C c i arg1 harg1 arg2 harg2 arg3 harg3 hc0 hc1 x0 xs0).1, y ∈ pc.1.set :=
  View.cover_of_tiledL (kernelRun8_C c i arg1 harg1 arg2 harg2 arg3 harg3 hc0 hc1 x0 xs0).1 S1x1.size (by sl_kernel_rfl) y

/-- What the last grid point leaves in the output buffer. -/
def out8_C_1 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) : Vec F S1x1 .f32 :=
  VO8.read (Elt F) (VO8.writes (Elt F) VO8.junk (kernelRun8_C c i arg1 harg1 arg2 harg2 arg3 harg3 hc0 hc1 x0 xs0).1)

theorem scover8_C_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) (y : S1x1.Idx) :
    ∃ pc ∈ (kernelRun8_C c i arg1 harg1 arg2 harg2 arg3 harg3 hc0 hc1 x0 xs0).2.1, y ∈ pc.1.set :=
  View.cover_of_tiledL (kernelRun8_C c i arg1 harg1 arg2 harg2 arg3 harg3 hc0 hc1 x0 xs0).2.1 S1x1.size (by sl_kernel_rfl) y

def sout8_C_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) : Vec F S1x1 .f32 :=
  VS8.read (Elt F) (VS8.writes (Elt F) VS8.junk (kernelRun8_C c i arg1 harg1 arg2 harg2 arg3 harg3 hc0 hc1 x0 xs0).2.1)

/-- The output buffer and the accumulator after each grid point: the running sum over the blocks so far. -/
def outsAt8 (c : Dev nD) : (n : ℕ) → n < cfg8.N → Vec F S1x1 .f32 × Vec F S1x1 .f32
  | 0, hn => (out8_A_1 c (grid8.coords ⟨0, hn⟩) (ms8_0 ⟨0, hn⟩) (hs8_0 ⟨0, hn⟩) (ms8_1 ⟨0, hn⟩) (hs8_1 ⟨0, hn⟩) scM8 (Memref.isWhole_whole _) ((hcond8_0 ⟨0, hn⟩).mpr (Nat.zero_mod _)) (fun h => (fun h => by (try dsimp only at h); omega) ((hcond8_1 ⟨0, hn⟩).mp h)) (iblk8 V c 0 ⟨0, hn⟩), sout8_A_0 c (grid8.coords ⟨0, hn⟩) (ms8_0 ⟨0, hn⟩) (hs8_0 ⟨0, hn⟩) (ms8_1 ⟨0, hn⟩) (hs8_1 ⟨0, hn⟩) scM8 (Memref.isWhole_whole _) ((hcond8_0 ⟨0, hn⟩).mpr (Nat.zero_mod _)) (fun h => (fun h => by (try dsimp only at h); omega) ((hcond8_1 ⟨0, hn⟩).mp h)) (iblk8 V c 0 ⟨0, hn⟩))
  | n + 1, hn =>
    if h0 : (n + 1) % 10 = 0 then
      False.elim (by have hN : n + 1 < 10 := lt_of_lt_of_eq hn (show cfg8.N = 10 from N_8); omega)
    else
      if h1 : (n + 1) % 10 = 9 then
        (out8_C_1 c (grid8.coords ⟨n + 1, hn⟩) (ms8_0 ⟨n + 1, hn⟩) (hs8_0 ⟨n + 1, hn⟩) (ms8_1 ⟨n + 1, hn⟩) (hs8_1 ⟨n + 1, hn⟩) scM8 (Memref.isWhole_whole _) (fun h => h0 ((hcond8_0 ⟨n + 1, hn⟩).mp h)) ((hcond8_1 ⟨n + 1, hn⟩).mpr h1) (iblk8 V c 0 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) scM8 (Memref.isWhole_whole _) (fun h => h0 ((hcond8_0 ⟨n + 1, hn⟩).mp h)) ((hcond8_1 ⟨n + 1, hn⟩).mpr h1) (iblk8 V c 0 ⟨n + 1, hn⟩) (outsAt8 c n (Nat.lt_of_succ_lt hn)).2)
      else
        (out8_B_1 c (grid8.coords ⟨n + 1, hn⟩) (ms8_0 ⟨n + 1, hn⟩) (hs8_0 ⟨n + 1, hn⟩) (ms8_1 ⟨n + 1, hn⟩) (hs8_1 ⟨n + 1, hn⟩) scM8 (Memref.isWhole_whole _) (fun h => h0 ((hcond8_0 ⟨n + 1, hn⟩).mp h)) (fun h => h1 ((hcond8_1 ⟨n + 1, hn⟩).mp h)) (iblk8 V c 0 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) scM8 (Memref.isWhole_whole _) (fun h => h0 ((hcond8_0 ⟨n + 1, hn⟩).mp h)) (fun h => h1 ((hcond8_1 ⟨n + 1, hn⟩).mp h)) (iblk8 V c 0 ⟨n + 1, hn⟩) (outsAt8 c n (Nat.lt_of_succ_lt hn)).2)

theorem outsAt8_A (c : Dev nD) (t : Fin cfg8.N) (h0 : t.val % 10 = 0) (h1 : ¬t.val % 10 = 9) :
    outsAt8 V c t.val t.isLt = (out8_A_1 c (grid8.coords t) (ms8_0 t) (hs8_0 t) (ms8_1 t) (hs8_1 t) scM8 (Memref.isWhole_whole _) ((hcond8_0 t).mpr h0) (fun h => h1 ((hcond8_1 t).mp h)) (iblk8 V c 0 t), sout8_A_0 c (grid8.coords t) (ms8_0 t) (hs8_0 t) (ms8_1 t) (hs8_1 t) scM8 (Memref.isWhole_whole _) ((hcond8_0 t).mpr h0) (fun h => h1 ((hcond8_1 t).mp h)) (iblk8 V c 0 t)) := by
  obtain ⟨n, hn⟩ := t
  cases n with
  | zero => exact rfl
  | succ n => exact (by exfalso; have hN : n + 1 < 10 := lt_of_lt_of_eq hn (show cfg8.N = 10 from N_8); (try dsimp only at h0); omega)

theorem outsAt8_B (c : Dev nD) (t : Fin cfg8.N) (h0 : ¬t.val % 10 = 0) (h1 : ¬t.val % 10 = 9) :
    outsAt8 V c t.val t.isLt = (out8_B_1 c (grid8.coords t) (ms8_0 t) (hs8_0 t) (ms8_1 t) (hs8_1 t) scM8 (Memref.isWhole_whole _) (fun h => h0 ((hcond8_0 t).mp h)) (fun h => h1 ((hcond8_1 t).mp h)) (iblk8 V c 0 t) (outsAt8 V c (t.val - 1) (Nat.lt_of_le_of_lt (Nat.sub_le _ _) t.isLt)).2, sout8_B_0 c (grid8.coords t) (ms8_0 t) (hs8_0 t) (ms8_1 t) (hs8_1 t) scM8 (Memref.isWhole_whole _) (fun h => h0 ((hcond8_0 t).mp h)) (fun h => h1 ((hcond8_1 t).mp h)) (iblk8 V c 0 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 10 = 0) (h1 : t.val % 10 = 9) :
    outsAt8 V c t.val t.isLt = (out8_C_1 c (grid8.coords t) (ms8_0 t) (hs8_0 t) (ms8_1 t) (hs8_1 t) scM8 (Memref.isWhole_whole _) (fun h => h0 ((hcond8_0 t).mp h)) ((hcond8_1 t).mpr h1) (iblk8 V c 0 t) (outsAt8 V c (t.val - 1) (Nat.lt_of_le_of_lt (Nat.sub_le _ _) t.isLt)).2, sout8_C_0 c (grid8.coords t) (ms8_0 t) (hs8_0 t) (ms8_1 t) (hs8_1 t) scM8 (Memref.isWhole_whole _) (fun h => h0 ((hcond8_0 t).mp h)) ((hcond8_1 t).mpr h1) (iblk8 V c 0 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before grid position `n`: before the first point the class invariant; afterwards the accumulator at what the point before left, every other scoped buffer unopened, the generator register at some state. -/
def PhiS8 (c : Dev nD) : (n : ℕ) → n ≤ cfg8.N → sProp 𝕄
  | 0, _ => Pipeline.ΦA spec8 c
  | n + 1, hn => iprop(iprop(owns (c : Thread nD τ) scM8 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = (outsAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t)

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  by_cases h0 : t.val % 10 = 0
  · by_cases h1 : t.val % 10 = 9
    · exfalso; omega
    · rw [show (dat8 V c).leavesExact 0 t = owns (c : Thread nD τ) (ms8_0 t) fullShare ((dat8 V c).after 0 t) from by
        unfold Dat.leavesExact; rw [liveAt8_0 t], after8_0]
      rw [Dat.leavesExact_idle (dat8 V c) 1 t (idleAt8_1_A t ((hcond8_0 t).mpr h0) (fun h => h1 ((hcond8_1 t).mp h))) (noFlush8_1_A t ((hcond8_0 t).mpr h0) (fun h => h1 ((hcond8_1 t).mp h)))]
      rw [outsAt8_A V c t h0 h1]
      unfold sout8_A_0; (try dsimp only)
      have hz : t.val = 0 := by omega
      rw [PhiS8_castSucc V c t, PhiS8_zero V c _ _ hz, PhiA8_eq]
      iintro ⟨⟨⟨HS0, Hrest⟩, Hg⟩, Ho, ⟨%d0, H0⟩, ⟨%d1, H1⟩⟩
      iapply ((kernelRun8_A c (grid8.coords t) _ _ _ _ _ _ ((hcond8_0 t).mpr h0) (fun h => h1 ((hcond8_1 t).mp h)) (iblk8 V c 0 t)).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover8_A_0 c _ _ _ _ _ _ _ _ _ _)
          iexact Hrest
        iexact Hg
      isplitl [Ho]; · iexact Ho
      isplitl [H0]; · iexact H0
      iexists _; iexact H1
  · have hz : t.val ≠ 0 := by omega
    by_cases h1 : t.val % 10 = 9
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1_C t (fun h => h0 ((hcond8_0 t).mp h)) ((hcond8_1 t).mpr h1)], after8_1]
      rw [outsAt8_C V c t h0 h1]
      unfold out8_C_1 sout8_C_0; (try dsimp only)
      rw [PhiS8_castSucc V c t, PhiS8_pos V c _ _ hz]
      iintro ⟨⟨⟨HS0, Hrest⟩, Hg⟩, Ho, ⟨%d0, H0⟩, ⟨%d1, H1⟩⟩
      iapply ((kernelRun8_C c (grid8.coords t) _ _ _ _ _ _ (fun h => h0 ((hcond8_0 t).mp h)) ((hcond8_1 t).mpr h1) (iblk8 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover8_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover8_C_1 c _ _ _ _ _ _ _ _ _ _ _)
    · rw [show (dat8 V c).leavesExact 0 t = owns (c : Thread nD τ) (ms8_0 t) fullShare ((dat8 V c).after 0 t) from by
        unfold Dat.leavesExact; rw [liveAt8_0 t], after8_0]
      rw [Dat.leavesExact_idle (dat8 V c) 1 t (idleAt8_1_B t (fun h => h0 ((hcond8_0 t).mp h)) (fun h => h1 ((hcond8_1 t).mp h))) (noFlush8_1_B t (fun h => h0 ((hcond8_0 t).mp h)) (fun h => h1 ((hcond8_1 t).mp h)))]
      rw [outsAt8_B V c t h0 h1]
      unfold sout8_B_0; (try dsimp only)
      rw [PhiS8_castSucc V c t, PhiS8_pos V c _ _ hz]
      iintro ⟨⟨⟨HS0, Hrest⟩, Hg⟩, Ho, ⟨%d0, H0⟩, ⟨%d1, H1⟩⟩
      iapply ((kernelRun8_B c (grid8.coords t) _ _ _ _ _ _ (fun h => h0 ((hcond8_0 t).mp h)) (fun h => h1 ((hcond8_1 t).mp h)) (iblk8 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover8_B_0 c _ _ _ _ _ _ _ _ _ _ _)
          iexact Hrest
        iexact Hg
      isplitl [Ho]; · iexact Ho
      isplitl [H0]; · iexact H0
      iexists _; iexact H1

theorem body_obligation8 (c : Dev nD) : BodyObligation (dat8 (F := F) V c) (defs₀ (F := F)) Variants.none () Set.univ := fun t => by
  rw [bigSep_W8, bigSep_W8]
  exact sound_body8 V c t

/-- The class invariant the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the class invariant back: the accumulator's contents are forgotten. -/
theorem hout8 (c : Dev nD) : (dat8 V c).Φ (Fin.last cfg8.N) ⊢ Pipeline.ΦA spec8 c := by
  have ht : (Fin.last cfg8.N).val ≠ 0 := by rw [Fin.val_last]; have : cfg8.N = 10 := N_8; omega
  rw [show (dat8 V c).Φ (Fin.last cfg8.N) = PhiS8 V c (Fin.last cfg8.N).val (Nat.le_of_lt_succ (Fin.last cfg8.N).isLt) from rfl, PhiS8_pos V c _ _ ht, PhiA8_eq]
  iintro ⟨⟨HS0, Hrest⟩, Hg⟩
  isplitl [HS0 Hrest]
  · isplitl [HS0]
    · iexists _; iexact HS0
    iexact Hrest
  iexact Hg

end Cert.Kernel.Blocks

end
-- ==== Proof.KbRegion9.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The first conditional of the body (the accumulator is reset): taken at the first grid point only. -/
abbrev cond9_0 (i : grid9.Coords) : Prop := (Scalar.cmpi .ne (Scalar.extui (Scalar.cmpi .eq (BitVec.ofNat 32 (i 0).val) 0#32)) 0#32) = 1#1
theorem hcond9_0 : ∀ t : Fin cfg9.N, cond9_0 (grid9.coords t) ↔ t.val % 10 = 0 :=
  (by decide +kernel : ∀ t : Fin grid9.N, cond9_0 (grid9.coords t) ↔ t.val % 10 = 0)
/-- The second conditional (the accumulator is copied to the output): taken at the last grid point only. -/
abbrev cond9_1 (i : grid9.Coords) : Prop := k9_cond2 i = 1#1
theorem hcond9_1 : ∀ t : Fin cfg9.N, cond9_1 (grid9.coords t) ↔ t.val % 10 = 9 :=
  (by decide +kernel : ∀ t : Fin grid9.N, cond9_1 (grid9.coords t) ↔ t.val % 10 = 9)

theorem liveAt9_0 : ∀ t : Fin cfg9.N, cfg9.idle 0 (grid9.coords t) = false := by decide +kernel
theorem idleAt9_1_A : ∀ t : Fin cfg9.N, cond9_0 (grid9.coords t) → ¬cond9_1 (grid9.coords t) → cfg9.idle 1 (grid9.coords t) = true := by decide +kernel
theorem noFlush9_1_A : ∀ t : Fin cfg9.N, cond9_0 (grid9.coords t) → ¬cond9_1 (grid9.coords t) → (cfg9.win 1).flush t = false := by decide +kernel
theorem idleAt9_1_B : ∀ t : Fin cfg9.N, ¬cond9_0 (grid9.coords t) → ¬cond9_1 (grid9.coords t) → cfg9.idle 1 (grid9.coords t) = true := by decide +kernel
theorem noFlush9_1_B : ∀ t : Fin cfg9.N, ¬cond9_0 (grid9.coords t) → ¬cond9_1 (grid9.coords t) → (cfg9.win 1).flush t = false := by decide +kernel
theorem liveAt9_1_C : ∀ t : Fin cfg9.N, ¬cond9_0 (grid9.coords t) → cond9_1 (grid9.coords t) → cfg9.idle 1 (grid9.coords t) = false := by decide +kernel

abbrev VO9 : View sig .tc .vmem S1x1 .f32 := (Memref.whole cc9_stg1_0 : Memref sig .tc .vmem S1x1 .f32).view
abbrev ms9_0 (t : Fin cfg9.N) : Memref sig .tc .vmem S10000x64 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1x1 .f32 := win9_1.stage (cfg9.slots t 1)
abbrev hs9_1 (t : Fin cfg9.N) : (ms9_1 t).IsWhole := hstage9_1 ((cfg9.slots t 1).cast nbuf9_1)
abbrev scM9 : Memref sig .tc .vmem S1x1 .f32 := Memref.whole cc9_scratch0
abbrev VS9 : View sig .tc .vmem S1x1 .f32 := scM9.view

/-- The class invariant with the accumulator split out of the scoped rest: the accumulator owned at some contents, every other scoped buffer unopened, the generator register at some state. -/
theorem PhiA9_eq (c : Dev nD) :
    (Pipeline.ΦA spec9 c : sProp 𝕄)
      = iprop(iprop(iprop((∃ d, owns (c : Thread nD τ) scM9 fullShare d)) ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9, owns_whole]; try rfl

set_option maxHeartbeats 4000000 in
/-- The body at the first grid point: the accumulator is reset, then the block's sum is added; the output buffer is left untouched. -/
noncomputable def kernelRun9_A (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond9_0 i) (hc1 : ¬cond9_1 i)
    (x0 : Vec F S10000x64 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc9__bce_kernel i arg1 harg1 arg2 harg2 arg3 harg3) K } := by
  refine ⟨[], ?_, fun xi1 E K => ?run⟩
  case run =>
    simp only [cc9__bce_kernel_eq_skeleton]; unfold cc9__bce_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- The body at a middle grid point: the block's sum is added to the carried accumulator; the output buffer is left untouched. -/
noncomputable def kernelRun9_B (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : ¬cond9_1 i)
    (x0 : Vec F S10000x64 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc9__bce_kernel i arg1 harg1 arg2 harg2 arg3 harg3) K } := by
  refine ⟨[], ?_, fun xi1 E K => ?run⟩
  case run =>
    simp only [cc9__bce_kernel_eq_skeleton]; unfold cc9__bce_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- The body at the last grid point: the block's sum is added to the carried accumulator, and the accumulator is copied to the output buffer. -/
noncomputable def kernelRun9_C (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc9__bce_kernel i arg1 harg1 arg2 harg2 arg3 harg3) K } := by
  refine ⟨?_, ?_, fun E K => ?run⟩
  case run =>
    simp only [cc9__bce_kernel_eq_skeleton]; unfold cc9__bce_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

def out9_A_1 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond9_0 i) (hc1 : ¬cond9_1 i)
    (x0 : Vec F S10000x64 .f32) : Vec F S1x1 .f32 :=
  VO9.read (Elt F) (VO9.writes (Elt F) VO9.junk (kernelRun9_A c i arg1 harg1 arg2 harg2 arg3 harg3 hc0 hc1 x0).1)

theorem scover9_A_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond9_0 i) (hc1 : ¬cond9_1 i)
    (x0 : Vec F S10000x64 .f32) (y : S1x1.Idx) :
    ∃ pc ∈ (kernelRun9_A c i arg1 harg1 arg2 harg2 arg3 harg3 hc0 hc1 x0).2.1, y ∈ pc.1.set :=
  View.cover_of_tiledL (kernelRun9_A c i arg1 harg1 arg2 harg2 arg3 harg3 hc0 hc1 x0).2.1 S1x1.size (by sl_kernel_rfl) y

/-- What the first grid point leaves in the accumulator. -/
def sout9_A_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond9_0 i) (hc1 : ¬cond9_1 i)
    (x0 : Vec F S10000x64 .f32) : Vec F S1x1 .f32 :=
  VS9.read (Elt F) (VS9.writes (Elt F) VS9.junk (kernelRun9_A c i arg1 harg1 arg2 harg2 arg3 harg3 hc0 hc1 x0).2.1)

def out9_B_1 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : ¬cond9_1 i)
    (x0 : Vec F S10000x64 .f32) (xs0 : Vec F S1x1 .f32) : Vec F S1x1 .f32 :=
  VO9.read (Elt F) (VO9.writes (Elt F) VO9.junk (kernelRun9_B c i arg1 harg1 arg2 harg2 arg3 harg3 hc0 hc1 x0 xs0).1)

theorem scover9_B_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : ¬cond9_1 i)
    (x0 : Vec F S10000x64 .f32) (xs0 : Vec F S1x1 .f32) (y : S1x1.Idx) :
    ∃ pc ∈ (kernelRun9_B c i arg1 harg1 arg2 harg2 arg3 harg3 hc0 hc1 x0 xs0).2.1, y ∈ pc.1.set :=
  View.cover_of_tiledL (kernelRun9_B c i arg1 harg1 arg2 harg2 arg3 harg3 hc0 hc1 x0 xs0).2.1 S1x1.size (by sl_kernel_rfl) y

/-- What a middle grid point leaves in the accumulator, from what the point before left. -/
def sout9_B_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : ¬cond9_1 i)
    (x0 : Vec F S10000x64 .f32) (xs0 : Vec F S1x1 .f32) : Vec F S1x1 .f32 :=
  VS9.read (Elt F) (VS9.writes (Elt F) VS9.junk (kernelRun9_B c i arg1 harg1 arg2 harg2 arg3 harg3 hc0 hc1 x0 xs0).2.1)

theorem cover9_C_1 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) (y : S1x1.Idx) :
    ∃ pc ∈ (kernelRun9_C c i arg1 harg1 arg2 harg2 arg3 harg3 hc0 hc1 x0 xs0).1, y ∈ pc.1.set :=
  View.cover_of_tiledL (kernelRun9_C c i arg1 harg1 arg2 harg2 arg3 harg3 hc0 hc1 x0 xs0).1 S1x1.size (by sl_kernel_rfl) y

/-- What the last grid point leaves in the output buffer. -/
def out9_C_1 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) : Vec F S1x1 .f32 :=
  VO9.read (Elt F) (VO9.writes (Elt F) VO9.junk (kernelRun9_C c i arg1 harg1 arg2 harg2 arg3 harg3 hc0 hc1 x0 xs0).1)

theorem scover9_C_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) (y : S1x1.Idx) :
    ∃ pc ∈ (kernelRun9_C c i arg1 harg1 arg2 harg2 arg3 harg3 hc0 hc1 x0 xs0).2.1, y ∈ pc.1.set :=
  View.cover_of_tiledL (kernelRun9_C c i arg1 harg1 arg2 harg2 arg3 harg3 hc0 hc1 x0 xs0).2.1 S1x1.size (by sl_kernel_rfl) y

def sout9_C_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) : Vec F S1x1 .f32 :=
  VS9.read (Elt F) (VS9.writes (Elt F) VS9.junk (kernelRun9_C c i arg1 harg1 arg2 harg2 arg3 harg3 hc0 hc1 x0 xs0).2.1)

/-- The output buffer and the accumulator after each grid point: the running sum over the blocks so far. -/
def outsAt9 (c : Dev nD) : (n : ℕ) → n < cfg9.N → Vec F S1x1 .f32 × Vec F S1x1 .f32
  | 0, hn => (out9_A_1 c (grid9.coords ⟨0, hn⟩) (ms9_0 ⟨0, hn⟩) (hs9_0 ⟨0, hn⟩) (ms9_1 ⟨0, hn⟩) (hs9_1 ⟨0, hn⟩) scM9 (Memref.isWhole_whole _) ((hcond9_0 ⟨0, hn⟩).mpr (Nat.zero_mod _)) (fun h => (fun h => by (try dsimp only at h); omega) ((hcond9_1 ⟨0, hn⟩).mp h)) (iblk9 V c 0 ⟨0, hn⟩), sout9_A_0 c (grid9.coords ⟨0, hn⟩) (ms9_0 ⟨0, hn⟩) (hs9_0 ⟨0, hn⟩) (ms9_1 ⟨0, hn⟩) (hs9_1 ⟨0, hn⟩) scM9 (Memref.isWhole_whole _) ((hcond9_0 ⟨0, hn⟩).mpr (Nat.zero_mod _)) (fun h => (fun h => by (try dsimp only at h); omega) ((hcond9_1 ⟨0, hn⟩).mp h)) (iblk9 V c 0 ⟨0, hn⟩))
  | n + 1, hn =>
    if h0 : (n + 1) % 10 = 0 then
      False.elim (by have hN : n + 1 < 10 := lt_of_lt_of_eq hn (show cfg9.N = 10 from N_9); omega)
    else
      if h1 : (n + 1) % 10 = 9 then
        (out9_C_1 c (grid9.coords ⟨n + 1, hn⟩) (ms9_0 ⟨n + 1, hn⟩) (hs9_0 ⟨n + 1, hn⟩) (ms9_1 ⟨n + 1, hn⟩) (hs9_1 ⟨n + 1, hn⟩) scM9 (Memref.isWhole_whole _) (fun h => h0 ((hcond9_0 ⟨n + 1, hn⟩).mp h)) ((hcond9_1 ⟨n + 1, hn⟩).mpr h1) (iblk9 V c 0 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) scM9 (Memref.isWhole_whole _) (fun h => h0 ((hcond9_0 ⟨n + 1, hn⟩).mp h)) ((hcond9_1 ⟨n + 1, hn⟩).mpr h1) (iblk9 V c 0 ⟨n + 1, hn⟩) (outsAt9 c n (Nat.lt_of_succ_lt hn)).2)
      else
        (out9_B_1 c (grid9.coords ⟨n + 1, hn⟩) (ms9_0 ⟨n + 1, hn⟩) (hs9_0 ⟨n + 1, hn⟩) (ms9_1 ⟨n + 1, hn⟩) (hs9_1 ⟨n + 1, hn⟩) scM9 (Memref.isWhole_whole _) (fun h => h0 ((hcond9_0 ⟨n + 1, hn⟩).mp h)) (fun h => h1 ((hcond9_1 ⟨n + 1, hn⟩).mp h)) (iblk9 V c 0 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) scM9 (Memref.isWhole_whole _) (fun h => h0 ((hcond9_0 ⟨n + 1, hn⟩).mp h)) (fun h => h1 ((hcond9_1 ⟨n + 1, hn⟩).mp h)) (iblk9 V c 0 ⟨n + 1, hn⟩) (outsAt9 c n (Nat.lt_of_succ_lt hn)).2)

theorem outsAt9_A (c : Dev nD) (t : Fin cfg9.N) (h0 : t.val % 10 = 0) (h1 : ¬t.val % 10 = 9) :
    outsAt9 V c t.val t.isLt = (out9_A_1 c (grid9.coords t) (ms9_0 t) (hs9_0 t) (ms9_1 t) (hs9_1 t) scM9 (Memref.isWhole_whole _) ((hcond9_0 t).mpr h0) (fun h => h1 ((hcond9_1 t).mp h)) (iblk9 V c 0 t), sout9_A_0 c (grid9.coords t) (ms9_0 t) (hs9_0 t) (ms9_1 t) (hs9_1 t) scM9 (Memref.isWhole_whole _) ((hcond9_0 t).mpr h0) (fun h => h1 ((hcond9_1 t).mp h)) (iblk9 V c 0 t)) := by
  obtain ⟨n, hn⟩ := t
  cases n with
  | zero => exact rfl
  | succ n => exact (by exfalso; have hN : n + 1 < 10 := lt_of_lt_of_eq hn (show cfg9.N = 10 from N_9); (try dsimp only at h0); omega)

theorem outsAt9_B (c : Dev nD) (t : Fin cfg9.N) (h0 : ¬t.val % 10 = 0) (h1 : ¬t.val % 10 = 9) :
    outsAt9 V c t.val t.isLt = (out9_B_1 c (grid9.coords t) (ms9_0 t) (hs9_0 t) (ms9_1 t) (hs9_1 t) scM9 (Memref.isWhole_whole _) (fun h => h0 ((hcond9_0 t).mp h)) (fun h => h1 ((hcond9_1 t).mp h)) (iblk9 V c 0 t) (outsAt9 V c (t.val - 1) (Nat.lt_of_le_of_lt (Nat.sub_le _ _) t.isLt)).2, sout9_B_0 c (grid9.coords t) (ms9_0 t) (hs9_0 t) (ms9_1 t) (hs9_1 t) scM9 (Memref.isWhole_whole _) (fun h => h0 ((hcond9_0 t).mp h)) (fun h => h1 ((hcond9_1 t).mp h)) (iblk9 V c 0 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt9_C (c : Dev nD) (t : Fin cfg9.N) (h0 : ¬t.val % 10 = 0) (h1 : t.val % 10 = 9) :
    outsAt9 V c t.val t.isLt = (out9_C_1 c (grid9.coords t) (ms9_0 t) (hs9_0 t) (ms9_1 t) (hs9_1 t) scM9 (Memref.isWhole_whole _) (fun h => h0 ((hcond9_0 t).mp h)) ((hcond9_1 t).mpr h1) (iblk9 V c 0 t) (outsAt9 V c (t.val - 1) (Nat.lt_of_le_of_lt (Nat.sub_le _ _) t.isLt)).2, sout9_C_0 c (grid9.coords t) (ms9_0 t) (hs9_0 t) (ms9_1 t) (hs9_1 t) scM9 (Memref.isWhole_whole _) (fun h => h0 ((hcond9_0 t).mp h)) ((hcond9_1 t).mpr h1) (iblk9 V c 0 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before grid position `n`: before the first point the class invariant; afterwards the accumulator at what the point before left, every other scoped buffer unopened, the generator register at some state. -/
def PhiS9 (c : Dev nD) : (n : ℕ) → n ≤ cfg9.N → sProp 𝕄
  | 0, _ => Pipeline.ΦA spec9 c
  | n + 1, hn => iprop(iprop(owns (c : Thread nD τ) scM9 fullShare ((outsAt9 V c n hn).2) ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9 fullShare ((outsAt9 V c n hn).2) ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9 fullShare ((outsAt9 V c (n - 1) (by omega)).2) ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t)

set_option maxHeartbeats 4800000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).owesAt () t.succ = (dat9 V c).owesAt () t.castSucc from rfl]
  rw [show (dat9 V c).Φ t.succ = PhiS9 V c (t.val + 1) t.isLt from rfl, PhiS9_succ]
  have hN : t.val < 10 := lt_of_lt_of_eq t.isLt (show cfg9.N = 10 from N_9)
  by_cases h0 : t.val % 10 = 0
  · by_cases h1 : t.val % 10 = 9
    · exfalso; omega
    · rw [show (dat9 V c).leavesExact 0 t = owns (c : Thread nD τ) (ms9_0 t) fullShare ((dat9 V c).after 0 t) from by
        unfold Dat.leavesExact; rw [liveAt9_0 t], after9_0]
      rw [Dat.leavesExact_idle (dat9 V c) 1 t (idleAt9_1_A t ((hcond9_0 t).mpr h0) (fun h => h1 ((hcond9_1 t).mp h))) (noFlush9_1_A t ((hcond9_0 t).mpr h0) (fun h => h1 ((hcond9_1 t).mp h)))]
      rw [outsAt9_A V c t h0 h1]
      unfold sout9_A_0; (try dsimp only)
      have hz : t.val = 0 := by omega
      rw [PhiS9_castSucc V c t, PhiS9_zero V c _ _ hz, PhiA9_eq]
      iintro ⟨⟨⟨HS0, Hrest⟩, Hg⟩, Ho, ⟨%d0, H0⟩, ⟨%d1, H1⟩⟩
      iapply ((kernelRun9_A c (grid9.coords t) _ _ _ _ _ _ ((hcond9_0 t).mpr h0) (fun h => h1 ((hcond9_1 t).mp h)) (iblk9 V c 0 t)).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_A_0 c _ _ _ _ _ _ _ _ _ _)
          iexact Hrest
        iexact Hg
      isplitl [Ho]; · iexact Ho
      isplitl [H0]; · iexact H0
      iexists _; iexact H1
  · have hz : t.val ≠ 0 := by omega
    by_cases h1 : t.val % 10 = 9
    · rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1_C t (fun h => h0 ((hcond9_0 t).mp h)) ((hcond9_1 t).mpr h1)], after9_1]
      rw [outsAt9_C V c t h0 h1]
      unfold out9_C_1 sout9_C_0; (try dsimp only)
      rw [PhiS9_castSucc V c t, PhiS9_pos V c _ _ hz]
      iintro ⟨⟨⟨HS0, Hrest⟩, Hg⟩, Ho, ⟨%d0, H0⟩, ⟨%d1, H1⟩⟩
      iapply ((kernelRun9_C c (grid9.coords t) _ _ _ _ _ _ (fun h => h0 ((hcond9_0 t).mp h)) ((hcond9_1 t).mpr h1) (iblk9 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover9_C_1 c _ _ _ _ _ _ _ _ _ _ _)
    · rw [show (dat9 V c).leavesExact 0 t = owns (c : Thread nD τ) (ms9_0 t) fullShare ((dat9 V c).after 0 t) from by
        unfold Dat.leavesExact; rw [liveAt9_0 t], after9_0]
      rw [Dat.leavesExact_idle (dat9 V c) 1 t (idleAt9_1_B t (fun h => h0 ((hcond9_0 t).mp h)) (fun h => h1 ((hcond9_1 t).mp h))) (noFlush9_1_B t (fun h => h0 ((hcond9_0 t).mp h)) (fun h => h1 ((hcond9_1 t).mp h)))]
      rw [outsAt9_B V c t h0 h1]
      unfold sout9_B_0; (try dsimp only)
      rw [PhiS9_castSucc V c t, PhiS9_pos V c _ _ hz]
      iintro ⟨⟨⟨HS0, Hrest⟩, Hg⟩, Ho, ⟨%d0, H0⟩, ⟨%d1, H1⟩⟩
      iapply ((kernelRun9_B c (grid9.coords t) _ _ _ _ _ _ (fun h => h0 ((hcond9_0 t).mp h)) (fun h => h1 ((hcond9_1 t).mp h)) (iblk9 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_B_0 c _ _ _ _ _ _ _ _ _ _ _)
          iexact Hrest
        iexact Hg
      isplitl [Ho]; · iexact Ho
      isplitl [H0]; · iexact H0
      iexists _; iexact H1

theorem body_obligation9 (c : Dev nD) : BodyObligation (dat9 (F := F) V c) (defs₀ (F := F)) Variants.none () Set.univ := fun t => by
  rw [bigSep_W9, bigSep_W9]
  exact sound_body9 V c t

/-- The class invariant the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the class invariant back: the accumulator's contents are forgotten. -/
theorem hout9 (c : Dev nD) : (dat9 V c).Φ (Fin.last cfg9.N) ⊢ Pipeline.ΦA spec9 c := by
  have ht : (Fin.last cfg9.N).val ≠ 0 := by rw [Fin.val_last]; have : cfg9.N = 10 := N_9; omega
  rw [show (dat9 V c).Φ (Fin.last cfg9.N) = PhiS9 V c (Fin.last cfg9.N).val (Nat.le_of_lt_succ (Fin.last cfg9.N).isLt) from rfl, PhiS9_pos V c _ _ ht, PhiA9_eq]
  iintro ⟨⟨HS0, Hrest⟩, Hg⟩
  isplitl [HS0 Hrest]
  · isplitl [HS0]
    · iexists _; iexact HS0
    iexact Hrest
  iexact Hg

end Cert.Kernel.Blocks

end
-- ==== Proof.KbRun.lean ====
import proofs.«176382_j6528350290006_1_alg».proof.Proof.Gen.Kernel.Launch
import proofs.«176382_j6528350290006_1_alg».proof.Proof.Gen.Kernel.Skeleton
import proofs.«176382_j6528350290006_1_alg».proof.Proof.Gen.Kernel.Points
import proofs.«176382_j6528350290006_1_alg».proof.Proof.KbRegion0
import proofs.«176382_j6528350290006_1_alg».proof.Proof.KbRegion1
import proofs.«176382_j6528350290006_1_alg».proof.Proof.KbRegion2
import proofs.«176382_j6528350290006_1_alg».proof.Proof.KbRegion3
import proofs.«176382_j6528350290006_1_alg».proof.Proof.KbRegion4
import proofs.«176382_j6528350290006_1_alg».proof.Proof.KbRegion5
import proofs.«176382_j6528350290006_1_alg».proof.Proof.KbRegion6
import proofs.«176382_j6528350290006_1_alg».proof.Proof.KbRegion7
import proofs.«176382_j6528350290006_1_alg».proof.Proof.KbRegion8
import proofs.«176382_j6528350290006_1_alg».proof.Proof.KbRegion9
import proofs.«176382_j6528350290006_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Blocks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The contents of every unscoped buffer at each boundary of the program: the launch memory, then each host stretch applied, then each kernel region's arrays at what its write-backs leave. -/

abbrev W0 : Dev nD → Valuation τ sig (Elt F) := fun c b => m (c, b)
abbrev U0 : (c : Dev nD) → (b : Ref sig .tc) → Buf (Elt F) ((c : Thread nD τ).loc b) := fun c b => W0 m c b
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
abbrev U2 : (c : Dev nD) → (b : Ref sig .tc) → Buf (Elt F) ((c : Thread nD τ).loc b) := fun c b => W2 m c b
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (U1 m) c).arrAt w cfg0.N = (U2 m) c (Pipeline.arrRef spec0 w) :=
  (W2_arr m c w).symm
theorem hrest0 (c : Dev nD) : ∀ b, b ∉ Finset.univ.image (Pipeline.arrRef spec0) → (U2 m) c b = (U1 m) c b :=
  fun b hb => W2_of_ne m c b fun w e => hb (Finset.mem_image.mpr ⟨w, Finset.mem_univ _, e⟩)
abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
abbrev U4 : (c : Dev nD) → (b : Ref sig .tc) → Buf (Elt F) ((c : Thread nD τ).loc b) := fun c b => W4 m c b
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (U3 m) c).arrAt w cfg1.N = (U4 m) c (Pipeline.arrRef spec1 w) :=
  (W4_arr m c w).symm
theorem hrest1 (c : Dev nD) : ∀ b, b ∉ Finset.univ.image (Pipeline.arrRef spec1) → (U4 m) c b = (U3 m) c b :=
  fun b hb => W4_of_ne m c b fun w e => hb (Finset.mem_image.mpr ⟨w, Finset.mem_univ _, e⟩)
abbrev W5 : Dev nD → Valuation τ sig (Elt F) := fun c => StableHlo.after hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (U5 m) c).arrAt w cfg2.N
abbrev U6 : (c : Dev nD) → (b : Ref sig .tc) → Buf (Elt F) ((c : Thread nD τ).loc b) := fun c b => W6 m c b
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (U5 m) c).arrAt w cfg2.N = (U6 m) c (Pipeline.arrRef spec2 w) :=
  (W6_arr m c w).symm
theorem hrest2 (c : Dev nD) : ∀ b, b ∉ Finset.univ.image (Pipeline.arrRef spec2) → (U6 m) c b = (U5 m) c b :=
  fun b hb => W6_of_ne m c b fun w e => hb (Finset.mem_image.mpr ⟨w, Finset.mem_univ _, e⟩)
abbrev W7 : Dev nD → Valuation τ sig (Elt F) := fun c => StableHlo.after hostOps3 (W6 m c)
abbrev U7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (U7 m) c).arrAt w cfg3.N
abbrev U8 : (c : Dev nD) → (b : Ref sig .tc) → Buf (Elt F) ((c : Thread nD τ).loc b) := fun c b => W8 m c b
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (U7 m) c).arrAt w cfg3.N = (U8 m) c (Pipeline.arrRef spec3 w) :=
  (W8_arr m c w).symm
theorem hrest3 (c : Dev nD) : ∀ b, b ∉ Finset.univ.image (Pipeline.arrRef spec3) → (U8 m) c b = (U7 m) c b :=
  fun b hb => W8_of_ne m c b fun w e => hb (Finset.mem_image.mpr ⟨w, Finset.mem_univ _, e⟩)
abbrev W9 : Dev nD → Valuation τ sig (Elt F) := fun c => StableHlo.after hostOps4 (W8 m c)
abbrev U9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (U9 m) c).arrAt w cfg4.N
abbrev U10 : (c : Dev nD) → (b : Ref sig .tc) → Buf (Elt F) ((c : Thread nD τ).loc b) := fun c b => W10 m c b
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem hF4 (c : Dev nD) (w : Fin cfg4.W) : (dat4 (U9 m) c).arrAt w cfg4.N = (U10 m) c (Pipeline.arrRef spec4 w) :=
  (W10_arr m c w).symm
theorem hrest4 (c : Dev nD) : ∀ b, b ∉ Finset.univ.image (Pipeline.arrRef spec4) → (U10 m) c b = (U9 m) c b :=
  fun b hb => W10_of_ne m c b fun w e => hb (Finset.mem_image.mpr ⟨w, Finset.mem_univ _, e⟩)
abbrev W11 : Dev nD → Valuation τ sig (Elt F) := fun c => StableHlo.after hostOps5 (W10 m c)
abbrev U11 : (c : Dev nD) → (b : Ref sig .tc) → Buf (Elt F) ((c : Thread nD τ).loc b) := fun c b => W11 m c b
def W12 (c : Dev nD) : Valuation τ sig (Elt F) :=
  Pipeline.withArrays spec5 c (W11 m c) fun w => (dat5 (U11 m) c).arrAt w cfg5.N
abbrev U12 : (c : Dev nD) → (b : Ref sig .tc) → Buf (Elt F) ((c : Thread nD τ).loc b) := fun c b => W12 m c b
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
theorem hF5 (c : Dev nD) (w : Fin cfg5.W) : (dat5 (U11 m) c).arrAt w cfg5.N = (U12 m) c (Pipeline.arrRef spec5 w) :=
  (W12_arr m c w).symm
theorem hrest5 (c : Dev nD) : ∀ b, b ∉ Finset.univ.image (Pipeline.arrRef spec5) → (U12 m) c b = (U11 m) c b :=
  fun b hb => W12_of_ne m c b fun w e => hb (Finset.mem_image.mpr ⟨w, Finset.mem_univ _, e⟩)
abbrev W13 : Dev nD → Valuation τ sig (Elt F) := fun c => StableHlo.after hostOps6 (W12 m c)
abbrev U13 : (c : Dev nD) → (b : Ref sig .tc) → Buf (Elt F) ((c : Thread nD τ).loc b) := fun c b => W13 m c b
def W14 (c : Dev nD) : Valuation τ sig (Elt F) :=
  Pipeline.withArrays spec6 c (W13 m c) fun w => (dat6 (U13 m) c).arrAt w cfg6.N
abbrev U14 : (c : Dev nD) → (b : Ref sig .tc) → Buf (Elt F) ((c : Thread nD τ).loc b) := fun c b => W14 m c b
theorem W14_arr (c : Dev nD) (w : Fin cfg6.W) :
    W14 m c (Proc.devRef .tc (Pipeline.arrRef spec6 w)) = (dat6 (U13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
theorem hF6 (c : Dev nD) (w : Fin cfg6.W) : (dat6 (U13 m) c).arrAt w cfg6.N = (U14 m) c (Pipeline.arrRef spec6 w) :=
  (W14_arr m c w).symm
theorem hrest6 (c : Dev nD) : ∀ b, b ∉ Finset.univ.image (Pipeline.arrRef spec6) → (U14 m) c b = (U13 m) c b :=
  fun b hb => W14_of_ne m c b fun w e => hb (Finset.mem_image.mpr ⟨w, Finset.mem_univ _, e⟩)
abbrev W15 : Dev nD → Valuation τ sig (Elt F) := fun c => StableHlo.after hostOps7 (W14 m c)
abbrev U15 : (c : Dev nD) → (b : Ref sig .tc) → Buf (Elt F) ((c : Thread nD τ).loc b) := fun c b => W15 m c b
def W16 (c : Dev nD) : Valuation τ sig (Elt F) :=
  Pipeline.withArrays spec7 c (W15 m c) fun w => (dat7 (U15 m) c).arrAt w cfg7.N
abbrev U16 : (c : Dev nD) → (b : Ref sig .tc) → Buf (Elt F) ((c : Thread nD τ).loc b) := fun c b => W16 m c b
theorem W16_arr (c : Dev nD) (w : Fin cfg7.W) :
    W16 m c (Proc.devRef .tc (Pipeline.arrRef spec7 w)) = (dat7 (U15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
theorem hF7 (c : Dev nD) (w : Fin cfg7.W) : (dat7 (U15 m) c).arrAt w cfg7.N = (U16 m) c (Pipeline.arrRef spec7 w) :=
  (W16_arr m c w).symm
theorem hrest7 (c : Dev nD) : ∀ b, b ∉ Finset.univ.image (Pipeline.arrRef spec7) → (U16 m) c b = (U15 m) c b :=
  fun b hb => W16_of_ne m c b fun w e => hb (Finset.mem_image.mpr ⟨w, Finset.mem_univ _, e⟩)
def W17 (c : Dev nD) : Valuation τ sig (Elt F) :=
  Pipeline.withArrays spec8 c (W16 m c) fun w => (dat8 (U16 m) c).arrAt w cfg8.N
abbrev U17 : (c : Dev nD) → (b : Ref sig .tc) → Buf (Elt F) ((c : Thread nD τ).loc b) := fun c b => W17 m c b
theorem W17_arr (c : Dev nD) (w : Fin cfg8.W) :
    W17 m c (Proc.devRef .tc (Pipeline.arrRef spec8 w)) = (dat8 (U16 m) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m c (Proc.devRef .tc b) = W16 m c (Proc.devRef .tc b) := by
  unfold W17; exact Pipeline.withArrays_of_ne spec8 c _ _ b hb
theorem hF8 (c : Dev nD) (w : Fin cfg8.W) : (dat8 (U16 m) c).arrAt w cfg8.N = (U17 m) c (Pipeline.arrRef spec8 w) :=
  (W17_arr m c w).symm
theorem hrest8 (c : Dev nD) : ∀ b, b ∉ Finset.univ.image (Pipeline.arrRef spec8) → (U17 m) c b = (U16 m) c b :=
  fun b hb => W17_of_ne m c b fun w e => hb (Finset.mem_image.mpr ⟨w, Finset.mem_univ _, e⟩)
abbrev W18 : Dev nD → Valuation τ sig (Elt F) := fun c => StableHlo.after hostOps9 (W17 m c)
abbrev U18 : (c : Dev nD) → (b : Ref sig .tc) → Buf (Elt F) ((c : Thread nD τ).loc b) := fun c b => W18 m c b
def W19 (c : Dev nD) : Valuation τ sig (Elt F) :=
  Pipeline.withArrays spec9 c (W18 m c) fun w => (dat9 (U18 m) c).arrAt w cfg9.N
abbrev U19 : (c : Dev nD) → (b : Ref sig .tc) → Buf (Elt F) ((c : Thread nD τ).loc b) := fun c b => W19 m c b
theorem W19_arr (c : Dev nD) (w : Fin cfg9.W) :
    W19 m c (Proc.devRef .tc (Pipeline.arrRef spec9 w)) = (dat9 (U18 m) c).arrAt w cfg9.N := by
  unfold W19; exact Pipeline.withArrays_arr spec9 launch9.win.arr_inj c _ _ w
theorem W19_of_ne (c : Dev nD) (b : Ref sig .tc) (hb : ∀ w, Pipeline.arrRef spec9 w ≠ b) :
    W19 m c (Proc.devRef .tc b) = W18 m c (Proc.devRef .tc b) := by
  unfold W19; exact Pipeline.withArrays_of_ne spec9 c _ _ b hb
theorem hF9 (c : Dev nD) (w : Fin cfg9.W) : (dat9 (U18 m) c).arrAt w cfg9.N = (U19 m) c (Pipeline.arrRef spec9 w) :=
  (W19_arr m c w).symm
theorem hrest9 (c : Dev nD) : ∀ b, b ∉ Finset.univ.image (Pipeline.arrRef spec9) → (U19 m) c b = (U18 m) c b :=
  fun b hb => W19_of_ne m c b fun w e => hb (Finset.mem_image.mpr ⟨w, Finset.mem_univ _, e⟩)
abbrev W20 : Dev nD → Valuation τ sig (Elt F) := fun c => StableHlo.after hostOps10 (W19 m c)
abbrev U20 : (c : Dev nD) → (b : Ref sig .tc) → Buf (Elt F) ((c : Thread nD τ).loc b) := fun c b => W20 m c b

/-! No host stretch writes an argument and no region changes one (a region reads it through an input window or not at all), so each argument's buffer at the last boundary holds its launch contents. -/
theorem W20_main_arg0 (c : Dev nD) : W20 m c (Proc.devRef .tc main_arg0) = m ((c : Thread nD τ).loc main_arg0) :=
  (StableHlo.after_of_writes_sub hostOps10 _ hostOps10_writes (by decide) : W20 m c (Proc.devRef .tc main_arg0) = W19 m c (Proc.devRef .tc main_arg0)).trans <|
    (W19_of_ne m c main_arg0 (by decide)).trans <|
    (StableHlo.after_of_writes_sub hostOps9 _ hostOps9_writes (by decide) : W18 m c (Proc.devRef .tc main_arg0) = W17 m c (Proc.devRef .tc main_arg0)).trans <|
    (W17_of_ne m c main_arg0 (by decide)).trans <|
    (W16_of_ne m c main_arg0 (by decide)).trans <|
    (StableHlo.after_of_writes_sub hostOps7 _ hostOps7_writes (by decide) : W15 m c (Proc.devRef .tc main_arg0) = W14 m c (Proc.devRef .tc main_arg0)).trans <|
    (W14_of_ne m c main_arg0 (by decide)).trans <|
    (StableHlo.after_of_writes_sub hostOps6 _ hostOps6_writes (by decide) : W13 m c (Proc.devRef .tc main_arg0) = W12 m c (Proc.devRef .tc main_arg0)).trans <|
    ((W12_arr m c 0).trans (((dat5 (U11 m) c).arrAt_in 0 rfl _).trans (A_eq5 (U11 m) c 0))).trans <|
    (StableHlo.after_of_writes_sub hostOps5 _ hostOps5_writes (by decide) : W11 m c (Proc.devRef .tc main_arg0) = W10 m c (Proc.devRef .tc main_arg0)).trans <|
    (W10_of_ne m c main_arg0 (by decide)).trans <|
    (StableHlo.after_of_writes_sub hostOps4 _ hostOps4_writes (by decide) : W9 m c (Proc.devRef .tc main_arg0) = W8 m c (Proc.devRef .tc main_arg0)).trans <|
    (W8_of_ne m c main_arg0 (by decide)).trans <|
    (StableHlo.after_of_writes_sub hostOps3 _ hostOps3_writes (by decide) : W7 m c (Proc.devRef .tc main_arg0) = W6 m c (Proc.devRef .tc main_arg0)).trans <|
    (W6_of_ne m c main_arg0 (by decide)).trans <|
    (StableHlo.after_of_writes_sub hostOps2 _ hostOps2_writes (by decide) : W5 m c (Proc.devRef .tc main_arg0) = W4 m c (Proc.devRef .tc main_arg0)).trans <|
    ((W4_arr m c 0).trans (((dat1 (U3 m) c).arrAt_in 0 rfl _).trans (A_eq1 (U3 m) c 0))).trans <|
    (StableHlo.after_of_writes_sub hostOps1 _ hostOps1_writes (by decide) : W3 m c (Proc.devRef .tc main_arg0) = W2 m c (Proc.devRef .tc main_arg0)).trans <|
    (W2_of_ne m c main_arg0 (by decide)).trans <|
    (StableHlo.after_of_writes_sub hostOps0 _ hostOps0_writes (by decide) : W1 m c (Proc.devRef .tc main_arg0) = W0 m c (Proc.devRef .tc main_arg0)).trans <| rfl
theorem W20_main_arg1 (c : Dev nD) : W20 m c (Proc.devRef .tc main_arg1) = m ((c : Thread nD τ).loc main_arg1) :=
  (StableHlo.after_of_writes_sub hostOps10 _ hostOps10_writes (by decide) : W20 m c (Proc.devRef .tc main_arg1) = W19 m c (Proc.devRef .tc main_arg1)).trans <|
    (W19_of_ne m c main_arg1 (by decide)).trans <|
    (StableHlo.after_of_writes_sub hostOps9 _ hostOps9_writes (by decide) : W18 m c (Proc.devRef .tc main_arg1) = W17 m c (Proc.devRef .tc main_arg1)).trans <|
    (W17_of_ne m c main_arg1 (by decide)).trans <|
    (W16_of_ne m c main_arg1 (by decide)).trans <|
    (StableHlo.after_of_writes_sub hostOps7 _ hostOps7_writes (by decide) : W15 m c (Proc.devRef .tc main_arg1) = W14 m c (Proc.devRef .tc main_arg1)).trans <|
    (W14_of_ne m c main_arg1 (by decide)).trans <|
    (StableHlo.after_of_writes_sub hostOps6 _ hostOps6_writes (by decide) : W13 m c (Proc.devRef .tc main_arg1) = W12 m c (Proc.devRef .tc main_arg1)).trans <|
    (W12_of_ne m c main_arg1 (by decide)).trans <|
    (StableHlo.after_of_writes_sub hostOps5 _ hostOps5_writes (by decide) : W11 m c (Proc.devRef .tc main_arg1) = W10 m c (Proc.devRef .tc main_arg1)).trans <|
    (W10_of_ne m c main_arg1 (by decide)).trans <|
    (StableHlo.after_of_writes_sub hostOps4 _ hostOps4_writes (by decide) : W9 m c (Proc.devRef .tc main_arg1) = W8 m c (Proc.devRef .tc main_arg1)).trans <|
    (W8_of_ne m c main_arg1 (by decide)).trans <|
    (StableHlo.after_of_writes_sub hostOps3 _ hostOps3_writes (by decide) : W7 m c (Proc.devRef .tc main_arg1) = W6 m c (Proc.devRef .tc main_arg1)).trans <|
    ((W6_arr m c 1).trans (((dat2 (U5 m) c).arrAt_in 1 rfl _).trans (A_eq2 (U5 m) c 1))).trans <|
    (StableHlo.after_of_writes_sub hostOps2 _ hostOps2_writes (by decide) : W5 m c (Proc.devRef .tc main_arg1) = W4 m c (Proc.devRef .tc main_arg1)).trans <|
    (W4_of_ne m c main_arg1 (by decide)).trans <|
    (StableHlo.after_of_writes_sub hostOps1 _ hostOps1_writes (by decide) : W3 m c (Proc.devRef .tc main_arg1) = W2 m c (Proc.devRef .tc main_arg1)).trans <|
    ((W2_arr m c 1).trans (((dat0 (U1 m) c).arrAt_in 1 rfl _).trans (A_eq0 (U1 m) c 1))).trans <|
    (StableHlo.after_of_writes_sub hostOps0 _ hostOps0_writes (by decide) : W1 m c (Proc.devRef .tc main_arg1) = W0 m c (Proc.devRef .tc main_arg1)).trans <| rfl
theorem W20_main_arg2 (c : Dev nD) : W20 m c (Proc.devRef .tc main_arg2) = m ((c : Thread nD τ).loc main_arg2) :=
  (StableHlo.after_of_writes_sub hostOps10 _ hostOps10_writes (by decide) : W20 m c (Proc.devRef .tc main_arg2) = W19 m c (Proc.devRef .tc main_arg2)).trans <|
    (W19_of_ne m c main_arg2 (by decide)).trans <|
    (StableHlo.after_of_writes_sub hostOps9 _ hostOps9_writes (by decide) : W18 m c (Proc.devRef .tc main_arg2) = W17 m c (Proc.devRef .tc main_arg2)).trans <|
    (W17_of_ne m c main_arg2 (by decide)).trans <|
    (W16_of_ne m c main_arg2 (by decide)).trans <|
    (StableHlo.after_of_writes_sub hostOps7 _ hostOps7_writes (by decide) : W15 m c (Proc.devRef .tc main_arg2) = W14 m c (Proc.devRef .tc main_arg2)).trans <|
    (W14_of_ne m c main_arg2 (by decide)).trans <|
    (StableHlo.after_of_writes_sub hostOps6 _ hostOps6_writes (by decide) : W13 m c (Proc.devRef .tc main_arg2) = W12 m c (Proc.devRef .tc main_arg2)).trans <|
    (W12_of_ne m c main_arg2 (by decide)).trans <|
    (StableHlo.after_of_writes_sub hostOps5 _ hostOps5_writes (by decide) : W11 m c (Proc.devRef .tc main_arg2) = W10 m c (Proc.devRef .tc main_arg2)).trans <|
    (W10_of_ne m c main_arg2 (by decide)).trans <|
    (StableHlo.after_of_writes_sub hostOps4 _ hostOps4_writes (by decide) : W9 m c (Proc.devRef .tc main_arg2) = W8 m c (Proc.devRef .tc main_arg2)).trans <|
    (W8_of_ne m c main_arg2 (by decide)).trans <|
    (StableHlo.after_of_writes_sub hostOps3 _ hostOps3_writes (by decide) : W7 m c (Proc.devRef .tc main_arg2) = W6 m c (Proc.devRef .tc main_arg2)).trans <|
    (W6_of_ne m c main_arg2 (by decide)).trans <|
    (StableHlo.after_of_writes_sub hostOps2 _ hostOps2_writes (by decide) : W5 m c (Proc.devRef .tc main_arg2) = W4 m c (Proc.devRef .tc main_arg2)).trans <|
    (W4_of_ne m c main_arg2 (by decide)).trans <|
    (StableHlo.after_of_writes_sub hostOps1 _ hostOps1_writes (by decide) : W3 m c (Proc.devRef .tc main_arg2) = W2 m c (Proc.devRef .tc main_arg2)).trans <|
    (W2_of_ne m c main_arg2 (by decide)).trans <|
    (StableHlo.after_of_writes_sub hostOps0 _ hostOps0_writes (by decide) : W1 m c (Proc.devRef .tc main_arg2) = W0 m c (Proc.devRef .tc main_arg2)).trans <| rfl
theorem W20_main_arg3 (c : Dev nD) : W20 m c (Proc.devRef .tc main_arg3) = m ((c : Thread nD τ).loc main_arg3) :=
  (StableHlo.after_of_writes_sub hostOps10 _ hostOps10_writes (by decide) : W20 m c (Proc.devRef .tc main_arg3) = W19 m c (Proc.devRef .tc main_arg3)).trans <|
    (W19_of_ne m c main_arg3 (by decide)).trans <|
    (StableHlo.after_of_writes_sub hostOps9 _ hostOps9_writes (by decide) : W18 m c (Proc.devRef .tc main_arg3) = W17 m c (Proc.devRef .tc main_arg3)).trans <|
    (W17_of_ne m c main_arg3 (by decide)).trans <|
    (W16_of_ne m c main_arg3 (by decide)).trans <|
    (StableHlo.after_of_writes_sub hostOps7 _ hostOps7_writes (by decide) : W15 m c (Proc.devRef .tc main_arg3) = W14 m c (Proc.devRef .tc main_arg3)).trans <|
    (W14_of_ne m c main_arg3 (by decide)).trans <|
    (StableHlo.after_of_writes_sub hostOps6 _ hostOps6_writes (by decide) : W13 m c (Proc.devRef .tc main_arg3) = W12 m c (Proc.devRef .tc main_arg3)).trans <|
    (W12_of_ne m c main_arg3 (by decide)).trans <|
    (StableHlo.after_of_writes_sub hostOps5 _ hostOps5_writes (by decide) : W11 m c (Proc.devRef .tc main_arg3) = W10 m c (Proc.devRef .tc main_arg3)).trans <|
    (W10_of_ne m c main_arg3 (by decide)).trans <|
    (StableHlo.after_of_writes_sub hostOps4 _ hostOps4_writes (by decide) : W9 m c (Proc.devRef .tc main_arg3) = W8 m c (Proc.devRef .tc main_arg3)).trans <|
    (W8_of_ne m c main_arg3 (by decide)).trans <|
    (StableHlo.after_of_writes_sub hostOps3 _ hostOps3_writes (by decide) : W7 m c (Proc.devRef .tc main_arg3) = W6 m c (Proc.devRef .tc main_arg3)).trans <|
    (W6_of_ne m c main_arg3 (by decide)).trans <|
    (StableHlo.after_of_writes_sub hostOps2 _ hostOps2_writes (by decide) : W5 m c (Proc.devRef .tc main_arg3) = W4 m c (Proc.devRef .tc main_arg3)).trans <|
    (W4_of_ne m c main_arg3 (by decide)).trans <|
    (StableHlo.after_of_writes_sub hostOps1 _ hostOps1_writes (by decide) : W3 m c (Proc.devRef .tc main_arg3) = W2 m c (Proc.devRef .tc main_arg3)).trans <|
    (W2_of_ne m c main_arg3 (by decide)).trans <|
    (StableHlo.after_of_writes_sub hostOps0 _ hostOps0_writes (by decide) : W1 m c (Proc.devRef .tc main_arg3) = W0 m c (Proc.devRef .tc main_arg3)).trans <| rfl
theorem W20_main_arg4 (c : Dev nD) : W20 m c (Proc.devRef .tc main_arg4) = m ((c : Thread nD τ).loc main_arg4) :=
  (StableHlo.after_of_writes_sub hostOps10 _ hostOps10_writes (by decide) : W20 m c (Proc.devRef .tc main_arg4) = W19 m c (Proc.devRef .tc main_arg4)).trans <|
    (W19_of_ne m c main_arg4 (by decide)).trans <|
    (StableHlo.after_of_writes_sub hostOps9 _ hostOps9_writes (by decide) : W18 m c (Proc.devRef .tc main_arg4) = W17 m c (Proc.devRef .tc main_arg4)).trans <|
    (W17_of_ne m c main_arg4 (by decide)).trans <|
    (W16_of_ne m c main_arg4 (by decide)).trans <|
    (StableHlo.after_of_writes_sub hostOps7 _ hostOps7_writes (by decide) : W15 m c (Proc.devRef .tc main_arg4) = W14 m c (Proc.devRef .tc main_arg4)).trans <|
    (W14_of_ne m c main_arg4 (by decide)).trans <|
    (StableHlo.after_of_writes_sub hostOps6 _ hostOps6_writes (by decide) : W13 m c (Proc.devRef .tc main_arg4) = W12 m c (Proc.devRef .tc main_arg4)).trans <|
    (W12_of_ne m c main_arg4 (by decide)).trans <|
    (StableHlo.after_of_writes_sub hostOps5 _ hostOps5_writes (by decide) : W11 m c (Proc.devRef .tc main_arg4) = W10 m c (Proc.devRef .tc main_arg4)).trans <|
    (W10_of_ne m c main_arg4 (by decide)).trans <|
    (StableHlo.after_of_writes_sub hostOps4 _ hostOps4_writes (by decide) : W9 m c (Proc.devRef .tc main_arg4) = W8 m c (Proc.devRef .tc main_arg4)).trans <|
    (W8_of_ne m c main_arg4 (by decide)).trans <|
    (StableHlo.after_of_writes_sub hostOps3 _ hostOps3_writes (by decide) : W7 m c (Proc.devRef .tc main_arg4) = W6 m c (Proc.devRef .tc main_arg4)).trans <|
    (W6_of_ne m c main_arg4 (by decide)).trans <|
    (StableHlo.after_of_writes_sub hostOps2 _ hostOps2_writes (by decide) : W5 m c (Proc.devRef .tc main_arg4) = W4 m c (Proc.devRef .tc main_arg4)).trans <|
    (W4_of_ne m c main_arg4 (by decide)).trans <|
    (StableHlo.after_of_writes_sub hostOps1 _ hostOps1_writes (by decide) : W3 m c (Proc.devRef .tc main_arg4) = W2 m c (Proc.devRef .tc main_arg4)).trans <|
    (W2_of_ne m c main_arg4 (by decide)).trans <|
    (StableHlo.after_of_writes_sub hostOps0 _ hostOps0_writes (by decide) : W1 m c (Proc.devRef .tc main_arg4) = W0 m c (Proc.devRef .tc main_arg4)).trans <| rfl
theorem W20_main_arg5 (c : Dev nD) : W20 m c (Proc.devRef .tc main_arg5) = m ((c : Thread nD τ).loc main_arg5) :=
  (StableHlo.after_of_writes_sub hostOps10 _ hostOps10_writes (by decide) : W20 m c (Proc.devRef .tc main_arg5) = W19 m c (Proc.devRef .tc main_arg5)).trans <|
    (W19_of_ne m c main_arg5 (by decide)).trans <|
    (StableHlo.after_of_writes_sub hostOps9 _ hostOps9_writes (by decide) : W18 m c (Proc.devRef .tc main_arg5) = W17 m c (Proc.devRef .tc main_arg5)).trans <|
    (W17_of_ne m c main_arg5 (by decide)).trans <|
    (W16_of_ne m c main_arg5 (by decide)).trans <|
    (StableHlo.after_of_writes_sub hostOps7 _ hostOps7_writes (by decide) : W15 m c (Proc.devRef .tc main_arg5) = W14 m c (Proc.devRef .tc main_arg5)).trans <|
    (W14_of_ne m c main_arg5 (by decide)).trans <|
    (StableHlo.after_of_writes_sub hostOps6 _ hostOps6_writes (by decide) : W13 m c (Proc.devRef .tc main_arg5) = W12 m c (Proc.devRef .tc main_arg5)).trans <|
    (W12_of_ne m c main_arg5 (by decide)).trans <|
    (StableHlo.after_of_writes_sub hostOps5 _ hostOps5_writes (by decide) : W11 m c (Proc.devRef .tc main_arg5) = W10 m c (Proc.devRef .tc main_arg5)).trans <|
    (W10_of_ne m c main_arg5 (by decide)).trans <|
    (StableHlo.after_of_writes_sub hostOps4 _ hostOps4_writes (by decide) : W9 m c (Proc.devRef .tc main_arg5) = W8 m c (Proc.devRef .tc main_arg5)).trans <|
    (W8_of_ne m c main_arg5 (by decide)).trans <|
    (StableHlo.after_of_writes_sub hostOps3 _ hostOps3_writes (by decide) : W7 m c (Proc.devRef .tc main_arg5) = W6 m c (Proc.devRef .tc main_arg5)).trans <|
    (W6_of_ne m c main_arg5 (by decide)).trans <|
    (StableHlo.after_of_writes_sub hostOps2 _ hostOps2_writes (by decide) : W5 m c (Proc.devRef .tc main_arg5) = W4 m c (Proc.devRef .tc main_arg5)).trans <|
    (W4_of_ne m c main_arg5 (by decide)).trans <|
    (StableHlo.after_of_writes_sub hostOps1 _ hostOps1_writes (by decide) : W3 m c (Proc.devRef .tc main_arg5) = W2 m c (Proc.devRef .tc main_arg5)).trans <|
    (W2_of_ne m c main_arg5 (by decide)).trans <|
    (StableHlo.after_of_writes_sub hostOps0 _ hostOps0_writes (by decide) : W1 m c (Proc.devRef .tc main_arg5) = W0 m c (Proc.devRef .tc main_arg5)).trans <| rfl
theorem W20_main_arg6 (c : Dev nD) : W20 m c (Proc.devRef .tc main_arg6) = m ((c : Thread nD τ).loc main_arg6) :=
  (StableHlo.after_of_writes_sub hostOps10 _ hostOps10_writes (by decide) : W20 m c (Proc.devRef .tc main_arg6) = W19 m c (Proc.devRef .tc main_arg6)).trans <|
    (W19_of_ne m c main_arg6 (by decide)).trans <|
    (StableHlo.after_of_writes_sub hostOps9 _ hostOps9_writes (by decide) : W18 m c (Proc.devRef .tc main_arg6) = W17 m c (Proc.devRef .tc main_arg6)).trans <|
    (W17_of_ne m c main_arg6 (by decide)).trans <|
    (W16_of_ne m c main_arg6 (by decide)).trans <|
    (StableHlo.after_of_writes_sub hostOps7 _ hostOps7_writes (by decide) : W15 m c (Proc.devRef .tc main_arg6) = W14 m c (Proc.devRef .tc main_arg6)).trans <|
    (W14_of_ne m c main_arg6 (by decide)).trans <|
    (StableHlo.after_of_writes_sub hostOps6 _ hostOps6_writes (by decide) : W13 m c (Proc.devRef .tc main_arg6) = W12 m c (Proc.devRef .tc main_arg6)).trans <|
    (W12_of_ne m c main_arg6 (by decide)).trans <|
    (StableHlo.after_of_writes_sub hostOps5 _ hostOps5_writes (by decide) : W11 m c (Proc.devRef .tc main_arg6) = W10 m c (Proc.devRef .tc main_arg6)).trans <|
    (W10_of_ne m c main_arg6 (by decide)).trans <|
    (StableHlo.after_of_writes_sub hostOps4 _ hostOps4_writes (by decide) : W9 m c (Proc.devRef .tc main_arg6) = W8 m c (Proc.devRef .tc main_arg6)).trans <|
    (W8_of_ne m c main_arg6 (by decide)).trans <|
    (StableHlo.after_of_writes_sub hostOps3 _ hostOps3_writes (by decide) : W7 m c (Proc.devRef .tc main_arg6) = W6 m c (Proc.devRef .tc main_arg6)).trans <|
    (W6_of_ne m c main_arg6 (by decide)).trans <|
    (StableHlo.after_of_writes_sub hostOps2 _ hostOps2_writes (by decide) : W5 m c (Proc.devRef .tc main_arg6) = W4 m c (Proc.devRef .tc main_arg6)).trans <|
    (W4_of_ne m c main_arg6 (by decide)).trans <|
    (StableHlo.after_of_writes_sub hostOps1 _ hostOps1_writes (by decide) : W3 m c (Proc.devRef .tc main_arg6) = W2 m c (Proc.devRef .tc main_arg6)).trans <|
    (W2_of_ne m c main_arg6 (by decide)).trans <|
    (StableHlo.after_of_writes_sub hostOps0 _ hostOps0_writes (by decide) : W1 m c (Proc.devRef .tc main_arg6) = W0 m c (Proc.devRef .tc main_arg6)).trans <| rfl
theorem W20_main_arg7 (c : Dev nD) : W20 m c (Proc.devRef .tc main_arg7) = m ((c : Thread nD τ).loc main_arg7) :=
  (StableHlo.after_of_writes_sub hostOps10 _ hostOps10_writes (by decide) : W20 m c (Proc.devRef .tc main_arg7) = W19 m c (Proc.devRef .tc main_arg7)).trans <|
    (W19_of_ne m c main_arg7 (by decide)).trans <|
    (StableHlo.after_of_writes_sub hostOps9 _ hostOps9_writes (by decide) : W18 m c (Proc.devRef .tc main_arg7) = W17 m c (Proc.devRef .tc main_arg7)).trans <|
    (W17_of_ne m c main_arg7 (by decide)).trans <|
    (W16_of_ne m c main_arg7 (by decide)).trans <|
    (StableHlo.after_of_writes_sub hostOps7 _ hostOps7_writes (by decide) : W15 m c (Proc.devRef .tc main_arg7) = W14 m c (Proc.devRef .tc main_arg7)).trans <|
    (W14_of_ne m c main_arg7 (by decide)).trans <|
    (StableHlo.after_of_writes_sub hostOps6 _ hostOps6_writes (by decide) : W13 m c (Proc.devRef .tc main_arg7) = W12 m c (Proc.devRef .tc main_arg7)).trans <|
    (W12_of_ne m c main_arg7 (by decide)).trans <|
    (StableHlo.after_of_writes_sub hostOps5 _ hostOps5_writes (by decide) : W11 m c (Proc.devRef .tc main_arg7) = W10 m c (Proc.devRef .tc main_arg7)).trans <|
    (W10_of_ne m c main_arg7 (by decide)).trans <|
    (StableHlo.after_of_writes_sub hostOps4 _ hostOps4_writes (by decide) : W9 m c (Proc.devRef .tc main_arg7) = W8 m c (Proc.devRef .tc main_arg7)).trans <|
    (W8_of_ne m c main_arg7 (by decide)).trans <|
    (StableHlo.after_of_writes_sub hostOps3 _ hostOps3_writes (by decide) : W7 m c (Proc.devRef .tc main_arg7) = W6 m c (Proc.devRef .tc main_arg7)).trans <|
    (W6_of_ne m c main_arg7 (by decide)).trans <|
    (StableHlo.after_of_writes_sub hostOps2 _ hostOps2_writes (by decide) : W5 m c (Proc.devRef .tc main_arg7) = W4 m c (Proc.devRef .tc main_arg7)).trans <|
    (W4_of_ne m c main_arg7 (by decide)).trans <|
    (StableHlo.after_of_writes_sub hostOps1 _ hostOps1_writes (by decide) : W3 m c (Proc.devRef .tc main_arg7) = W2 m c (Proc.devRef .tc main_arg7)).trans <|
    (W2_of_ne m c main_arg7 (by decide)).trans <|
    (StableHlo.after_of_writes_sub hostOps0 _ hostOps0_writes (by decide) : W1 m c (Proc.devRef .tc main_arg7) = W0 m c (Proc.devRef .tc main_arg7)).trans <| rfl
theorem W20_main_arg8 (c : Dev nD) : W20 m c (Proc.devRef .tc main_arg8) = m ((c : Thread nD τ).loc main_arg8) :=
  (StableHlo.after_of_writes_sub hostOps10 _ hostOps10_writes (by decide) : W20 m c (Proc.devRef .tc main_arg8) = W19 m c (Proc.devRef .tc main_arg8)).trans <|
    (W19_of_ne m c main_arg8 (by decide)).trans <|
    (StableHlo.after_of_writes_sub hostOps9 _ hostOps9_writes (by decide) : W18 m c (Proc.devRef .tc main_arg8) = W17 m c (Proc.devRef .tc main_arg8)).trans <|
    (W17_of_ne m c main_arg8 (by decide)).trans <|
    (W16_of_ne m c main_arg8 (by decide)).trans <|
    (StableHlo.after_of_writes_sub hostOps7 _ hostOps7_writes (by decide) : W15 m c (Proc.devRef .tc main_arg8) = W14 m c (Proc.devRef .tc main_arg8)).trans <|
    (W14_of_ne m c main_arg8 (by decide)).trans <|
    (StableHlo.after_of_writes_sub hostOps6 _ hostOps6_writes (by decide) : W13 m c (Proc.devRef .tc main_arg8) = W12 m c (Proc.devRef .tc main_arg8)).trans <|
    (W12_of_ne m c main_arg8 (by decide)).trans <|
    (StableHlo.after_of_writes_sub hostOps5 _ hostOps5_writes (by decide) : W11 m c (Proc.devRef .tc main_arg8) = W10 m c (Proc.devRef .tc main_arg8)).trans <|
    (W10_of_ne m c main_arg8 (by decide)).trans <|
    (StableHlo.after_of_writes_sub hostOps4 _ hostOps4_writes (by decide) : W9 m c (Proc.devRef .tc main_arg8) = W8 m c (Proc.devRef .tc main_arg8)).trans <|
    (W8_of_ne m c main_arg8 (by decide)).trans <|
    (StableHlo.after_of_writes_sub hostOps3 _ hostOps3_writes (by decide) : W7 m c (Proc.devRef .tc main_arg8) = W6 m c (Proc.devRef .tc main_arg8)).trans <|
    (W6_of_ne m c main_arg8 (by decide)).trans <|
    (StableHlo.after_of_writes_sub hostOps2 _ hostOps2_writes (by decide) : W5 m c (Proc.devRef .tc main_arg8) = W4 m c (Proc.devRef .tc main_arg8)).trans <|
    (W4_of_ne m c main_arg8 (by decide)).trans <|
    (StableHlo.after_of_writes_sub hostOps1 _ hostOps1_writes (by decide) : W3 m c (Proc.devRef .tc main_arg8) = W2 m c (Proc.devRef .tc main_arg8)).trans <|
    (W2_of_ne m c main_arg8 (by decide)).trans <|
    (StableHlo.after_of_writes_sub hostOps0 _ hostOps0_writes (by decide) : W1 m c (Proc.devRef .tc main_arg8) = W0 m c (Proc.devRef .tc main_arg8)).trans <| rfl
theorem W20_main_arg9 (c : Dev nD) : W20 m c (Proc.devRef .tc main_arg9) = m ((c : Thread nD τ).loc main_arg9) :=
  (StableHlo.after_of_writes_sub hostOps10 _ hostOps10_writes (by decide) : W20 m c (Proc.devRef .tc main_arg9) = W19 m c (Proc.devRef .tc main_arg9)).trans <|
    (W19_of_ne m c main_arg9 (by decide)).trans <|
    (StableHlo.after_of_writes_sub hostOps9 _ hostOps9_writes (by decide) : W18 m c (Proc.devRef .tc main_arg9) = W17 m c (Proc.devRef .tc main_arg9)).trans <|
    (W17_of_ne m c main_arg9 (by decide)).trans <|
    (W16_of_ne m c main_arg9 (by decide)).trans <|
    (StableHlo.after_of_writes_sub hostOps7 _ hostOps7_writes (by decide) : W15 m c (Proc.devRef .tc main_arg9) = W14 m c (Proc.devRef .tc main_arg9)).trans <|
    (W14_of_ne m c main_arg9 (by decide)).trans <|
    (StableHlo.after_of_writes_sub hostOps6 _ hostOps6_writes (by decide) : W13 m c (Proc.devRef .tc main_arg9) = W12 m c (Proc.devRef .tc main_arg9)).trans <|
    (W12_of_ne m c main_arg9 (by decide)).trans <|
    (StableHlo.after_of_writes_sub hostOps5 _ hostOps5_writes (by decide) : W11 m c (Proc.devRef .tc main_arg9) = W10 m c (Proc.devRef .tc main_arg9)).trans <|
    (W10_of_ne m c main_arg9 (by decide)).trans <|
    (StableHlo.after_of_writes_sub hostOps4 _ hostOps4_writes (by decide) : W9 m c (Proc.devRef .tc main_arg9) = W8 m c (Proc.devRef .tc main_arg9)).trans <|
    (W8_of_ne m c main_arg9 (by decide)).trans <|
    (StableHlo.after_of_writes_sub hostOps3 _ hostOps3_writes (by decide) : W7 m c (Proc.devRef .tc main_arg9) = W6 m c (Proc.devRef .tc main_arg9)).trans <|
    (W6_of_ne m c main_arg9 (by decide)).trans <|
    (StableHlo.after_of_writes_sub hostOps2 _ hostOps2_writes (by decide) : W5 m c (Proc.devRef .tc main_arg9) = W4 m c (Proc.devRef .tc main_arg9)).trans <|
    (W4_of_ne m c main_arg9 (by decide)).trans <|
    (StableHlo.after_of_writes_sub hostOps1 _ hostOps1_writes (by decide) : W3 m c (Proc.devRef .tc main_arg9) = W2 m c (Proc.devRef .tc main_arg9)).trans <|
    (W2_of_ne m c main_arg9 (by decide)).trans <|
    (StableHlo.after_of_writes_sub hostOps0 _ hostOps0_writes (by decide) : W1 m c (Proc.devRef .tc main_arg9) = W0 m c (Proc.devRef .tc main_arg9)).trans <| rfl
theorem W20_main_arg10 (c : Dev nD) : W20 m c (Proc.devRef .tc main_arg10) = m ((c : Thread nD τ).loc main_arg10) :=
  (StableHlo.after_of_writes_sub hostOps10 _ hostOps10_writes (by decide) : W20 m c (Proc.devRef .tc main_arg10) = W19 m c (Proc.devRef .tc main_arg10)).trans <|
    (W19_of_ne m c main_arg10 (by decide)).trans <|
    (StableHlo.after_of_writes_sub hostOps9 _ hostOps9_writes (by decide) : W18 m c (Proc.devRef .tc main_arg10) = W17 m c (Proc.devRef .tc main_arg10)).trans <|
    (W17_of_ne m c main_arg10 (by decide)).trans <|
    (W16_of_ne m c main_arg10 (by decide)).trans <|
    (StableHlo.after_of_writes_sub hostOps7 _ hostOps7_writes (by decide) : W15 m c (Proc.devRef .tc main_arg10) = W14 m c (Proc.devRef .tc main_arg10)).trans <|
    (W14_of_ne m c main_arg10 (by decide)).trans <|
    (StableHlo.after_of_writes_sub hostOps6 _ hostOps6_writes (by decide) : W13 m c (Proc.devRef .tc main_arg10) = W12 m c (Proc.devRef .tc main_arg10)).trans <|
    (W12_of_ne m c main_arg10 (by decide)).trans <|
    (StableHlo.after_of_writes_sub hostOps5 _ hostOps5_writes (by decide) : W11 m c (Proc.devRef .tc main_arg10) = W10 m c (Proc.devRef .tc main_arg10)).trans <|
    (W10_of_ne m c main_arg10 (by decide)).trans <|
    (StableHlo.after_of_writes_sub hostOps4 _ hostOps4_writes (by decide) : W9 m c (Proc.devRef .tc main_arg10) = W8 m c (Proc.devRef .tc main_arg10)).trans <|
    (W8_of_ne m c main_arg10 (by decide)).trans <|
    (StableHlo.after_of_writes_sub hostOps3 _ hostOps3_writes (by decide) : W7 m c (Proc.devRef .tc main_arg10) = W6 m c (Proc.devRef .tc main_arg10)).trans <|
    (W6_of_ne m c main_arg10 (by decide)).trans <|
    (StableHlo.after_of_writes_sub hostOps2 _ hostOps2_writes (by decide) : W5 m c (Proc.devRef .tc main_arg10) = W4 m c (Proc.devRef .tc main_arg10)).trans <|
    (W4_of_ne m c main_arg10 (by decide)).trans <|
    (StableHlo.after_of_writes_sub hostOps1 _ hostOps1_writes (by decide) : W3 m c (Proc.devRef .tc main_arg10) = W2 m c (Proc.devRef .tc main_arg10)).trans <|
    (W2_of_ne m c main_arg10 (by decide)).trans <|
    (StableHlo.after_of_writes_sub hostOps0 _ hostOps0_writes (by decide) : W1 m c (Proc.devRef .tc main_arg10) = W0 m c (Proc.devRef .tc main_arg10)).trans <| rfl
theorem W20_main_arg11 (c : Dev nD) : W20 m c (Proc.devRef .tc main_arg11) = m ((c : Thread nD τ).loc main_arg11) :=
  (StableHlo.after_of_writes_sub hostOps10 _ hostOps10_writes (by decide) : W20 m c (Proc.devRef .tc main_arg11) = W19 m c (Proc.devRef .tc main_arg11)).trans <|
    (W19_of_ne m c main_arg11 (by decide)).trans <|
    (StableHlo.after_of_writes_sub hostOps9 _ hostOps9_writes (by decide) : W18 m c (Proc.devRef .tc main_arg11) = W17 m c (Proc.devRef .tc main_arg11)).trans <|
    (W17_of_ne m c main_arg11 (by decide)).trans <|
    (W16_of_ne m c main_arg11 (by decide)).trans <|
    (StableHlo.after_of_writes_sub hostOps7 _ hostOps7_writes (by decide) : W15 m c (Proc.devRef .tc main_arg11) = W14 m c (Proc.devRef .tc main_arg11)).trans <|
    (W14_of_ne m c main_arg11 (by decide)).trans <|
    (StableHlo.after_of_writes_sub hostOps6 _ hostOps6_writes (by decide) : W13 m c (Proc.devRef .tc main_arg11) = W12 m c (Proc.devRef .tc main_arg11)).trans <|
    (W12_of_ne m c main_arg11 (by decide)).trans <|
    (StableHlo.after_of_writes_sub hostOps5 _ hostOps5_writes (by decide) : W11 m c (Proc.devRef .tc main_arg11) = W10 m c (Proc.devRef .tc main_arg11)).trans <|
    (W10_of_ne m c main_arg11 (by decide)).trans <|
    (StableHlo.after_of_writes_sub hostOps4 _ hostOps4_writes (by decide) : W9 m c (Proc.devRef .tc main_arg11) = W8 m c (Proc.devRef .tc main_arg11)).trans <|
    (W8_of_ne m c main_arg11 (by decide)).trans <|
    (StableHlo.after_of_writes_sub hostOps3 _ hostOps3_writes (by decide) : W7 m c (Proc.devRef .tc main_arg11) = W6 m c (Proc.devRef .tc main_arg11)).trans <|
    (W6_of_ne m c main_arg11 (by decide)).trans <|
    (StableHlo.after_of_writes_sub hostOps2 _ hostOps2_writes (by decide) : W5 m c (Proc.devRef .tc main_arg11) = W4 m c (Proc.devRef .tc main_arg11)).trans <|
    (W4_of_ne m c main_arg11 (by decide)).trans <|
    (StableHlo.after_of_writes_sub hostOps1 _ hostOps1_writes (by decide) : W3 m c (Proc.devRef .tc main_arg11) = W2 m c (Proc.devRef .tc main_arg11)).trans <|
    (W2_of_ne m c main_arg11 (by decide)).trans <|
    (StableHlo.after_of_writes_sub hostOps0 _ hostOps0_writes (by decide) : W1 m c (Proc.devRef .tc main_arg11) = W0 m c (Proc.devRef .tc main_arg11)).trans <| rfl
theorem W20_main_arg12 (c : Dev nD) : W20 m c (Proc.devRef .tc main_arg12) = m ((c : Thread nD τ).loc main_arg12) :=
  (StableHlo.after_of_writes_sub hostOps10 _ hostOps10_writes (by decide) : W20 m c (Proc.devRef .tc main_arg12) = W19 m c (Proc.devRef .tc main_arg12)).trans <|
    (W19_of_ne m c main_arg12 (by decide)).trans <|
    (StableHlo.after_of_writes_sub hostOps9 _ hostOps9_writes (by decide) : W18 m c (Proc.devRef .tc main_arg12) = W17 m c (Proc.devRef .tc main_arg12)).trans <|
    (W17_of_ne m c main_arg12 (by decide)).trans <|
    (W16_of_ne m c main_arg12 (by decide)).trans <|
    (StableHlo.after_of_writes_sub hostOps7 _ hostOps7_writes (by decide) : W15 m c (Proc.devRef .tc main_arg12) = W14 m c (Proc.devRef .tc main_arg12)).trans <|
    (W14_of_ne m c main_arg12 (by decide)).trans <|
    (StableHlo.after_of_writes_sub hostOps6 _ hostOps6_writes (by decide) : W13 m c (Proc.devRef .tc main_arg12) = W12 m c (Proc.devRef .tc main_arg12)).trans <|
    (W12_of_ne m c main_arg12 (by decide)).trans <|
    (StableHlo.after_of_writes_sub hostOps5 _ hostOps5_writes (by decide) : W11 m c (Proc.devRef .tc main_arg12) = W10 m c (Proc.devRef .tc main_arg12)).trans <|
    (W10_of_ne m c main_arg12 (by decide)).trans <|
    (StableHlo.after_of_writes_sub hostOps4 _ hostOps4_writes (by decide) : W9 m c (Proc.devRef .tc main_arg12) = W8 m c (Proc.devRef .tc main_arg12)).trans <|
    (W8_of_ne m c main_arg12 (by decide)).trans <|
    (StableHlo.after_of_writes_sub hostOps3 _ hostOps3_writes (by decide) : W7 m c (Proc.devRef .tc main_arg12) = W6 m c (Proc.devRef .tc main_arg12)).trans <|
    (W6_of_ne m c main_arg12 (by decide)).trans <|
    (StableHlo.after_of_writes_sub hostOps2 _ hostOps2_writes (by decide) : W5 m c (Proc.devRef .tc main_arg12) = W4 m c (Proc.devRef .tc main_arg12)).trans <|
    (W4_of_ne m c main_arg12 (by decide)).trans <|
    (StableHlo.after_of_writes_sub hostOps1 _ hostOps1_writes (by decide) : W3 m c (Proc.devRef .tc main_arg12) = W2 m c (Proc.devRef .tc main_arg12)).trans <|
    (W2_of_ne m c main_arg12 (by decide)).trans <|
    (StableHlo.after_of_writes_sub hostOps0 _ hostOps0_writes (by decide) : W1 m c (Proc.devRef .tc main_arg12) = W0 m c (Proc.devRef .tc main_arg12)).trans <| rfl

/-! The proof data of every pipeline, each at its region's entry contents, and what rides beside the buffers. -/

abbrev admB : (p : Fin 10) → (pcfgs (F := F) p).Adm := fun p => (cfgs p).toPCfg_adm
def pdats : (p : Fin 10) → (c : Dev nD) → Dat τ (Elt F) Unit ℕ (UR sig nD τ) ℕ (Pipeline.pin (pcfgs (F := F)) admB p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
  | ⟨6, _⟩ => fun c => dat6 (U13 m) c
  | ⟨7, _⟩ => fun c => dat7 (U15 m) c
  | ⟨8, _⟩ => fun c => dat8 (U16 m) c
  | ⟨9, _⟩ => fun c => dat9 (U18 m) c
abbrev 𝒱B : Variants := Variants.none
abbrev LB : GSem nD τ sig → Finset Unit := fun _ => ∅
abbrev lvB : GSem nD τ sig → Unit → ℕ := fun _ _ => 0
abbrev Rst (c : Dev nD) : sProp 𝕄 := iprop((∃ r, prngReg c r) ∗ ∃ W, owes (c : Thread nD τ) (0 : CellTallies nD τ sig Unit) W)
abbrev hsegB (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱B LB lvB :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TlastB (c : Dev nD) : sProp 𝕄 := iprop(StableHlo.held (c : Thread nD τ) (Pipeline.ucRefs τ sig) (W20 m c) ∗ ∃ r, prngReg c r)

set_option backward.isDefEq.respectTransparency.types false in
/-- Region 0 over the thread state: entered with every unscoped buffer at the boundary's contents, left with the region's arrays at what its write-backs leave; nothing owed, no semaphore of the kernel's own. -/
def reg0 : Pipeline.RegionSeg (pcfgs (F := F)) admB (pdats m) () defs₀ 𝒱B LB lvB 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LB lvB 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c ((U1 m) c)
  hentry c := by
    rw [Pipeline.ownSems0_none]
    have hsplit := Pipeline.arrays_of_unscopedBufs (p := 0) (pcfgs (F := F)) admB (pdats m) launch0.win launch0.arr_whole c
      ((pdats m 0 c).share_full fun _ => rfl) ((U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admB (Ix := Unit) (Name := ℕ) (U := UR sig nD τ) (Lvl := ℕ)
      launch0.win launch0.arr_whole c (pdats m) ((pdats m 0 c).share_full fun _ => rfl)
      ((U1 m) c) ((U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the region's arrays at what its write-backs leave; nothing owed, no semaphore of the kernel's own. -/
def reg1 : Pipeline.RegionSeg (pcfgs (F := F)) admB (pdats m) () defs₀ 𝒱B LB lvB 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LB lvB 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c ((U3 m) c)
  hentry c := by
    rw [Pipeline.ownSems0_none]
    have hsplit := Pipeline.arrays_of_unscopedBufs (p := 1) (pcfgs (F := F)) admB (pdats m) launch1.win launch1.arr_whole c
      ((pdats m 1 c).share_full fun _ => rfl) ((U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admB (Ix := Unit) (Name := ℕ) (U := UR sig nD τ) (Lvl := ℕ)
      launch1.win launch1.arr_whole c (pdats m) ((pdats m 1 c).share_full fun _ => rfl)
      ((U3 m) c) ((U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary's contents, left with the region's arrays at what its write-backs leave; nothing owed, no semaphore of the kernel's own. -/
def reg2 : Pipeline.RegionSeg (pcfgs (F := F)) admB (pdats m) () defs₀ 𝒱B LB lvB 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LB lvB 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c ((U5 m) c)
  hentry c := by
    rw [Pipeline.ownSems0_none]
    have hsplit := Pipeline.arrays_of_unscopedBufs (p := 2) (pcfgs (F := F)) admB (pdats m) launch2.win launch2.arr_whole c
      ((pdats m 2 c).share_full fun _ => rfl) ((U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admB (Ix := Unit) (Name := ℕ) (U := UR sig nD τ) (Lvl := ℕ)
      launch2.win launch2.arr_whole c (pdats m) ((pdats m 2 c).share_full fun _ => rfl)
      ((U5 m) c) ((U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the boundary's contents, left with the region's arrays at what its write-backs leave; nothing owed, no semaphore of the kernel's own. -/
def reg3 : Pipeline.RegionSeg (pcfgs (F := F)) admB (pdats m) () defs₀ 𝒱B LB lvB 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ LB lvB 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c ((U7 m) c)
  hentry c := by
    rw [Pipeline.ownSems0_none]
    have hsplit := Pipeline.arrays_of_unscopedBufs (p := 3) (pcfgs (F := F)) admB (pdats m) launch3.win launch3.arr_whole c
      ((pdats m 3 c).share_full fun _ => rfl) ((U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admB (Ix := Unit) (Name := ℕ) (U := UR sig nD τ) (Lvl := ℕ)
      launch3.win launch3.arr_whole c (pdats m) ((pdats m 3 c).share_full fun _ => rfl)
      ((U7 m) c) ((U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the boundary's contents, left with the region's arrays at what its write-backs leave; nothing owed, no semaphore of the kernel's own. -/
def reg4 : Pipeline.RegionSeg (pcfgs (F := F)) admB (pdats m) () defs₀ 𝒱B LB lvB 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ LB lvB 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c ((U9 m) c)
  hentry c := by
    rw [Pipeline.ownSems0_none]
    have hsplit := Pipeline.arrays_of_unscopedBufs (p := 4) (pcfgs (F := F)) admB (pdats m) launch4.win launch4.arr_whole c
      ((pdats m 4 c).share_full fun _ => rfl) ((U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admB (Ix := Unit) (Name := ℕ) (U := UR sig nD τ) (Lvl := ℕ)
      launch4.win launch4.arr_whole c (pdats m) ((pdats m 4 c).share_full fun _ => rfl)
      ((U9 m) c) ((U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at the boundary's contents, left with the region's arrays at what its write-backs leave; nothing owed, no semaphore of the kernel's own. -/
def reg5 : Pipeline.RegionSeg (pcfgs (F := F)) admB (pdats m) () defs₀ 𝒱B LB lvB 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ LB lvB 5 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec5 c ((U11 m) c)
  hentry c := by
    rw [Pipeline.ownSems0_none]
    have hsplit := Pipeline.arrays_of_unscopedBufs (p := 5) (pcfgs (F := F)) admB (pdats m) launch5.win launch5.arr_whole c
      ((pdats m 5 c).share_full fun _ => rfl) ((U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admB (Ix := Unit) (Name := ℕ) (U := UR sig nD τ) (Lvl := ℕ)
      launch5.win launch5.arr_whole c (pdats m) ((pdats m 5 c).share_full fun _ => rfl)
      ((U11 m) c) ((U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at the boundary's contents, left with the region's arrays at what its write-backs leave; nothing owed, no semaphore of the kernel's own. -/
def reg6 : Pipeline.RegionSeg (pcfgs (F := F)) admB (pdats m) () defs₀ 𝒱B LB lvB 6 where
  win := launch6.win.to₀
  block_pos := launch6.block_pos
  stage_whole := launch6.stage_whole
  K := PEmpty
  osem k := k.elim
  ho := Pipeline.OwnSemFacts.none _
  hbody c := (body_obligation6 (U13 m) c).loose
  hwaits := Pipeline.hwaits_of_owed_zero _ _ _ _ LB lvB 6 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec6 c ((U13 m) c)
  hentry c := by
    rw [Pipeline.ownSems0_none]
    have hsplit := Pipeline.arrays_of_unscopedBufs (p := 6) (pcfgs (F := F)) admB (pdats m) launch6.win launch6.arr_whole c
      ((pdats m 6 c).share_full fun _ => rfl) ((U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admB (Ix := Unit) (Name := ℕ) (U := UR sig nD τ) (Lvl := ℕ)
      launch6.win launch6.arr_whole c (pdats m) ((pdats m 6 c).share_full fun _ => rfl)
      ((U13 m) c) ((U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered with every unscoped buffer at the boundary's contents, left with the region's arrays at what its write-backs leave; nothing owed, no semaphore of the kernel's own. -/
def reg7 : Pipeline.RegionSeg (pcfgs (F := F)) admB (pdats m) () defs₀ 𝒱B LB lvB 7 where
  win := launch7.win.to₀
  block_pos := launch7.block_pos
  stage_whole := launch7.stage_whole
  K := PEmpty
  osem k := k.elim
  ho := Pipeline.OwnSemFacts.none _
  hbody c := (body_obligation7 (U15 m) c).loose
  hwaits := Pipeline.hwaits_of_owed_zero _ _ _ _ LB lvB 7 fun _ _ => rfl
  pre c := iprop(StableHlo.held (c : Thread nD τ) (Pipeline.ucRefs τ sig) (W15 m c) ∗ Rst c)
  post c := iprop(StableHlo.held (c : Thread nD τ) (Pipeline.ucRefs τ sig) (W16 m c) ∗ Rst c)
  X c := iprop(∃ r, prngReg c r)
  Y c := iprop(∃ r, prngReg c r)
  Z c := Pipeline.unscopedRest (Ix := Unit) (Name := ℕ) (U := UR sig nD τ) (Lvl := ℕ) spec7 c ((U15 m) c)
  hentry c := by
    rw [Pipeline.ownSems0_none]
    have hsplit := Pipeline.arrays_of_unscopedBufs (p := 7) (pcfgs (F := F)) admB (pdats m) launch7.win launch7.arr_whole c
      ((pdats m 7 c).share_full fun _ => rfl) ((U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admB (Ix := Unit) (Name := ℕ) (U := UR sig nD τ) (Lvl := ℕ)
      launch7.win launch7.arr_whole c (pdats m) ((pdats m 7 c).share_full fun _ => rfl)
      ((U15 m) c) ((U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered with every unscoped buffer at the boundary's contents, left with the region's arrays at what its write-backs leave; nothing owed, no semaphore of the kernel's own. -/
def reg8 : Pipeline.RegionSeg (pcfgs (F := F)) admB (pdats m) () defs₀ 𝒱B LB lvB 8 where
  win := launch8.win.to₀
  block_pos := launch8.block_pos
  stage_whole := launch8.stage_whole
  K := PEmpty
  osem k := k.elim
  ho := Pipeline.OwnSemFacts.none _
  hbody c := (body_obligation8 (U16 m) c).loose
  hwaits := Pipeline.hwaits_of_owed_zero _ _ _ _ LB lvB 8 fun _ _ => rfl
  pre c := iprop(StableHlo.held (c : Thread nD τ) (Pipeline.ucRefs τ sig) (W16 m c) ∗ Rst c)
  post c := iprop(StableHlo.held (c : Thread nD τ) (Pipeline.ucRefs τ sig) (W17 m c) ∗ Rst c)
  X c := iprop(∃ r, prngReg c r)
  Y c := iprop(∃ r, prngReg c r)
  Z c := Pipeline.unscopedRest (Ix := Unit) (Name := ℕ) (U := UR sig nD τ) (Lvl := ℕ) spec8 c ((U16 m) c)
  hentry c := by
    rw [Pipeline.ownSems0_none]
    have hsplit := Pipeline.arrays_of_unscopedBufs (p := 8) (pcfgs (F := F)) admB (pdats m) launch8.win launch8.arr_whole c
      ((pdats m 8 c).share_full fun _ => rfl) ((U16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (U16 m) c).Φ 0 from rfl]
    have h := hin8 (U16 m) c
    unfold Pipeline.ΦA at h
    iintro ⟨Hp, -, Hr⟩
    iapply h
    isplitl [Hr]; · iexact Hr
    iexact Hp
  hout c := by
    rw [Pipeline.ownSems0_none, show (pdats m 8 c).Φ (Fin.last _) = (dat8 (U16 m) c).Φ (Fin.last cfg8.N) from rfl]
    have h := hout8 (U16 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 8) (pcfgs (F := F)) admB (Ix := Unit) (Name := ℕ) (U := UR sig nD τ) (Lvl := ℕ)
      launch8.win launch8.arr_whole c (pdats m) ((pdats m 8 c).share_full fun _ => rfl)
      ((U16 m) c) ((U17 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered with every unscoped buffer at the boundary's contents, left with the region's arrays at what its write-backs leave; nothing owed, no semaphore of the kernel's own. -/
def reg9 : Pipeline.RegionSeg (pcfgs (F := F)) admB (pdats m) () defs₀ 𝒱B LB lvB 9 where
  win := launch9.win.to₀
  block_pos := launch9.block_pos
  stage_whole := launch9.stage_whole
  K := PEmpty
  osem k := k.elim
  ho := Pipeline.OwnSemFacts.none _
  hbody c := (body_obligation9 (U18 m) c).loose
  hwaits := Pipeline.hwaits_of_owed_zero _ _ _ _ LB lvB 9 fun _ _ => rfl
  pre c := iprop(StableHlo.held (c : Thread nD τ) (Pipeline.ucRefs τ sig) (W18 m c) ∗ Rst c)
  post c := iprop(StableHlo.held (c : Thread nD τ) (Pipeline.ucRefs τ sig) (W19 m c) ∗ Rst c)
  X c := iprop(∃ r, prngReg c r)
  Y c := iprop(∃ r, prngReg c r)
  Z c := Pipeline.unscopedRest (Ix := Unit) (Name := ℕ) (U := UR sig nD τ) (Lvl := ℕ) spec9 c ((U18 m) c)
  hentry c := by
    rw [Pipeline.ownSems0_none]
    have hsplit := Pipeline.arrays_of_unscopedBufs (p := 9) (pcfgs (F := F)) admB (pdats m) launch9.win launch9.arr_whole c
      ((pdats m 9 c).share_full fun _ => rfl) ((U18 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (U18 m) c).Φ 0 from rfl]
    have h := hin9 (U18 m) c
    unfold Pipeline.ΦA at h
    iintro ⟨Hp, -, Hr⟩
    iapply h
    isplitl [Hr]; · iexact Hr
    iexact Hp
  hout c := by
    rw [Pipeline.ownSems0_none, show (pdats m 9 c).Φ (Fin.last _) = (dat9 (U18 m) c).Φ (Fin.last cfg9.N) from rfl]
    have h := hout9 (U18 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 9) (pcfgs (F := F)) admB (Ix := Unit) (Name := ℕ) (U := UR sig nD τ) (Lvl := ℕ)
      launch9.win launch9.arr_whole c (pdats m) ((pdats m 9 c).share_full fun _ => rfl)
      ((U18 m) c) ((U19 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsB : List (Pipeline.Seg (pcfgs (F := F)) admB (pdats m) () defs₀ 𝒱B LB lvB) :=
  [ .host (hsegB hostOps0 hostOps0_sub hostOps0_fresh (W0 m)),
    .region (reg0 m),
    .host (hsegB hostOps1 hostOps1_sub hostOps1_fresh (W2 m)),
    .region (reg1 m),
    .host (hsegB hostOps2 hostOps2_sub hostOps2_fresh (W4 m)),
    .region (reg2 m),
    .host (hsegB hostOps3 hostOps3_sub hostOps3_fresh (W6 m)),
    .region (reg3 m),
    .host (hsegB hostOps4 hostOps4_sub hostOps4_fresh (W8 m)),
    .region (reg4 m),
    .host (hsegB hostOps5 hostOps5_sub hostOps5_fresh (W10 m)),
    .region (reg5 m),
    .host (hsegB hostOps6 hostOps6_sub hostOps6_fresh (W12 m)),
    .region (reg6 m),
    .host (hsegB hostOps7 hostOps7_sub hostOps7_fresh (W14 m)),
    .region (reg7 m),
    .region (reg8 m),
    .host (hsegB hostOps9 hostOps9_sub hostOps9_fresh (W17 m)),
    .region (reg9 m),
    .host (hsegB hostOps10 hostOps10_sub hostOps10_fresh (W19 m)) ]

theorem main_runB (c : Dev nD) : main (F := F) c = Pipeline.Seg.run (segsB m) := (main_chain c).trans (by chain_rfl)

set_option backward.isDefEq.respectTransparency.types false in
/-- From any memory with zero counters every weakly fair execution of the program terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m c b) :=
  Pipeline.θ_run_regions_kit (pcfgs (F := F)) admB (pdats m) () cellOf_inj emb₁ defs₀ 𝒱B LB lvB m ρ main (segsB m)
    (fun c Q => by rw [main_runB m c])
    (by simp only [segsB, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := TlastB m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m c) ∗ Rst c) ⊢ iprop(TlastB m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach LB lvB fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m c b)
    (hfin := fun c s' => by
      iintro ⟨⟨Hh, -⟩, HSI⟩
      unfold StableHlo.held
      imodintro
      iapply (pointsTo_read_all (Pipeline.ucRefs τ sig) (fun b => (((c : Thread nD τ)).1, b)) (W20 m c) s')
      isplitl [Hh] <;> iassumption)
    (hQ := fun s h c => h c)

end Cert.Kernel.Blocks

end
-- ==== Proof.KiRegion0.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or carried from an earlier point with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or carried from an earlier point with the same block index. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or carried from an earlier point with the same block index. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or carried from an earlier point with the same block index. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or carried from an earlier point with the same block index. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: the one store, of the body's arithmetic on the input blocks. -/
def out0 (x0 : Vec F S10000x64 .f32) (x1 : Vec F S10000x64 .f32) (x2 : Vec F S64x64 .f32) (x3 : Vec F S64x64 .f32) (x4 : Vec F S1x64 .f32) : Vec F S10000x64 .f32 :=
  View.canon [⟨(Rect.unit (s := S10000x64) ![0, 0] S10000x64.size inb_S10000x64_S10000x64_0_0), k0_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

theorem cover0 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out0` of the inputs. -/
theorem sound_kernel0 (c : Dev nD) (E : Set ℕ) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0 x0 x1 x2 x3 x4)) -∗ K ⟨⟩))
      ⊢ wp frame (wpE (defs₀ (F := F)) Variants.none c none) E (cc0__message_kernel i arg1 harg1 arg2 harg2 arg3 harg3 arg4 harg4 arg5 harg5 arg6 harg6) K := by
  simp only [cc0__message_kernel_eq_skeleton]; unfold cc0__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The pipeline's proof data at region entry contents `V`: every input buffer keeps its block, the output buffer holds the body's result on the input blocks; nothing owed, full shares, the class-A invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Blocks

end
-- ==== Proof.KiRegion1.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or carried from an earlier point with the same block index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or carried from an earlier point with the same block index. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or carried from an earlier point with the same block index. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or carried from an earlier point with the same block index. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or carried from an earlier point with the same block index. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or carried from an earlier point with the same block index. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: the one store, of the body's arithmetic on the input blocks. -/
def out1 (x0 : Vec F S10000x64 .f32) (x1 : Vec F S10000x64 .f32) (x2 : Vec F S10000x1 .f32) (x3 : Vec F S64x64 .f32) (x4 : Vec F S64x64 .f32) (x5 : Vec F S1x64 .f32) : Vec F S10000x64 .f32 :=
  View.canon [⟨(Rect.unit (s := S10000x64) ![0, 0] S10000x64.size inb_S10000x64_S10000x64_0_0), k1_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S10000x1) ![0, 0] S10000x1.size inb_S10000x1_S10000x1_0_0)) (View.ld x3 (Rect.unit (s := S64x64) ![0, 0] S64x64.size inb_S64x64_S64x64_0_0)) (View.ld x4 (Rect.unit (s := S64x64) ![0, 0] S64x64.size inb_S64x64_S64x64_0_0)) (View.ld x5 (Rect.unit (s := S1x64) ![0, 0] S1x64.size inb_S1x64_S1x64_0_0))⟩]

theorem cover1 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out1` of the inputs. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 : Vec F S10000x64 .f32) (x1 : Vec F S10000x64 .f32) (x2 : Vec F S10000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1 x0 x1 x2 x3 x4 x5)) -∗ K ⟨⟩))
      ⊢ wp frame (wpE (defs₀ (F := F)) Variants.none c none) E (cc1__update_kernel i arg1 harg1 arg2 harg2 arg3 harg3 arg4 harg4 arg5 harg5 arg6 harg6 arg7 harg7) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-- The pipeline's proof data at region entry contents `V`: every input buffer keeps its block, the output buffer holds the body's result on the input blocks; nothing owed, full shares, the class-A invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Blocks

end
-- ==== Proof.KiRegion2.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or carried from an earlier point with the same block index. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or carried from an earlier point with the same block index. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or carried from an earlier point with the same block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or carried from an earlier point with the same block index. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or carried from an earlier point with the same block index. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: the one store, of the body's arithmetic on the input blocks. -/
def out2 (x0 : Vec F S10000x64 .f32) (x1 : Vec F S10000x64 .f32) (x2 : Vec F S64x64 .f32) (x3 : Vec F S64x64 .f32) (x4 : Vec F S1x64 .f32) : Vec F S10000x64 .f32 :=
  View.canon [⟨(Rect.unit (s := S10000x64) ![0, 0] S10000x64.size inb_S10000x64_S10000x64_0_0), k2_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

theorem cover2 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out2` of the inputs. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2 x0 x1 x2 x3 x4)) -∗ K ⟨⟩))
      ⊢ wp frame (wpE (defs₀ (F := F)) Variants.none c none) E (cc2__message_kernel i arg1 harg1 arg2 harg2 arg3 harg3 arg4 harg4 arg5 harg5 arg6 harg6) K := by
  simp only [cc2__message_kernel_eq_skeleton]; unfold cc2__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The pipeline's proof data at region entry contents `V`: every input buffer keeps its block, the output buffer holds the body's result on the input blocks; nothing owed, full shares, the class-A invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Blocks

end
-- ==== Proof.KiRegion3.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or carried from an earlier point with the same block index. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or carried from an earlier point with the same block index. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or carried from an earlier point with the same block index. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or carried from an earlier point with the same block index. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or carried from an earlier point with the same block index. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or carried from an earlier point with the same block index. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: the one store, of the body's arithmetic on the input blocks. -/
def out3 (x0 : Vec F S10000x64 .f32) (x1 : Vec F S10000x64 .f32) (x2 : Vec F S10000x1 .f32) (x3 : Vec F S64x64 .f32) (x4 : Vec F S64x64 .f32) (x5 : Vec F S1x64 .f32) : Vec F S10000x64 .f32 :=
  View.canon [⟨(Rect.unit (s := S10000x64) ![0, 0] S10000x64.size inb_S10000x64_S10000x64_0_0), k3_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S10000x1) ![0, 0] S10000x1.size inb_S10000x1_S10000x1_0_0)) (View.ld x3 (Rect.unit (s := S64x64) ![0, 0] S64x64.size inb_S64x64_S64x64_0_0)) (View.ld x4 (Rect.unit (s := S64x64) ![0, 0] S64x64.size inb_S64x64_S64x64_0_0)) (View.ld x5 (Rect.unit (s := S1x64) ![0, 0] S1x64.size inb_S1x64_S1x64_0_0))⟩]

theorem cover3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out3` of the inputs. -/
theorem sound_kernel3 (c : Dev nD) (E : Set ℕ) (i : grid3.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 : Vec F S10000x64 .f32) (x1 : Vec F S10000x64 .f32) (x2 : Vec F S10000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3 x0 x1 x2 x3 x4 x5)) -∗ K ⟨⟩))
      ⊢ wp frame (wpE (defs₀ (F := F)) Variants.none c none) E (cc3__update_kernel i arg1 harg1 arg2 harg2 arg3 harg3 arg4 harg4 arg5 harg5 arg6 harg6 arg7 harg7) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The pipeline's proof data at region entry contents `V`: every input buffer keeps its block, the output buffer holds the body's result on the input blocks; nothing owed, full shares, the class-A invariant. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Blocks

end
-- ==== Proof.KiRegion4.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or carried from an earlier point with the same block index. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or carried from an earlier point with the same block index. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or carried from an earlier point with the same block index. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or carried from an earlier point with the same block index. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or carried from an earlier point with the same block index. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The output block after the body: the one store, of the body's arithmetic on the input blocks. -/
def out4 (x0 : Vec F S10000x64 .f32) (x1 : Vec F S10000x64 .f32) (x2 : Vec F S64x64 .f32) (x3 : Vec F S64x64 .f32) (x4 : Vec F S1x64 .f32) : Vec F S10000x64 .f32 :=
  View.canon [⟨(Rect.unit (s := S10000x64) ![0, 0] S10000x64.size inb_S10000x64_S10000x64_0_0), k4_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

theorem cover4 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out4` of the inputs. -/
theorem sound_kernel4 (c : Dev nD) (E : Set ℕ) (i : grid4.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4 x0 x1 x2 x3 x4)) -∗ K ⟨⟩))
      ⊢ wp frame (wpE (defs₀ (F := F)) Variants.none c none) E (cc4__message_kernel i arg1 harg1 arg2 harg2 arg3 harg3 arg4 harg4 arg5 harg5 arg6 harg6) K := by
  simp only [cc4__message_kernel_eq_skeleton]; unfold cc4__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-- The pipeline's proof data at region entry contents `V`: every input buffer keeps its block, the output buffer holds the body's result on the input blocks; nothing owed, full shares, the class-A invariant. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Blocks

end
-- ==== Proof.KiRegion5.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or carried from an earlier point with the same block index. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or carried from an earlier point with the same block index. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or carried from an earlier point with the same block index. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or carried from an earlier point with the same block index. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or carried from an earlier point with the same block index. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, fetched there or carried from an earlier point with the same block index. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: the one store, of the body's arithmetic on the input blocks. -/
def out5 (x0 : Vec F S10000x64 .f32) (x1 : Vec F S10000x64 .f32) (x2 : Vec F S10000x1 .f32) (x3 : Vec F S64x64 .f32) (x4 : Vec F S64x64 .f32) (x5 : Vec F S1x64 .f32) : Vec F S10000x64 .f32 :=
  View.canon [⟨(Rect.unit (s := S10000x64) ![0, 0] S10000x64.size inb_S10000x64_S10000x64_0_0), k5_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S10000x1) ![0, 0] S10000x1.size inb_S10000x1_S10000x1_0_0)) (View.ld x3 (Rect.unit (s := S64x64) ![0, 0] S64x64.size inb_S64x64_S64x64_0_0)) (View.ld x4 (Rect.unit (s := S64x64) ![0, 0] S64x64.size inb_S64x64_S64x64_0_0)) (View.ld x5 (Rect.unit (s := S1x64) ![0, 0] S1x64.size inb_S1x64_S1x64_0_0))⟩]

theorem cover5 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out5` of the inputs. -/
theorem sound_kernel5 (c : Dev nD) (E : Set ℕ) (i : grid5.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 : Vec F S10000x64 .f32) (x1 : Vec F S10000x64 .f32) (x2 : Vec F S10000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5 x0 x1 x2 x3 x4 x5)) -∗ K ⟨⟩))
      ⊢ wp frame (wpE (defs₀ (F := F)) Variants.none c none) E (cc5__update_kernel i arg1 harg1 arg2 harg2 arg3 harg3 arg4 harg4 arg5 harg5 arg6 harg6 arg7 harg7) K := by
  simp only [cc5__update_kernel_eq_skeleton]; unfold cc5__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5 _)

/-- The pipeline's proof data at region entry contents `V`: every input buffer keeps its block, the output buffer holds the body's result on the input blocks; nothing owed, full shares, the class-A invariant. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.KernelIdeal.Blocks

end
-- ==== Proof.KiRegion6.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or carried from an earlier point with the same block index. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or carried from an earlier point with the same block index. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or carried from an earlier point with the same block index. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or carried from an earlier point with the same block index. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or carried from an earlier point with the same block index. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The output block after the body: the one store, of the body's arithmetic on the input blocks. -/
def out6 (x0 : Vec F S10000x64 .f32) (x1 : Vec F S10000x64 .f32) (x2 : Vec F S64x64 .f32) (x3 : Vec F S64x64 .f32) (x4 : Vec F S1x64 .f32) : Vec F S10000x64 .f32 :=
  View.canon [⟨(Rect.unit (s := S10000x64) ![0, 0] S10000x64.size inb_S10000x64_S10000x64_0_0), k6_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S64x64) ![0, 0] S64x64.size inb_S64x64_S64x64_0_0)) (View.ld x4 (Rect.unit (s := S1x64) ![0, 0] S1x64.size inb_S1x64_S1x64_0_0))⟩]

theorem cover6 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out6` of the inputs. -/
theorem sound_kernel6 (c : Dev nD) (E : Set ℕ) (i : grid6.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6 x0 x1 x2 x3 x4)) -∗ K ⟨⟩))
      ⊢ wp frame (wpE (defs₀ (F := F)) Variants.none c none) E (cc6__message_kernel i arg1 harg1 arg2 harg2 arg3 harg3 arg4 harg4 arg5 harg5 arg6 harg6) K := by
  simp only [cc6__message_kernel_eq_skeleton]; unfold cc6__message_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

/-- The pipeline's proof data at region entry contents `V`: every input buffer keeps its block, the output buffer holds the body's result on the input blocks; nothing owed, full shares, the class-A invariant. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.KernelIdeal.Blocks

end
-- ==== Proof.KiRegion7.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or carried from an earlier point with the same block index. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or carried from an earlier point with the same block index. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or carried from an earlier point with the same block index. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or carried from an earlier point with the same block index. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or carried from an earlier point with the same block index. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, fetched there or carried from an earlier point with the same block index. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- The output block after the body: the one store, of the body's arithmetic on the input blocks. -/
def out7 (x0 : Vec F S10000x64 .f32) (x1 : Vec F S10000x64 .f32) (x2 : Vec F S10000x1 .f32) (x3 : Vec F S64x64 .f32) (x4 : Vec F S64x64 .f32) (x5 : Vec F S1x64 .f32) : Vec F S10000x64 .f32 :=
  View.canon [⟨(Rect.unit (s := S10000x64) ![0, 0] S10000x64.size inb_S10000x64_S10000x64_0_0), k7_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S10000x1) ![0, 0] S10000x1.size inb_S10000x1_S10000x1_0_0)) (View.ld x3 (Rect.unit (s := S64x64) ![0, 0] S64x64.size inb_S64x64_S64x64_0_0)) (View.ld x4 (Rect.unit (s := S64x64) ![0, 0] S64x64.size inb_S64x64_S64x64_0_0)) (View.ld x5 (Rect.unit (s := S1x64) ![0, 0] S1x64.size inb_S1x64_S1x64_0_0))⟩]

theorem cover7 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 4000000 in
/-- The body on whole staging buffers: the inputs are read and kept, the output buffer ends at `out7` of the inputs. -/
theorem sound_kernel7 (c : Dev nD) (E : Set ℕ) (i : grid7.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 : Vec F S10000x64 .f32) (x1 : Vec F S10000x64 .f32) (x2 : Vec F S10000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7 x0 x1 x2 x3 x4 x5)) -∗ K ⟨⟩))
      ⊢ wp frame (wpE (defs₀ (F := F)) Variants.none c none) E (cc7__update_kernel i arg1 harg1 arg2 harg2 arg3 harg3 arg4 harg4 arg5 harg5 arg6 harg6 arg7 harg7) K := by
  simp only [cc7__update_kernel_eq_skeleton]; unfold cc7__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7 _)

/-- The pipeline's proof data at region entry contents `V`: every input buffer keeps its block, the output buffer holds the body's result on the input blocks; nothing owed, full shares, the class-A invariant. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

end Cert.KernelIdeal.Blocks

end
-- ==== Proof.KiRegion8.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The first conditional of the body (the accumulator is reset): taken at the first grid point only. -/
abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val % 10 = 0 :=
  (by decide +kernel : ∀ t : Fin grid8.N, cond8_0 (grid8.coords t) ↔ t.val % 10 = 0)
/-- The second conditional (the accumulator is copied to the output): taken at the last grid point only. -/
abbrev cond8_1 (i : grid8.Coords) : Prop := k8_cond2 i = 1#1
theorem hcond8_1 : ∀ t : Fin cfg8.N, cond8_1 (grid8.coords t) ↔ t.val % 10 = 9 :=
  (by decide +kernel : ∀ t : Fin grid8.N, cond8_1 (grid8.coords t) ↔ t.val % 10 = 9)

theorem liveAt8_0 : ∀ t : Fin cfg8.N, cfg8.idle 0 (grid8.coords t) = false := by decide +kernel
theorem idleAt8_1_A : ∀ t : Fin cfg8.N, cond8_0 (grid8.coords t) → ¬cond8_1 (grid8.coords t) → cfg8.idle 1 (grid8.coords t) = true := by decide +kernel
theorem noFlush8_1_A : ∀ t : Fin cfg8.N, cond8_0 (grid8.coords t) → ¬cond8_1 (grid8.coords t) → (cfg8.win 1).flush t = false := by decide +kernel
theorem idleAt8_1_B : ∀ t : Fin cfg8.N, ¬cond8_0 (grid8.coords t) → ¬cond8_1 (grid8.coords t) → cfg8.idle 1 (grid8.coords t) = true := by decide +kernel
theorem noFlush8_1_B : ∀ t : Fin cfg8.N, ¬cond8_0 (grid8.coords t) → ¬cond8_1 (grid8.coords t) → (cfg8.win 1).flush t = false := by decide +kernel
theorem liveAt8_1_C : ∀ t : Fin cfg8.N, ¬cond8_0 (grid8.coords t) → cond8_1 (grid8.coords t) → cfg8.idle 1 (grid8.coords t) = false := by decide +kernel

abbrev VO8 : View sig .tc .vmem S1x1 .f32 := (Memref.whole cc8_stg1_0 : Memref sig .tc .vmem S1x1 .f32).view
abbrev ms8_0 (t : Fin cfg8.N) : Memref sig .tc .vmem S10000x64 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x1 .f32 := win8_1.stage (cfg8.slots t 1)
abbrev hs8_1 (t : Fin cfg8.N) : (ms8_1 t).IsWhole := hstage8_1 ((cfg8.slots t 1).cast nbuf8_1)
abbrev scM8 : Memref sig .tc .vmem S1x1 .f32 := Memref.whole cc8_scratch0
abbrev VS8 : View sig .tc .vmem S1x1 .f32 := scM8.view

/-- The class invariant with the accumulator split out of the scoped rest: the accumulator owned at some contents, every other scoped buffer unopened, the generator register at some state. -/
theorem PhiA8_eq (c : Dev nD) :
    (Pipeline.ΦA spec8 c : sProp 𝕄)
      = iprop(iprop(iprop((∃ d, owns (c : Thread nD τ) scM8 fullShare d)) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

set_option maxHeartbeats 4000000 in
/-- The body at the first grid point: the accumulator is reset, then the block's sum is added; the output buffer is left untouched. -/
noncomputable def kernelRun8_A (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond8_0 i) (hc1 : ¬cond8_1 i)
    (x0 : Vec F S10000x64 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc8__bce_kernel i arg1 harg1 arg2 harg2 arg3 harg3) K } := by
  refine ⟨[], ?_, fun xi1 E K => ?run⟩
  case run =>
    simp only [cc8__bce_kernel_eq_skeleton]; unfold cc8__bce_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- The body at a middle grid point: the block's sum is added to the carried accumulator; the output buffer is left untouched. -/
noncomputable def kernelRun8_B (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : ¬cond8_1 i)
    (x0 : Vec F S10000x64 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc8__bce_kernel i arg1 harg1 arg2 harg2 arg3 harg3) K } := by
  refine ⟨[], ?_, fun xi1 E K => ?run⟩
  case run =>
    simp only [cc8__bce_kernel_eq_skeleton]; unfold cc8__bce_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- The body at the last grid point: the block's sum is added to the carried accumulator, and the accumulator is copied to the output buffer. -/
noncomputable def kernelRun8_C (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc8__bce_kernel i arg1 harg1 arg2 harg2 arg3 harg3) K } := by
  refine ⟨?_, ?_, fun E K => ?run⟩
  case run =>
    simp only [cc8__bce_kernel_eq_skeleton]; unfold cc8__bce_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

def out8_A_1 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond8_0 i) (hc1 : ¬cond8_1 i)
    (x0 : Vec F S10000x64 .f32) : Vec F S1x1 .f32 :=
  VO8.read (Elt F) (VO8.writes (Elt F) VO8.junk (kernelRun8_A c i arg1 harg1 arg2 harg2 arg3 harg3 hc0 hc1 x0).1)

theorem scover8_A_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond8_0 i) (hc1 : ¬cond8_1 i)
    (x0 : Vec F S10000x64 .f32) (y : S1x1.Idx) :
    ∃ pc ∈ (kernelRun8_A c i arg1 harg1 arg2 harg2 arg3 harg3 hc0 hc1 x0).2.1, y ∈ pc.1.set :=
  View.cover_of_tiledL (kernelRun8_A c i arg1 harg1 arg2 harg2 arg3 harg3 hc0 hc1 x0).2.1 S1x1.size (by sl_kernel_rfl) y

/-- What the first grid point leaves in the accumulator. -/
def sout8_A_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond8_0 i) (hc1 : ¬cond8_1 i)
    (x0 : Vec F S10000x64 .f32) : Vec F S1x1 .f32 :=
  VS8.read (Elt F) (VS8.writes (Elt F) VS8.junk (kernelRun8_A c i arg1 harg1 arg2 harg2 arg3 harg3 hc0 hc1 x0).2.1)

def out8_B_1 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : ¬cond8_1 i)
    (x0 : Vec F S10000x64 .f32) (xs0 : Vec F S1x1 .f32) : Vec F S1x1 .f32 :=
  VO8.read (Elt F) (VO8.writes (Elt F) VO8.junk (kernelRun8_B c i arg1 harg1 arg2 harg2 arg3 harg3 hc0 hc1 x0 xs0).1)

theorem scover8_B_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : ¬cond8_1 i)
    (x0 : Vec F S10000x64 .f32) (xs0 : Vec F S1x1 .f32) (y : S1x1.Idx) :
    ∃ pc ∈ (kernelRun8_B c i arg1 harg1 arg2 harg2 arg3 harg3 hc0 hc1 x0 xs0).2.1, y ∈ pc.1.set :=
  View.cover_of_tiledL (kernelRun8_B c i arg1 harg1 arg2 harg2 arg3 harg3 hc0 hc1 x0 xs0).2.1 S1x1.size (by sl_kernel_rfl) y

/-- What a middle grid point leaves in the accumulator, from what the point before left. -/
def sout8_B_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : ¬cond8_1 i)
    (x0 : Vec F S10000x64 .f32) (xs0 : Vec F S1x1 .f32) : Vec F S1x1 .f32 :=
  VS8.read (Elt F) (VS8.writes (Elt F) VS8.junk (kernelRun8_B c i arg1 harg1 arg2 harg2 arg3 harg3 hc0 hc1 x0 xs0).2.1)

theorem cover8_C_1 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) (y : S1x1.Idx) :
    ∃ pc ∈ (kernelRun8_C c i arg1 harg1 arg2 harg2 arg3 harg3 hc0 hc1 x0 xs0).1, y ∈ pc.1.set :=
  View.cover_of_tiledL (kernelRun8_C c i arg1 harg1 arg2 harg2 arg3 harg3 hc0 hc1 x0 xs0).1 S1x1.size (by sl_kernel_rfl) y

/-- What the last grid point leaves in the output buffer. -/
def out8_C_1 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) : Vec F S1x1 .f32 :=
  VO8.read (Elt F) (VO8.writes (Elt F) VO8.junk (kernelRun8_C c i arg1 harg1 arg2 harg2 arg3 harg3 hc0 hc1 x0 xs0).1)

theorem scover8_C_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) (y : S1x1.Idx) :
    ∃ pc ∈ (kernelRun8_C c i arg1 harg1 arg2 harg2 arg3 harg3 hc0 hc1 x0 xs0).2.1, y ∈ pc.1.set :=
  View.cover_of_tiledL (kernelRun8_C c i arg1 harg1 arg2 harg2 arg3 harg3 hc0 hc1 x0 xs0).2.1 S1x1.size (by sl_kernel_rfl) y

def sout8_C_0 (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) : Vec F S1x1 .f32 :=
  VS8.read (Elt F) (VS8.writes (Elt F) VS8.junk (kernelRun8_C c i arg1 harg1 arg2 harg2 arg3 harg3 hc0 hc1 x0 xs0).2.1)

/-- The output buffer and the accumulator after each grid point: the running sum over the blocks so far. -/
def outsAt8 (c : Dev nD) : (n : ℕ) → n < cfg8.N → Vec F S1x1 .f32 × Vec F S1x1 .f32
  | 0, hn => (out8_A_1 c (grid8.coords ⟨0, hn⟩) (ms8_0 ⟨0, hn⟩) (hs8_0 ⟨0, hn⟩) (ms8_1 ⟨0, hn⟩) (hs8_1 ⟨0, hn⟩) scM8 (Memref.isWhole_whole _) ((hcond8_0 ⟨0, hn⟩).mpr (Nat.zero_mod _)) (fun h => (fun h => by (try dsimp only at h); omega) ((hcond8_1 ⟨0, hn⟩).mp h)) (iblk8 V c 0 ⟨0, hn⟩), sout8_A_0 c (grid8.coords ⟨0, hn⟩) (ms8_0 ⟨0, hn⟩) (hs8_0 ⟨0, hn⟩) (ms8_1 ⟨0, hn⟩) (hs8_1 ⟨0, hn⟩) scM8 (Memref.isWhole_whole _) ((hcond8_0 ⟨0, hn⟩).mpr (Nat.zero_mod _)) (fun h => (fun h => by (try dsimp only at h); omega) ((hcond8_1 ⟨0, hn⟩).mp h)) (iblk8 V c 0 ⟨0, hn⟩))
  | n + 1, hn =>
    if h0 : (n + 1) % 10 = 0 then
      False.elim (by have hN : n + 1 < 10 := lt_of_lt_of_eq hn (show cfg8.N = 10 from N_8); omega)
    else
      if h1 : (n + 1) % 10 = 9 then
        (out8_C_1 c (grid8.coords ⟨n + 1, hn⟩) (ms8_0 ⟨n + 1, hn⟩) (hs8_0 ⟨n + 1, hn⟩) (ms8_1 ⟨n + 1, hn⟩) (hs8_1 ⟨n + 1, hn⟩) scM8 (Memref.isWhole_whole _) (fun h => h0 ((hcond8_0 ⟨n + 1, hn⟩).mp h)) ((hcond8_1 ⟨n + 1, hn⟩).mpr h1) (iblk8 V c 0 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) scM8 (Memref.isWhole_whole _) (fun h => h0 ((hcond8_0 ⟨n + 1, hn⟩).mp h)) ((hcond8_1 ⟨n + 1, hn⟩).mpr h1) (iblk8 V c 0 ⟨n + 1, hn⟩) (outsAt8 c n (Nat.lt_of_succ_lt hn)).2)
      else
        (out8_B_1 c (grid8.coords ⟨n + 1, hn⟩) (ms8_0 ⟨n + 1, hn⟩) (hs8_0 ⟨n + 1, hn⟩) (ms8_1 ⟨n + 1, hn⟩) (hs8_1 ⟨n + 1, hn⟩) scM8 (Memref.isWhole_whole _) (fun h => h0 ((hcond8_0 ⟨n + 1, hn⟩).mp h)) (fun h => h1 ((hcond8_1 ⟨n + 1, hn⟩).mp h)) (iblk8 V c 0 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) scM8 (Memref.isWhole_whole _) (fun h => h0 ((hcond8_0 ⟨n + 1, hn⟩).mp h)) (fun h => h1 ((hcond8_1 ⟨n + 1, hn⟩).mp h)) (iblk8 V c 0 ⟨n + 1, hn⟩) (outsAt8 c n (Nat.lt_of_succ_lt hn)).2)

theorem outsAt8_A (c : Dev nD) (t : Fin cfg8.N) (h0 : t.val % 10 = 0) (h1 : ¬t.val % 10 = 9) :
    outsAt8 V c t.val t.isLt = (out8_A_1 c (grid8.coords t) (ms8_0 t) (hs8_0 t) (ms8_1 t) (hs8_1 t) scM8 (Memref.isWhole_whole _) ((hcond8_0 t).mpr h0) (fun h => h1 ((hcond8_1 t).mp h)) (iblk8 V c 0 t), sout8_A_0 c (grid8.coords t) (ms8_0 t) (hs8_0 t) (ms8_1 t) (hs8_1 t) scM8 (Memref.isWhole_whole _) ((hcond8_0 t).mpr h0) (fun h => h1 ((hcond8_1 t).mp h)) (iblk8 V c 0 t)) := by
  obtain ⟨n, hn⟩ := t
  cases n with
  | zero => exact rfl
  | succ n => exact (by exfalso; have hN : n + 1 < 10 := lt_of_lt_of_eq hn (show cfg8.N = 10 from N_8); (try dsimp only at h0); omega)

theorem outsAt8_B (c : Dev nD) (t : Fin cfg8.N) (h0 : ¬t.val % 10 = 0) (h1 : ¬t.val % 10 = 9) :
    outsAt8 V c t.val t.isLt = (out8_B_1 c (grid8.coords t) (ms8_0 t) (hs8_0 t) (ms8_1 t) (hs8_1 t) scM8 (Memref.isWhole_whole _) (fun h => h0 ((hcond8_0 t).mp h)) (fun h => h1 ((hcond8_1 t).mp h)) (iblk8 V c 0 t) (outsAt8 V c (t.val - 1) (Nat.lt_of_le_of_lt (Nat.sub_le _ _) t.isLt)).2, sout8_B_0 c (grid8.coords t) (ms8_0 t) (hs8_0 t) (ms8_1 t) (hs8_1 t) scM8 (Memref.isWhole_whole _) (fun h => h0 ((hcond8_0 t).mp h)) (fun h => h1 ((hcond8_1 t).mp h)) (iblk8 V c 0 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 10 = 0) (h1 : t.val % 10 = 9) :
    outsAt8 V c t.val t.isLt = (out8_C_1 c (grid8.coords t) (ms8_0 t) (hs8_0 t) (ms8_1 t) (hs8_1 t) scM8 (Memref.isWhole_whole _) (fun h => h0 ((hcond8_0 t).mp h)) ((hcond8_1 t).mpr h1) (iblk8 V c 0 t) (outsAt8 V c (t.val - 1) (Nat.lt_of_le_of_lt (Nat.sub_le _ _) t.isLt)).2, sout8_C_0 c (grid8.coords t) (ms8_0 t) (hs8_0 t) (ms8_1 t) (hs8_1 t) scM8 (Memref.isWhole_whole _) (fun h => h0 ((hcond8_0 t).mp h)) ((hcond8_1 t).mpr h1) (iblk8 V c 0 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before grid position `n`: before the first point the class invariant; afterwards the accumulator at what the point before left, every other scoped buffer unopened, the generator register at some state. -/
def PhiS8 (c : Dev nD) : (n : ℕ) → n ≤ cfg8.N → sProp 𝕄
  | 0, _ => Pipeline.ΦA spec8 c
  | n + 1, hn => iprop(iprop(owns (c : Thread nD τ) scM8 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = (outsAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t)

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  by_cases h0 : t.val % 10 = 0
  · by_cases h1 : t.val % 10 = 9
    · exfalso; omega
    · rw [show (dat8 V c).leavesExact 0 t = owns (c : Thread nD τ) (ms8_0 t) fullShare ((dat8 V c).after 0 t) from by
        unfold Dat.leavesExact; rw [liveAt8_0 t], after8_0]
      rw [Dat.leavesExact_idle (dat8 V c) 1 t (idleAt8_1_A t ((hcond8_0 t).mpr h0) (fun h => h1 ((hcond8_1 t).mp h))) (noFlush8_1_A t ((hcond8_0 t).mpr h0) (fun h => h1 ((hcond8_1 t).mp h)))]
      rw [outsAt8_A V c t h0 h1]
      unfold sout8_A_0; (try dsimp only)
      have hz : t.val = 0 := by omega
      rw [PhiS8_castSucc V c t, PhiS8_zero V c _ _ hz, PhiA8_eq]
      iintro ⟨⟨⟨HS0, Hrest⟩, Hg⟩, Ho, ⟨%d0, H0⟩, ⟨%d1, H1⟩⟩
      iapply ((kernelRun8_A c (grid8.coords t) _ _ _ _ _ _ ((hcond8_0 t).mpr h0) (fun h => h1 ((hcond8_1 t).mp h)) (iblk8 V c 0 t)).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover8_A_0 c _ _ _ _ _ _ _ _ _ _)
          iexact Hrest
        iexact Hg
      isplitl [Ho]; · iexact Ho
      isplitl [H0]; · iexact H0
      iexists _; iexact H1
  · have hz : t.val ≠ 0 := by omega
    by_cases h1 : t.val % 10 = 9
    · rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1_C t (fun h => h0 ((hcond8_0 t).mp h)) ((hcond8_1 t).mpr h1)], after8_1]
      rw [outsAt8_C V c t h0 h1]
      unfold out8_C_1 sout8_C_0; (try dsimp only)
      rw [PhiS8_castSucc V c t, PhiS8_pos V c _ _ hz]
      iintro ⟨⟨⟨HS0, Hrest⟩, Hg⟩, Ho, ⟨%d0, H0⟩, ⟨%d1, H1⟩⟩
      iapply ((kernelRun8_C c (grid8.coords t) _ _ _ _ _ _ (fun h => h0 ((hcond8_0 t).mp h)) ((hcond8_1 t).mpr h1) (iblk8 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover8_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover8_C_1 c _ _ _ _ _ _ _ _ _ _ _)
    · rw [show (dat8 V c).leavesExact 0 t = owns (c : Thread nD τ) (ms8_0 t) fullShare ((dat8 V c).after 0 t) from by
        unfold Dat.leavesExact; rw [liveAt8_0 t], after8_0]
      rw [Dat.leavesExact_idle (dat8 V c) 1 t (idleAt8_1_B t (fun h => h0 ((hcond8_0 t).mp h)) (fun h => h1 ((hcond8_1 t).mp h))) (noFlush8_1_B t (fun h => h0 ((hcond8_0 t).mp h)) (fun h => h1 ((hcond8_1 t).mp h)))]
      rw [outsAt8_B V c t h0 h1]
      unfold sout8_B_0; (try dsimp only)
      rw [PhiS8_castSucc V c t, PhiS8_pos V c _ _ hz]
      iintro ⟨⟨⟨HS0, Hrest⟩, Hg⟩, Ho, ⟨%d0, H0⟩, ⟨%d1, H1⟩⟩
      iapply ((kernelRun8_B c (grid8.coords t) _ _ _ _ _ _ (fun h => h0 ((hcond8_0 t).mp h)) (fun h => h1 ((hcond8_1 t).mp h)) (iblk8 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover8_B_0 c _ _ _ _ _ _ _ _ _ _ _)
          iexact Hrest
        iexact Hg
      isplitl [Ho]; · iexact Ho
      isplitl [H0]; · iexact H0
      iexists _; iexact H1

theorem body_obligation8 (c : Dev nD) : BodyObligation (dat8 (F := F) V c) (defs₀ (F := F)) Variants.none () Set.univ := fun t => by
  rw [bigSep_W8, bigSep_W8]
  exact sound_body8 V c t

/-- The class invariant the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the class invariant back: the accumulator's contents are forgotten. -/
theorem hout8 (c : Dev nD) : (dat8 V c).Φ (Fin.last cfg8.N) ⊢ Pipeline.ΦA spec8 c := by
  have ht : (Fin.last cfg8.N).val ≠ 0 := by rw [Fin.val_last]; have : cfg8.N = 10 := N_8; omega
  rw [show (dat8 V c).Φ (Fin.last cfg8.N) = PhiS8 V c (Fin.last cfg8.N).val (Nat.le_of_lt_succ (Fin.last cfg8.N).isLt) from rfl, PhiS8_pos V c _ _ ht, PhiA8_eq]
  iintro ⟨⟨HS0, Hrest⟩, Hg⟩
  isplitl [HS0 Hrest]
  · isplitl [HS0]
    · iexists _; iexact HS0
    iexact Hrest
  iexact Hg

end Cert.KernelIdeal.Blocks

end
-- ==== Proof.KiRegion9.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the array the region finds. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The first conditional of the body (the accumulator is reset): taken at the first grid point only. -/
abbrev cond9_0 (i : grid9.Coords) : Prop := (Scalar.cmpi .ne (Scalar.extui (Scalar.cmpi .eq (BitVec.ofNat 32 (i 0).val) 0#32)) 0#32) = 1#1
theorem hcond9_0 : ∀ t : Fin cfg9.N, cond9_0 (grid9.coords t) ↔ t.val % 10 = 0 :=
  (by decide +kernel : ∀ t : Fin grid9.N, cond9_0 (grid9.coords t) ↔ t.val % 10 = 0)
/-- The second conditional (the accumulator is copied to the output): taken at the last grid point only. -/
abbrev cond9_1 (i : grid9.Coords) : Prop := k9_cond2 i = 1#1
theorem hcond9_1 : ∀ t : Fin cfg9.N, cond9_1 (grid9.coords t) ↔ t.val % 10 = 9 :=
  (by decide +kernel : ∀ t : Fin grid9.N, cond9_1 (grid9.coords t) ↔ t.val % 10 = 9)

theorem liveAt9_0 : ∀ t : Fin cfg9.N, cfg9.idle 0 (grid9.coords t) = false := by decide +kernel
theorem idleAt9_1_A : ∀ t : Fin cfg9.N, cond9_0 (grid9.coords t) → ¬cond9_1 (grid9.coords t) → cfg9.idle 1 (grid9.coords t) = true := by decide +kernel
theorem noFlush9_1_A : ∀ t : Fin cfg9.N, cond9_0 (grid9.coords t) → ¬cond9_1 (grid9.coords t) → (cfg9.win 1).flush t = false := by decide +kernel
theorem idleAt9_1_B : ∀ t : Fin cfg9.N, ¬cond9_0 (grid9.coords t) → ¬cond9_1 (grid9.coords t) → cfg9.idle 1 (grid9.coords t) = true := by decide +kernel
theorem noFlush9_1_B : ∀ t : Fin cfg9.N, ¬cond9_0 (grid9.coords t) → ¬cond9_1 (grid9.coords t) → (cfg9.win 1).flush t = false := by decide +kernel
theorem liveAt9_1_C : ∀ t : Fin cfg9.N, ¬cond9_0 (grid9.coords t) → cond9_1 (grid9.coords t) → cfg9.idle 1 (grid9.coords t) = false := by decide +kernel

abbrev VO9 : View sig .tc .vmem S1x1 .f32 := (Memref.whole cc9_stg1_0 : Memref sig .tc .vmem S1x1 .f32).view
abbrev ms9_0 (t : Fin cfg9.N) : Memref sig .tc .vmem S10000x64 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1x1 .f32 := win9_1.stage (cfg9.slots t 1)
abbrev hs9_1 (t : Fin cfg9.N) : (ms9_1 t).IsWhole := hstage9_1 ((cfg9.slots t 1).cast nbuf9_1)
abbrev scM9 : Memref sig .tc .vmem S1x1 .f32 := Memref.whole cc9_scratch0
abbrev VS9 : View sig .tc .vmem S1x1 .f32 := scM9.view

/-- The class invariant with the accumulator split out of the scoped rest: the accumulator owned at some contents, every other scoped buffer unopened, the generator register at some state. -/
theorem PhiA9_eq (c : Dev nD) :
    (Pipeline.ΦA spec9 c : sProp 𝕄)
      = iprop(iprop(iprop((∃ d, owns (c : Thread nD τ) scM9 fullShare d)) ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9, owns_whole]; try rfl

set_option maxHeartbeats 4000000 in
/-- The body at the first grid point: the accumulator is reset, then the block's sum is added; the output buffer is left untouched. -/
noncomputable def kernelRun9_A (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond9_0 i) (hc1 : ¬cond9_1 i)
    (x0 : Vec F S10000x64 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc9__bce_kernel i arg1 harg1 arg2 harg2 arg3 harg3) K } := by
  refine ⟨[], ?_, fun xi1 E K => ?run⟩
  case run =>
    simp only [cc9__bce_kernel_eq_skeleton]; unfold cc9__bce_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- The body at a middle grid point: the block's sum is added to the carried accumulator; the output buffer is left untouched. -/
noncomputable def kernelRun9_B (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : ¬cond9_1 i)
    (x0 : Vec F S10000x64 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc9__bce_kernel i arg1 harg1 arg2 harg2 arg3 harg3) K } := by
  refine ⟨[], ?_, fun xi1 E K => ?run⟩
  case run =>
    simp only [cc9__bce_kernel_eq_skeleton]; unfold cc9__bce_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 4000000 in
/-- The body at the last grid point: the block's sum is added to the carried accumulator, and the accumulator is copied to the output buffer. -/
noncomputable def kernelRun9_C (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc9__bce_kernel i arg1 harg1 arg2 harg2 arg3 harg3) K } := by
  refine ⟨?_, ?_, fun E K => ?run⟩
  case run =>
    simp only [cc9__bce_kernel_eq_skeleton]; unfold cc9__bce_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

def out9_A_1 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond9_0 i) (hc1 : ¬cond9_1 i)
    (x0 : Vec F S10000x64 .f32) : Vec F S1x1 .f32 :=
  VO9.read (Elt F) (VO9.writes (Elt F) VO9.junk (kernelRun9_A c i arg1 harg1 arg2 harg2 arg3 harg3 hc0 hc1 x0).1)

theorem scover9_A_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond9_0 i) (hc1 : ¬cond9_1 i)
    (x0 : Vec F S10000x64 .f32) (y : S1x1.Idx) :
    ∃ pc ∈ (kernelRun9_A c i arg1 harg1 arg2 harg2 arg3 harg3 hc0 hc1 x0).2.1, y ∈ pc.1.set :=
  View.cover_of_tiledL (kernelRun9_A c i arg1 harg1 arg2 harg2 arg3 harg3 hc0 hc1 x0).2.1 S1x1.size (by sl_kernel_rfl) y

/-- What the first grid point leaves in the accumulator. -/
def sout9_A_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond9_0 i) (hc1 : ¬cond9_1 i)
    (x0 : Vec F S10000x64 .f32) : Vec F S1x1 .f32 :=
  VS9.read (Elt F) (VS9.writes (Elt F) VS9.junk (kernelRun9_A c i arg1 harg1 arg2 harg2 arg3 harg3 hc0 hc1 x0).2.1)

def out9_B_1 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : ¬cond9_1 i)
    (x0 : Vec F S10000x64 .f32) (xs0 : Vec F S1x1 .f32) : Vec F S1x1 .f32 :=
  VO9.read (Elt F) (VO9.writes (Elt F) VO9.junk (kernelRun9_B c i arg1 harg1 arg2 harg2 arg3 harg3 hc0 hc1 x0 xs0).1)

theorem scover9_B_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : ¬cond9_1 i)
    (x0 : Vec F S10000x64 .f32) (xs0 : Vec F S1x1 .f32) (y : S1x1.Idx) :
    ∃ pc ∈ (kernelRun9_B c i arg1 harg1 arg2 harg2 arg3 harg3 hc0 hc1 x0 xs0).2.1, y ∈ pc.1.set :=
  View.cover_of_tiledL (kernelRun9_B c i arg1 harg1 arg2 harg2 arg3 harg3 hc0 hc1 x0 xs0).2.1 S1x1.size (by sl_kernel_rfl) y

/-- What a middle grid point leaves in the accumulator, from what the point before left. -/
def sout9_B_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : ¬cond9_1 i)
    (x0 : Vec F S10000x64 .f32) (xs0 : Vec F S1x1 .f32) : Vec F S1x1 .f32 :=
  VS9.read (Elt F) (VS9.writes (Elt F) VS9.junk (kernelRun9_B c i arg1 harg1 arg2 harg2 arg3 harg3 hc0 hc1 x0 xs0).2.1)

theorem cover9_C_1 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) (y : S1x1.Idx) :
    ∃ pc ∈ (kernelRun9_C c i arg1 harg1 arg2 harg2 arg3 harg3 hc0 hc1 x0 xs0).1, y ∈ pc.1.set :=
  View.cover_of_tiledL (kernelRun9_C c i arg1 harg1 arg2 harg2 arg3 harg3 hc0 hc1 x0 xs0).1 S1x1.size (by sl_kernel_rfl) y

/-- What the last grid point leaves in the output buffer. -/
def out9_C_1 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) : Vec F S1x1 .f32 :=
  VO9.read (Elt F) (VO9.writes (Elt F) VO9.junk (kernelRun9_C c i arg1 harg1 arg2 harg2 arg3 harg3 hc0 hc1 x0 xs0).1)

theorem scover9_C_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) (y : S1x1.Idx) :
    ∃ pc ∈ (kernelRun9_C c i arg1 harg1 arg2 harg2 arg3 harg3 hc0 hc1 x0 xs0).2.1, y ∈ pc.1.set :=
  View.cover_of_tiledL (kernelRun9_C c i arg1 harg1 arg2 harg2 arg3 harg3 hc0 hc1 x0 xs0).2.1 S1x1.size (by sl_kernel_rfl) y

def sout9_C_0 (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) : Vec F S1x1 .f32 :=
  VS9.read (Elt F) (VS9.writes (Elt F) VS9.junk (kernelRun9_C c i arg1 harg1 arg2 harg2 arg3 harg3 hc0 hc1 x0 xs0).2.1)

/-- The output buffer and the accumulator after each grid point: the running sum over the blocks so far. -/
def outsAt9 (c : Dev nD) : (n : ℕ) → n < cfg9.N → Vec F S1x1 .f32 × Vec F S1x1 .f32
  | 0, hn => (out9_A_1 c (grid9.coords ⟨0, hn⟩) (ms9_0 ⟨0, hn⟩) (hs9_0 ⟨0, hn⟩) (ms9_1 ⟨0, hn⟩) (hs9_1 ⟨0, hn⟩) scM9 (Memref.isWhole_whole _) ((hcond9_0 ⟨0, hn⟩).mpr (Nat.zero_mod _)) (fun h => (fun h => by (try dsimp only at h); omega) ((hcond9_1 ⟨0, hn⟩).mp h)) (iblk9 V c 0 ⟨0, hn⟩), sout9_A_0 c (grid9.coords ⟨0, hn⟩) (ms9_0 ⟨0, hn⟩) (hs9_0 ⟨0, hn⟩) (ms9_1 ⟨0, hn⟩) (hs9_1 ⟨0, hn⟩) scM9 (Memref.isWhole_whole _) ((hcond9_0 ⟨0, hn⟩).mpr (Nat.zero_mod _)) (fun h => (fun h => by (try dsimp only at h); omega) ((hcond9_1 ⟨0, hn⟩).mp h)) (iblk9 V c 0 ⟨0, hn⟩))
  | n + 1, hn =>
    if h0 : (n + 1) % 10 = 0 then
      False.elim (by have hN : n + 1 < 10 := lt_of_lt_of_eq hn (show cfg9.N = 10 from N_9); omega)
    else
      if h1 : (n + 1) % 10 = 9 then
        (out9_C_1 c (grid9.coords ⟨n + 1, hn⟩) (ms9_0 ⟨n + 1, hn⟩) (hs9_0 ⟨n + 1, hn⟩) (ms9_1 ⟨n + 1, hn⟩) (hs9_1 ⟨n + 1, hn⟩) scM9 (Memref.isWhole_whole _) (fun h => h0 ((hcond9_0 ⟨n + 1, hn⟩).mp h)) ((hcond9_1 ⟨n + 1, hn⟩).mpr h1) (iblk9 V c 0 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) scM9 (Memref.isWhole_whole _) (fun h => h0 ((hcond9_0 ⟨n + 1, hn⟩).mp h)) ((hcond9_1 ⟨n + 1, hn⟩).mpr h1) (iblk9 V c 0 ⟨n + 1, hn⟩) (outsAt9 c n (Nat.lt_of_succ_lt hn)).2)
      else
        (out9_B_1 c (grid9.coords ⟨n + 1, hn⟩) (ms9_0 ⟨n + 1, hn⟩) (hs9_0 ⟨n + 1, hn⟩) (ms9_1 ⟨n + 1, hn⟩) (hs9_1 ⟨n + 1, hn⟩) scM9 (Memref.isWhole_whole _) (fun h => h0 ((hcond9_0 ⟨n + 1, hn⟩).mp h)) (fun h => h1 ((hcond9_1 ⟨n + 1, hn⟩).mp h)) (iblk9 V c 0 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) scM9 (Memref.isWhole_whole _) (fun h => h0 ((hcond9_0 ⟨n + 1, hn⟩).mp h)) (fun h => h1 ((hcond9_1 ⟨n + 1, hn⟩).mp h)) (iblk9 V c 0 ⟨n + 1, hn⟩) (outsAt9 c n (Nat.lt_of_succ_lt hn)).2)

theorem outsAt9_A (c : Dev nD) (t : Fin cfg9.N) (h0 : t.val % 10 = 0) (h1 : ¬t.val % 10 = 9) :
    outsAt9 V c t.val t.isLt = (out9_A_1 c (grid9.coords t) (ms9_0 t) (hs9_0 t) (ms9_1 t) (hs9_1 t) scM9 (Memref.isWhole_whole _) ((hcond9_0 t).mpr h0) (fun h => h1 ((hcond9_1 t).mp h)) (iblk9 V c 0 t), sout9_A_0 c (grid9.coords t) (ms9_0 t) (hs9_0 t) (ms9_1 t) (hs9_1 t) scM9 (Memref.isWhole_whole _) ((hcond9_0 t).mpr h0) (fun h => h1 ((hcond9_1 t).mp h)) (iblk9 V c 0 t)) := by
  obtain ⟨n, hn⟩ := t
  cases n with
  | zero => exact rfl
  | succ n => exact (by exfalso; have hN : n + 1 < 10 := lt_of_lt_of_eq hn (show cfg9.N = 10 from N_9); (try dsimp only at h0); omega)

theorem outsAt9_B (c : Dev nD) (t : Fin cfg9.N) (h0 : ¬t.val % 10 = 0) (h1 : ¬t.val % 10 = 9) :
    outsAt9 V c t.val t.isLt = (out9_B_1 c (grid9.coords t) (ms9_0 t) (hs9_0 t) (ms9_1 t) (hs9_1 t) scM9 (Memref.isWhole_whole _) (fun h => h0 ((hcond9_0 t).mp h)) (fun h => h1 ((hcond9_1 t).mp h)) (iblk9 V c 0 t) (outsAt9 V c (t.val - 1) (Nat.lt_of_le_of_lt (Nat.sub_le _ _) t.isLt)).2, sout9_B_0 c (grid9.coords t) (ms9_0 t) (hs9_0 t) (ms9_1 t) (hs9_1 t) scM9 (Memref.isWhole_whole _) (fun h => h0 ((hcond9_0 t).mp h)) (fun h => h1 ((hcond9_1 t).mp h)) (iblk9 V c 0 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt9_C (c : Dev nD) (t : Fin cfg9.N) (h0 : ¬t.val % 10 = 0) (h1 : t.val % 10 = 9) :
    outsAt9 V c t.val t.isLt = (out9_C_1 c (grid9.coords t) (ms9_0 t) (hs9_0 t) (ms9_1 t) (hs9_1 t) scM9 (Memref.isWhole_whole _) (fun h => h0 ((hcond9_0 t).mp h)) ((hcond9_1 t).mpr h1) (iblk9 V c 0 t) (outsAt9 V c (t.val - 1) (Nat.lt_of_le_of_lt (Nat.sub_le _ _) t.isLt)).2, sout9_C_0 c (grid9.coords t) (ms9_0 t) (hs9_0 t) (ms9_1 t) (hs9_1 t) scM9 (Memref.isWhole_whole _) (fun h => h0 ((hcond9_0 t).mp h)) ((hcond9_1 t).mpr h1) (iblk9 V c 0 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before grid position `n`: before the first point the class invariant; afterwards the accumulator at what the point before left, every other scoped buffer unopened, the generator register at some state. -/
def PhiS9 (c : Dev nD) : (n : ℕ) → n ≤ cfg9.N → sProp 𝕄
  | 0, _ => Pipeline.ΦA spec9 c
  | n + 1, hn => iprop(iprop(owns (c : Thread nD τ) scM9 fullShare ((outsAt9 V c n hn).2) ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9 fullShare ((outsAt9 V c n hn).2) ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9 fullShare ((outsAt9 V c (n - 1) (by omega)).2) ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t)

set_option maxHeartbeats 4800000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).owesAt () t.succ = (dat9 V c).owesAt () t.castSucc from rfl]
  rw [show (dat9 V c).Φ t.succ = PhiS9 V c (t.val + 1) t.isLt from rfl, PhiS9_succ]
  have hN : t.val < 10 := lt_of_lt_of_eq t.isLt (show cfg9.N = 10 from N_9)
  by_cases h0 : t.val % 10 = 0
  · by_cases h1 : t.val % 10 = 9
    · exfalso; omega
    · rw [show (dat9 V c).leavesExact 0 t = owns (c : Thread nD τ) (ms9_0 t) fullShare ((dat9 V c).after 0 t) from by
        unfold Dat.leavesExact; rw [liveAt9_0 t], after9_0]
      rw [Dat.leavesExact_idle (dat9 V c) 1 t (idleAt9_1_A t ((hcond9_0 t).mpr h0) (fun h => h1 ((hcond9_1 t).mp h))) (noFlush9_1_A t ((hcond9_0 t).mpr h0) (fun h => h1 ((hcond9_1 t).mp h)))]
      rw [outsAt9_A V c t h0 h1]
      unfold sout9_A_0; (try dsimp only)
      have hz : t.val = 0 := by omega
      rw [PhiS9_castSucc V c t, PhiS9_zero V c _ _ hz, PhiA9_eq]
      iintro ⟨⟨⟨HS0, Hrest⟩, Hg⟩, Ho, ⟨%d0, H0⟩, ⟨%d1, H1⟩⟩
      iapply ((kernelRun9_A c (grid9.coords t) _ _ _ _ _ _ ((hcond9_0 t).mpr h0) (fun h => h1 ((hcond9_1 t).mp h)) (iblk9 V c 0 t)).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_A_0 c _ _ _ _ _ _ _ _ _ _)
          iexact Hrest
        iexact Hg
      isplitl [Ho]; · iexact Ho
      isplitl [H0]; · iexact H0
      iexists _; iexact H1
  · have hz : t.val ≠ 0 := by omega
    by_cases h1 : t.val % 10 = 9
    · rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1_C t (fun h => h0 ((hcond9_0 t).mp h)) ((hcond9_1 t).mpr h1)], after9_1]
      rw [outsAt9_C V c t h0 h1]
      unfold out9_C_1 sout9_C_0; (try dsimp only)
      rw [PhiS9_castSucc V c t, PhiS9_pos V c _ _ hz]
      iintro ⟨⟨⟨HS0, Hrest⟩, Hg⟩, Ho, ⟨%d0, H0⟩, ⟨%d1, H1⟩⟩
      iapply ((kernelRun9_C c (grid9.coords t) _ _ _ _ _ _ (fun h => h0 ((hcond9_0 t).mp h)) ((hcond9_1 t).mpr h1) (iblk9 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover9_C_1 c _ _ _ _ _ _ _ _ _ _ _)
    · rw [show (dat9 V c).leavesExact 0 t = owns (c : Thread nD τ) (ms9_0 t) fullShare ((dat9 V c).after 0 t) from by
        unfold Dat.leavesExact; rw [liveAt9_0 t], after9_0]
      rw [Dat.leavesExact_idle (dat9 V c) 1 t (idleAt9_1_B t (fun h => h0 ((hcond9_0 t).mp h)) (fun h => h1 ((hcond9_1 t).mp h))) (noFlush9_1_B t (fun h => h0 ((hcond9_0 t).mp h)) (fun h => h1 ((hcond9_1 t).mp h)))]
      rw [outsAt9_B V c t h0 h1]
      unfold sout9_B_0; (try dsimp only)
      rw [PhiS9_castSucc V c t, PhiS9_pos V c _ _ hz]
      iintro ⟨⟨⟨HS0, Hrest⟩, Hg⟩, Ho, ⟨%d0, H0⟩, ⟨%d1, H1⟩⟩
      iapply ((kernelRun9_B c (grid9.coords t) _ _ _ _ _ _ (fun h => h0 ((hcond9_0 t).mp h)) (fun h => h1 ((hcond9_1 t).mp h)) (iblk9 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_B_0 c _ _ _ _ _ _ _ _ _ _ _)
          iexact Hrest
        iexact Hg
      isplitl [Ho]; · iexact Ho
      isplitl [H0]; · iexact H0
      iexists _; iexact H1

theorem body_obligation9 (c : Dev nD) : BodyObligation (dat9 (F := F) V c) (defs₀ (F := F)) Variants.none () Set.univ := fun t => by
  rw [bigSep_W9, bigSep_W9]
  exact sound_body9 V c t

/-- The class invariant the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the class invariant back: the accumulator's contents are forgotten. -/
theorem hout9 (c : Dev nD) : (dat9 V c).Φ (Fin.last cfg9.N) ⊢ Pipeline.ΦA spec9 c := by
  have ht : (Fin.last cfg9.N).val ≠ 0 := by rw [Fin.val_last]; have : cfg9.N = 10 := N_9; omega
  rw [show (dat9 V c).Φ (Fin.last cfg9.N) = PhiS9 V c (Fin.last cfg9.N).val (Nat.le_of_lt_succ (Fin.last cfg9.N).isLt) from rfl, PhiS9_pos V c _ _ ht, PhiA9_eq]
  iintro ⟨⟨HS0, Hrest⟩, Hg⟩
  isplitl [HS0 Hrest]
  · isplitl [HS0]
    · iexists _; iexact HS0
    iexact Hrest
  iexact Hg

end Cert.KernelIdeal.Blocks

end
-- ==== Proof.KiRun.lean ====
import proofs.«176382_j6528350290006_1_alg».proof.Proof.Gen.KernelIdeal.Launch
import proofs.«176382_j6528350290006_1_alg».proof.Proof.Gen.KernelIdeal.Skeleton
import proofs.«176382_j6528350290006_1_alg».proof.Proof.Gen.KernelIdeal.Points
import proofs.«176382_j6528350290006_1_alg».proof.Proof.KiRegion0
import proofs.«176382_j6528350290006_1_alg».proof.Proof.KiRegion1
import proofs.«176382_j6528350290006_1_alg».proof.Proof.KiRegion2
import proofs.«176382_j6528350290006_1_alg».proof.Proof.KiRegion3
import proofs.«176382_j6528350290006_1_alg».proof.Proof.KiRegion4
import proofs.«176382_j6528350290006_1_alg».proof.Proof.KiRegion5
import proofs.«176382_j6528350290006_1_alg».proof.Proof.KiRegion6
import proofs.«176382_j6528350290006_1_alg».proof.Proof.KiRegion7
import proofs.«176382_j6528350290006_1_alg».proof.Proof.KiRegion8
import proofs.«176382_j6528350290006_1_alg».proof.Proof.KiRegion9
import proofs.«176382_j6528350290006_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The contents of every unscoped buffer at each boundary of the program: the launch memory, then each host stretch applied, then each kernel region's arrays at what its write-backs leave. -/

abbrev W0 : Dev nD → Valuation τ sig (Elt F) := fun c b => m (c, b)
abbrev U0 : (c : Dev nD) → (b : Ref sig .tc) → Buf (Elt F) ((c : Thread nD τ).loc b) := fun c b => W0 m c b
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
abbrev U2 : (c : Dev nD) → (b : Ref sig .tc) → Buf (Elt F) ((c : Thread nD τ).loc b) := fun c b => W2 m c b
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (U1 m) c).arrAt w cfg0.N = (U2 m) c (Pipeline.arrRef spec0 w) :=
  (W2_arr m c w).symm
theorem hrest0 (c : Dev nD) : ∀ b, b ∉ Finset.univ.image (Pipeline.arrRef spec0) → (U2 m) c b = (U1 m) c b :=
  fun b hb => W2_of_ne m c b fun w e => hb (Finset.mem_image.mpr ⟨w, Finset.mem_univ _, e⟩)
abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
abbrev U4 : (c : Dev nD) → (b : Ref sig .tc) → Buf (Elt F) ((c : Thread nD τ).loc b) := fun c b => W4 m c b
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (U3 m) c).arrAt w cfg1.N = (U4 m) c (Pipeline.arrRef spec1 w) :=
  (W4_arr m c w).symm
theorem hrest1 (c : Dev nD) : ∀ b, b ∉ Finset.univ.image (Pipeline.arrRef spec1) → (U4 m) c b = (U3 m) c b :=
  fun b hb => W4_of_ne m c b fun w e => hb (Finset.mem_image.mpr ⟨w, Finset.mem_univ _, e⟩)
abbrev W5 : Dev nD → Valuation τ sig (Elt F) := fun c => StableHlo.after hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (U5 m) c).arrAt w cfg2.N
abbrev U6 : (c : Dev nD) → (b : Ref sig .tc) → Buf (Elt F) ((c : Thread nD τ).loc b) := fun c b => W6 m c b
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (U5 m) c).arrAt w cfg2.N = (U6 m) c (Pipeline.arrRef spec2 w) :=
  (W6_arr m c w).symm
theorem hrest2 (c : Dev nD) : ∀ b, b ∉ Finset.univ.image (Pipeline.arrRef spec2) → (U6 m) c b = (U5 m) c b :=
  fun b hb => W6_of_ne m c b fun w e => hb (Finset.mem_image.mpr ⟨w, Finset.mem_univ _, e⟩)
abbrev W7 : Dev nD → Valuation τ sig (Elt F) := fun c => StableHlo.after hostOps3 (W6 m c)
abbrev U7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (U7 m) c).arrAt w cfg3.N
abbrev U8 : (c : Dev nD) → (b : Ref sig .tc) → Buf (Elt F) ((c : Thread nD τ).loc b) := fun c b => W8 m c b
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (U7 m) c).arrAt w cfg3.N = (U8 m) c (Pipeline.arrRef spec3 w) :=
  (W8_arr m c w).symm
theorem hrest3 (c : Dev nD) : ∀ b, b ∉ Finset.univ.image (Pipeline.arrRef spec3) → (U8 m) c b = (U7 m) c b :=
  fun b hb => W8_of_ne m c b fun w e => hb (Finset.mem_image.mpr ⟨w, Finset.mem_univ _, e⟩)
abbrev W9 : Dev nD → Valuation τ sig (Elt F) := fun c => StableHlo.after hostOps4 (W8 m c)
abbrev U9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (U9 m) c).arrAt w cfg4.N
abbrev U10 : (c : Dev nD) → (b : Ref sig .tc) → Buf (Elt F) ((c : Thread nD τ).loc b) := fun c b => W10 m c b
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem hF4 (c : Dev nD) (w : Fin cfg4.W) : (dat4 (U9 m) c).arrAt w cfg4.N = (U10 m) c (Pipeline.arrRef spec4 w) :=
  (W10_arr m c w).symm
theorem hrest4 (c : Dev nD) : ∀ b, b ∉ Finset.univ.image (Pipeline.arrRef spec4) → (U10 m) c b = (U9 m) c b :=
  fun b hb => W10_of_ne m c b fun w e => hb (Finset.mem_image.mpr ⟨w, Finset.mem_univ _, e⟩)
abbrev W11 : Dev nD → Valuation τ sig (Elt F) := fun c => StableHlo.after hostOps5 (W10 m c)
abbrev U11 : (c : Dev nD) → (b : Ref sig .tc) → Buf (Elt F) ((c : Thread nD τ).loc b) := fun c b => W11 m c b
def W12 (c : Dev nD) : Valuation τ sig (Elt F) :=
  Pipeline.withArrays spec5 c (W11 m c) fun w => (dat5 (U11 m) c).arrAt w cfg5.N
abbrev U12 : (c : Dev nD) → (b : Ref sig .tc) → Buf (Elt F) ((c : Thread nD τ).loc b) := fun c b => W12 m c b
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
theorem hF5 (c : Dev nD) (w : Fin cfg5.W) : (dat5 (U11 m) c).arrAt w cfg5.N = (U12 m) c (Pipeline.arrRef spec5 w) :=
  (W12_arr m c w).symm
theorem hrest5 (c : Dev nD) : ∀ b, b ∉ Finset.univ.image (Pipeline.arrRef spec5) → (U12 m) c b = (U11 m) c b :=
  fun b hb => W12_of_ne m c b fun w e => hb (Finset.mem_image.mpr ⟨w, Finset.mem_univ _, e⟩)
abbrev W13 : Dev nD → Valuation τ sig (Elt F) := fun c => StableHlo.after hostOps6 (W12 m c)
abbrev U13 : (c : Dev nD) → (b : Ref sig .tc) → Buf (Elt F) ((c : Thread nD τ).loc b) := fun c b => W13 m c b
def W14 (c : Dev nD) : Valuation τ sig (Elt F) :=
  Pipeline.withArrays spec6 c (W13 m c) fun w => (dat6 (U13 m) c).arrAt w cfg6.N
abbrev U14 : (c : Dev nD) → (b : Ref sig .tc) → Buf (Elt F) ((c : Thread nD τ).loc b) := fun c b => W14 m c b
theorem W14_arr (c : Dev nD) (w : Fin cfg6.W) :
    W14 m c (Proc.devRef .tc (Pipeline.arrRef spec6 w)) = (dat6 (U13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
theorem hF6 (c : Dev nD) (w : Fin cfg6.W) : (dat6 (U13 m) c).arrAt w cfg6.N = (U14 m) c (Pipeline.arrRef spec6 w) :=
  (W14_arr m c w).symm
theorem hrest6 (c : Dev nD) : ∀ b, b ∉ Finset.univ.image (Pipeline.arrRef spec6) → (U14 m) c b = (U13 m) c b :=
  fun b hb => W14_of_ne m c b fun w e => hb (Finset.mem_image.mpr ⟨w, Finset.mem_univ _, e⟩)
abbrev W15 : Dev nD → Valuation τ sig (Elt F) := fun c => StableHlo.after hostOps7 (W14 m c)
abbrev U15 : (c : Dev nD) → (b : Ref sig .tc) → Buf (Elt F) ((c : Thread nD τ).loc b) := fun c b => W15 m c b
def W16 (c : Dev nD) : Valuation τ sig (Elt F) :=
  Pipeline.withArrays spec7 c (W15 m c) fun w => (dat7 (U15 m) c).arrAt w cfg7.N
abbrev U16 : (c : Dev nD) → (b : Ref sig .tc) → Buf (Elt F) ((c : Thread nD τ).loc b) := fun c b => W16 m c b
theorem W16_arr (c : Dev nD) (w : Fin cfg7.W) :
    W16 m c (Proc.devRef .tc (Pipeline.arrRef spec7 w)) = (dat7 (U15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
theorem hF7 (c : Dev nD) (w : Fin cfg7.W) : (dat7 (U15 m) c).arrAt w cfg7.N = (U16 m) c (Pipeline.arrRef spec7 w) :=
  (W16_arr m c w).symm
theorem hrest7 (c : Dev nD) : ∀ b, b ∉ Finset.univ.image (Pipeline.arrRef spec7) → (U16 m) c b = (U15 m) c b :=
  fun b hb => W16_of_ne m c b fun w e => hb (Finset.mem_image.mpr ⟨w, Finset.mem_univ _, e⟩)
def W17 (c : Dev nD) : Valuation τ sig (Elt F) :=
  Pipeline.withArrays spec8 c (W16 m c) fun w => (dat8 (U16 m) c).arrAt w cfg8.N
abbrev U17 : (c : Dev nD) → (b : Ref sig .tc) → Buf (Elt F) ((c : Thread nD τ).loc b) := fun c b => W17 m c b
theorem W17_arr (c : Dev nD) (w : Fin cfg8.W) :
    W17 m c (Proc.devRef .tc (Pipeline.arrRef spec8 w)) = (dat8 (U16 m) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m c (Proc.devRef .tc b) = W16 m c (Proc.devRef .tc b) := by
  unfold W17; exact Pipeline.withArrays_of_ne spec8 c _ _ b hb
theorem hF8 (c : Dev nD) (w : Fin cfg8.W) : (dat8 (U16 m) c).arrAt w cfg8.N = (U17 m) c (Pipeline.arrRef spec8 w) :=
  (W17_arr m c w).symm
theorem hrest8 (c : Dev nD) : ∀ b, b ∉ Finset.univ.image (Pipeline.arrRef spec8) → (U17 m) c b = (U16 m) c b :=
  fun b hb => W17_of_ne m c b fun w e => hb (Finset.mem_image.mpr ⟨w, Finset.mem_univ _, e⟩)
abbrev W18 : Dev nD → Valuation τ sig (Elt F) := fun c => StableHlo.after hostOps9 (W17 m c)
abbrev U18 : (c : Dev nD) → (b : Ref sig .tc) → Buf (Elt F) ((c : Thread nD τ).loc b) := fun c b => W18 m c b
def W19 (c : Dev nD) : Valuation τ sig (Elt F) :=
  Pipeline.withArrays spec9 c (W18 m c) fun w => (dat9 (U18 m) c).arrAt w cfg9.N
abbrev U19 : (c : Dev nD) → (b : Ref sig .tc) → Buf (Elt F) ((c : Thread nD τ).loc b) := fun c b => W19 m c b
theorem W19_arr (c : Dev nD) (w : Fin cfg9.W) :
    W19 m c (Proc.devRef .tc (Pipeline.arrRef spec9 w)) = (dat9 (U18 m) c).arrAt w cfg9.N := by
  unfold W19; exact Pipeline.withArrays_arr spec9 launch9.win.arr_inj c _ _ w
theorem W19_of_ne (c : Dev nD) (b : Ref sig .tc) (hb : ∀ w, Pipeline.arrRef spec9 w ≠ b) :
    W19 m c (Proc.devRef .tc b) = W18 m c (Proc.devRef .tc b) := by
  unfold W19; exact Pipeline.withArrays_of_ne spec9 c _ _ b hb
theorem hF9 (c : Dev nD) (w : Fin cfg9.W) : (dat9 (U18 m) c).arrAt w cfg9.N = (U19 m) c (Pipeline.arrRef spec9 w) :=
  (W19_arr m c w).symm
theorem hrest9 (c : Dev nD) : ∀ b, b ∉ Finset.univ.image (Pipeline.arrRef spec9) → (U19 m) c b = (U18 m) c b :=
  fun b hb => W19_of_ne m c b fun w e => hb (Finset.mem_image.mpr ⟨w, Finset.mem_univ _, e⟩)
abbrev W20 : Dev nD → Valuation τ sig (Elt F) := fun c => StableHlo.after hostOps10 (W19 m c)
abbrev U20 : (c : Dev nD) → (b : Ref sig .tc) → Buf (Elt F) ((c : Thread nD τ).loc b) := fun c b => W20 m c b

/-! No host stretch writes an argument and no region changes one (a region reads it through an input window or not at all), so each argument's buffer at the last boundary holds its launch contents. -/
theorem W20_main_arg0 (c : Dev nD) : W20 m c (Proc.devRef .tc main_arg0) = m ((c : Thread nD τ).loc main_arg0) :=
  (StableHlo.after_of_writes_sub hostOps10 _ hostOps10_writes (by decide) : W20 m c (Proc.devRef .tc main_arg0) = W19 m c (Proc.devRef .tc main_arg0)).trans <|
    (W19_of_ne m c main_arg0 (by decide)).trans <|
    (StableHlo.after_of_writes_sub hostOps9 _ hostOps9_writes (by decide) : W18 m c (Proc.devRef .tc main_arg0) = W17 m c (Proc.devRef .tc main_arg0)).trans <|
    (W17_of_ne m c main_arg0 (by decide)).trans <|
    (W16_of_ne m c main_arg0 (by decide)).trans <|
    (StableHlo.after_of_writes_sub hostOps7 _ hostOps7_writes (by decide) : W15 m c (Proc.devRef .tc main_arg0) = W14 m c (Proc.devRef .tc main_arg0)).trans <|
    (W14_of_ne m c main_arg0 (by decide)).trans <|
    (StableHlo.after_of_writes_sub hostOps6 _ hostOps6_writes (by decide) : W13 m c (Proc.devRef .tc main_arg0) = W12 m c (Proc.devRef .tc main_arg0)).trans <|
    ((W12_arr m c 0).trans (((dat5 (U11 m) c).arrAt_in 0 rfl _).trans (A_eq5 (U11 m) c 0))).trans <|
    (StableHlo.after_of_writes_sub hostOps5 _ hostOps5_writes (by decide) : W11 m c (Proc.devRef .tc main_arg0) = W10 m c (Proc.devRef .tc main_arg0)).trans <|
    (W10_of_ne m c main_arg0 (by decide)).trans <|
    (StableHlo.after_of_writes_sub hostOps4 _ hostOps4_writes (by decide) : W9 m c (Proc.devRef .tc main_arg0) = W8 m c (Proc.devRef .tc main_arg0)).trans <|
    (W8_of_ne m c main_arg0 (by decide)).trans <|
    (StableHlo.after_of_writes_sub hostOps3 _ hostOps3_writes (by decide) : W7 m c (Proc.devRef .tc main_arg0) = W6 m c (Proc.devRef .tc main_arg0)).trans <|
    (W6_of_ne m c main_arg0 (by decide)).trans <|
    (StableHlo.after_of_writes_sub hostOps2 _ hostOps2_writes (by decide) : W5 m c (Proc.devRef .tc main_arg0) = W4 m c (Proc.devRef .tc main_arg0)).trans <|
    ((W4_arr m c 0).trans (((dat1 (U3 m) c).arrAt_in 0 rfl _).trans (A_eq1 (U3 m) c 0))).trans <|
    (StableHlo.after_of_writes_sub hostOps1 _ hostOps1_writes (by decide) : W3 m c (Proc.devRef .tc main_arg0) = W2 m c (Proc.devRef .tc main_arg0)).trans <|
    (W2_of_ne m c main_arg0 (by decide)).trans <|
    (StableHlo.after_of_writes_sub hostOps0 _ hostOps0_writes (by decide) : W1 m c (Proc.devRef .tc main_arg0) = W0 m c (Proc.devRef .tc main_arg0)).trans <| rfl
theorem W20_main_arg1 (c : Dev nD) : W20 m c (Proc.devRef .tc main_arg1) = m ((c : Thread nD τ).loc main_arg1) :=
  (StableHlo.after_of_writes_sub hostOps10 _ hostOps10_writes (by decide) : W20 m c (Proc.devRef .tc main_arg1) = W19 m c (Proc.devRef .tc main_arg1)).trans <|
    (W19_of_ne m c main_arg1 (by decide)).trans <|
    (StableHlo.after_of_writes_sub hostOps9 _ hostOps9_writes (by decide) : W18 m c (Proc.devRef .tc main_arg1) = W17 m c (Proc.devRef .tc main_arg1)).trans <|
    (W17_of_ne m c main_arg1 (by decide)).trans <|
    (W16_of_ne m c main_arg1 (by decide)).trans <|
    (StableHlo.after_of_writes_sub hostOps7 _ hostOps7_writes (by decide) : W15 m c (Proc.devRef .tc main_arg1) = W14 m c (Proc.devRef .tc main_arg1)).trans <|
    (W14_of_ne m c main_arg1 (by decide)).trans <|
    (StableHlo.after_of_writes_sub hostOps6 _ hostOps6_writes (by decide) : W13 m c (Proc.devRef .tc main_arg1) = W12 m c (Proc.devRef .tc main_arg1)).trans <|
    (W12_of_ne m c main_arg1 (by decide)).trans <|
    (StableHlo.after_of_writes_sub hostOps5 _ hostOps5_writes (by decide) : W11 m c (Proc.devRef .tc main_arg1) = W10 m c (Proc.devRef .tc main_arg1)).trans <|
    (W10_of_ne m c main_arg1 (by decide)).trans <|
    (StableHlo.after_of_writes_sub hostOps4 _ hostOps4_writes (by decide) : W9 m c (Proc.devRef .tc main_arg1) = W8 m c (Proc.devRef .tc main_arg1)).trans <|
    (W8_of_ne m c main_arg1 (by decide)).trans <|
    (StableHlo.after_of_writes_sub hostOps3 _ hostOps3_writes (by decide) : W7 m c (Proc.devRef .tc main_arg1) = W6 m c (Proc.devRef .tc main_arg1)).trans <|
    ((W6_arr m c 1).trans (((dat2 (U5 m) c).arrAt_in 1 rfl _).trans (A_eq2 (U5 m) c 1))).trans <|
    (StableHlo.after_of_writes_sub hostOps2 _ hostOps2_writes (by decide) : W5 m c (Proc.devRef .tc main_arg1) = W4 m c (Proc.devRef .tc main_arg1)).trans <|
    (W4_of_ne m c main_arg1 (by decide)).trans <|
    (StableHlo.after_of_writes_sub hostOps1 _ hostOps1_writes (by decide) : W3 m c (Proc.devRef .tc main_arg1) = W2 m c (Proc.devRef .tc main_arg1)).trans <|
    ((W2_arr m c 1).trans (((dat0 (U1 m) c).arrAt_in 1 rfl _).trans (A_eq0 (U1 m) c 1))).trans <|
    (StableHlo.after_of_writes_sub hostOps0 _ hostOps0_writes (by decide) : W1 m c (Proc.devRef .tc main_arg1) = W0 m c (Proc.devRef .tc main_arg1)).trans <| rfl
theorem W20_main_arg2 (c : Dev nD) : W20 m c (Proc.devRef .tc main_arg2) = m ((c : Thread nD τ).loc main_arg2) :=
  (StableHlo.after_of_writes_sub hostOps10 _ hostOps10_writes (by decide) : W20 m c (Proc.devRef .tc main_arg2) = W19 m c (Proc.devRef .tc main_arg2)).trans <|
    (W19_of_ne m c main_arg2 (by decide)).trans <|
    (StableHlo.after_of_writes_sub hostOps9 _ hostOps9_writes (by decide) : W18 m c (Proc.devRef .tc main_arg2) = W17 m c (Proc.devRef .tc main_arg2)).trans <|
    (W17_of_ne m c main_arg2 (by decide)).trans <|
    (W16_of_ne m c main_arg2 (by decide)).trans <|
    (StableHlo.after_of_writes_sub hostOps7 _ hostOps7_writes (by decide) : W15 m c (Proc.devRef .tc main_arg2) = W14 m c (Proc.devRef .tc main_arg2)).trans <|
    (W14_of_ne m c main_arg2 (by decide)).trans <|
    (StableHlo.after_of_writes_sub hostOps6 _ hostOps6_writes (by decide) : W13 m c (Proc.devRef .tc main_arg2) = W12 m c (Proc.devRef .tc main_arg2)).trans <|
    (W12_of_ne m c main_arg2 (by decide)).trans <|
    (StableHlo.after_of_writes_sub hostOps5 _ hostOps5_writes (by decide) : W11 m c (Proc.devRef .tc main_arg2) = W10 m c (Proc.devRef .tc main_arg2)).trans <|
    (W10_of_ne m c main_arg2 (by decide)).trans <|
    (StableHlo.after_of_writes_sub hostOps4 _ hostOps4_writes (by decide) : W9 m c (Proc.devRef .tc main_arg2) = W8 m c (Proc.devRef .tc main_arg2)).trans <|
    (W8_of_ne m c main_arg2 (by decide)).trans <|
    (StableHlo.after_of_writes_sub hostOps3 _ hostOps3_writes (by decide) : W7 m c (Proc.devRef .tc main_arg2) = W6 m c (Proc.devRef .tc main_arg2)).trans <|
    (W6_of_ne m c main_arg2 (by decide)).trans <|
    (StableHlo.after_of_writes_sub hostOps2 _ hostOps2_writes (by decide) : W5 m c (Proc.devRef .tc main_arg2) = W4 m c (Proc.devRef .tc main_arg2)).trans <|
    (W4_of_ne m c main_arg2 (by decide)).trans <|
    (StableHlo.after_of_writes_sub hostOps1 _ hostOps1_writes (by decide) : W3 m c (Proc.devRef .tc main_arg2) = W2 m c (Proc.devRef .tc main_arg2)).trans <|
    (W2_of_ne m c main_arg2 (by decide)).trans <|
    (StableHlo.after_of_writes_sub hostOps0 _ hostOps0_writes (by decide) : W1 m c (Proc.devRef .tc main_arg2) = W0 m c (Proc.devRef .tc main_arg2)).trans <| rfl
theorem W20_main_arg3 (c : Dev nD) : W20 m c (Proc.devRef .tc main_arg3) = m ((c : Thread nD τ).loc main_arg3) :=
  (StableHlo.after_of_writes_sub hostOps10 _ hostOps10_writes (by decide) : W20 m c (Proc.devRef .tc main_arg3) = W19 m c (Proc.devRef .tc main_arg3)).trans <|
    (W19_of_ne m c main_arg3 (by decide)).trans <|
    (StableHlo.after_of_writes_sub hostOps9 _ hostOps9_writes (by decide) : W18 m c (Proc.devRef .tc main_arg3) = W17 m c (Proc.devRef .tc main_arg3)).trans <|
    (W17_of_ne m c main_arg3 (by decide)).trans <|
    (W16_of_ne m c main_arg3 (by decide)).trans <|
    (StableHlo.after_of_writes_sub hostOps7 _ hostOps7_writes (by decide) : W15 m c (Proc.devRef .tc main_arg3) = W14 m c (Proc.devRef .tc main_arg3)).trans <|
    (W14_of_ne m c main_arg3 (by decide)).trans <|
    (StableHlo.after_of_writes_sub hostOps6 _ hostOps6_writes (by decide) : W13 m c (Proc.devRef .tc main_arg3) = W12 m c (Proc.devRef .tc main_arg3)).trans <|
    (W12_of_ne m c main_arg3 (by decide)).trans <|
    (StableHlo.after_of_writes_sub hostOps5 _ hostOps5_writes (by decide) : W11 m c (Proc.devRef .tc main_arg3) = W10 m c (Proc.devRef .tc main_arg3)).trans <|
    (W10_of_ne m c main_arg3 (by decide)).trans <|
    (StableHlo.after_of_writes_sub hostOps4 _ hostOps4_writes (by decide) : W9 m c (Proc.devRef .tc main_arg3) = W8 m c (Proc.devRef .tc main_arg3)).trans <|
    (W8_of_ne m c main_arg3 (by decide)).trans <|
    (StableHlo.after_of_writes_sub hostOps3 _ hostOps3_writes (by decide) : W7 m c (Proc.devRef .tc main_arg3) = W6 m c (Proc.devRef .tc main_arg3)).trans <|
    (W6_of_ne m c main_arg3 (by decide)).trans <|
    (StableHlo.after_of_writes_sub hostOps2 _ hostOps2_writes (by decide) : W5 m c (Proc.devRef .tc main_arg3) = W4 m c (Proc.devRef .tc main_arg3)).trans <|
    (W4_of_ne m c main_arg3 (by decide)).trans <|
    (StableHlo.after_of_writes_sub hostOps1 _ hostOps1_writes (by decide) : W3 m c (Proc.devRef .tc main_arg3) = W2 m c (Proc.devRef .tc main_arg3)).trans <|
    (W2_of_ne m c main_arg3 (by decide)).trans <|
    (StableHlo.after_of_writes_sub hostOps0 _ hostOps0_writes (by decide) : W1 m c (Proc.devRef .tc main_arg3) = W0 m c (Proc.devRef .tc main_arg3)).trans <| rfl
theorem W20_main_arg4 (c : Dev nD) : W20 m c (Proc.devRef .tc main_arg4) = m ((c : Thread nD τ).loc main_arg4) :=
  (StableHlo.after_of_writes_sub hostOps10 _ hostOps10_writes (by decide) : W20 m c (Proc.devRef .tc main_arg4) = W19 m c (Proc.devRef .tc main_arg4)).trans <|
    (W19_of_ne m c main_arg4 (by decide)).trans <|
    (StableHlo.after_of_writes_sub hostOps9 _ hostOps9_writes (by decide) : W18 m c (Proc.devRef .tc main_arg4) = W17 m c (Proc.devRef .tc main_arg4)).trans <|
    (W17_of_ne m c main_arg4 (by decide)).trans <|
    (W16_of_ne m c main_arg4 (by decide)).trans <|
    (StableHlo.after_of_writes_sub hostOps7 _ hostOps7_writes (by decide) : W15 m c (Proc.devRef .tc main_arg4) = W14 m c (Proc.devRef .tc main_arg4)).trans <|
    (W14_of_ne m c main_arg4 (by decide)).trans <|
    (StableHlo.after_of_writes_sub hostOps6 _ hostOps6_writes (by decide) : W13 m c (Proc.devRef .tc main_arg4) = W12 m c (Proc.devRef .tc main_arg4)).trans <|
    (W12_of_ne m c main_arg4 (by decide)).trans <|
    (StableHlo.after_of_writes_sub hostOps5 _ hostOps5_writes (by decide) : W11 m c (Proc.devRef .tc main_arg4) = W10 m c (Proc.devRef .tc main_arg4)).trans <|
    (W10_of_ne m c main_arg4 (by decide)).trans <|
    (StableHlo.after_of_writes_sub hostOps4 _ hostOps4_writes (by decide) : W9 m c (Proc.devRef .tc main_arg4) = W8 m c (Proc.devRef .tc main_arg4)).trans <|
    (W8_of_ne m c main_arg4 (by decide)).trans <|
    (StableHlo.after_of_writes_sub hostOps3 _ hostOps3_writes (by decide) : W7 m c (Proc.devRef .tc main_arg4) = W6 m c (Proc.devRef .tc main_arg4)).trans <|
    (W6_of_ne m c main_arg4 (by decide)).trans <|
    (StableHlo.after_of_writes_sub hostOps2 _ hostOps2_writes (by decide) : W5 m c (Proc.devRef .tc main_arg4) = W4 m c (Proc.devRef .tc main_arg4)).trans <|
    (W4_of_ne m c main_arg4 (by decide)).trans <|
    (StableHlo.after_of_writes_sub hostOps1 _ hostOps1_writes (by decide) : W3 m c (Proc.devRef .tc main_arg4) = W2 m c (Proc.devRef .tc main_arg4)).trans <|
    (W2_of_ne m c main_arg4 (by decide)).trans <|
    (StableHlo.after_of_writes_sub hostOps0 _ hostOps0_writes (by decide) : W1 m c (Proc.devRef .tc main_arg4) = W0 m c (Proc.devRef .tc main_arg4)).trans <| rfl
theorem W20_main_arg5 (c : Dev nD) : W20 m c (Proc.devRef .tc main_arg5) = m ((c : Thread nD τ).loc main_arg5) :=
  (StableHlo.after_of_writes_sub hostOps10 _ hostOps10_writes (by decide) : W20 m c (Proc.devRef .tc main_arg5) = W19 m c (Proc.devRef .tc main_arg5)).trans <|
    (W19_of_ne m c main_arg5 (by decide)).trans <|
    (StableHlo.after_of_writes_sub hostOps9 _ hostOps9_writes (by decide) : W18 m c (Proc.devRef .tc main_arg5) = W17 m c (Proc.devRef .tc main_arg5)).trans <|
    (W17_of_ne m c main_arg5 (by decide)).trans <|
    (W16_of_ne m c main_arg5 (by decide)).trans <|
    (StableHlo.after_of_writes_sub hostOps7 _ hostOps7_writes (by decide) : W15 m c (Proc.devRef .tc main_arg5) = W14 m c (Proc.devRef .tc main_arg5)).trans <|
    (W14_of_ne m c main_arg5 (by decide)).trans <|
    (StableHlo.after_of_writes_sub hostOps6 _ hostOps6_writes (by decide) : W13 m c (Proc.devRef .tc main_arg5) = W12 m c (Proc.devRef .tc main_arg5)).trans <|
    (W12_of_ne m c main_arg5 (by decide)).trans <|
    (StableHlo.after_of_writes_sub hostOps5 _ hostOps5_writes (by decide) : W11 m c (Proc.devRef .tc main_arg5) = W10 m c (Proc.devRef .tc main_arg5)).trans <|
    (W10_of_ne m c main_arg5 (by decide)).trans <|
    (StableHlo.after_of_writes_sub hostOps4 _ hostOps4_writes (by decide) : W9 m c (Proc.devRef .tc main_arg5) = W8 m c (Proc.devRef .tc main_arg5)).trans <|
    (W8_of_ne m c main_arg5 (by decide)).trans <|
    (StableHlo.after_of_writes_sub hostOps3 _ hostOps3_writes (by decide) : W7 m c (Proc.devRef .tc main_arg5) = W6 m c (Proc.devRef .tc main_arg5)).trans <|
    (W6_of_ne m c main_arg5 (by decide)).trans <|
    (StableHlo.after_of_writes_sub hostOps2 _ hostOps2_writes (by decide) : W5 m c (Proc.devRef .tc main_arg5) = W4 m c (Proc.devRef .tc main_arg5)).trans <|
    (W4_of_ne m c main_arg5 (by decide)).trans <|
    (StableHlo.after_of_writes_sub hostOps1 _ hostOps1_writes (by decide) : W3 m c (Proc.devRef .tc main_arg5) = W2 m c (Proc.devRef .tc main_arg5)).trans <|
    (W2_of_ne m c main_arg5 (by decide)).trans <|
    (StableHlo.after_of_writes_sub hostOps0 _ hostOps0_writes (by decide) : W1 m c (Proc.devRef .tc main_arg5) = W0 m c (Proc.devRef .tc main_arg5)).trans <| rfl
theorem W20_main_arg6 (c : Dev nD) : W20 m c (Proc.devRef .tc main_arg6) = m ((c : Thread nD τ).loc main_arg6) :=
  (StableHlo.after_of_writes_sub hostOps10 _ hostOps10_writes (by decide) : W20 m c (Proc.devRef .tc main_arg6) = W19 m c (Proc.devRef .tc main_arg6)).trans <|
    (W19_of_ne m c main_arg6 (by decide)).trans <|
    (StableHlo.after_of_writes_sub hostOps9 _ hostOps9_writes (by decide) : W18 m c (Proc.devRef .tc main_arg6) = W17 m c (Proc.devRef .tc main_arg6)).trans <|
    (W17_of_ne m c main_arg6 (by decide)).trans <|
    (W16_of_ne m c main_arg6 (by decide)).trans <|
    (StableHlo.after_of_writes_sub hostOps7 _ hostOps7_writes (by decide) : W15 m c (Proc.devRef .tc main_arg6) = W14 m c (Proc.devRef .tc main_arg6)).trans <|
    (W14_of_ne m c main_arg6 (by decide)).trans <|
    (StableHlo.after_of_writes_sub hostOps6 _ hostOps6_writes (by decide) : W13 m c (Proc.devRef .tc main_arg6) = W12 m c (Proc.devRef .tc main_arg6)).trans <|
    (W12_of_ne m c main_arg6 (by decide)).trans <|
    (StableHlo.after_of_writes_sub hostOps5 _ hostOps5_writes (by decide) : W11 m c (Proc.devRef .tc main_arg6) = W10 m c (Proc.devRef .tc main_arg6)).trans <|
    (W10_of_ne m c main_arg6 (by decide)).trans <|
    (StableHlo.after_of_writes_sub hostOps4 _ hostOps4_writes (by decide) : W9 m c (Proc.devRef .tc main_arg6) = W8 m c (Proc.devRef .tc main_arg6)).trans <|
    (W8_of_ne m c main_arg6 (by decide)).trans <|
    (StableHlo.after_of_writes_sub hostOps3 _ hostOps3_writes (by decide) : W7 m c (Proc.devRef .tc main_arg6) = W6 m c (Proc.devRef .tc main_arg6)).trans <|
    (W6_of_ne m c main_arg6 (by decide)).trans <|
    (StableHlo.after_of_writes_sub hostOps2 _ hostOps2_writes (by decide) : W5 m c (Proc.devRef .tc main_arg6) = W4 m c (Proc.devRef .tc main_arg6)).trans <|
    (W4_of_ne m c main_arg6 (by decide)).trans <|
    (StableHlo.after_of_writes_sub hostOps1 _ hostOps1_writes (by decide) : W3 m c (Proc.devRef .tc main_arg6) = W2 m c (Proc.devRef .tc main_arg6)).trans <|
    (W2_of_ne m c main_arg6 (by decide)).trans <|
    (StableHlo.after_of_writes_sub hostOps0 _ hostOps0_writes (by decide) : W1 m c (Proc.devRef .tc main_arg6) = W0 m c (Proc.devRef .tc main_arg6)).trans <| rfl
theorem W20_main_arg7 (c : Dev nD) : W20 m c (Proc.devRef .tc main_arg7) = m ((c : Thread nD τ).loc main_arg7) :=
  (StableHlo.after_of_writes_sub hostOps10 _ hostOps10_writes (by decide) : W20 m c (Proc.devRef .tc main_arg7) = W19 m c (Proc.devRef .tc main_arg7)).trans <|
    (W19_of_ne m c main_arg7 (by decide)).trans <|
    (StableHlo.after_of_writes_sub hostOps9 _ hostOps9_writes (by decide) : W18 m c (Proc.devRef .tc main_arg7) = W17 m c (Proc.devRef .tc main_arg7)).trans <|
    (W17_of_ne m c main_arg7 (by decide)).trans <|
    (W16_of_ne m c main_arg7 (by decide)).trans <|
    (StableHlo.after_of_writes_sub hostOps7 _ hostOps7_writes (by decide) : W15 m c (Proc.devRef .tc main_arg7) = W14 m c (Proc.devRef .tc main_arg7)).trans <|
    (W14_of_ne m c main_arg7 (by decide)).trans <|
    (StableHlo.after_of_writes_sub hostOps6 _ hostOps6_writes (by decide) : W13 m c (Proc.devRef .tc main_arg7) = W12 m c (Proc.devRef .tc main_arg7)).trans <|
    (W12_of_ne m c main_arg7 (by decide)).trans <|
    (StableHlo.after_of_writes_sub hostOps5 _ hostOps5_writes (by decide) : W11 m c (Proc.devRef .tc main_arg7) = W10 m c (Proc.devRef .tc main_arg7)).trans <|
    (W10_of_ne m c main_arg7 (by decide)).trans <|
    (StableHlo.after_of_writes_sub hostOps4 _ hostOps4_writes (by decide) : W9 m c (Proc.devRef .tc main_arg7) = W8 m c (Proc.devRef .tc main_arg7)).trans <|
    (W8_of_ne m c main_arg7 (by decide)).trans <|
    (StableHlo.after_of_writes_sub hostOps3 _ hostOps3_writes (by decide) : W7 m c (Proc.devRef .tc main_arg7) = W6 m c (Proc.devRef .tc main_arg7)).trans <|
    (W6_of_ne m c main_arg7 (by decide)).trans <|
    (StableHlo.after_of_writes_sub hostOps2 _ hostOps2_writes (by decide) : W5 m c (Proc.devRef .tc main_arg7) = W4 m c (Proc.devRef .tc main_arg7)).trans <|
    (W4_of_ne m c main_arg7 (by decide)).trans <|
    (StableHlo.after_of_writes_sub hostOps1 _ hostOps1_writes (by decide) : W3 m c (Proc.devRef .tc main_arg7) = W2 m c (Proc.devRef .tc main_arg7)).trans <|
    (W2_of_ne m c main_arg7 (by decide)).trans <|
    (StableHlo.after_of_writes_sub hostOps0 _ hostOps0_writes (by decide) : W1 m c (Proc.devRef .tc main_arg7) = W0 m c (Proc.devRef .tc main_arg7)).trans <| rfl
theorem W20_main_arg8 (c : Dev nD) : W20 m c (Proc.devRef .tc main_arg8) = m ((c : Thread nD τ).loc main_arg8) :=
  (StableHlo.after_of_writes_sub hostOps10 _ hostOps10_writes (by decide) : W20 m c (Proc.devRef .tc main_arg8) = W19 m c (Proc.devRef .tc main_arg8)).trans <|
    (W19_of_ne m c main_arg8 (by decide)).trans <|
    (StableHlo.after_of_writes_sub hostOps9 _ hostOps9_writes (by decide) : W18 m c (Proc.devRef .tc main_arg8) = W17 m c (Proc.devRef .tc main_arg8)).trans <|
    (W17_of_ne m c main_arg8 (by decide)).trans <|
    (W16_of_ne m c main_arg8 (by decide)).trans <|
    (StableHlo.after_of_writes_sub hostOps7 _ hostOps7_writes (by decide) : W15 m c (Proc.devRef .tc main_arg8) = W14 m c (Proc.devRef .tc main_arg8)).trans <|
    (W14_of_ne m c main_arg8 (by decide)).trans <|
    (StableHlo.after_of_writes_sub hostOps6 _ hostOps6_writes (by decide) : W13 m c (Proc.devRef .tc main_arg8) = W12 m c (Proc.devRef .tc main_arg8)).trans <|
    (W12_of_ne m c main_arg8 (by decide)).trans <|
    (StableHlo.after_of_writes_sub hostOps5 _ hostOps5_writes (by decide) : W11 m c (Proc.devRef .tc main_arg8) = W10 m c (Proc.devRef .tc main_arg8)).trans <|
    (W10_of_ne m c main_arg8 (by decide)).trans <|
    (StableHlo.after_of_writes_sub hostOps4 _ hostOps4_writes (by decide) : W9 m c (Proc.devRef .tc main_arg8) = W8 m c (Proc.devRef .tc main_arg8)).trans <|
    (W8_of_ne m c main_arg8 (by decide)).trans <|
    (StableHlo.after_of_writes_sub hostOps3 _ hostOps3_writes (by decide) : W7 m c (Proc.devRef .tc main_arg8) = W6 m c (Proc.devRef .tc main_arg8)).trans <|
    (W6_of_ne m c main_arg8 (by decide)).trans <|
    (StableHlo.after_of_writes_sub hostOps2 _ hostOps2_writes (by decide) : W5 m c (Proc.devRef .tc main_arg8) = W4 m c (Proc.devRef .tc main_arg8)).trans <|
    (W4_of_ne m c main_arg8 (by decide)).trans <|
    (StableHlo.after_of_writes_sub hostOps1 _ hostOps1_writes (by decide) : W3 m c (Proc.devRef .tc main_arg8) = W2 m c (Proc.devRef .tc main_arg8)).trans <|
    (W2_of_ne m c main_arg8 (by decide)).trans <|
    (StableHlo.after_of_writes_sub hostOps0 _ hostOps0_writes (by decide) : W1 m c (Proc.devRef .tc main_arg8) = W0 m c (Proc.devRef .tc main_arg8)).trans <| rfl
theorem W20_main_arg9 (c : Dev nD) : W20 m c (Proc.devRef .tc main_arg9) = m ((c : Thread nD τ).loc main_arg9) :=
  (StableHlo.after_of_writes_sub hostOps10 _ hostOps10_writes (by decide) : W20 m c (Proc.devRef .tc main_arg9) = W19 m c (Proc.devRef .tc main_arg9)).trans <|
    (W19_of_ne m c main_arg9 (by decide)).trans <|
    (StableHlo.after_of_writes_sub hostOps9 _ hostOps9_writes (by decide) : W18 m c (Proc.devRef .tc main_arg9) = W17 m c (Proc.devRef .tc main_arg9)).trans <|
    (W17_of_ne m c main_arg9 (by decide)).trans <|
    (W16_of_ne m c main_arg9 (by decide)).trans <|
    (StableHlo.after_of_writes_sub hostOps7 _ hostOps7_writes (by decide) : W15 m c (Proc.devRef .tc main_arg9) = W14 m c (Proc.devRef .tc main_arg9)).trans <|
    (W14_of_ne m c main_arg9 (by decide)).trans <|
    (StableHlo.after_of_writes_sub hostOps6 _ hostOps6_writes (by decide) : W13 m c (Proc.devRef .tc main_arg9) = W12 m c (Proc.devRef .tc main_arg9)).trans <|
    (W12_of_ne m c main_arg9 (by decide)).trans <|
    (StableHlo.after_of_writes_sub hostOps5 _ hostOps5_writes (by decide) : W11 m c (Proc.devRef .tc main_arg9) = W10 m c (Proc.devRef .tc main_arg9)).trans <|
    (W10_of_ne m c main_arg9 (by decide)).trans <|
    (StableHlo.after_of_writes_sub hostOps4 _ hostOps4_writes (by decide) : W9 m c (Proc.devRef .tc main_arg9) = W8 m c (Proc.devRef .tc main_arg9)).trans <|
    (W8_of_ne m c main_arg9 (by decide)).trans <|
    (StableHlo.after_of_writes_sub hostOps3 _ hostOps3_writes (by decide) : W7 m c (Proc.devRef .tc main_arg9) = W6 m c (Proc.devRef .tc main_arg9)).trans <|
    (W6_of_ne m c main_arg9 (by decide)).trans <|
    (StableHlo.after_of_writes_sub hostOps2 _ hostOps2_writes (by decide) : W5 m c (Proc.devRef .tc main_arg9) = W4 m c (Proc.devRef .tc main_arg9)).trans <|
    (W4_of_ne m c main_arg9 (by decide)).trans <|
    (StableHlo.after_of_writes_sub hostOps1 _ hostOps1_writes (by decide) : W3 m c (Proc.devRef .tc main_arg9) = W2 m c (Proc.devRef .tc main_arg9)).trans <|
    (W2_of_ne m c main_arg9 (by decide)).trans <|
    (StableHlo.after_of_writes_sub hostOps0 _ hostOps0_writes (by decide) : W1 m c (Proc.devRef .tc main_arg9) = W0 m c (Proc.devRef .tc main_arg9)).trans <| rfl
theorem W20_main_arg10 (c : Dev nD) : W20 m c (Proc.devRef .tc main_arg10) = m ((c : Thread nD τ).loc main_arg10) :=
  (StableHlo.after_of_writes_sub hostOps10 _ hostOps10_writes (by decide) : W20 m c (Proc.devRef .tc main_arg10) = W19 m c (Proc.devRef .tc main_arg10)).trans <|
    (W19_of_ne m c main_arg10 (by decide)).trans <|
    (StableHlo.after_of_writes_sub hostOps9 _ hostOps9_writes (by decide) : W18 m c (Proc.devRef .tc main_arg10) = W17 m c (Proc.devRef .tc main_arg10)).trans <|
    (W17_of_ne m c main_arg10 (by decide)).trans <|
    (W16_of_ne m c main_arg10 (by decide)).trans <|
    (StableHlo.after_of_writes_sub hostOps7 _ hostOps7_writes (by decide) : W15 m c (Proc.devRef .tc main_arg10) = W14 m c (Proc.devRef .tc main_arg10)).trans <|
    (W14_of_ne m c main_arg10 (by decide)).trans <|
    (StableHlo.after_of_writes_sub hostOps6 _ hostOps6_writes (by decide) : W13 m c (Proc.devRef .tc main_arg10) = W12 m c (Proc.devRef .tc main_arg10)).trans <|
    (W12_of_ne m c main_arg10 (by decide)).trans <|
    (StableHlo.after_of_writes_sub hostOps5 _ hostOps5_writes (by decide) : W11 m c (Proc.devRef .tc main_arg10) = W10 m c (Proc.devRef .tc main_arg10)).trans <|
    (W10_of_ne m c main_arg10 (by decide)).trans <|
    (StableHlo.after_of_writes_sub hostOps4 _ hostOps4_writes (by decide) : W9 m c (Proc.devRef .tc main_arg10) = W8 m c (Proc.devRef .tc main_arg10)).trans <|
    (W8_of_ne m c main_arg10 (by decide)).trans <|
    (StableHlo.after_of_writes_sub hostOps3 _ hostOps3_writes (by decide) : W7 m c (Proc.devRef .tc main_arg10) = W6 m c (Proc.devRef .tc main_arg10)).trans <|
    (W6_of_ne m c main_arg10 (by decide)).trans <|
    (StableHlo.after_of_writes_sub hostOps2 _ hostOps2_writes (by decide) : W5 m c (Proc.devRef .tc main_arg10) = W4 m c (Proc.devRef .tc main_arg10)).trans <|
    (W4_of_ne m c main_arg10 (by decide)).trans <|
    (StableHlo.after_of_writes_sub hostOps1 _ hostOps1_writes (by decide) : W3 m c (Proc.devRef .tc main_arg10) = W2 m c (Proc.devRef .tc main_arg10)).trans <|
    (W2_of_ne m c main_arg10 (by decide)).trans <|
    (StableHlo.after_of_writes_sub hostOps0 _ hostOps0_writes (by decide) : W1 m c (Proc.devRef .tc main_arg10) = W0 m c (Proc.devRef .tc main_arg10)).trans <| rfl
theorem W20_main_arg11 (c : Dev nD) : W20 m c (Proc.devRef .tc main_arg11) = m ((c : Thread nD τ).loc main_arg11) :=
  (StableHlo.after_of_writes_sub hostOps10 _ hostOps10_writes (by decide) : W20 m c (Proc.devRef .tc main_arg11) = W19 m c (Proc.devRef .tc main_arg11)).trans <|
    (W19_of_ne m c main_arg11 (by decide)).trans <|
    (StableHlo.after_of_writes_sub hostOps9 _ hostOps9_writes (by decide) : W18 m c (Proc.devRef .tc main_arg11) = W17 m c (Proc.devRef .tc main_arg11)).trans <|
    (W17_of_ne m c main_arg11 (by decide)).trans <|
    (W16_of_ne m c main_arg11 (by decide)).trans <|
    (StableHlo.after_of_writes_sub hostOps7 _ hostOps7_writes (by decide) : W15 m c (Proc.devRef .tc main_arg11) = W14 m c (Proc.devRef .tc main_arg11)).trans <|
    (W14_of_ne m c main_arg11 (by decide)).trans <|
    (StableHlo.after_of_writes_sub hostOps6 _ hostOps6_writes (by decide) : W13 m c (Proc.devRef .tc main_arg11) = W12 m c (Proc.devRef .tc main_arg11)).trans <|
    (W12_of_ne m c main_arg11 (by decide)).trans <|
    (StableHlo.after_of_writes_sub hostOps5 _ hostOps5_writes (by decide) : W11 m c (Proc.devRef .tc main_arg11) = W10 m c (Proc.devRef .tc main_arg11)).trans <|
    (W10_of_ne m c main_arg11 (by decide)).trans <|
    (StableHlo.after_of_writes_sub hostOps4 _ hostOps4_writes (by decide) : W9 m c (Proc.devRef .tc main_arg11) = W8 m c (Proc.devRef .tc main_arg11)).trans <|
    (W8_of_ne m c main_arg11 (by decide)).trans <|
    (StableHlo.after_of_writes_sub hostOps3 _ hostOps3_writes (by decide) : W7 m c (Proc.devRef .tc main_arg11) = W6 m c (Proc.devRef .tc main_arg11)).trans <|
    (W6_of_ne m c main_arg11 (by decide)).trans <|
    (StableHlo.after_of_writes_sub hostOps2 _ hostOps2_writes (by decide) : W5 m c (Proc.devRef .tc main_arg11) = W4 m c (Proc.devRef .tc main_arg11)).trans <|
    (W4_of_ne m c main_arg11 (by decide)).trans <|
    (StableHlo.after_of_writes_sub hostOps1 _ hostOps1_writes (by decide) : W3 m c (Proc.devRef .tc main_arg11) = W2 m c (Proc.devRef .tc main_arg11)).trans <|
    (W2_of_ne m c main_arg11 (by decide)).trans <|
    (StableHlo.after_of_writes_sub hostOps0 _ hostOps0_writes (by decide) : W1 m c (Proc.devRef .tc main_arg11) = W0 m c (Proc.devRef .tc main_arg11)).trans <| rfl
theorem W20_main_arg12 (c : Dev nD) : W20 m c (Proc.devRef .tc main_arg12) = m ((c : Thread nD τ).loc main_arg12) :=
  (StableHlo.after_of_writes_sub hostOps10 _ hostOps10_writes (by decide) : W20 m c (Proc.devRef .tc main_arg12) = W19 m c (Proc.devRef .tc main_arg12)).trans <|
    (W19_of_ne m c main_arg12 (by decide)).trans <|
    (StableHlo.after_of_writes_sub hostOps9 _ hostOps9_writes (by decide) : W18 m c (Proc.devRef .tc main_arg12) = W17 m c (Proc.devRef .tc main_arg12)).trans <|
    (W17_of_ne m c main_arg12 (by decide)).trans <|
    (W16_of_ne m c main_arg12 (by decide)).trans <|
    (StableHlo.after_of_writes_sub hostOps7 _ hostOps7_writes (by decide) : W15 m c (Proc.devRef .tc main_arg12) = W14 m c (Proc.devRef .tc main_arg12)).trans <|
    (W14_of_ne m c main_arg12 (by decide)).trans <|
    (StableHlo.after_of_writes_sub hostOps6 _ hostOps6_writes (by decide) : W13 m c (Proc.devRef .tc main_arg12) = W12 m c (Proc.devRef .tc main_arg12)).trans <|
    (W12_of_ne m c main_arg12 (by decide)).trans <|
    (StableHlo.after_of_writes_sub hostOps5 _ hostOps5_writes (by decide) : W11 m c (Proc.devRef .tc main_arg12) = W10 m c (Proc.devRef .tc main_arg12)).trans <|
    (W10_of_ne m c main_arg12 (by decide)).trans <|
    (StableHlo.after_of_writes_sub hostOps4 _ hostOps4_writes (by decide) : W9 m c (Proc.devRef .tc main_arg12) = W8 m c (Proc.devRef .tc main_arg12)).trans <|
    (W8_of_ne m c main_arg12 (by decide)).trans <|
    (StableHlo.after_of_writes_sub hostOps3 _ hostOps3_writes (by decide) : W7 m c (Proc.devRef .tc main_arg12) = W6 m c (Proc.devRef .tc main_arg12)).trans <|
    (W6_of_ne m c main_arg12 (by decide)).trans <|
    (StableHlo.after_of_writes_sub hostOps2 _ hostOps2_writes (by decide) : W5 m c (Proc.devRef .tc main_arg12) = W4 m c (Proc.devRef .tc main_arg12)).trans <|
    (W4_of_ne m c main_arg12 (by decide)).trans <|
    (StableHlo.after_of_writes_sub hostOps1 _ hostOps1_writes (by decide) : W3 m c (Proc.devRef .tc main_arg12) = W2 m c (Proc.devRef .tc main_arg12)).trans <|
    (W2_of_ne m c main_arg12 (by decide)).trans <|
    (StableHlo.after_of_writes_sub hostOps0 _ hostOps0_writes (by decide) : W1 m c (Proc.devRef .tc main_arg12) = W0 m c (Proc.devRef .tc main_arg12)).trans <| rfl

/-! The proof data of every pipeline, each at its region's entry contents, and what rides beside the buffers. -/

abbrev admB : (p : Fin 10) → (pcfgs (F := F) p).Adm := fun p => (cfgs p).toPCfg_adm
def pdats : (p : Fin 10) → (c : Dev nD) → Dat τ (Elt F) Unit ℕ (UR sig nD τ) ℕ (Pipeline.pin (pcfgs (F := F)) admB p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
  | ⟨6, _⟩ => fun c => dat6 (U13 m) c
  | ⟨7, _⟩ => fun c => dat7 (U15 m) c
  | ⟨8, _⟩ => fun c => dat8 (U16 m) c
  | ⟨9, _⟩ => fun c => dat9 (U18 m) c
abbrev 𝒱B : Variants := Variants.none
abbrev LB : GSem nD τ sig → Finset Unit := fun _ => ∅
abbrev lvB : GSem nD τ sig → Unit → ℕ := fun _ _ => 0
abbrev Rst (c : Dev nD) : sProp 𝕄 := iprop((∃ r, prngReg c r) ∗ ∃ W, owes (c : Thread nD τ) (0 : CellTallies nD τ sig Unit) W)
abbrev hsegB (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱B LB lvB :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TlastB (c : Dev nD) : sProp 𝕄 := iprop(StableHlo.held (c : Thread nD τ) (Pipeline.ucRefs τ sig) (W20 m c) ∗ ∃ r, prngReg c r)

set_option backward.isDefEq.respectTransparency.types false in
/-- Region 0 over the thread state: entered with every unscoped buffer at the boundary's contents, left with the region's arrays at what its write-backs leave; nothing owed, no semaphore of the kernel's own. -/
def reg0 : Pipeline.RegionSeg (pcfgs (F := F)) admB (pdats m) () defs₀ 𝒱B LB lvB 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LB lvB 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c ((U1 m) c)
  hentry c := by
    rw [Pipeline.ownSems0_none]
    have hsplit := Pipeline.arrays_of_unscopedBufs (p := 0) (pcfgs (F := F)) admB (pdats m) launch0.win launch0.arr_whole c
      ((pdats m 0 c).share_full fun _ => rfl) ((U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admB (Ix := Unit) (Name := ℕ) (U := UR sig nD τ) (Lvl := ℕ)
      launch0.win launch0.arr_whole c (pdats m) ((pdats m 0 c).share_full fun _ => rfl)
      ((U1 m) c) ((U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the region's arrays at what its write-backs leave; nothing owed, no semaphore of the kernel's own. -/
def reg1 : Pipeline.RegionSeg (pcfgs (F := F)) admB (pdats m) () defs₀ 𝒱B LB lvB 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LB lvB 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c ((U3 m) c)
  hentry c := by
    rw [Pipeline.ownSems0_none]
    have hsplit := Pipeline.arrays_of_unscopedBufs (p := 1) (pcfgs (F := F)) admB (pdats m) launch1.win launch1.arr_whole c
      ((pdats m 1 c).share_full fun _ => rfl) ((U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admB (Ix := Unit) (Name := ℕ) (U := UR sig nD τ) (Lvl := ℕ)
      launch1.win launch1.arr_whole c (pdats m) ((pdats m 1 c).share_full fun _ => rfl)
      ((U3 m) c) ((U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary's contents, left with the region's arrays at what its write-backs leave; nothing owed, no semaphore of the kernel's own. -/
def reg2 : Pipeline.RegionSeg (pcfgs (F := F)) admB (pdats m) () defs₀ 𝒱B LB lvB 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LB lvB 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c ((U5 m) c)
  hentry c := by
    rw [Pipeline.ownSems0_none]
    have hsplit := Pipeline.arrays_of_unscopedBufs (p := 2) (pcfgs (F := F)) admB (pdats m) launch2.win launch2.arr_whole c
      ((pdats m 2 c).share_full fun _ => rfl) ((U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admB (Ix := Unit) (Name := ℕ) (U := UR sig nD τ) (Lvl := ℕ)
      launch2.win launch2.arr_whole c (pdats m) ((pdats m 2 c).share_full fun _ => rfl)
      ((U5 m) c) ((U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the boundary's contents, left with the region's arrays at what its write-backs leave; nothing owed, no semaphore of the kernel's own. -/
def reg3 : Pipeline.RegionSeg (pcfgs (F := F)) admB (pdats m) () defs₀ 𝒱B LB lvB 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ LB lvB 3 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec3 c ((U7 m) c)
  hentry c := by
    rw [Pipeline.ownSems0_none]
    have hsplit := Pipeline.arrays_of_unscopedBufs (p := 3) (pcfgs (F := F)) admB (pdats m) launch3.win launch3.arr_whole c
      ((pdats m 3 c).share_full fun _ => rfl) ((U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admB (Ix := Unit) (Name := ℕ) (U := UR sig nD τ) (Lvl := ℕ)
      launch3.win launch3.arr_whole c (pdats m) ((pdats m 3 c).share_full fun _ => rfl)
      ((U7 m) c) ((U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the boundary's contents, left with the region's arrays at what its write-backs leave; nothing owed, no semaphore of the kernel's own. -/
def reg4 : Pipeline.RegionSeg (pcfgs (F := F)) admB (pdats m) () defs₀ 𝒱B LB lvB 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ LB lvB 4 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec4 c ((U9 m) c)
  hentry c := by
    rw [Pipeline.ownSems0_none]
    have hsplit := Pipeline.arrays_of_unscopedBufs (p := 4) (pcfgs (F := F)) admB (pdats m) launch4.win launch4.arr_whole c
      ((pdats m 4 c).share_full fun _ => rfl) ((U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admB (Ix := Unit) (Name := ℕ) (U := UR sig nD τ) (Lvl := ℕ)
      launch4.win launch4.arr_whole c (pdats m) ((pdats m 4 c).share_full fun _ => rfl)
      ((U9 m) c) ((U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at the boundary's contents, left with the region's arrays at what its write-backs leave; nothing owed, no semaphore of the kernel's own. -/
def reg5 : Pipeline.RegionSeg (pcfgs (F := F)) admB (pdats m) () defs₀ 𝒱B LB lvB 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ LB lvB 5 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec5 c ((U11 m) c)
  hentry c := by
    rw [Pipeline.ownSems0_none]
    have hsplit := Pipeline.arrays_of_unscopedBufs (p := 5) (pcfgs (F := F)) admB (pdats m) launch5.win launch5.arr_whole c
      ((pdats m 5 c).share_full fun _ => rfl) ((U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admB (Ix := Unit) (Name := ℕ) (U := UR sig nD τ) (Lvl := ℕ)
      launch5.win launch5.arr_whole c (pdats m) ((pdats m 5 c).share_full fun _ => rfl)
      ((U11 m) c) ((U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at the boundary's contents, left with the region's arrays at what its write-backs leave; nothing owed, no semaphore of the kernel's own. -/
def reg6 : Pipeline.RegionSeg (pcfgs (F := F)) admB (pdats m) () defs₀ 𝒱B LB lvB 6 where
  win := launch6.win.to₀
  block_pos := launch6.block_pos
  stage_whole := launch6.stage_whole
  K := PEmpty
  osem k := k.elim
  ho := Pipeline.OwnSemFacts.none _
  hbody c := (body_obligation6 (U13 m) c).loose
  hwaits := Pipeline.hwaits_of_owed_zero _ _ _ _ LB lvB 6 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec6 c ((U13 m) c)
  hentry c := by
    rw [Pipeline.ownSems0_none]
    have hsplit := Pipeline.arrays_of_unscopedBufs (p := 6) (pcfgs (F := F)) admB (pdats m) launch6.win launch6.arr_whole c
      ((pdats m 6 c).share_full fun _ => rfl) ((U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admB (Ix := Unit) (Name := ℕ) (U := UR sig nD τ) (Lvl := ℕ)
      launch6.win launch6.arr_whole c (pdats m) ((pdats m 6 c).share_full fun _ => rfl)
      ((U13 m) c) ((U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered with every unscoped buffer at the boundary's contents, left with the region's arrays at what its write-backs leave; nothing owed, no semaphore of the kernel's own. -/
def reg7 : Pipeline.RegionSeg (pcfgs (F := F)) admB (pdats m) () defs₀ 𝒱B LB lvB 7 where
  win := launch7.win.to₀
  block_pos := launch7.block_pos
  stage_whole := launch7.stage_whole
  K := PEmpty
  osem k := k.elim
  ho := Pipeline.OwnSemFacts.none _
  hbody c := (body_obligation7 (U15 m) c).loose
  hwaits := Pipeline.hwaits_of_owed_zero _ _ _ _ LB lvB 7 fun _ _ => rfl
  pre c := iprop(StableHlo.held (c : Thread nD τ) (Pipeline.ucRefs τ sig) (W15 m c) ∗ Rst c)
  post c := iprop(StableHlo.held (c : Thread nD τ) (Pipeline.ucRefs τ sig) (W16 m c) ∗ Rst c)
  X c := iprop(∃ r, prngReg c r)
  Y c := iprop(∃ r, prngReg c r)
  Z c := Pipeline.unscopedRest (Ix := Unit) (Name := ℕ) (U := UR sig nD τ) (Lvl := ℕ) spec7 c ((U15 m) c)
  hentry c := by
    rw [Pipeline.ownSems0_none]
    have hsplit := Pipeline.arrays_of_unscopedBufs (p := 7) (pcfgs (F := F)) admB (pdats m) launch7.win launch7.arr_whole c
      ((pdats m 7 c).share_full fun _ => rfl) ((U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admB (Ix := Unit) (Name := ℕ) (U := UR sig nD τ) (Lvl := ℕ)
      launch7.win launch7.arr_whole c (pdats m) ((pdats m 7 c).share_full fun _ => rfl)
      ((U15 m) c) ((U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered with every unscoped buffer at the boundary's contents, left with the region's arrays at what its write-backs leave; nothing owed, no semaphore of the kernel's own. -/
def reg8 : Pipeline.RegionSeg (pcfgs (F := F)) admB (pdats m) () defs₀ 𝒱B LB lvB 8 where
  win := launch8.win.to₀
  block_pos := launch8.block_pos
  stage_whole := launch8.stage_whole
  K := PEmpty
  osem k := k.elim
  ho := Pipeline.OwnSemFacts.none _
  hbody c := (body_obligation8 (U16 m) c).loose
  hwaits := Pipeline.hwaits_of_owed_zero _ _ _ _ LB lvB 8 fun _ _ => rfl
  pre c := iprop(StableHlo.held (c : Thread nD τ) (Pipeline.ucRefs τ sig) (W16 m c) ∗ Rst c)
  post c := iprop(StableHlo.held (c : Thread nD τ) (Pipeline.ucRefs τ sig) (W17 m c) ∗ Rst c)
  X c := iprop(∃ r, prngReg c r)
  Y c := iprop(∃ r, prngReg c r)
  Z c := Pipeline.unscopedRest (Ix := Unit) (Name := ℕ) (U := UR sig nD τ) (Lvl := ℕ) spec8 c ((U16 m) c)
  hentry c := by
    rw [Pipeline.ownSems0_none]
    have hsplit := Pipeline.arrays_of_unscopedBufs (p := 8) (pcfgs (F := F)) admB (pdats m) launch8.win launch8.arr_whole c
      ((pdats m 8 c).share_full fun _ => rfl) ((U16 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (U16 m) c).Φ 0 from rfl]
    have h := hin8 (U16 m) c
    unfold Pipeline.ΦA at h
    iintro ⟨Hp, -, Hr⟩
    iapply h
    isplitl [Hr]; · iexact Hr
    iexact Hp
  hout c := by
    rw [Pipeline.ownSems0_none, show (pdats m 8 c).Φ (Fin.last _) = (dat8 (U16 m) c).Φ (Fin.last cfg8.N) from rfl]
    have h := hout8 (U16 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 8) (pcfgs (F := F)) admB (Ix := Unit) (Name := ℕ) (U := UR sig nD τ) (Lvl := ℕ)
      launch8.win launch8.arr_whole c (pdats m) ((pdats m 8 c).share_full fun _ => rfl)
      ((U16 m) c) ((U17 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered with every unscoped buffer at the boundary's contents, left with the region's arrays at what its write-backs leave; nothing owed, no semaphore of the kernel's own. -/
def reg9 : Pipeline.RegionSeg (pcfgs (F := F)) admB (pdats m) () defs₀ 𝒱B LB lvB 9 where
  win := launch9.win.to₀
  block_pos := launch9.block_pos
  stage_whole := launch9.stage_whole
  K := PEmpty
  osem k := k.elim
  ho := Pipeline.OwnSemFacts.none _
  hbody c := (body_obligation9 (U18 m) c).loose
  hwaits := Pipeline.hwaits_of_owed_zero _ _ _ _ LB lvB 9 fun _ _ => rfl
  pre c := iprop(StableHlo.held (c : Thread nD τ) (Pipeline.ucRefs τ sig) (W18 m c) ∗ Rst c)
  post c := iprop(StableHlo.held (c : Thread nD τ) (Pipeline.ucRefs τ sig) (W19 m c) ∗ Rst c)
  X c := iprop(∃ r, prngReg c r)
  Y c := iprop(∃ r, prngReg c r)
  Z c := Pipeline.unscopedRest (Ix := Unit) (Name := ℕ) (U := UR sig nD τ) (Lvl := ℕ) spec9 c ((U18 m) c)
  hentry c := by
    rw [Pipeline.ownSems0_none]
    have hsplit := Pipeline.arrays_of_unscopedBufs (p := 9) (pcfgs (F := F)) admB (pdats m) launch9.win launch9.arr_whole c
      ((pdats m 9 c).share_full fun _ => rfl) ((U18 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (U18 m) c).Φ 0 from rfl]
    have h := hin9 (U18 m) c
    unfold Pipeline.ΦA at h
    iintro ⟨Hp, -, Hr⟩
    iapply h
    isplitl [Hr]; · iexact Hr
    iexact Hp
  hout c := by
    rw [Pipeline.ownSems0_none, show (pdats m 9 c).Φ (Fin.last _) = (dat9 (U18 m) c).Φ (Fin.last cfg9.N) from rfl]
    have h := hout9 (U18 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 9) (pcfgs (F := F)) admB (Ix := Unit) (Name := ℕ) (U := UR sig nD τ) (Lvl := ℕ)
      launch9.win launch9.arr_whole c (pdats m) ((pdats m 9 c).share_full fun _ => rfl)
      ((U18 m) c) ((U19 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsB : List (Pipeline.Seg (pcfgs (F := F)) admB (pdats m) () defs₀ 𝒱B LB lvB) :=
  [ .host (hsegB hostOps0 hostOps0_sub hostOps0_fresh (W0 m)),
    .region (reg0 m),
    .host (hsegB hostOps1 hostOps1_sub hostOps1_fresh (W2 m)),
    .region (reg1 m),
    .host (hsegB hostOps2 hostOps2_sub hostOps2_fresh (W4 m)),
    .region (reg2 m),
    .host (hsegB hostOps3 hostOps3_sub hostOps3_fresh (W6 m)),
    .region (reg3 m),
    .host (hsegB hostOps4 hostOps4_sub hostOps4_fresh (W8 m)),
    .region (reg4 m),
    .host (hsegB hostOps5 hostOps5_sub hostOps5_fresh (W10 m)),
    .region (reg5 m),
    .host (hsegB hostOps6 hostOps6_sub hostOps6_fresh (W12 m)),
    .region (reg6 m),
    .host (hsegB hostOps7 hostOps7_sub hostOps7_fresh (W14 m)),
    .region (reg7 m),
    .region (reg8 m),
    .host (hsegB hostOps9 hostOps9_sub hostOps9_fresh (W17 m)),
    .region (reg9 m),
    .host (hsegB hostOps10 hostOps10_sub hostOps10_fresh (W19 m)) ]

theorem main_runB (c : Dev nD) : main (F := F) c = Pipeline.Seg.run (segsB m) := (main_chain c).trans (by chain_rfl)

set_option backward.isDefEq.respectTransparency.types false in
/-- From any memory with zero counters every weakly fair execution of the program terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m c b) :=
  Pipeline.θ_run_regions_kit (pcfgs (F := F)) admB (pdats m) () cellOf_inj emb₁ defs₀ 𝒱B LB lvB m ρ main (segsB m)
    (fun c Q => by rw [main_runB m c])
    (by simp only [segsB, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := TlastB m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W20 m c) ∗ Rst c) ⊢ iprop(TlastB m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach LB lvB fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m c b)
    (hfin := fun c s' => by
      iintro ⟨⟨Hh, -⟩, HSI⟩
      unfold StableHlo.held
      imodintro
      iapply (pointsTo_read_all (Pipeline.ucRefs τ sig) (fun b => (((c : Thread nD τ)).1, b)) (W20 m c) s')
      isplitl [Hh] <;> iassumption)
    (hQ := fun s h c => h c)

end Cert.KernelIdeal.Blocks

end
-- ==== Proof.PayloadAt.lean ====
import proofs.«176382_j6528350290006_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The kernels' payloads read at an index

Each payload of the ten kernel functions is a pure function of the vectors the function loaded. At the
ideal values (floats are extended reals, rounding conversions are the identity, a matrix product is the
sum of the products over the contraction index) every payload is read here at an index given by its
coordinates, as a plain expression in the operands' entries. -/

noncomputable section

namespace Cert.KernelIdeal.PayloadAt

open Idealize.ShloMosaic Idealize.SL.Sem Idealize.ShloMosaic.ValueIdx
open Cert.KernelIdeal Cert.KernelIdeal.Gen

/-! ## A matrix product at an entry -/

/-- The left operand's index at output index `i` and contraction index `c`: its row is `i`'s row. -/
theorem lhsIdx_row (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
/-- … and its column is the contraction coordinate. -/
theorem lhsIdx_col (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
/-- The right operand's index: its row is the contraction coordinate. -/
theorem rhsIdx_row (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
/-- … and its column is `i`'s column. -/
theorem rhsIdx_col (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A row of a `10000 × 64` operand against a column of a `64 × 64` operand, accumulated into zero:
    the entry `(p, q)` of the product is `∑ k, A (p, k) * B (k, q)`. -/
theorem matmul_at (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  simp only [matmul]
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhsIdx_row _ _
      | ⟨1, _⟩ => exact (lhsIdx_col _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhsIdx_row _ _).trans hk
      | ⟨1, _⟩ => exact rhsIdx_col _ _)
  rw [el, er]

/-! ## The message kernels -/

/-- The message kernel's stored value at `(p, q)`: the two products' entries plus the bias row's entry. -/
theorem k0_pay1_at (x0 x1 : Vec Ideal S10000x64 .f32) (x2 x3 : Vec Ideal S64x64 .f32) (x4 : Vec Ideal S1x64 .f32)
    (p : Fin 10000) (q : Fin 64) :
    Gen.k0_pay1 x0 x1 x2 x3 x4 (ix2 p q)
      = (∑ k : Fin 64, x0 (ix2 p k) * x2 (ix2 k q)) + (∑ k : Fin 64, x1 (ix2 p k) * x3 (ix2 k q))
        + x4 (ix2 0 q) := by
  unfold Gen.k0_pay1
  simp only [shapeCast_self]
  rw [addf_apply, addf_apply, matmul_at, matmul_at, broadcastTo_1b_ab_apply]
  rfl

/-- The second message kernel stores the same expression. -/
theorem k2_pay1_at (x0 x1 : Vec Ideal S10000x64 .f32) (x2 x3 : Vec Ideal S64x64 .f32) (x4 : Vec Ideal S1x64 .f32)
    (p : Fin 10000) (q : Fin 64) :
    Gen.k2_pay1 x0 x1 x2 x3 x4 (ix2 p q)
      = (∑ k : Fin 64, x0 (ix2 p k) * x2 (ix2 k q)) + (∑ k : Fin 64, x1 (ix2 p k) * x3 (ix2 k q))
        + x4 (ix2 0 q) :=
  k0_pay1_at x0 x1 x2 x3 x4 p q

/-- The third message kernel stores the same expression. -/
theorem k4_pay1_at (x0 x1 : Vec Ideal S10000x64 .f32) (x2 x3 : Vec Ideal S64x64 .f32) (x4 : Vec Ideal S1x64 .f32)
    (p : Fin 10000) (q : Fin 64) :
    Gen.k4_pay1 x0 x1 x2 x3 x4 (ix2 p q)
      = (∑ k : Fin 64, x0 (ix2 p k) * x2 (ix2 k q)) + (∑ k : Fin 64, x1 (ix2 p k) * x3 (ix2 k q))
        + x4 (ix2 0 q) := by
  unfold Gen.k4_pay1
  simp only [shapeCast_self]
  rw [addf_apply, addf_apply, matmul_at, matmul_at, broadcastTo_1b_ab_apply]
  rfl

/-- The fourth message kernel stores the same expression. -/
theorem k6_pay1_at (x0 x1 : Vec Ideal S10000x64 .f32) (x2 x3 : Vec Ideal S64x64 .f32) (x4 : Vec Ideal S1x64 .f32)
    (p : Fin 10000) (q : Fin 64) :
    Gen.k6_pay1 x0 x1 x2 x3 x4 (ix2 p q)
      = (∑ k : Fin 64, x0 (ix2 p k) * x2 (ix2 k q)) + (∑ k : Fin 64, x1 (ix2 p k) * x3 (ix2 k q))
        + x4 (ix2 0 q) :=
  k4_pay1_at x0 x1 x2 x3 x4 p q

/-! ## The loss kernels -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `10000 × 64` vector summed along each row, read at row `r`: the sum of the row's 64 entries. -/
theorem rowSum_at (v : FVec Ideal S10000x64 .f32) (hφ : FKind.Formats .f32)
    (hacc : (0x00000000#32 : BitVec 32) = 0x00000000#32) (r : Fin 10000) :
    multiReduction .add [1] S10000 v 0x00000000#32 reduces_S10000x64_S10000 hφ hacc (ix1 r)
      = ∑ k : Fin 64, v (ix2 r k) := by
  refine (Ideal.multiReduction_add_single v 0x00000000#32 reduces_S10000x64_S10000 hφ hacc (ix1 r)).trans ?_
  refine Finset.sum_congr rfl fun k _ => congrArg v (funext fun a => Fin.ext ?_)
  match a with
  | ⟨0, _⟩ => rfl
  | ⟨1, _⟩ => rfl

/-- A `10000 × 1` column summed down its rows, read at its one entry: the sum of the 10000 entries. -/
theorem colSum_at (v : FVec Ideal S10000x1 .f32) (hφ : FKind.Formats .f32)
    (hacc : (0x00000000#32 : BitVec 32) = 0x00000000#32) (w : Fin 1) :
    multiReduction .add [0] S1 v 0x00000000#32 reduces_S10000x1_S1 hφ hacc (ix1 w)
      = ∑ r : Fin 10000, v (ix2 r w) := by
  refine (Ideal.multiReduction_add_single v 0x00000000#32 reduces_S10000x1_S1 hφ hacc (ix1 w)).trans ?_
  refine Finset.sum_congr rfl fun k _ => congrArg v (funext fun a => Fin.ext ?_)
  match a with
  | ⟨0, _⟩ => rfl
  | ⟨1, _⟩ => rfl

/-- One entry's term of the loss, with the label's weight `c`: for a score `x`,
    `max 0 x + log (1 + exp (-|x|)) - x * c` — the softplus of `x` written stably, less `c` times the score.
    (The absolute value is written `max (0 - x) (-(0 - x))` and the opposite `0 - ·`, as the kernels compute them.) -/
def bceTerm (c x : EReal) : EReal :=
  max 0 x + Ideal.log1p (Ideal.exp (0 - max (0 - x) (-(0 - x)))) - x * c

/-- The positive-pairs kernel's term: weight one. -/
def bceTerm1 (x : EReal) : EReal := bceTerm (Ideal.ofBits .f32 0x3F800000#32) x

/-- The negative-pairs kernel's term: weight zero. -/
def bceTerm0 (x : EReal) : EReal := bceTerm 0 x

/-- The entry's term exactly as the kernels' operations spell it: the kernels guard the stable form by a test of the
    negated score against itself, which no extended real passes. -/
def bceRaw (z c x : EReal) : EReal :=
  Scalar.select (Ideal.cmp .one (z - x) (z - x)) (z + x)
    (max z x + Ideal.log1p (Ideal.exp (z - max (z - x) (-(z - x))))) - x * c

theorem bceRaw_eq (c x : EReal) : bceRaw (Ideal.ofBits .f32 0x00000000#32) c x = bceTerm c x := by
  unfold bceRaw bceTerm
  rw [Ideal.ofBits_zero_f32]
  have hc : Ideal.cmp .one (0 - x) (0 - x) = 0#1 := by
    unfold Ideal.cmp
    simp
  rw [hc, select_zero]

/-- The first loss kernel's accumulated value: the accumulator plus the sum of every entry's term. -/
theorem k8_pay2_at (x : Vec Ideal S10000x64 .f32) (acc : Vec Ideal S1x1 .f32) (j : S1x1.Idx) :
    Gen.k8_pay2 x acc j = acc j + ∑ p : Fin 10000, ∑ q : Fin 64, bceTerm1 (x (ix2 p q)) := by
  obtain ⟨u, w, rfl⟩ : ∃ (u w : Fin 1), j = ix2 u w := ⟨j 0, j 1, eq_ix2 j⟩
  unfold Gen.k8_pay2
  simp only [shapeCast_self]
  rw [addf_apply]
  refine congrArg (acc (ix2 u w) + ·) ?_
  refine (shapeCast_a_1a_apply _ shapeCasts_S1_S1x1 u w).trans ?_
  refine (colSum_at _ _ _ w).trans ?_
  refine Finset.sum_congr rfl fun p _ => ?_
  refine (shapeCast_a_a1_apply _ shapeCasts_S10000_S10000x1 p w).trans ?_
  refine (rowSum_at _ _ _ p).trans ?_
  refine Finset.sum_congr rfl fun q _ => ?_
  exact bceRaw_eq (Ideal.ofBits .f32 0x3F800000#32) (x (ix2 p q))

/-- The first loss kernel's initial value: zero. -/
theorem k8_pay1_at (j : S1x1.Idx) : Gen.k8_pay1 (F := Ideal) j = 0 := by
  unfold Gen.k8_pay1
  simp only [shapeCast_self]
  exact Ideal.ofBits_zero_f32

/-- The second loss kernel's accumulated value: the accumulator plus the sum of every entry's term. -/
theorem k9_pay2_at (x : Vec Ideal S10000x64 .f32) (acc : Vec Ideal S1x1 .f32) (j : S1x1.Idx) :
    Gen.k9_pay2 x acc j = acc j + ∑ p : Fin 10000, ∑ q : Fin 64, bceTerm0 (x (ix2 p q)) := by
  obtain ⟨u, w, rfl⟩ : ∃ (u w : Fin 1), j = ix2 u w := ⟨j 0, j 1, eq_ix2 j⟩
  unfold Gen.k9_pay2
  simp only [shapeCast_self]
  rw [addf_apply]
  refine congrArg (acc (ix2 u w) + ·) ?_
  refine (shapeCast_a_1a_apply _ shapeCasts_S1_S1x1 u w).trans ?_
  refine (colSum_at _ _ _ w).trans ?_
  refine Finset.sum_congr rfl fun p _ => ?_
  refine (shapeCast_a_a1_apply _ shapeCasts_S10000_S10000x1 p w).trans ?_
  refine (rowSum_at _ _ _ p).trans ?_
  refine Finset.sum_congr rfl fun q _ => ?_
  refine (bceRaw_eq (Ideal.ofBits .f32 0x00000000#32) (x (ix2 p q))).trans ?_
  unfold bceTerm0
  rw [Ideal.ofBits_zero_f32]

/-- The second loss kernel's initial value: zero. -/
theorem k9_pay1_at (j : S1x1.Idx) : Gen.k9_pay1 (F := Ideal) j = 0 := by
  unfold Gen.k9_pay1
  simp only [shapeCast_self]
  exact Ideal.ofBits_zero_f32

/-! ## The node update kernels -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The node update kernel's stored value at `(p, q)`: the node's own features against the first weight block, plus
    the aggregated messages divided by the node's in-degree (at least one) against the second, plus the bias row's
    entry; negative values cut to zero. -/
theorem k1_pay1_at (x0 x1 : Vec Ideal S10000x64 .f32) (x2 : Vec Ideal S10000x1 .f32) (x3 x4 : Vec Ideal S64x64 .f32)
    (x5 : Vec Ideal S1x64 .f32) (p : Fin 10000) (q : Fin 64) :
    Gen.k1_pay1 x0 x1 x2 x3 x4 x5 (ix2 p q)
      = max ((∑ k : Fin 64, x0 (ix2 p k) * x3 (ix2 k q))
          + (∑ k : Fin 64, Ideal.div (x1 (ix2 p k)) (max (x2 (ix2 p 0)) (Ideal.ofBits .f32 0x3F800000#32))
              * x4 (ix2 k q))
          + x5 (ix2 0 q)) 0 := by
  unfold Gen.k1_pay1
  simp only [shapeCast_self]
  rw [maximumf_apply, addf_apply, addf_apply, matmul_at, matmul_at, broadcastTo_1b_ab_apply, broadcast_apply]
  refine congrArg₂ max (congrArg₂ (· + ·) (congrArg₂ (· + ·) rfl (Finset.sum_congr rfl fun k _ => ?_)) rfl)
    Ideal.ofBits_zero_f32
  show Ideal.div (x1 (ix2 p k)) (broadcastTo S10000x64 _ broadcasts_S10000x1_S10000x64 (ix2 p k)) * x4 (ix2 k q) = _
  rw [broadcastTo_a1_ab_apply]
  rfl

/-- The second node update kernel stores the same expression. -/
theorem k3_pay1_at (x0 x1 : Vec Ideal S10000x64 .f32) (x2 : Vec Ideal S10000x1 .f32) (x3 x4 : Vec Ideal S64x64 .f32)
    (x5 : Vec Ideal S1x64 .f32) (p : Fin 10000) (q : Fin 64) :
    Gen.k3_pay1 x0 x1 x2 x3 x4 x5 (ix2 p q)
      = max ((∑ k : Fin 64, x0 (ix2 p k) * x3 (ix2 k q))
          + (∑ k : Fin 64, Ideal.div (x1 (ix2 p k)) (max (x2 (ix2 p 0)) (Ideal.ofBits .f32 0x3F800000#32))
              * x4 (ix2 k q))
          + x5 (ix2 0 q)) 0 := by
  unfold Gen.k3_pay1
  simp only [shapeCast_self]
  rw [maximumf_apply, addf_apply, addf_apply, matmul_at, matmul_at, broadcastTo_1b_ab_apply, broadcast_apply]
  refine congrArg₂ max (congrArg₂ (· + ·) (congrArg₂ (· + ·) rfl (Finset.sum_congr rfl fun k _ => ?_)) rfl)
    Ideal.ofBits_zero_f32
  show Ideal.div (x1 (ix2 p k)) (broadcastTo S10000x64 _ broadcasts_S10000x1_S10000x64 (ix2 p k)) * x4 (ix2 k q) = _
  rw [broadcastTo_a1_ab_apply]
  rfl

/-- The third node update kernel stores the same expression. -/
theorem k5_pay1_at (x0 x1 : Vec Ideal S10000x64 .f32) (x2 : Vec Ideal S10000x1 .f32) (x3 x4 : Vec Ideal S64x64 .f32)
    (x5 : Vec Ideal S1x64 .f32) (p : Fin 10000) (q : Fin 64) :
    Gen.k5_pay1 x0 x1 x2 x3 x4 x5 (ix2 p q)
      = max ((∑ k : Fin 64, x0 (ix2 p k) * x3 (ix2 k q))
          + (∑ k : Fin 64, Ideal.div (x1 (ix2 p k)) (max (x2 (ix2 p 0)) (Ideal.ofBits .f32 0x3F800000#32))
              * x4 (ix2 k q))
          + x5 (ix2 0 q)) 0 :=
  k1_pay1_at x0 x1 x2 x3 x4 x5 p q

/-- The fourth node update kernel stores the same expression. -/
theorem k7_pay1_at (x0 x1 : Vec Ideal S10000x64 .f32) (x2 : Vec Ideal S10000x1 .f32) (x3 x4 : Vec Ideal S64x64 .f32)
    (x5 : Vec Ideal S1x64 .f32) (p : Fin 10000) (q : Fin 64) :
    Gen.k7_pay1 x0 x1 x2 x3 x4 x5 (ix2 p q)
      = max ((∑ k : Fin 64, x0 (ix2 p k) * x3 (ix2 k q))
          + (∑ k : Fin 64, Ideal.div (x1 (ix2 p k)) (max (x2 (ix2 p 0)) (Ideal.ofBits .f32 0x3F800000#32))
              * x4 (ix2 k q))
          + x5 (ix2 0 q)) 0 :=
  k3_pay1_at x0 x1 x2 x3 x4 x5 p q

end Cert.KernelIdeal.PayloadAt
-- ==== Proof.Spec.lean ====
import proofs.«176382_j6528350290006_1_alg».proof.Proof.Gen.KernelIdeal
import Idealize.ShloMosaic.Lib.ValueIdx
import Idealize.ShloMosaic.PureOps.Ideal

noncomputable section

namespace Cert.KernelIdeal.Spec

open Cert.KernelIdeal
open Idealize.ShloMosaic Idealize.ShloMosaic.ValueIdx

/-- One row of messages: edge `e`'s gathered node row against the node half of the weight, plus its edge-feature row
    against the edge half, plus the bias. -/
def msgG (a0 a1 : S1000000x64.Idx → EReal) (a2 a3 : S64x64.Idx → EReal) (a4 : S1x64.Idx → EReal) : S1000000x64.Idx → EReal :=
  fun i => (∑ k : Fin 64, a0 (ix2 (⟨(i 0).val, (i 0).isLt⟩ : Fin 1000000) k) * a2 (ix2 k (⟨(i 1).val, (i 1).isLt⟩ : Fin 64)))
    + (∑ k : Fin 64, a1 (ix2 (⟨(i 0).val, (i 0).isLt⟩ : Fin 1000000) k) * a3 (ix2 k (⟨(i 1).val, (i 1).isLt⟩ : Fin 64)))
    + a4 (ix2 (0 : Fin 1) (⟨(i 1).val, (i 1).isLt⟩ : Fin 64))

/-- One row of updated node features: the node's own row against the self half of the weight, plus the mean of its incoming
    messages (their sum divided by the in-degree, at least one) against the neighbour half, plus the bias, cut off below at zero. -/
def updG (a0 a1 : S100000x64.Idx → EReal) (a2 : S100000x1.Idx → EReal) (a3 a4 : S64x64.Idx → EReal) (a5 : S1x64.Idx → EReal) : S100000x64.Idx → EReal :=
  fun i => max ((∑ k : Fin 64, a0 (ix2 (⟨(i 0).val, (i 0).isLt⟩ : Fin 100000) k) * a3 (ix2 k (⟨(i 1).val, (i 1).isLt⟩ : Fin 64)))
    + (∑ k : Fin 64, Ideal.div (a1 (ix2 (⟨(i 0).val, (i 0).isLt⟩ : Fin 100000) k)) (max (a2 (ix2 (⟨(i 0).val, (i 0).isLt⟩ : Fin 100000) (0 : Fin 1))) (Ideal.ofBits .f32 0x3F800000#32)) * a4 (ix2 k (⟨(i 1).val, (i 1).isLt⟩ : Fin 64)))
    + a5 (ix2 (0 : Fin 1) (⟨(i 1).val, (i 1).isLt⟩ : Fin 64))) 0

end Cert.KernelIdeal.Spec

end
-- ==== Proof.KiArray0.lean ====
import proofs.«176382_j6528350290006_1_alg».proof.Proof.KiRegion0
import proofs.«176382_j6528350290006_1_alg».proof.Proof.PayloadAt
import proofs.«176382_j6528350290006_1_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- Input window 0's array as the region finds it, at its literal type. -/
abbrev arr0_0 (c : Dev nD) : S1000000x64.Idx → EReal := V c (Pipeline.arrRef spec0 0)
/-- Input window 1's array as the region finds it, at its literal type. -/
abbrev arr0_1 (c : Dev nD) : S1000000x64.Idx → EReal := V c (Pipeline.arrRef spec0 1)
/-- Input window 2's array as the region finds it, at its literal type. -/
abbrev arr0_2 (c : Dev nD) : S64x64.Idx → EReal := V c (Pipeline.arrRef spec0 2)
/-- Input window 3's array as the region finds it, at its literal type. -/
abbrev arr0_3 (c : Dev nD) : S64x64.Idx → EReal := V c (Pipeline.arrRef spec0 3)
/-- Input window 4's array as the region finds it, at its literal type. -/
abbrev arr0_4 (c : Dev nD) : S1x64.Idx → EReal := V c (Pipeline.arrRef spec0 4)

/-- The index maps over the grid: the row-blocked inputs move with the output, one block of rows per point; the weights and the bias stay at their one block. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 99 :=
  (by decide +kernel : ∀ t : Fin grid0.N, _)

theorem idx_onto0 : ∀ (q0 : Fin 100), ∃ t : Fin cfg0.N, win0_5.index t = ![q0.val, 0] :=
  (by decide +kernel : ∀ (q0 : Fin 100), ∃ t : Fin grid0.N, win0_5.index t = ![q0.val, 0])

set_option maxHeartbeats 2000000 in
/-- What grid point `t` writes back is block `t` of the rows computed from the arrays the region finds. -/
theorem flushed0_eq (c : Dev nD) (t : Fin cfg0.N) :
    (dat0 (F := Ideal) V c).flushed 5 t = ((cfg0.win 5).blk t).view.read (Elt Ideal) (Spec.msgG (arr0_0 V c) (arr0_1 V c) (arr0_2 V c) (arr0_3 V c) (arr0_4 V c)) := by
  show (cfg0.win 5).cut (grid0.coords t) ((dat0 V c).after 5 t) = _
  rw [after0_5]
  unfold out0
  rw [View.canon_unit_zero hz0]
  simp only [View.ld_unit_zero (S := S10000x64) hz0, View.ld_unit_zero (S := S64x64) hz0, View.ld_unit_zero (S := S1x64) hz0]
  obtain ⟨e00, e01, e10, e11, e20, e21, e30, e31, e40, e41, e51, e50⟩ := idx_facts0 t
  funext j
  obtain ⟨p, q, rfl⟩ : ∃ (p : Fin 10000) (q : Fin 64), j = ix2 p q := ⟨j 0, j 1, eq_ix2 j⟩
  refine (PayloadAt.k0_pay1_at _ _ _ _ _ p q).trans ?_
  show (∑ k : Fin 64, arr0_0 V c (((cfg0.win 0).blk t).view.emb (ix2 p k)) * arr0_2 V c (((cfg0.win 2).blk t).view.emb (ix2 k q)))
      + (∑ k : Fin 64, arr0_1 V c (((cfg0.win 1).blk t).view.emb (ix2 p k)) * arr0_3 V c (((cfg0.win 3).blk t).view.emb (ix2 k q)))
      + arr0_4 V c (((cfg0.win 4).blk t).view.emb (ix2 (0 : Fin 1) q))
    = Spec.msgG (arr0_0 V c) (arr0_1 V c) (arr0_2 V c) (arr0_3 V c) (arr0_4 V c) (((cfg0.win 5).blk t).view.emb (ix2 p q))
  unfold Spec.msgG
  have hp : p.val < 10000 := p.isLt
  have hq : q.val < 64 := q.isLt
  have h0 : ∀ k : Fin 64, (((cfg0.win 0).blk t).view.emb (ix2 p k)) = ix2 (⟨((((cfg0.win 5).blk t).view.emb (ix2 p q)) 0).val, ((((cfg0.win 5).blk t).view.emb (ix2 p q)) 0).isLt⟩ : Fin 1000000) k := fun k => by
    funext a; apply Fin.ext
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  have h1 : ∀ k : Fin 64, (((cfg0.win 1).blk t).view.emb (ix2 p k)) = ix2 (⟨((((cfg0.win 5).blk t).view.emb (ix2 p q)) 0).val, ((((cfg0.win 5).blk t).view.emb (ix2 p q)) 0).isLt⟩ : Fin 1000000) k := fun k => by
    funext a; apply Fin.ext
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  have h2 : ∀ k : Fin 64, (((cfg0.win 2).blk t).view.emb (ix2 k q)) = ix2 k (⟨((((cfg0.win 5).blk t).view.emb (ix2 p q)) 1).val, ((((cfg0.win 5).blk t).view.emb (ix2 p q)) 1).isLt⟩ : Fin 64) := fun k => by
    funext a; apply Fin.ext
    match a with
    | ⟨0, _⟩ => show win0_2.index t (0 : Fin 2) * 64 + 1 * k.val = k.val; omega
    | ⟨1, _⟩ => show win0_2.index t (1 : Fin 2) * 64 + 1 * q.val = win0_5.index t (1 : Fin 2) * 64 + 1 * q.val; omega
  have h3 : ∀ k : Fin 64, (((cfg0.win 3).blk t).view.emb (ix2 k q)) = ix2 k (⟨((((cfg0.win 5).blk t).view.emb (ix2 p q)) 1).val, ((((cfg0.win 5).blk t).view.emb (ix2 p q)) 1).isLt⟩ : Fin 64) := fun k => by
    funext a; apply Fin.ext
    match a with
    | ⟨0, _⟩ => show win0_3.index t (0 : Fin 2) * 64 + 1 * k.val = k.val; omega
    | ⟨1, _⟩ => show win0_3.index t (1 : Fin 2) * 64 + 1 * q.val = win0_5.index t (1 : Fin 2) * 64 + 1 * q.val; omega
  have h4 : (((cfg0.win 4).blk t).view.emb (ix2 (0 : Fin 1) q)) = ix2 (0 : Fin 1) (⟨((((cfg0.win 5).blk t).view.emb (ix2 p q)) 1).val, ((((cfg0.win 5).blk t).view.emb (ix2 p q)) 1).isLt⟩ : Fin 64) := by
    funext a; apply Fin.ext
    match a with
    | ⟨0, _⟩ => show win0_4.index t (0 : Fin 2) * 1 + 1 * 0 = 0; omega
    | ⟨1, _⟩ => show win0_4.index t (1 : Fin 2) * 64 + 1 * q.val = win0_5.index t (1 : Fin 2) * 64 + 1 * q.val; omega
  simp only [h0, h1, h2, h3, h4]

theorem mem_blk0 (t : Fin cfg0.N) (i : S1000000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v12).slice (win0_5.rect t)).set ↔ _
  rw [View.set_slice_whole, Rect.mem_set_unit]
  exact Iff.rfl

/-- Every row of the output array is in the block of the point its row number divided by the block height names. -/
theorem cover0_all (i : S1000000x64.Idx) : ∃ t : Fin cfg0.N, (cfg0.win 5).flush t = true ∧ i ∈ ((cfg0.win 5).blk t).view.set := by
  have hi0 : (i 0).val < 1000000 := (i 0).isLt
  have hi1 : (i 1).val < 64 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The output array after the region: one function of the arrays the region finds. -/
theorem final0 (c : Dev nD) : (dat0 (F := Ideal) V c).arrAt 5 cfg0.N = Spec.msgG (arr0_0 V c) (arr0_1 V c) (arr0_2 V c) (arr0_3 V c) (arr0_4 V c) :=
  (dat0 V c).arrAt_eq_of_cover 5 _ (fun t _ => flushed0_eq V c t) (cover0_all)

end Cert.KernelIdeal.Blocks

end
-- ==== Proof.KiArray1.lean ====
import proofs.«176382_j6528350290006_1_alg».proof.Proof.KiRegion1
import proofs.«176382_j6528350290006_1_alg».proof.Proof.PayloadAt
import proofs.«176382_j6528350290006_1_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- Input window 0's array as the region finds it, at its literal type. -/
abbrev arr1_0 (c : Dev nD) : S100000x64.Idx → EReal := V c (Pipeline.arrRef spec1 0)
/-- Input window 1's array as the region finds it, at its literal type. -/
abbrev arr1_1 (c : Dev nD) : S100000x64.Idx → EReal := V c (Pipeline.arrRef spec1 1)
/-- Input window 2's array as the region finds it, at its literal type. -/
abbrev arr1_2 (c : Dev nD) : S100000x1.Idx → EReal := V c (Pipeline.arrRef spec1 2)
/-- Input window 3's array as the region finds it, at its literal type. -/
abbrev arr1_3 (c : Dev nD) : S64x64.Idx → EReal := V c (Pipeline.arrRef spec1 3)
/-- Input window 4's array as the region finds it, at its literal type. -/
abbrev arr1_4 (c : Dev nD) : S64x64.Idx → EReal := V c (Pipeline.arrRef spec1 4)
/-- Input window 5's array as the region finds it, at its literal type. -/
abbrev arr1_5 (c : Dev nD) : S1x64.Idx → EReal := V c (Pipeline.arrRef spec1 5)

/-- The index maps over the grid: the row-blocked inputs move with the output, one block of rows per point; the weights and the bias stay at their one block. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 9 :=
  (by decide +kernel : ∀ t : Fin grid1.N, _)

theorem idx_onto1 : ∀ (q0 : Fin 10), ∃ t : Fin cfg1.N, win1_6.index t = ![q0.val, 0] :=
  (by decide +kernel : ∀ (q0 : Fin 10), ∃ t : Fin grid1.N, win1_6.index t = ![q0.val, 0])

set_option maxHeartbeats 2000000 in
/-- What grid point `t` writes back is block `t` of the rows computed from the arrays the region finds. -/
theorem flushed1_eq (c : Dev nD) (t : Fin cfg1.N) :
    (dat1 (F := Ideal) V c).flushed 6 t = ((cfg1.win 6).blk t).view.read (Elt Ideal) (Spec.updG (arr1_0 V c) (arr1_1 V c) (arr1_2 V c) (arr1_3 V c) (arr1_4 V c) (arr1_5 V c)) := by
  show (cfg1.win 6).cut (grid1.coords t) ((dat1 V c).after 6 t) = _
  rw [after1_6]
  unfold out1
  rw [View.canon_unit_zero hz1]
  simp only [View.ld_unit_zero (S := S10000x64) hz1, View.ld_unit_zero (S := S10000x1) hz1, View.ld_unit_zero (S := S64x64) hz1, View.ld_unit_zero (S := S1x64) hz1]
  obtain ⟨e00, e01, e10, e11, e20, e21, e30, e31, e40, e41, e50, e51, e61, e60⟩ := idx_facts1 t
  funext j
  obtain ⟨p, q, rfl⟩ : ∃ (p : Fin 10000) (q : Fin 64), j = ix2 p q := ⟨j 0, j 1, eq_ix2 j⟩
  refine (PayloadAt.k1_pay1_at _ _ _ _ _ _ p q).trans ?_
  show max ((∑ k : Fin 64, arr1_0 V c (((cfg1.win 0).blk t).view.emb (ix2 p k)) * arr1_3 V c (((cfg1.win 3).blk t).view.emb (ix2 k q)))
      + (∑ k : Fin 64, Ideal.div (arr1_1 V c (((cfg1.win 1).blk t).view.emb (ix2 p k))) (max (arr1_2 V c (((cfg1.win 2).blk t).view.emb (ix2 p (0 : Fin 1)))) (Ideal.ofBits .f32 0x3F800000#32)) * arr1_4 V c (((cfg1.win 4).blk t).view.emb (ix2 k q)))
      + arr1_5 V c (((cfg1.win 5).blk t).view.emb (ix2 (0 : Fin 1) q))) 0
    = Spec.updG (arr1_0 V c) (arr1_1 V c) (arr1_2 V c) (arr1_3 V c) (arr1_4 V c) (arr1_5 V c) (((cfg1.win 6).blk t).view.emb (ix2 p q))
  unfold Spec.updG
  have hp : p.val < 10000 := p.isLt
  have hq : q.val < 64 := q.isLt
  have h0 : ∀ k : Fin 64, (((cfg1.win 0).blk t).view.emb (ix2 p k)) = ix2 (⟨((((cfg1.win 6).blk t).view.emb (ix2 p q)) 0).val, ((((cfg1.win 6).blk t).view.emb (ix2 p q)) 0).isLt⟩ : Fin 100000) k := fun k => by
    funext a; apply Fin.ext
    match a with
    | ⟨0, _⟩ => show win1_0.index t (0 : Fin 2) * 10000 + 1 * p.val = win1_6.index t (0 : Fin 2) * 10000 + 1 * p.val; omega
    | ⟨1, _⟩ => show win1_0.index t (1 : Fin 2) * 64 + 1 * k.val = k.val; omega
  have h1 : ∀ k : Fin 64, (((cfg1.win 1).blk t).view.emb (ix2 p k)) = ix2 (⟨((((cfg1.win 6).blk t).view.emb (ix2 p q)) 0).val, ((((cfg1.win 6).blk t).view.emb (ix2 p q)) 0).isLt⟩ : Fin 100000) k := fun k => by
    funext a; apply Fin.ext
    match a with
    | ⟨0, _⟩ => show win1_1.index t (0 : Fin 2) * 10000 + 1 * p.val = win1_6.index t (0 : Fin 2) * 10000 + 1 * p.val; omega
    | ⟨1, _⟩ => show win1_1.index t (1 : Fin 2) * 64 + 1 * k.val = k.val; omega
  have h2 : (((cfg1.win 2).blk t).view.emb (ix2 p (0 : Fin 1))) = ix2 (⟨((((cfg1.win 6).blk t).view.emb (ix2 p q)) 0).val, ((((cfg1.win 6).blk t).view.emb (ix2 p q)) 0).isLt⟩ : Fin 100000) (0 : Fin 1) := by
    funext a; apply Fin.ext
    match a with
    | ⟨0, _⟩ => show win1_2.index t (0 : Fin 2) * 10000 + 1 * p.val = win1_6.index t (0 : Fin 2) * 10000 + 1 * p.val; omega
    | ⟨1, _⟩ => show win1_2.index t (1 : Fin 2) * 1 + 1 * 0 = 0; omega
  have h3 : ∀ k : Fin 64, (((cfg1.win 3).blk t).view.emb (ix2 k q)) = ix2 k (⟨((((cfg1.win 6).blk t).view.emb (ix2 p q)) 1).val, ((((cfg1.win 6).blk t).view.emb (ix2 p q)) 1).isLt⟩ : Fin 64) := fun k => by
    funext a; apply Fin.ext
    match a with
    | ⟨0, _⟩ => show win1_3.index t (0 : Fin 2) * 64 + 1 * k.val = k.val; omega
    | ⟨1, _⟩ => show win1_3.index t (1 : Fin 2) * 64 + 1 * q.val = win1_6.index t (1 : Fin 2) * 64 + 1 * q.val; omega
  have h4 : ∀ k : Fin 64, (((cfg1.win 4).blk t).view.emb (ix2 k q)) = ix2 k (⟨((((cfg1.win 6).blk t).view.emb (ix2 p q)) 1).val, ((((cfg1.win 6).blk t).view.emb (ix2 p q)) 1).isLt⟩ : Fin 64) := fun k => by
    funext a; apply Fin.ext
    match a with
    | ⟨0, _⟩ => show win1_4.index t (0 : Fin 2) * 64 + 1 * k.val = k.val; omega
    | ⟨1, _⟩ => show win1_4.index t (1 : Fin 2) * 64 + 1 * q.val = win1_6.index t (1 : Fin 2) * 64 + 1 * q.val; omega
  have h5 : (((cfg1.win 5).blk t).view.emb (ix2 (0 : Fin 1) q)) = ix2 (0 : Fin 1) (⟨((((cfg1.win 6).blk t).view.emb (ix2 p q)) 1).val, ((((cfg1.win 6).blk t).view.emb (ix2 p q)) 1).isLt⟩ : Fin 64) := by
    funext a; apply Fin.ext
    match a with
    | ⟨0, _⟩ => show win1_5.index t (0 : Fin 2) * 1 + 1 * 0 = 0; omega
    | ⟨1, _⟩ => show win1_5.index t (1 : Fin 2) * 64 + 1 * q.val = win1_6.index t (1 : Fin 2) * 64 + 1 * q.val; omega
  simp only [h0, h1, h2, h3, h4, h5]

theorem mem_blk1 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v26).slice (win1_6.rect t)).set ↔ _
  rw [View.set_slice_whole, Rect.mem_set_unit]
  exact Iff.rfl

/-- Every row of the output array is in the block of the point its row number divided by the block height names. -/
theorem cover1_all (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto1 ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- The output array after the region: one function of the arrays the region finds. -/
theorem final1 (c : Dev nD) : (dat1 (F := Ideal) V c).arrAt 6 cfg1.N = Spec.updG (arr1_0 V c) (arr1_1 V c) (arr1_2 V c) (arr1_3 V c) (arr1_4 V c) (arr1_5 V c) :=
  (dat1 V c).arrAt_eq_of_cover 6 _ (fun t _ => flushed1_eq V c t) (cover1_all)

end Cert.KernelIdeal.Blocks

end
-- ==== Proof.KiArray2.lean ====
import proofs.«176382_j6528350290006_1_alg».proof.Proof.KiRegion2
import proofs.«176382_j6528350290006_1_alg».proof.Proof.PayloadAt
import proofs.«176382_j6528350290006_1_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Input window 0's array as the region finds it, at its literal type. -/
abbrev arr2_0 (c : Dev nD) : S1000000x64.Idx → EReal := V c (Pipeline.arrRef spec2 0)
/-- Input window 1's array as the region finds it, at its literal type. -/
abbrev arr2_1 (c : Dev nD) : S1000000x64.Idx → EReal := V c (Pipeline.arrRef spec2 1)
/-- Input window 2's array as the region finds it, at its literal type. -/
abbrev arr2_2 (c : Dev nD) : S64x64.Idx → EReal := V c (Pipeline.arrRef spec2 2)
/-- Input window 3's array as the region finds it, at its literal type. -/
abbrev arr2_3 (c : Dev nD) : S64x64.Idx → EReal := V c (Pipeline.arrRef spec2 3)
/-- Input window 4's array as the region finds it, at its literal type. -/
abbrev arr2_4 (c : Dev nD) : S1x64.Idx → EReal := V c (Pipeline.arrRef spec2 4)

/-- The index maps over the grid: the row-blocked inputs move with the output, one block of rows per point; the weights and the bias stay at their one block. -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 99 :=
  (by decide +kernel : ∀ t : Fin grid2.N, _)

theorem idx_onto2 : ∀ (q0 : Fin 100), ∃ t : Fin cfg2.N, win2_5.index t = ![q0.val, 0] :=
  (by decide +kernel : ∀ (q0 : Fin 100), ∃ t : Fin grid2.N, win2_5.index t = ![q0.val, 0])

set_option maxHeartbeats 2000000 in
/-- What grid point `t` writes back is block `t` of the rows computed from the arrays the region finds. -/
theorem flushed2_eq (c : Dev nD) (t : Fin cfg2.N) :
    (dat2 (F := Ideal) V c).flushed 5 t = ((cfg2.win 5).blk t).view.read (Elt Ideal) (Spec.msgG (arr2_0 V c) (arr2_1 V c) (arr2_2 V c) (arr2_3 V c) (arr2_4 V c)) := by
  show (cfg2.win 5).cut (grid2.coords t) ((dat2 V c).after 5 t) = _
  rw [after2_5]
  unfold out2
  rw [View.canon_unit_zero hz2]
  simp only [View.ld_unit_zero (S := S10000x64) hz2, View.ld_unit_zero (S := S64x64) hz2, View.ld_unit_zero (S := S1x64) hz2]
  obtain ⟨e00, e01, e10, e11, e20, e21, e30, e31, e40, e41, e51, e50⟩ := idx_facts2 t
  funext j
  obtain ⟨p, q, rfl⟩ : ∃ (p : Fin 10000) (q : Fin 64), j = ix2 p q := ⟨j 0, j 1, eq_ix2 j⟩
  refine (PayloadAt.k2_pay1_at _ _ _ _ _ p q).trans ?_
  show (∑ k : Fin 64, arr2_0 V c (((cfg2.win 0).blk t).view.emb (ix2 p k)) * arr2_2 V c (((cfg2.win 2).blk t).view.emb (ix2 k q)))
      + (∑ k : Fin 64, arr2_1 V c (((cfg2.win 1).blk t).view.emb (ix2 p k)) * arr2_3 V c (((cfg2.win 3).blk t).view.emb (ix2 k q)))
      + arr2_4 V c (((cfg2.win 4).blk t).view.emb (ix2 (0 : Fin 1) q))
    = Spec.msgG (arr2_0 V c) (arr2_1 V c) (arr2_2 V c) (arr2_3 V c) (arr2_4 V c) (((cfg2.win 5).blk t).view.emb (ix2 p q))
  unfold Spec.msgG
  have hp : p.val < 10000 := p.isLt
  have hq : q.val < 64 := q.isLt
  have h0 : ∀ k : Fin 64, (((cfg2.win 0).blk t).view.emb (ix2 p k)) = ix2 (⟨((((cfg2.win 5).blk t).view.emb (ix2 p q)) 0).val, ((((cfg2.win 5).blk t).view.emb (ix2 p q)) 0).isLt⟩ : Fin 1000000) k := fun k => by
    funext a; apply Fin.ext
    match a with
    | ⟨0, _⟩ => show win2_0.index t (0 : Fin 2) * 10000 + 1 * p.val = win2_5.index t (0 : Fin 2) * 10000 + 1 * p.val; omega
    | ⟨1, _⟩ => show win2_0.index t (1 : Fin 2) * 64 + 1 * k.val = k.val; omega
  have h1 : ∀ k : Fin 64, (((cfg2.win 1).blk t).view.emb (ix2 p k)) = ix2 (⟨((((cfg2.win 5).blk t).view.emb (ix2 p q)) 0).val, ((((cfg2.win 5).blk t).view.emb (ix2 p q)) 0).isLt⟩ : Fin 1000000) k := fun k => by
    funext a; apply Fin.ext
    match a with
    | ⟨0, _⟩ => show win2_1.index t (0 : Fin 2) * 10000 + 1 * p.val = win2_5.index t (0 : Fin 2) * 10000 + 1 * p.val; omega
    | ⟨1, _⟩ => show win2_1.index t (1 : Fin 2) * 64 + 1 * k.val = k.val; omega
  have h2 : ∀ k : Fin 64, (((cfg2.win 2).blk t).view.emb (ix2 k q)) = ix2 k (⟨((((cfg2.win 5).blk t).view.emb (ix2 p q)) 1).val, ((((cfg2.win 5).blk t).view.emb (ix2 p q)) 1).isLt⟩ : Fin 64) := fun k => by
    funext a; apply Fin.ext
    match a with
    | ⟨0, _⟩ => show win2_2.index t (0 : Fin 2) * 64 + 1 * k.val = k.val; omega
    | ⟨1, _⟩ => show win2_2.index t (1 : Fin 2) * 64 + 1 * q.val = win2_5.index t (1 : Fin 2) * 64 + 1 * q.val; omega
  have h3 : ∀ k : Fin 64, (((cfg2.win 3).blk t).view.emb (ix2 k q)) = ix2 k (⟨((((cfg2.win 5).blk t).view.emb (ix2 p q)) 1).val, ((((cfg2.win 5).blk t).view.emb (ix2 p q)) 1).isLt⟩ : Fin 64) := fun k => by
    funext a; apply Fin.ext
    match a with
    | ⟨0, _⟩ => show win2_3.index t (0 : Fin 2) * 64 + 1 * k.val = k.val; omega
    | ⟨1, _⟩ => show win2_3.index t (1 : Fin 2) * 64 + 1 * q.val = win2_5.index t (1 : Fin 2) * 64 + 1 * q.val; omega
  have h4 : (((cfg2.win 4).blk t).view.emb (ix2 (0 : Fin 1) q)) = ix2 (0 : Fin 1) (⟨((((cfg2.win 5).blk t).view.emb (ix2 p q)) 1).val, ((((cfg2.win 5).blk t).view.emb (ix2 p q)) 1).isLt⟩ : Fin 64) := by
    funext a; apply Fin.ext
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega
  simp only [h0, h1, h2, h3, h4]

theorem mem_blk2 (t : Fin cfg2.N) (i : S1000000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v39).slice (win2_5.rect t)).set ↔ _
  rw [View.set_slice_whole, Rect.mem_set_unit]
  exact Iff.rfl

/-- Every row of the output array is in the block of the point its row number divided by the block height names. -/
theorem cover2_all (i : S1000000x64.Idx) : ∃ t : Fin cfg2.N, (cfg2.win 5).flush t = true ∧ i ∈ ((cfg2.win 5).blk t).view.set := by
  have hi0 : (i 0).val < 1000000 := (i 0).isLt
  have hi1 : (i 1).val < 64 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The output array after the region: one function of the arrays the region finds. -/
theorem final2 (c : Dev nD) : (dat2 (F := Ideal) V c).arrAt 5 cfg2.N = Spec.msgG (arr2_0 V c) (arr2_1 V c) (arr2_2 V c) (arr2_3 V c) (arr2_4 V c) :=
  (dat2 V c).arrAt_eq_of_cover 5 _ (fun t _ => flushed2_eq V c t) (cover2_all)

end Cert.KernelIdeal.Blocks

end
-- ==== Proof.KiArray3.lean ====
import proofs.«176382_j6528350290006_1_alg».proof.Proof.KiRegion3
import proofs.«176382_j6528350290006_1_alg».proof.Proof.PayloadAt
import proofs.«176382_j6528350290006_1_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- Input window 0's array as the region finds it, at its literal type. -/
abbrev arr3_0 (c : Dev nD) : S100000x64.Idx → EReal := V c (Pipeline.arrRef spec3 0)
/-- Input window 1's array as the region finds it, at its literal type. -/
abbrev arr3_1 (c : Dev nD) : S100000x64.Idx → EReal := V c (Pipeline.arrRef spec3 1)
/-- Input window 2's array as the region finds it, at its literal type. -/
abbrev arr3_2 (c : Dev nD) : S100000x1.Idx → EReal := V c (Pipeline.arrRef spec3 2)
/-- Input window 3's array as the region finds it, at its literal type. -/
abbrev arr3_3 (c : Dev nD) : S64x64.Idx → EReal := V c (Pipeline.arrRef spec3 3)
/-- Input window 4's array as the region finds it, at its literal type. -/
abbrev arr3_4 (c : Dev nD) : S64x64.Idx → EReal := V c (Pipeline.arrRef spec3 4)
/-- Input window 5's array as the region finds it, at its literal type. -/
abbrev arr3_5 (c : Dev nD) : S1x64.Idx → EReal := V c (Pipeline.arrRef spec3 5)

/-- The index maps over the grid: the row-blocked inputs move with the output, one block of rows per point; the weights and the bias stay at their one block. -/
theorem idx_facts3 : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = win3_6.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 ∧ win3_6.index t (0 : Fin 2) ≤ 9 :=
  (by decide +kernel : ∀ t : Fin grid3.N, _)

theorem idx_onto3 : ∀ (q0 : Fin 10), ∃ t : Fin cfg3.N, win3_6.index t = ![q0.val, 0] :=
  (by decide +kernel : ∀ (q0 : Fin 10), ∃ t : Fin grid3.N, win3_6.index t = ![q0.val, 0])

set_option maxHeartbeats 2000000 in
/-- What grid point `t` writes back is block `t` of the rows computed from the arrays the region finds. -/
theorem flushed3_eq (c : Dev nD) (t : Fin cfg3.N) :
    (dat3 (F := Ideal) V c).flushed 6 t = ((cfg3.win 6).blk t).view.read (Elt Ideal) (Spec.updG (arr3_0 V c) (arr3_1 V c) (arr3_2 V c) (arr3_3 V c) (arr3_4 V c) (arr3_5 V c)) := by
  show (cfg3.win 6).cut (grid3.coords t) ((dat3 V c).after 6 t) = _
  rw [after3_6]
  unfold out3
  rw [View.canon_unit_zero hz3]
  simp only [View.ld_unit_zero (S := S10000x64) hz3, View.ld_unit_zero (S := S10000x1) hz3, View.ld_unit_zero (S := S64x64) hz3, View.ld_unit_zero (S := S1x64) hz3]
  obtain ⟨e00, e01, e10, e11, e20, e21, e30, e31, e40, e41, e50, e51, e61, e60⟩ := idx_facts3 t
  funext j
  obtain ⟨p, q, rfl⟩ : ∃ (p : Fin 10000) (q : Fin 64), j = ix2 p q := ⟨j 0, j 1, eq_ix2 j⟩
  refine (PayloadAt.k3_pay1_at _ _ _ _ _ _ p q).trans ?_
  show max ((∑ k : Fin 64, arr3_0 V c (((cfg3.win 0).blk t).view.emb (ix2 p k)) * arr3_3 V c (((cfg3.win 3).blk t).view.emb (ix2 k q)))
      + (∑ k : Fin 64, Ideal.div (arr3_1 V c (((cfg3.win 1).blk t).view.emb (ix2 p k))) (max (arr3_2 V c (((cfg3.win 2).blk t).view.emb (ix2 p (0 : Fin 1)))) (Ideal.ofBits .f32 0x3F800000#32)) * arr3_4 V c (((cfg3.win 4).blk t).view.emb (ix2 k q)))
      + arr3_5 V c (((cfg3.win 5).blk t).view.emb (ix2 (0 : Fin 1) q))) 0
    = Spec.updG (arr3_0 V c) (arr3_1 V c) (arr3_2 V c) (arr3_3 V c) (arr3_4 V c) (arr3_5 V c) (((cfg3.win 6).blk t).view.emb (ix2 p q))
  unfold Spec.updG
  have hp : p.val < 10000 := p.isLt
  have hq : q.val < 64 := q.isLt
  have h0 : ∀ k : Fin 64, (((cfg3.win 0).blk t).view.emb (ix2 p k)) = ix2 (⟨((((cfg3.win 6).blk t).view.emb (ix2 p q)) 0).val, ((((cfg3.win 6).blk t).view.emb (ix2 p q)) 0).isLt⟩ : Fin 100000) k := fun k => by
    funext a; apply Fin.ext
    match a with
    | ⟨0, _⟩ => show win3_0.index t (0 : Fin 2) * 10000 + 1 * p.val = win3_6.index t (0 : Fin 2) * 10000 + 1 * p.val; omega
    | ⟨1, _⟩ => show win3_0.index t (1 : Fin 2) * 64 + 1 * k.val = k.val; omega
  have h1 : ∀ k : Fin 64, (((cfg3.win 1).blk t).view.emb (ix2 p k)) = ix2 (⟨((((cfg3.win 6).blk t).view.emb (ix2 p q)) 0).val, ((((cfg3.win 6).blk t).view.emb (ix2 p q)) 0).isLt⟩ : Fin 100000) k := fun k => by
    funext a; apply Fin.ext
    match a with
    | ⟨0, _⟩ => show win3_1.index t (0 : Fin 2) * 10000 + 1 * p.val = win3_6.index t (0 : Fin 2) * 10000 + 1 * p.val; omega
    | ⟨1, _⟩ => show win3_1.index t (1 : Fin 2) * 64 + 1 * k.val = k.val; omega
  have h2 : (((cfg3.win 2).blk t).view.emb (ix2 p (0 : Fin 1))) = ix2 (⟨((((cfg3.win 6).blk t).view.emb (ix2 p q)) 0).val, ((((cfg3.win 6).blk t).view.emb (ix2 p q)) 0).isLt⟩ : Fin 100000) (0 : Fin 1) := by
    funext a; apply Fin.ext
    match a with
    | ⟨0, _⟩ => show win3_2.index t (0 : Fin 2) * 10000 + 1 * p.val = win3_6.index t (0 : Fin 2) * 10000 + 1 * p.val; omega
    | ⟨1, _⟩ => show win3_2.index t (1 : Fin 2) * 1 + 1 * 0 = 0; omega
  have h3 : ∀ k : Fin 64, (((cfg3.win 3).blk t).view.emb (ix2 k q)) = ix2 k (⟨((((cfg3.win 6).blk t).view.emb (ix2 p q)) 1).val, ((((cfg3.win 6).blk t).view.emb (ix2 p q)) 1).isLt⟩ : Fin 64) := fun k => by
    funext a; apply Fin.ext
    match a with
    | ⟨0, _⟩ => show win3_3.index t (0 : Fin 2) * 64 + 1 * k.val = k.val; omega
    | ⟨1, _⟩ => show win3_3.index t (1 : Fin 2) * 64 + 1 * q.val = win3_6.index t (1 : Fin 2) * 64 + 1 * q.val; omega
  have h4 : ∀ k : Fin 64, (((cfg3.win 4).blk t).view.emb (ix2 k q)) = ix2 k (⟨((((cfg3.win 6).blk t).view.emb (ix2 p q)) 1).val, ((((cfg3.win 6).blk t).view.emb (ix2 p q)) 1).isLt⟩ : Fin 64) := fun k => by
    funext a; apply Fin.ext
    match a with
    | ⟨0, _⟩ => show win3_4.index t (0 : Fin 2) * 64 + 1 * k.val = k.val; omega
    | ⟨1, _⟩ => show win3_4.index t (1 : Fin 2) * 64 + 1 * q.val = win3_6.index t (1 : Fin 2) * 64 + 1 * q.val; omega
  have h5 : (((cfg3.win 5).blk t).view.emb (ix2 (0 : Fin 1) q)) = ix2 (0 : Fin 1) (⟨((((cfg3.win 6).blk t).view.emb (ix2 p q)) 1).val, ((((cfg3.win 6).blk t).view.emb (ix2 p q)) 1).isLt⟩ : Fin 64) := by
    funext a; apply Fin.ext
    match a with
    | ⟨0, _⟩ => show win3_5.index t (0 : Fin 2) * 1 + 1 * 0 = 0; omega
    | ⟨1, _⟩ => show win3_5.index t (1 : Fin 2) * 64 + 1 * q.val = win3_6.index t (1 : Fin 2) * 64 + 1 * q.val; omega
  simp only [h0, h1, h2, h3, h4, h5]

theorem mem_blk3 (t : Fin cfg3.N) (i : S100000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v53).slice (win3_6.rect t)).set ↔ _
  rw [View.set_slice_whole, Rect.mem_set_unit]
  exact Iff.rfl

/-- Every row of the output array is in the block of the point its row number divided by the block height names. -/
theorem cover3_all (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ := idx_onto3 ⟨(i 0).val / 10000, by omega⟩
  have q0 : win3_6.index t (0 : Fin 2) = (i 0).val / 10000 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 64 ≤ (i 1).val ∧ (i 1).val < win3_6.index t (1 : Fin 2) * 64 + 64; omega

/-- The output array after the region: one function of the arrays the region finds. -/
theorem final3 (c : Dev nD) : (dat3 (F := Ideal) V c).arrAt 6 cfg3.N = Spec.updG (arr3_0 V c) (arr3_1 V c) (arr3_2 V c) (arr3_3 V c) (arr3_4 V c) (arr3_5 V c) :=
  (dat3 V c).arrAt_eq_of_cover 6 _ (fun t _ => flushed3_eq V c t) (cover3_all)

end Cert.KernelIdeal.Blocks

end
-- ==== Proof.KiArray4.lean ====
import proofs.«176382_j6528350290006_1_alg».proof.Proof.KiRegion4
import proofs.«176382_j6528350290006_1_alg».proof.Proof.PayloadAt
import proofs.«176382_j6528350290006_1_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- Input window 0's array as the region finds it, at its literal type. -/
abbrev arr4_0 (c : Dev nD) : S1000000x64.Idx → EReal := V c (Pipeline.arrRef spec4 0)
/-- Input window 1's array as the region finds it, at its literal type. -/
abbrev arr4_1 (c : Dev nD) : S1000000x64.Idx → EReal := V c (Pipeline.arrRef spec4 1)
/-- Input window 2's array as the region finds it, at its literal type. -/
abbrev arr4_2 (c : Dev nD) : S64x64.Idx → EReal := V c (Pipeline.arrRef spec4 2)
/-- Input window 3's array as the region finds it, at its literal type. -/
abbrev arr4_3 (c : Dev nD) : S64x64.Idx → EReal := V c (Pipeline.arrRef spec4 3)
/-- Input window 4's array as the region finds it, at its literal type. -/
abbrev arr4_4 (c : Dev nD) : S1x64.Idx → EReal := V c (Pipeline.arrRef spec4 4)

/-- The index maps over the grid: the row-blocked inputs move with the output, one block of rows per point; the weights and the bias stay at their one block. -/
theorem idx_facts4 : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) ≤ 99 :=
  (by decide +kernel : ∀ t : Fin grid4.N, _)

theorem idx_onto4 : ∀ (q0 : Fin 100), ∃ t : Fin cfg4.N, win4_5.index t = ![q0.val, 0] :=
  (by decide +kernel : ∀ (q0 : Fin 100), ∃ t : Fin grid4.N, win4_5.index t = ![q0.val, 0])

set_option maxHeartbeats 2000000 in
/-- What grid point `t` writes back is block `t` of the rows computed from the arrays the region finds. -/
theorem flushed4_eq (c : Dev nD) (t : Fin cfg4.N) :
    (dat4 (F := Ideal) V c).flushed 5 t = ((cfg4.win 5).blk t).view.read (Elt Ideal) (Spec.msgG (arr4_0 V c) (arr4_1 V c) (arr4_2 V c) (arr4_3 V c) (arr4_4 V c)) := by
  show (cfg4.win 5).cut (grid4.coords t) ((dat4 V c).after 5 t) = _
  rw [after4_5]
  unfold out4
  rw [View.canon_unit_zero hz4]
  simp only [View.ld_unit_zero (S := S10000x64) hz4, View.ld_unit_zero (S := S64x64) hz4, View.ld_unit_zero (S := S1x64) hz4]
  obtain ⟨e00, e01, e10, e11, e20, e21, e30, e31, e40, e41, e51, e50⟩ := idx_facts4 t
  funext j
  obtain ⟨p, q, rfl⟩ : ∃ (p : Fin 10000) (q : Fin 64), j = ix2 p q := ⟨j 0, j 1, eq_ix2 j⟩
  refine (PayloadAt.k4_pay1_at _ _ _ _ _ p q).trans ?_
  show (∑ k : Fin 64, arr4_0 V c (((cfg4.win 0).blk t).view.emb (ix2 p k)) * arr4_2 V c (((cfg4.win 2).blk t).view.emb (ix2 k q)))
      + (∑ k : Fin 64, arr4_1 V c (((cfg4.win 1).blk t).view.emb (ix2 p k)) * arr4_3 V c (((cfg4.win 3).blk t).view.emb (ix2 k q)))
      + arr4_4 V c (((cfg4.win 4).blk t).view.emb (ix2 (0 : Fin 1) q))
    = Spec.msgG (arr4_0 V c) (arr4_1 V c) (arr4_2 V c) (arr4_3 V c) (arr4_4 V c) (((cfg4.win 5).blk t).view.emb (ix2 p q))
  unfold Spec.msgG
  have hp : p.val < 10000 := p.isLt
  have hq : q.val < 64 := q.isLt
  have h0 : ∀ k : Fin 64, (((cfg4.win 0).blk t).view.emb (ix2 p k)) = ix2 (⟨((((cfg4.win 5).blk t).view.emb (ix2 p q)) 0).val, ((((cfg4.win 5).blk t).view.emb (ix2 p q)) 0).isLt⟩ : Fin 1000000) k := fun k => by
    funext a; apply Fin.ext
    match a with
    | ⟨0, _⟩ => show win4_0.index t (0 : Fin 2) * 10000 + 1 * p.val = win4_5.index t (0 : Fin 2) * 10000 + 1 * p.val; omega
    | ⟨1, _⟩ => show win4_0.index t (1 : Fin 2) * 64 + 1 * k.val = k.val; omega
  have h1 : ∀ k : Fin 64, (((cfg4.win 1).blk t).view.emb (ix2 p k)) = ix2 (⟨((((cfg4.win 5).blk t).view.emb (ix2 p q)) 0).val, ((((cfg4.win 5).blk t).view.emb (ix2 p q)) 0).isLt⟩ : Fin 1000000) k := fun k => by
    funext a; apply Fin.ext
    match a with
    | ⟨0, _⟩ => show win4_1.index t (0 : Fin 2) * 10000 + 1 * p.val = win4_5.index t (0 : Fin 2) * 10000 + 1 * p.val; omega
    | ⟨1, _⟩ => show win4_1.index t (1 : Fin 2) * 64 + 1 * k.val = k.val; omega
  have h2 : ∀ k : Fin 64, (((cfg4.win 2).blk t).view.emb (ix2 k q)) = ix2 k (⟨((((cfg4.win 5).blk t).view.emb (ix2 p q)) 1).val, ((((cfg4.win 5).blk t).view.emb (ix2 p q)) 1).isLt⟩ : Fin 64) := fun k => by
    funext a; apply Fin.ext
    match a with
    | ⟨0, _⟩ => show win4_2.index t (0 : Fin 2) * 64 + 1 * k.val = k.val; omega
    | ⟨1, _⟩ => show win4_2.index t (1 : Fin 2) * 64 + 1 * q.val = win4_5.index t (1 : Fin 2) * 64 + 1 * q.val; omega
  have h3 : ∀ k : Fin 64, (((cfg4.win 3).blk t).view.emb (ix2 k q)) = ix2 k (⟨((((cfg4.win 5).blk t).view.emb (ix2 p q)) 1).val, ((((cfg4.win 5).blk t).view.emb (ix2 p q)) 1).isLt⟩ : Fin 64) := fun k => by
    funext a; apply Fin.ext
    match a with
    | ⟨0, _⟩ => show win4_3.index t (0 : Fin 2) * 64 + 1 * k.val = k.val; omega
    | ⟨1, _⟩ => show win4_3.index t (1 : Fin 2) * 64 + 1 * q.val = win4_5.index t (1 : Fin 2) * 64 + 1 * q.val; omega
  have h4 : (((cfg4.win 4).blk t).view.emb (ix2 (0 : Fin 1) q)) = ix2 (0 : Fin 1) (⟨((((cfg4.win 5).blk t).view.emb (ix2 p q)) 1).val, ((((cfg4.win 5).blk t).view.emb (ix2 p q)) 1).isLt⟩ : Fin 64) := by
    funext a; apply Fin.ext
    match a with
    | ⟨0, _⟩ => show win4_4.index t (0 : Fin 2) * 1 + 1 * 0 = 0; omega
    | ⟨1, _⟩ => show win4_4.index t (1 : Fin 2) * 64 + 1 * q.val = win4_5.index t (1 : Fin 2) * 64 + 1 * q.val; omega
  simp only [h0, h1, h2, h3, h4]

theorem mem_blk4 (t : Fin cfg4.N) (i : S1000000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v73).slice (win4_5.rect t)).set ↔ _
  rw [View.set_slice_whole, Rect.mem_set_unit]
  exact Iff.rfl

/-- Every row of the output array is in the block of the point its row number divided by the block height names. -/
theorem cover4_all (i : S1000000x64.Idx) : ∃ t : Fin cfg4.N, (cfg4.win 5).flush t = true ∧ i ∈ ((cfg4.win 5).blk t).view.set := by
  have hi0 : (i 0).val < 1000000 := (i 0).isLt
  have hi1 : (i 1).val < 64 := (i 1).isLt
  obtain ⟨t, ht⟩ := idx_onto4 ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

/-- The output array after the region: one function of the arrays the region finds. -/
theorem final4 (c : Dev nD) : (dat4 (F := Ideal) V c).arrAt 5 cfg4.N = Spec.msgG (arr4_0 V c) (arr4_1 V c) (arr4_2 V c) (arr4_3 V c) (arr4_4 V c) :=
  (dat4 V c).arrAt_eq_of_cover 5 _ (fun t _ => flushed4_eq V c t) (cover4_all)

end Cert.KernelIdeal.Blocks

end
-- ==== Proof.KiArray5.lean ====
import proofs.«176382_j6528350290006_1_alg».proof.Proof.KiRegion5
import proofs.«176382_j6528350290006_1_alg».proof.Proof.PayloadAt
import proofs.«176382_j6528350290006_1_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- Input window 0's array as the region finds it, at its literal type. -/
abbrev arr5_0 (c : Dev nD) : S100000x64.Idx → EReal := V c (Pipeline.arrRef spec5 0)
/-- Input window 1's array as the region finds it, at its literal type. -/
abbrev arr5_1 (c : Dev nD) : S100000x64.Idx → EReal := V c (Pipeline.arrRef spec5 1)
/-- Input window 2's array as the region finds it, at its literal type. -/
abbrev arr5_2 (c : Dev nD) : S100000x1.Idx → EReal := V c (Pipeline.arrRef spec5 2)
/-- Input window 3's array as the region finds it, at its literal type. -/
abbrev arr5_3 (c : Dev nD) : S64x64.Idx → EReal := V c (Pipeline.arrRef spec5 3)
/-- Input window 4's array as the region finds it, at its literal type. -/
abbrev arr5_4 (c : Dev nD) : S64x64.Idx → EReal := V c (Pipeline.arrRef spec5 4)
/-- Input window 5's array as the region finds it, at its literal type. -/
abbrev arr5_5 (c : Dev nD) : S1x64.Idx → EReal := V c (Pipeline.arrRef spec5 5)

/-- The index maps over the grid: the row-blocked inputs move with the output, one block of rows per point; the weights and the bias stay at their one block. -/
theorem idx_facts5 : ∀ t : Fin cfg5.N,
    win5_0.index t (0 : Fin 2) = win5_6.index t (0 : Fin 2) ∧ win5_0.index t (1 : Fin 2) = 0
    ∧ win5_1.index t (0 : Fin 2) = win5_6.index t (0 : Fin 2) ∧ win5_1.index t (1 : Fin 2) = 0
    ∧ win5_2.index t (0 : Fin 2) = win5_6.index t (0 : Fin 2) ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (1 : Fin 2) = 0 ∧ win5_6.index t (0 : Fin 2) ≤ 9 :=
  (by decide +kernel : ∀ t : Fin grid5.N, _)

theorem idx_onto5 : ∀ (q0 : Fin 10), ∃ t : Fin cfg5.N, win5_6.index t = ![q0.val, 0] :=
  (by decide +kernel : ∀ (q0 : Fin 10), ∃ t : Fin grid5.N, win5_6.index t = ![q0.val, 0])

set_option maxHeartbeats 2000000 in
/-- What grid point `t` writes back is block `t` of the rows computed from the arrays the region finds. -/
theorem flushed5_eq (c : Dev nD) (t : Fin cfg5.N) :
    (dat5 (F := Ideal) V c).flushed 6 t = ((cfg5.win 6).blk t).view.read (Elt Ideal) (Spec.updG (arr5_0 V c) (arr5_1 V c) (arr5_2 V c) (arr5_3 V c) (arr5_4 V c) (arr5_5 V c)) := by
  show (cfg5.win 6).cut (grid5.coords t) ((dat5 V c).after 6 t) = _
  rw [after5_6]
  unfold out5
  rw [View.canon_unit_zero hz5]
  simp only [View.ld_unit_zero (S := S10000x64) hz5, View.ld_unit_zero (S := S10000x1) hz5, View.ld_unit_zero (S := S64x64) hz5, View.ld_unit_zero (S := S1x64) hz5]
  obtain ⟨e00, e01, e10, e11, e20, e21, e30, e31, e40, e41, e50, e51, e61, e60⟩ := idx_facts5 t
  funext j
  obtain ⟨p, q, rfl⟩ : ∃ (p : Fin 10000) (q : Fin 64), j = ix2 p q := ⟨j 0, j 1, eq_ix2 j⟩
  refine (PayloadAt.k5_pay1_at _ _ _ _ _ _ p q).trans ?_
  show max ((∑ k : Fin 64, arr5_0 V c (((cfg5.win 0).blk t).view.emb (ix2 p k)) * arr5_3 V c (((cfg5.win 3).blk t).view.emb (ix2 k q)))
      + (∑ k : Fin 64, Ideal.div (arr5_1 V c (((cfg5.win 1).blk t).view.emb (ix2 p k))) (max (arr5_2 V c (((cfg5.win 2).blk t).view.emb (ix2 p (0 : Fin 1)))) (Ideal.ofBits .f32 0x3F800000#32)) * arr5_4 V c (((cfg5.win 4).blk t).view.emb (ix2 k q)))
      + arr5_5 V c (((cfg5.win 5).blk t).view.emb (ix2 (0 : Fin 1) q))) 0
    = Spec.updG (arr5_0 V c) (arr5_1 V c) (arr5_2 V c) (arr5_3 V c) (arr5_4 V c) (arr5_5 V c) (((cfg5.win 6).blk t).view.emb (ix2 p q))
  unfold Spec.updG
  have hp : p.val < 10000 := p.isLt
  have hq : q.val < 64 := q.isLt
  have h0 : ∀ k : Fin 64, (((cfg5.win 0).blk t).view.emb (ix2 p k)) = ix2 (⟨((((cfg5.win 6).blk t).view.emb (ix2 p q)) 0).val, ((((cfg5.win 6).blk t).view.emb (ix2 p q)) 0).isLt⟩ : Fin 100000) k := fun k => by
    funext a; apply Fin.ext
    match a with
    | ⟨0, _⟩ => show win5_0.index t (0 : Fin 2) * 10000 + 1 * p.val = win5_6.index t (0 : Fin 2) * 10000 + 1 * p.val; omega
    | ⟨1, _⟩ => show win5_0.index t (1 : Fin 2) * 64 + 1 * k.val = k.val; omega
  have h1 : ∀ k : Fin 64, (((cfg5.win 1).blk t).view.emb (ix2 p k)) = ix2 (⟨((((cfg5.win 6).blk t).view.emb (ix2 p q)) 0).val, ((((cfg5.win 6).blk t).view.emb (ix2 p q)) 0).isLt⟩ : Fin 100000) k := fun k => by
    funext a; apply Fin.ext
    match a with
    | ⟨0, _⟩ => show win5_1.index t (0 : Fin 2) * 10000 + 1 * p.val = win5_6.index t (0 : Fin 2) * 10000 + 1 * p.val; omega
    | ⟨1, _⟩ => show win5_1.index t (1 : Fin 2) * 64 + 1 * k.val = k.val; omega
  have h2 : (((cfg5.win 2).blk t).view.emb (ix2 p (0 : Fin 1))) = ix2 (⟨((((cfg5.win 6).blk t).view.emb (ix2 p q)) 0).val, ((((cfg5.win 6).blk t).view.emb (ix2 p q)) 0).isLt⟩ : Fin 100000) (0 : Fin 1) := by
    funext a; apply Fin.ext
    match a with
    | ⟨0, _⟩ => show win5_2.index t (0 : Fin 2) * 10000 + 1 * p.val = win5_6.index t (0 : Fin 2) * 10000 + 1 * p.val; omega
    | ⟨1, _⟩ => show win5_2.index t (1 : Fin 2) * 1 + 1 * 0 = 0; omega
  have h3 : ∀ k : Fin 64, (((cfg5.win 3).blk t).view.emb (ix2 k q)) = ix2 k (⟨((((cfg5.win 6).blk t).view.emb (ix2 p q)) 1).val, ((((cfg5.win 6).blk t).view.emb (ix2 p q)) 1).isLt⟩ : Fin 64) := fun k => by
    funext a; apply Fin.ext
    match a with
    | ⟨0, _⟩ => show win5_3.index t (0 : Fin 2) * 64 + 1 * k.val = k.val; omega
    | ⟨1, _⟩ => show win5_3.index t (1 : Fin 2) * 64 + 1 * q.val = win5_6.index t (1 : Fin 2) * 64 + 1 * q.val; omega
  have h4 : ∀ k : Fin 64, (((cfg5.win 4).blk t).view.emb (ix2 k q)) = ix2 k (⟨((((cfg5.win 6).blk t).view.emb (ix2 p q)) 1).val, ((((cfg5.win 6).blk t).view.emb (ix2 p q)) 1).isLt⟩ : Fin 64) := fun k => by
    funext a; apply Fin.ext
    match a with
    | ⟨0, _⟩ => show win5_4.index t (0 : Fin 2) * 64 + 1 * k.val = k.val; omega
    | ⟨1, _⟩ => show win5_4.index t (1 : Fin 2) * 64 + 1 * q.val = win5_6.index t (1 : Fin 2) * 64 + 1 * q.val; omega
  have h5 : (((cfg5.win 5).blk t).view.emb (ix2 (0 : Fin 1) q)) = ix2 (0 : Fin 1) (⟨((((cfg5.win 6).blk t).view.emb (ix2 p q)) 1).val, ((((cfg5.win 6).blk t).view.emb (ix2 p q)) 1).isLt⟩ : Fin 64) := by
    funext a; apply Fin.ext
    match a with
    | ⟨0, _⟩ => show win5_5.index t (0 : Fin 2) * 1 + 1 * 0 = 0; omega
    | ⟨1, _⟩ => show win5_5.index t (1 : Fin 2) * 64 + 1 * q.val = win5_6.index t (1 : Fin 2) * 64 + 1 * q.val; omega
  simp only [h0, h1, h2, h3, h4, h5]

theorem mem_blk5 (t : Fin cfg5.N) (i : S100000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole main_v87).slice (win5_6.rect t)).set ↔ _
  rw [View.set_slice_whole, Rect.mem_set_unit]
  exact Iff.rfl

/-- Every row of the output array is in the block of the point its row number divided by the block height names. -/
theorem cover5_all (i : S100000x64.Idx) : ∃ t : Fin cfg5.N, (cfg5.win 6).flush t = true ∧ i ∈ ((cfg5.win 6).blk t).view.set := by
  have hi0 : (i 0).val < 100000 := (i 0).isLt
  have hi1 : (i 1).val < 64 := (i 1).isLt
  obtain ⟨t, ht⟩ := idx_onto5 ⟨(i 0).val / 10000, by omega⟩
  have q0 : win5_6.index t (0 : Fin 2) = (i 0).val / 10000 := congrFun ht 0
  have q1 : win5_6.index t (1 : Fin 2) = 0 := congrFun ht 1
  refine ⟨t, flush5_6 t, ?_⟩
  rw [mem_blk5]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 64 ≤ (i 1).val ∧ (i 1).val < win5_6.index t (1 : Fin 2) * 64 + 64; omega

/-- The output array after the region: one function of the arrays the region finds. -/
theorem final5 (c : Dev nD) : (dat5 (F := Ideal) V c).arrAt 6 cfg5.N = Spec.updG (arr5_0 V c) (arr5_1 V c) (arr5_2 V c) (arr5_3 V c) (arr5_4 V c) (arr5_5 V c) :=
  (dat5 V c).arrAt_eq_of_cover 6 _ (fun t _ => flushed5_eq V c t) (cover5_all)

end Cert.KernelIdeal.Blocks

end
-- ==== Proof.KiArray6.lean ====
import proofs.«176382_j6528350290006_1_alg».proof.Proof.KiRegion6
import proofs.«176382_j6528350290006_1_alg».proof.Proof.PayloadAt
import proofs.«176382_j6528350290006_1_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- Input window 0's array as the region finds it, at its literal type. -/
abbrev arr6_0 (c : Dev nD) : S1000000x64.Idx → EReal := V c (Pipeline.arrRef spec6 0)
/-- Input window 1's array as the region finds it, at its literal type. -/
abbrev arr6_1 (c : Dev nD) : S1000000x64.Idx → EReal := V c (Pipeline.arrRef spec6 1)
/-- Input window 2's array as the region finds it, at its literal type. -/
abbrev arr6_2 (c : Dev nD) : S64x64.Idx → EReal := V c (Pipeline.arrRef spec6 2)
/-- Input window 3's array as the region finds it, at its literal type. -/
abbrev arr6_3 (c : Dev nD) : S64x64.Idx → EReal := V c (Pipeline.arrRef spec6 3)
/-- Input window 4's array as the region finds it, at its literal type. -/
abbrev arr6_4 (c : Dev nD) : S1x64.Idx → EReal := V c (Pipeline.arrRef spec6 4)

/-- The index maps over the grid: the row-blocked inputs move with the output, one block of rows per point; the weights and the bias stay at their one block. -/
theorem idx_facts6 : ∀ t : Fin cfg6.N,
    win6_0.index t (0 : Fin 2) = win6_5.index t (0 : Fin 2) ∧ win6_0.index t (1 : Fin 2) = 0
    ∧ win6_1.index t (0 : Fin 2) = win6_5.index t (0 : Fin 2) ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (1 : Fin 2) = 0 ∧ win6_5.index t (0 : Fin 2) ≤ 99 :=
  (by decide +kernel : ∀ t : Fin grid6.N, _)

theorem idx_onto6 : ∀ (q0 : Fin 100), ∃ t : Fin cfg6.N, win6_5.index t = ![q0.val, 0] :=
  (by decide +kernel : ∀ (q0 : Fin 100), ∃ t : Fin grid6.N, win6_5.index t = ![q0.val, 0])

set_option maxHeartbeats 2000000 in
/-- What grid point `t` writes back is block `t` of the rows computed from the arrays the region finds. -/
theorem flushed6_eq (c : Dev nD) (t : Fin cfg6.N) :
    (dat6 (F := Ideal) V c).flushed 5 t = ((cfg6.win 5).blk t).view.read (Elt Ideal) (Spec.msgG (arr6_0 V c) (arr6_1 V c) (arr6_2 V c) (arr6_3 V c) (arr6_4 V c)) := by
  show (cfg6.win 5).cut (grid6.coords t) ((dat6 V c).after 5 t) = _
  rw [after6_5]
  unfold out6
  rw [View.canon_unit_zero hz6]
  simp only [View.ld_unit_zero (S := S10000x64) hz6, View.ld_unit_zero (S := S64x64) hz6, View.ld_unit_zero (S := S1x64) hz6]
  obtain ⟨e00, e01, e10, e11, e20, e21, e30, e31, e40, e41, e51, e50⟩ := idx_facts6 t
  funext j
  obtain ⟨p, q, rfl⟩ : ∃ (p : Fin 10000) (q : Fin 64), j = ix2 p q := ⟨j 0, j 1, eq_ix2 j⟩
  refine (PayloadAt.k6_pay1_at _ _ _ _ _ p q).trans ?_
  show (∑ k : Fin 64, arr6_0 V c (((cfg6.win 0).blk t).view.emb (ix2 p k)) * arr6_2 V c (((cfg6.win 2).blk t).view.emb (ix2 k q)))
      + (∑ k : Fin 64, arr6_1 V c (((cfg6.win 1).blk t).view.emb (ix2 p k)) * arr6_3 V c (((cfg6.win 3).blk t).view.emb (ix2 k q)))
      + arr6_4 V c (((cfg6.win 4).blk t).view.emb (ix2 (0 : Fin 1) q))
    = Spec.msgG (arr6_0 V c) (arr6_1 V c) (arr6_2 V c) (arr6_3 V c) (arr6_4 V c) (((cfg6.win 5).blk t).view.emb (ix2 p q))
  unfold Spec.msgG
  have hp : p.val < 10000 := p.isLt
  have hq : q.val < 64 := q.isLt
  have h0 : ∀ k : Fin 64, (((cfg6.win 0).blk t).view.emb (ix2 p k)) = ix2 (⟨((((cfg6.win 5).blk t).view.emb (ix2 p q)) 0).val, ((((cfg6.win 5).blk t).view.emb (ix2 p q)) 0).isLt⟩ : Fin 1000000) k := fun k => by
    funext a; apply Fin.ext
    match a with
    | ⟨0, _⟩ => show win6_0.index t (0 : Fin 2) * 10000 + 1 * p.val = win6_5.index t (0 : Fin 2) * 10000 + 1 * p.val; omega
    | ⟨1, _⟩ => show win6_0.index t (1 : Fin 2) * 64 + 1 * k.val = k.val; omega
  have h1 : ∀ k : Fin 64, (((cfg6.win 1).blk t).view.emb (ix2 p k)) = ix2 (⟨((((cfg6.win 5).blk t).view.emb (ix2 p q)) 0).val, ((((cfg6.win 5).blk t).view.emb (ix2 p q)) 0).isLt⟩ : Fin 1000000) k := fun k => by
    funext a; apply Fin.ext
    match a with
    | ⟨0, _⟩ => show win6_1.index t (0 : Fin 2) * 10000 + 1 * p.val = win6_5.index t (0 : Fin 2) * 10000 + 1 * p.val; omega
    | ⟨1, _⟩ => show win6_1.index t (1 : Fin 2) * 64 + 1 * k.val = k.val; omega
  have h2 : ∀ k : Fin 64, (((cfg6.win 2).blk t).view.emb (ix2 k q)) = ix2 k (⟨((((cfg6.win 5).blk t).view.emb (ix2 p q)) 1).val, ((((cfg6.win 5).blk t).view.emb (ix2 p q)) 1).isLt⟩ : Fin 64) := fun k => by
    funext a; apply Fin.ext
    match a with
    | ⟨0, _⟩ => show win6_2.index t (0 : Fin 2) * 64 + 1 * k.val = k.val; omega
    | ⟨1, _⟩ => show win6_2.index t (1 : Fin 2) * 64 + 1 * q.val = win6_5.index t (1 : Fin 2) * 64 + 1 * q.val; omega
  have h3 : ∀ k : Fin 64, (((cfg6.win 3).blk t).view.emb (ix2 k q)) = ix2 k (⟨((((cfg6.win 5).blk t).view.emb (ix2 p q)) 1).val, ((((cfg6.win 5).blk t).view.emb (ix2 p q)) 1).isLt⟩ : Fin 64) := fun k => by
    funext a; apply Fin.ext
    match a with
    | ⟨0, _⟩ => show win6_3.index t (0 : Fin 2) * 64 + 1 * k.val = k.val; omega
    | ⟨1, _⟩ => show win6_3.index t (1 : Fin 2) * 64 + 1 * q.val = win6_5.index t (1 : Fin 2) * 64 + 1 * q.val; omega
  have h4 : (((cfg6.win 4).blk t).view.emb (ix2 (0 : Fin 1) q)) = ix2 (0 : Fin 1) (⟨((((cfg6.win 5).blk t).view.emb (ix2 p q)) 1).val, ((((cfg6.win 5).blk t).view.emb (ix2 p q)) 1).isLt⟩ : Fin 64) := by
    funext a; apply Fin.ext
    match a with
    | ⟨0, _⟩ => show win6_4.index t (0 : Fin 2) * 1 + 1 * 0 = 0; omega
    | ⟨1, _⟩ => show win6_4.index t (1 : Fin 2) * 64 + 1 * q.val = win6_5.index t (1 : Fin 2) * 64 + 1 * q.val; omega
  simp only [h0, h1, h2, h3, h4]

theorem mem_blk6 (t : Fin cfg6.N) (i : S1000000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole main_v100).slice (win6_5.rect t)).set ↔ _
  rw [View.set_slice_whole, Rect.mem_set_unit]
  exact Iff.rfl

/-- Every row of the output array is in the block of the point its row number divided by the block height names. -/
theorem cover6_all (i : S1000000x64.Idx) : ∃ t : Fin cfg6.N, (cfg6.win 5).flush t = true ∧ i ∈ ((cfg6.win 5).blk t).view.set := by
  have hi0 : (i 0).val < 1000000 := (i 0).isLt
  have hi1 : (i 1).val < 64 := (i 1).isLt
  obtain ⟨t, ht⟩ := idx_onto6 ⟨(i 0).val / 10000, by omega⟩
  have q0 : win6_5.index t (0 : Fin 2) = (i 0).val / 10000 := congrFun ht 0
  have q1 : win6_5.index t (1 : Fin 2) = 0 := congrFun ht 1
  refine ⟨t, flush6_5 t, ?_⟩
  rw [mem_blk6]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 64 ≤ (i 1).val ∧ (i 1).val < win6_5.index t (1 : Fin 2) * 64 + 64; omega

/-- The output array after the region: one function of the arrays the region finds. -/
theorem final6 (c : Dev nD) : (dat6 (F := Ideal) V c).arrAt 5 cfg6.N = Spec.msgG (arr6_0 V c) (arr6_1 V c) (arr6_2 V c) (arr6_3 V c) (arr6_4 V c) :=
  (dat6 V c).arrAt_eq_of_cover 5 _ (fun t _ => flushed6_eq V c t) (cover6_all)

end Cert.KernelIdeal.Blocks

end
-- ==== Proof.KiArray7.lean ====
import proofs.«176382_j6528350290006_1_alg».proof.Proof.KiRegion7
import proofs.«176382_j6528350290006_1_alg».proof.Proof.PayloadAt
import proofs.«176382_j6528350290006_1_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz7 : (![0, 0] : Fin 2 → Nat) = fun _ => 0 := funext fun a => by fin_cases a <;> rfl

/-- Input window 0's array as the region finds it, at its literal type. -/
abbrev arr7_0 (c : Dev nD) : S100000x64.Idx → EReal := V c (Pipeline.arrRef spec7 0)
/-- Input window 1's array as the region finds it, at its literal type. -/
abbrev arr7_1 (c : Dev nD) : S100000x64.Idx → EReal := V c (Pipeline.arrRef spec7 1)
/-- Input window 2's array as the region finds it, at its literal type. -/
abbrev arr7_2 (c : Dev nD) : S100000x1.Idx → EReal := V c (Pipeline.arrRef spec7 2)
/-- Input window 3's array as the region finds it, at its literal type. -/
abbrev arr7_3 (c : Dev nD) : S64x64.Idx → EReal := V c (Pipeline.arrRef spec7 3)
/-- Input window 4's array as the region finds it, at its literal type. -/
abbrev arr7_4 (c : Dev nD) : S64x64.Idx → EReal := V c (Pipeline.arrRef spec7 4)
/-- Input window 5's array as the region finds it, at its literal type. -/
abbrev arr7_5 (c : Dev nD) : S1x64.Idx → EReal := V c (Pipeline.arrRef spec7 5)

/-- The index maps over the grid: the row-blocked inputs move with the output, one block of rows per point; the weights and the bias stay at their one block. -/
theorem idx_facts7 : ∀ t : Fin cfg7.N,
    win7_0.index t (0 : Fin 2) = win7_6.index t (0 : Fin 2) ∧ win7_0.index t (1 : Fin 2) = 0
    ∧ win7_1.index t (0 : Fin 2) = win7_6.index t (0 : Fin 2) ∧ win7_1.index t (1 : Fin 2) = 0
    ∧ win7_2.index t (0 : Fin 2) = win7_6.index t (0 : Fin 2) ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (1 : Fin 2) = 0 ∧ win7_6.index t (0 : Fin 2) ≤ 9 :=
  (by decide +kernel : ∀ t : Fin grid7.N, _)

theorem idx_onto7 : ∀ (q0 : Fin 10), ∃ t : Fin cfg7.N, win7_6.index t = ![q0.val, 0] :=
  (by decide +kernel : ∀ (q0 : Fin 10), ∃ t : Fin grid7.N, win7_6.index t = ![q0.val, 0])

set_option maxHeartbeats 2000000 in
/-- What grid point `t` writes back is block `t` of the rows computed from the arrays the region finds. -/
theorem flushed7_eq (c : Dev nD) (t : Fin cfg7.N) :
    (dat7 (F := Ideal) V c).flushed 6 t = ((cfg7.win 6).blk t).view.read (Elt Ideal) (Spec.updG (arr7_0 V c) (arr7_1 V c) (arr7_2 V c) (arr7_3 V c) (arr7_4 V c) (arr7_5 V c)) := by
  show (cfg7.win 6).cut (grid7.coords t) ((dat7 V c).after 6 t) = _
  rw [after7_6]
  unfold out7
  rw [View.canon_unit_zero hz7]
  simp only [View.ld_unit_zero (S := S10000x64) hz7, View.ld_unit_zero (S := S10000x1) hz7, View.ld_unit_zero (S := S64x64) hz7, View.ld_unit_zero (S := S1x64) hz7]
  obtain ⟨e00, e01, e10, e11, e20, e21, e30, e31, e40, e41, e50, e51, e61, e60⟩ := idx_facts7 t
  funext j
  obtain ⟨p, q, rfl⟩ : ∃ (p : Fin 10000) (q : Fin 64), j = ix2 p q := ⟨j 0, j 1, eq_ix2 j⟩
  refine (PayloadAt.k7_pay1_at _ _ _ _ _ _ p q).trans ?_
  show max ((∑ k : Fin 64, arr7_0 V c (((cfg7.win 0).blk t).view.emb (ix2 p k)) * arr7_3 V c (((cfg7.win 3).blk t).view.emb (ix2 k q)))
      + (∑ k : Fin 64, Ideal.div (arr7_1 V c (((cfg7.win 1).blk t).view.emb (ix2 p k))) (max (arr7_2 V c (((cfg7.win 2).blk t).view.emb (ix2 p (0 : Fin 1)))) (Ideal.ofBits .f32 0x3F800000#32)) * arr7_4 V c (((cfg7.win 4).blk t).view.emb (ix2 k q)))
      + arr7_5 V c (((cfg7.win 5).blk t).view.emb (ix2 (0 : Fin 1) q))) 0
    = Spec.updG (arr7_0 V c) (arr7_1 V c) (arr7_2 V c) (arr7_3 V c) (arr7_4 V c) (arr7_5 V c) (((cfg7.win 6).blk t).view.emb (ix2 p q))
  unfold Spec.updG
  have hp : p.val < 10000 := p.isLt
  have hq : q.val < 64 := q.isLt
  have h0 : ∀ k : Fin 64, (((cfg7.win 0).blk t).view.emb (ix2 p k)) = ix2 (⟨((((cfg7.win 6).blk t).view.emb (ix2 p q)) 0).val, ((((cfg7.win 6).blk t).view.emb (ix2 p q)) 0).isLt⟩ : Fin 100000) k := fun k => by
    funext a; apply Fin.ext
    match a with
    | ⟨0, _⟩ => show win7_0.index t (0 : Fin 2) * 10000 + 1 * p.val = win7_6.index t (0 : Fin 2) * 10000 + 1 * p.val; omega
    | ⟨1, _⟩ => show win7_0.index t (1 : Fin 2) * 64 + 1 * k.val = k.val; omega
  have h1 : ∀ k : Fin 64, (((cfg7.win 1).blk t).view.emb (ix2 p k)) = ix2 (⟨((((cfg7.win 6).blk t).view.emb (ix2 p q)) 0).val, ((((cfg7.win 6).blk t).view.emb (ix2 p q)) 0).isLt⟩ : Fin 100000) k := fun k => by
    funext a; apply Fin.ext
    match a with
    | ⟨0, _⟩ => show win7_1.index t (0 : Fin 2) * 10000 + 1 * p.val = win7_6.index t (0 : Fin 2) * 10000 + 1 * p.val; omega
    | ⟨1, _⟩ => show win7_1.index t (1 : Fin 2) * 64 + 1 * k.val = k.val; omega
  have h2 : (((cfg7.win 2).blk t).view.emb (ix2 p (0 : Fin 1))) = ix2 (⟨((((cfg7.win 6).blk t).view.emb (ix2 p q)) 0).val, ((((cfg7.win 6).blk t).view.emb (ix2 p q)) 0).isLt⟩ : Fin 100000) (0 : Fin 1) := by
    funext a; apply Fin.ext
    match a with
    | ⟨0, _⟩ => show win7_2.index t (0 : Fin 2) * 10000 + 1 * p.val = win7_6.index t (0 : Fin 2) * 10000 + 1 * p.val; omega
    | ⟨1, _⟩ => show win7_2.index t (1 : Fin 2) * 1 + 1 * 0 = 0; omega
  have h3 : ∀ k : Fin 64, (((cfg7.win 3).blk t).view.emb (ix2 k q)) = ix2 k (⟨((((cfg7.win 6).blk t).view.emb (ix2 p q)) 1).val, ((((cfg7.win 6).blk t).view.emb (ix2 p q)) 1).isLt⟩ : Fin 64) := fun k => by
    funext a; apply Fin.ext
    match a with
    | ⟨0, _⟩ => show win7_3.index t (0 : Fin 2) * 64 + 1 * k.val = k.val; omega
    | ⟨1, _⟩ => show win7_3.index t (1 : Fin 2) * 64 + 1 * q.val = win7_6.index t (1 : Fin 2) * 64 + 1 * q.val; omega
  have h4 : ∀ k : Fin 64, (((cfg7.win 4).blk t).view.emb (ix2 k q)) = ix2 k (⟨((((cfg7.win 6).blk t).view.emb (ix2 p q)) 1).val, ((((cfg7.win 6).blk t).view.emb (ix2 p q)) 1).isLt⟩ : Fin 64) := fun k => by
    funext a; apply Fin.ext
    match a with
    | ⟨0, _⟩ => show win7_4.index t (0 : Fin 2) * 64 + 1 * k.val = k.val; omega
    | ⟨1, _⟩ => show win7_4.index t (1 : Fin 2) * 64 + 1 * q.val = win7_6.index t (1 : Fin 2) * 64 + 1 * q.val; omega
  have h5 : (((cfg7.win 5).blk t).view.emb (ix2 (0 : Fin 1) q)) = ix2 (0 : Fin 1) (⟨((((cfg7.win 6).blk t).view.emb (ix2 p q)) 1).val, ((((cfg7.win 6).blk t).view.emb (ix2 p q)) 1).isLt⟩ : Fin 64) := by
    funext a; apply Fin.ext
    match a with
    | ⟨0, _⟩ => show win7_5.index t (0 : Fin 2) * 1 + 1 * 0 = 0; omega
    | ⟨1, _⟩ => show win7_5.index t (1 : Fin 2) * 64 + 1 * q.val = win7_6.index t (1 : Fin 2) * 64 + 1 * q.val; omega
  simp only [h0, h1, h2, h3, h4, h5]

theorem mem_blk7 (t : Fin cfg7.N) (i : S100000x64.Idx) :
    i ∈ ((cfg7.win 6).blk t).view.set ↔ ∀ a : Fin 2, win7_6.index t a * S10000x64.size a ≤ (i a).val ∧ (i a).val < win7_6.index t a * S10000x64.size a + S10000x64.size a := by
  show i ∈ ((View.whole main_v114).slice (win7_6.rect t)).set ↔ _
  rw [View.set_slice_whole, Rect.mem_set_unit]
  exact Iff.rfl

/-- Every row of the output array is in the block of the point its row number divided by the block height names. -/
theorem cover7_all (i : S100000x64.Idx) : ∃ t : Fin cfg7.N, (cfg7.win 6).flush t = true ∧ i ∈ ((cfg7.win 6).blk t).view.set := by
  have hi0 : (i 0).val < 100000 := (i 0).isLt
  have hi1 : (i 1).val < 64 := (i 1).isLt
  obtain ⟨t, ht⟩ := idx_onto7 ⟨(i 0).val / 10000, by omega⟩
  have q0 : win7_6.index t (0 : Fin 2) = (i 0).val / 10000 := congrFun ht 0
  have q1 : win7_6.index t (1 : Fin 2) = 0 := congrFun ht 1
  refine ⟨t, flush7_6 t, ?_⟩
  rw [mem_blk7]
  intro a
  match a with
  | ⟨0, _⟩ => show win7_6.index t (0 : Fin 2) * 10000 ≤ (i 0).val ∧ (i 0).val < win7_6.index t (0 : Fin 2) * 10000 + 10000; omega
  | ⟨1, _⟩ => show win7_6.index t (1 : Fin 2) * 64 ≤ (i 1).val ∧ (i 1).val < win7_6.index t (1 : Fin 2) * 64 + 64; omega

/-- The output array after the region: one function of the arrays the region finds. -/
theorem final7 (c : Dev nD) : (dat7 (F := Ideal) V c).arrAt 6 cfg7.N = Spec.updG (arr7_0 V c) (arr7_1 V c) (arr7_2 V c) (arr7_3 V c) (arr7_4 V c) (arr7_5 V c) :=
  (dat7 V c).arrAt_eq_of_cover 6 _ (fun t _ => flushed7_eq V c t) (cover7_all)

end Cert.KernelIdeal.Blocks

end
-- ==== Proof.LossArray.lean ====
import proofs.«176382_j6528350290006_1_alg».proof.Proof.KiRegion8
import proofs.«176382_j6528350290006_1_alg».proof.Proof.KiRegion9
import proofs.«176382_j6528350290006_1_alg».proof.Proof.PayloadAt
import Idealize.ShloMosaic.Lib.Pipeline.Value
import Idealize.ShloMosaic.Lib.ValueIdx
import Idealize.ShloMosaic.Lib.ValueLayout
import Idealize.ShloMosaic.Lib.Tactic

/-! # The two loss regions' result arrays

Each loss region walks a `[100000, 64]` array of scores in ten blocks of 10000 rows, carrying a `[1, 1]`
accumulator: the first grid point resets it, every point adds its block's sum of per-entry terms, and the last
point copies it to the `[1, 1]` result array. Read at the ideal values, the result array ends holding the sum of
the term over every entry of the score array. -/

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Generic
variable {F : FTy → Type} [FloatOps F]

/-- The zero offsets of a whole-buffer rectangle. -/
theorem hz11 : (![0, 0] : Fin 2 → Nat) = fun _ => 0 := funext fun a => by fin_cases a <;> rfl

/-! ## Region 8: what each control case leaves, as the payloads of the body -/

/-- A middle grid point leaves in the accumulator the block's sum added to what it found there. -/
theorem sout8_B_0_eq (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : ¬cond8_1 i)
    (x0 : Vec F S10000x64 .f32) (xs0 : Vec F S1x1 .f32) :
    sout8_B_0 c i arg1 harg1 arg2 harg2 arg3 harg3 hc0 hc1 x0 xs0 = k8_pay2 x0 xs0 := by
  unfold sout8_B_0
  rw [View.read_writes_eq_canon _ _ _ (scover8_B_0 c i arg1 harg1 arg2 harg2 arg3 harg3 hc0 hc1 x0 xs0)]
  unfold kernelRun8_B
  dsimp only
  rw [View.canon_unit_zero hz11]
  simp only [View.readAt_eq_ld, harg1.read_unread, harg3.read_unread, View.ld_unit_zero (S := S10000x64) hz11,
    View.ld_unit_zero (S := S1x1) hz11]

/-- The first grid point resets the accumulator to zero, then adds the block's sum. -/
theorem sout8_A_0_eq (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond8_0 i) (hc1 : ¬cond8_1 i)
    (x0 : Vec F S10000x64 .f32) :
    sout8_A_0 c i arg1 harg1 arg2 harg2 arg3 harg3 hc0 hc1 x0 = k8_pay2 x0 (k8_pay1 (F := F)) := by
  unfold sout8_A_0
  rw [View.read_writes_eq_canon _ _ _ (scover8_A_0 c i arg1 harg1 arg2 harg2 arg3 harg3 hc0 hc1 x0)]
  unfold kernelRun8_A
  dsimp only
  sl_unfold_words
  rw [View.canon_cons_unit_zero (S := S1x1) hz11, View.readCov_unit_zero (S := S1x1) _ hz11]
  simp only [View.readAt_eq_ld, harg1.read_unread, View.ld_unit_zero (S := S10000x64) hz11]

/-- The last grid point leaves in the accumulator the block's sum added to what it found there … -/
theorem sout8_C_0_eq (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) :
    sout8_C_0 c i arg1 harg1 arg2 harg2 arg3 harg3 hc0 hc1 x0 xs0 = k8_pay2 x0 xs0 := by
  unfold sout8_C_0
  rw [View.read_writes_eq_canon _ _ _ (scover8_C_0 c i arg1 harg1 arg2 harg2 arg3 harg3 hc0 hc1 x0 xs0)]
  unfold kernelRun8_C
  dsimp only
  sl_unfold_words
  rw [View.canon_unit_zero hz11]
  simp only [View.readAt_eq_ld, harg1.read_unread, harg3.read_unread, View.ld_unit_zero (S := S10000x64) hz11,
    View.ld_unit_zero (S := S1x1) hz11]

/-- … and copies that accumulator to the output buffer. -/
theorem out8_C_1_eq (c : Dev nD) (i : grid8.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond8_0 i) (hc1 : cond8_1 i)
    (x0 : Vec F S10000x64 .f32) (xs0 : Vec F S1x1 .f32) :
    out8_C_1 c i arg1 harg1 arg2 harg2 arg3 harg3 hc0 hc1 x0 xs0 = k8_pay2 x0 xs0 := by
  unfold out8_C_1
  rw [View.read_writes_eq_canon _ _ _ (cover8_C_1 c i arg1 harg1 arg2 harg2 arg3 harg3 hc0 hc1 x0 xs0)]
  unfold kernelRun8_C
  dsimp only
  sl_unfold_words
  rw [View.canon_unit_zero hz11, View.readCov_unit_zero (S := S1x1) _ hz11]
  simp only [View.readAt_eq_ld, harg1.read_unread, harg3.read_unread, View.ld_unit_zero (S := S10000x64) hz11,
    View.ld_unit_zero (S := S1x1) hz11]

/-! ## Region 9: what each control case leaves, as the payloads of the body -/

/-- A middle grid point leaves in the accumulator the block's sum added to what it found there. -/
theorem sout9_B_0_eq (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : ¬cond9_1 i)
    (x0 : Vec F S10000x64 .f32) (xs0 : Vec F S1x1 .f32) :
    sout9_B_0 c i arg1 harg1 arg2 harg2 arg3 harg3 hc0 hc1 x0 xs0 = k9_pay2 x0 xs0 := by
  unfold sout9_B_0
  rw [View.read_writes_eq_canon _ _ _ (scover9_B_0 c i arg1 harg1 arg2 harg2 arg3 harg3 hc0 hc1 x0 xs0)]
  unfold kernelRun9_B
  dsimp only
  rw [View.canon_unit_zero hz11]
  simp only [View.readAt_eq_ld, harg1.read_unread, harg3.read_unread, View.ld_unit_zero (S := S10000x64) hz11,
    View.ld_unit_zero (S := S1x1) hz11]

/-- The first grid point resets the accumulator to zero, then adds the block's sum. -/
theorem sout9_A_0_eq (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : cond9_0 i) (hc1 : ¬cond9_1 i)
    (x0 : Vec F S10000x64 .f32) :
    sout9_A_0 c i arg1 harg1 arg2 harg2 arg3 harg3 hc0 hc1 x0 = k9_pay2 x0 (k9_pay1 (F := F)) := by
  unfold sout9_A_0
  rw [View.read_writes_eq_canon _ _ _ (scover9_A_0 c i arg1 harg1 arg2 harg2 arg3 harg3 hc0 hc1 x0)]
  unfold kernelRun9_A
  dsimp only
  sl_unfold_words
  rw [View.canon_cons_unit_zero (S := S1x1) hz11, View.readCov_unit_zero (S := S1x1) _ hz11]
  simp only [View.readAt_eq_ld, harg1.read_unread, View.ld_unit_zero (S := S10000x64) hz11]

/-- The last grid point leaves in the accumulator the block's sum added to what it found there … -/
theorem sout9_C_0_eq (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) :
    sout9_C_0 c i arg1 harg1 arg2 harg2 arg3 harg3 hc0 hc1 x0 xs0 = k9_pay2 x0 xs0 := by
  unfold sout9_C_0
  rw [View.read_writes_eq_canon _ _ _ (scover9_C_0 c i arg1 harg1 arg2 harg2 arg3 harg3 hc0 hc1 x0 xs0)]
  unfold kernelRun9_C
  dsimp only
  sl_unfold_words
  rw [View.canon_unit_zero hz11]
  simp only [View.readAt_eq_ld, harg1.read_unread, harg3.read_unread, View.ld_unit_zero (S := S10000x64) hz11,
    View.ld_unit_zero (S := S1x1) hz11]

/-- … and copies that accumulator to the output buffer. -/
theorem out9_C_1_eq (c : Dev nD) (i : grid9.Coords) (arg1 : Memref sig .tc .vmem S10000x64 .f32) (harg1 : arg1.IsWhole) (arg2 : Memref sig .tc .vmem S1x1 .f32) (harg2 : arg2.IsWhole) (arg3 : Memref sig .tc .vmem S1x1 .f32) (harg3 : arg3.IsWhole) (hc0 : ¬cond9_0 i) (hc1 : cond9_1 i)
    (x0 : Vec F S10000x64 .f32) (xs0 : Vec F S1x1 .f32) :
    out9_C_1 c i arg1 harg1 arg2 harg2 arg3 harg3 hc0 hc1 x0 xs0 = k9_pay2 x0 xs0 := by
  unfold out9_C_1
  rw [View.read_writes_eq_canon _ _ _ (cover9_C_1 c i arg1 harg1 arg2 harg2 arg3 harg3 hc0 hc1 x0 xs0)]
  unfold kernelRun9_C
  dsimp only
  sl_unfold_words
  rw [View.canon_unit_zero hz11, View.readCov_unit_zero (S := S1x1) _ hz11]
  simp only [View.readAt_eq_ld, harg1.read_unread, harg3.read_unread, View.ld_unit_zero (S := S10000x64) hz11,
    View.ld_unit_zero (S := S1x1) hz11]

end Generic

/-! ## Region 8: the accumulator after each grid point, and the result array -/

section Region8
variable (V : (c : Dev nD) → (b : Ref sig .tc) → Buf (Elt Ideal) ((c : Thread nD τ).loc b))

/-- The score array the region reads, as a function of its index. -/
abbrev scores8 (c : Dev nD) : S100000x64.Idx → EReal := V c (Pipeline.arrRef spec8 0)

/-- The input window's block index at each grid point: block `t` of the rows, the one block of the columns. -/
theorem idx8_0 : ∀ t : Fin cfg8.N, win8_0.index t (0 : Fin 2) = t.val ∧ win8_0.index t (1 : Fin 2) = 0 :=
  (by decide +kernel : ∀ t : Fin grid8.N, win8_0.index t (0 : Fin 2) = t.val ∧ win8_0.index t (1 : Fin 2) = 0)

/-- Block `t` of the score array at `(p, q)` is the array at row `t * 10000 + p`, column `q`. -/
theorem iblk8_at (c : Dev nD) (t : Fin cfg8.N) (p : Fin 10000) (q : Fin 64) :
    (iblk8 V c 0 t : Vec Ideal S10000x64 .f32) (ix2 p q)
      = scores8 V c (ix2 (⟨t.val * 10000 + p.val, by
          have hN : t.val < 10 := lt_of_lt_of_eq t.isLt (show cfg8.N = 10 from N_8); omega⟩ : Fin 100000) q) := by
  unfold iblk8
  rw [View.read_apply]
  refine congrArg (V c (Pipeline.arrRef spec8 0)) (funext fun a => Fin.ext ?_)
  match a with
  | ⟨0, _⟩ =>
    show win8_0.index t (0 : Fin 2) * 10000 + 1 * p.val = t.val * 10000 + p.val
    rw [(idx8_0 t).1]; omega
  | ⟨1, _⟩ =>
    show win8_0.index t (1 : Fin 2) * 64 + 1 * q.val = q.val
    rw [(idx8_0 t).2]; omega

/-- The sum of the per-entry terms over block `t` (zero past the grid). -/
def blkLoss8 (c : Dev nD) (t : ℕ) : EReal :=
  if h : t < cfg8.N then
    ∑ p : Fin 10000, ∑ q : Fin 64, PayloadAt.bceTerm1 ((iblk8 V c 0 ⟨t, h⟩ : Vec Ideal S10000x64 .f32) (ix2 p q))
  else 0

/-- After grid point `n` the accumulator holds the sum of the blocks' sums up to `n`: by induction on the point. -/
theorem acc8_eq (c : Dev nD) : ∀ (n : ℕ) (hn : n < cfg8.N) (j : S1x1.Idx),
    (outsAt8 V c n hn).2 j = ∑ t ∈ Finset.range (n + 1), blkLoss8 V c t
  | 0, hn, j => by
    rw [outsAt8_A V c ⟨0, hn⟩ rfl (by show ¬(0 : ℕ) % 10 = 9; decide)]
    dsimp only
    rw [sout8_A_0_eq, PayloadAt.k8_pay2_at, PayloadAt.k8_pay1_at, zero_add, Finset.sum_range_one]
    unfold blkLoss8
    rw [dif_pos hn]
  | n + 1, hn, j => by
    have hN : cfg8.N = 10 := N_8
    have h0 : ¬(⟨n + 1, hn⟩ : Fin cfg8.N).val % 10 = 0 := by dsimp only; omega
    rw [Finset.sum_range_succ, ← acc8_eq c n (Nat.lt_of_succ_lt hn) j]
    have hb : blkLoss8 V c (n + 1)
        = ∑ p : Fin 10000, ∑ q : Fin 64, PayloadAt.bceTerm1 ((iblk8 V c 0 ⟨n + 1, hn⟩ : Vec Ideal S10000x64 .f32) (ix2 p q)) := by
      unfold blkLoss8; rw [dif_pos hn]
    rw [hb]
    by_cases h1 : (⟨n + 1, hn⟩ : Fin cfg8.N).val % 10 = 9
    · rw [outsAt8_C V c ⟨n + 1, hn⟩ h0 h1]
      dsimp only
      rw [sout8_C_0_eq, PayloadAt.k8_pay2_at]
      rfl
    · rw [outsAt8_B V c ⟨n + 1, hn⟩ h0 h1]
      dsimp only
      rw [sout8_B_0_eq, PayloadAt.k8_pay2_at]
      rfl

/-- The ten blocks' sums add up to the sum over every entry of the score array. -/
theorem sum_blkLoss8 (c : Dev nD) :
    ∑ t ∈ Finset.range 10, blkLoss8 V c t = ∑ i : S100000x64.Idx, PayloadAt.bceTerm1 (scores8 V c i) := by
  have hN : cfg8.N = 10 := N_8
  rw [sum_idx2 (fun i : S100000x64.Idx => PayloadAt.bceTerm1 (scores8 V c i)),
    ← Equiv.sum_comp (finProdFinEquiv (m := 10) (n := 10000))
      (fun a : Fin 100000 => ∑ q : Fin 64, PayloadAt.bceTerm1 (scores8 V c (ix2 a q))),
    Fintype.sum_prod_type, Finset.sum_range]
  refine Finset.sum_congr rfl fun t _ => ?_
  have ht : t.val < cfg8.N := by rw [hN]; exact t.isLt
  unfold blkLoss8
  rw [dif_pos ht]
  refine Finset.sum_congr rfl fun p _ => Finset.sum_congr rfl fun q _ => ?_
  rw [iblk8_at]
  refine congrArg (fun a : Fin 100000 => PayloadAt.bceTerm1 (scores8 V c (ix2 a q))) (Fin.ext ?_)
  show t.val * 10000 + p.val = p.val + 10000 * t.val
  omega

/-- The sum of the per-entry term over the whole score array. -/
def total8 (c : Dev nD) : EReal := ∑ i : S100000x64.Idx, PayloadAt.bceTerm1 (scores8 V c i)

/-- After the last grid point the output buffer holds the total. -/
theorem out8_last (c : Dev nD) (t : Fin cfg8.N) (h9 : t.val % 10 = 9) (j : S1x1.Idx) :
    (outsAt8 V c t.val t.isLt).1 j = total8 V c := by
  have hN : cfg8.N = 10 := N_8
  obtain ⟨tv, htv⟩ := t
  obtain rfl : tv = 9 := by dsimp only at h9; omega
  rw [outsAt8_C V c ⟨9, htv⟩ (by show ¬(9 : ℕ) % 10 = 0; decide) (by show (9 : ℕ) % 10 = 9; decide)]
  dsimp only
  rw [out8_C_1_eq, PayloadAt.k8_pay2_at, acc8_eq V c]
  unfold total8
  rw [← sum_blkLoss8 V c, Finset.sum_range_succ _ 9]
  refine congrArg₂ (· + ·) rfl ?_
  unfold blkLoss8
  rw [dif_pos htv]

/-- … at its one entry, so as a vector. -/
theorem out8_last_vec (c : Dev nD) (t : Fin cfg8.N) (h9 : t.val % 10 = 9) :
    (outsAt8 V c t.val t.isLt).1 = fun _ => total8 V c :=
  funext fun j => out8_last V c t h9 j

/-- What the last point writes back is the total, at the one entry of the result. -/
theorem flushed8_eq (c : Dev nD) (t : Fin cfg8.N) (hf : (cfg8.win 1).flush t = true) :
    (dat8 V c).flushed 1 t = ((cfg8.win 1).blk t).view.read (Elt Ideal) (fun _ => total8 V c) := by
  have h9 : t.val % 10 = 9 := (flush8_1 t).mp hf
  show (cfg8.win 1).cut (grid8.coords t) ((dat8 V c).after 1 t) = _
  rw [after8_1, out8_last_vec V c t h9]
  generalize total8 V c = T
  rfl

/-- The result array after the region: the sum of the per-entry term over the whole score array. The one block the
    last point writes back is the whole `[1, 1]` array. -/
theorem final8 (c : Dev nD) : (dat8 V c).arrAt 1 cfg8.N = fun _ => total8 V c :=
  (dat8 V c).arrAt_eq_of_cover 1 (fun _ => total8 V c) (flushed8_eq V c) fun i =>
    ⟨t8_9, (flush8_1 t8_9).mpr rfl, by
      show i ∈ ((View.whole main_v115).slice (win8_1.rect t8_9)).set
      rw [View.set_slice_whole, Rect.mem_set_unit]
      intro a
      have h0 : (i 0 : Nat) < 1 := (i 0).isLt
      have h1 : (i 1 : Nat) < 1 := (i 1).isLt
      match a with
      | ⟨0, _⟩ =>
        show win8_1.index t8_9 0 * win8_1.size 0 ≤ (i 0 : Nat)
          ∧ (i 0 : Nat) < win8_1.index t8_9 0 * win8_1.size 0 + win8_1.xsize (grid8.coords t8_9) 0
        rw [show win8_1.index t8_9 0 * win8_1.size 0 = 0 from by decide +kernel,
          show win8_1.xsize (grid8.coords t8_9) 0 = 1 from by decide +kernel]
        omega
      | ⟨1, _⟩ =>
        show win8_1.index t8_9 1 * win8_1.size 1 ≤ (i 1 : Nat)
          ∧ (i 1 : Nat) < win8_1.index t8_9 1 * win8_1.size 1 + win8_1.xsize (grid8.coords t8_9) 1
        rw [show win8_1.index t8_9 1 * win8_1.size 1 = 0 from by decide +kernel,
          show win8_1.xsize (grid8.coords t8_9) 1 = 1 from by decide +kernel]
        omega⟩

end Region8

/-! ## Region 9: the accumulator after each grid point, and the result array -/

section Region9
variable (V : (c : Dev nD) → (b : Ref sig .tc) → Buf (Elt Ideal) ((c : Thread nD τ).loc b))

/-- The score array the region reads, as a function of its index. -/
abbrev scores9 (c : Dev nD) : S100000x64.Idx → EReal := V c (Pipeline.arrRef spec9 0)

/-- The input window's block index at each grid point: block `t` of the rows, the one block of the columns. -/
theorem idx9_0 : ∀ t : Fin cfg9.N, win9_0.index t (0 : Fin 2) = t.val ∧ win9_0.index t (1 : Fin 2) = 0 :=
  (by decide +kernel : ∀ t : Fin grid9.N, win9_0.index t (0 : Fin 2) = t.val ∧ win9_0.index t (1 : Fin 2) = 0)

/-- Block `t` of the score array at `(p, q)` is the array at row `t * 10000 + p`, column `q`. -/
theorem iblk9_at (c : Dev nD) (t : Fin cfg9.N) (p : Fin 10000) (q : Fin 64) :
    (iblk9 V c 0 t : Vec Ideal S10000x64 .f32) (ix2 p q)
      = scores9 V c (ix2 (⟨t.val * 10000 + p.val, by
          have hN : t.val < 10 := lt_of_lt_of_eq t.isLt (show cfg9.N = 10 from N_9); omega⟩ : Fin 100000) q) := by
  unfold iblk9
  rw [View.read_apply]
  refine congrArg (V c (Pipeline.arrRef spec9 0)) (funext fun a => Fin.ext ?_)
  match a with
  | ⟨0, _⟩ =>
    show win9_0.index t (0 : Fin 2) * 10000 + 1 * p.val = t.val * 10000 + p.val
    rw [(idx9_0 t).1]; omega
  | ⟨1, _⟩ =>
    show win9_0.index t (1 : Fin 2) * 64 + 1 * q.val = q.val
    rw [(idx9_0 t).2]; omega

/-- The sum of the per-entry terms over block `t` (zero past the grid). -/
def blkLoss9 (c : Dev nD) (t : ℕ) : EReal :=
  if h : t < cfg9.N then
    ∑ p : Fin 10000, ∑ q : Fin 64, PayloadAt.bceTerm0 ((iblk9 V c 0 ⟨t, h⟩ : Vec Ideal S10000x64 .f32) (ix2 p q))
  else 0

/-- After grid point `n` the accumulator holds the sum of the blocks' sums up to `n`: by induction on the point. -/
theorem acc9_eq (c : Dev nD) : ∀ (n : ℕ) (hn : n < cfg9.N) (j : S1x1.Idx),
    (outsAt9 V c n hn).2 j = ∑ t ∈ Finset.range (n + 1), blkLoss9 V c t
  | 0, hn, j => by
    rw [outsAt9_A V c ⟨0, hn⟩ rfl (by show ¬(0 : ℕ) % 10 = 9; decide)]
    dsimp only
    rw [sout9_A_0_eq, PayloadAt.k9_pay2_at, PayloadAt.k9_pay1_at, zero_add, Finset.sum_range_one]
    unfold blkLoss9
    rw [dif_pos hn]
  | n + 1, hn, j => by
    have hN : cfg9.N = 10 := N_9
    have h0 : ¬(⟨n + 1, hn⟩ : Fin cfg9.N).val % 10 = 0 := by dsimp only; omega
    rw [Finset.sum_range_succ, ← acc9_eq c n (Nat.lt_of_succ_lt hn) j]
    have hb : blkLoss9 V c (n + 1)
        = ∑ p : Fin 10000, ∑ q : Fin 64, PayloadAt.bceTerm0 ((iblk9 V c 0 ⟨n + 1, hn⟩ : Vec Ideal S10000x64 .f32) (ix2 p q)) := by
      unfold blkLoss9; rw [dif_pos hn]
    rw [hb]
    by_cases h1 : (⟨n + 1, hn⟩ : Fin cfg9.N).val % 10 = 9
    · rw [outsAt9_C V c ⟨n + 1, hn⟩ h0 h1]
      dsimp only
      rw [sout9_C_0_eq, PayloadAt.k9_pay2_at]
      rfl
    · rw [outsAt9_B V c ⟨n + 1, hn⟩ h0 h1]
      dsimp only
      rw [sout9_B_0_eq, PayloadAt.k9_pay2_at]
      rfl

/-- The ten blocks' sums add up to the sum over every entry of the score array. -/
theorem sum_blkLoss9 (c : Dev nD) :
    ∑ t ∈ Finset.range 10, blkLoss9 V c t = ∑ i : S100000x64.Idx, PayloadAt.bceTerm0 (scores9 V c i) := by
  have hN : cfg9.N = 10 := N_9
  rw [sum_idx2 (fun i : S100000x64.Idx => PayloadAt.bceTerm0 (scores9 V c i)),
    ← Equiv.sum_comp (finProdFinEquiv (m := 10) (n := 10000))
      (fun a : Fin 100000 => ∑ q : Fin 64, PayloadAt.bceTerm0 (scores9 V c (ix2 a q))),
    Fintype.sum_prod_type, Finset.sum_range]
  refine Finset.sum_congr rfl fun t _ => ?_
  have ht : t.val < cfg9.N := by rw [hN]; exact t.isLt
  unfold blkLoss9
  rw [dif_pos ht]
  refine Finset.sum_congr rfl fun p _ => Finset.sum_congr rfl fun q _ => ?_
  rw [iblk9_at]
  refine congrArg (fun a : Fin 100000 => PayloadAt.bceTerm0 (scores9 V c (ix2 a q))) (Fin.ext ?_)
  show t.val * 10000 + p.val = p.val + 10000 * t.val
  omega

/-- The sum of the per-entry term over the whole score array. -/
def total9 (c : Dev nD) : EReal := ∑ i : S100000x64.Idx, PayloadAt.bceTerm0 (scores9 V c i)

/-- After the last grid point the output buffer holds the total. -/
theorem out9_last (c : Dev nD) (t : Fin cfg9.N) (h9 : t.val % 10 = 9) (j : S1x1.Idx) :
    (outsAt9 V c t.val t.isLt).1 j = total9 V c := by
  have hN : cfg9.N = 10 := N_9
  obtain ⟨tv, htv⟩ := t
  obtain rfl : tv = 9 := by dsimp only at h9; omega
  rw [outsAt9_C V c ⟨9, htv⟩ (by show ¬(9 : ℕ) % 10 = 0; decide) (by show (9 : ℕ) % 10 = 9; decide)]
  dsimp only
  rw [out9_C_1_eq, PayloadAt.k9_pay2_at, acc9_eq V c]
  unfold total9
  rw [← sum_blkLoss9 V c, Finset.sum_range_succ _ 9]
  refine congrArg₂ (· + ·) rfl ?_
  unfold blkLoss9
  rw [dif_pos htv]

/-- … at its one entry, so as a vector. -/
theorem out9_last_vec (c : Dev nD) (t : Fin cfg9.N) (h9 : t.val % 10 = 9) :
    (outsAt9 V c t.val t.isLt).1 = fun _ => total9 V c :=
  funext fun j => out9_last V c t h9 j

/-- What the last point writes back is the total, at the one entry of the result. -/
theorem flushed9_eq (c : Dev nD) (t : Fin cfg9.N) (hf : (cfg9.win 1).flush t = true) :
    (dat9 V c).flushed 1 t = ((cfg9.win 1).blk t).view.read (Elt Ideal) (fun _ => total9 V c) := by
  have h9 : t.val % 10 = 9 := (flush9_1 t).mp hf
  show (cfg9.win 1).cut (grid9.coords t) ((dat9 V c).after 1 t) = _
  rw [after9_1, out9_last_vec V c t h9]
  generalize total9 V c = T
  rfl

/-- The result array after the region: the sum of the per-entry term over the whole score array. The one block the
    last point writes back is the whole `[1, 1]` array. -/
theorem final9 (c : Dev nD) : (dat9 V c).arrAt 1 cfg9.N = fun _ => total9 V c :=
  (dat9 V c).arrAt_eq_of_cover 1 (fun _ => total9 V c) (flushed9_eq V c) fun i =>
    ⟨t9_9, (flush9_1 t9_9).mpr rfl, by
      show i ∈ ((View.whole main_v118).slice (win9_1.rect t9_9)).set
      rw [View.set_slice_whole, Rect.mem_set_unit]
      intro a
      have h0 : (i 0 : Nat) < 1 := (i 0).isLt
      have h1 : (i 1 : Nat) < 1 := (i 1).isLt
      match a with
      | ⟨0, _⟩ =>
        show win9_1.index t9_9 0 * win9_1.size 0 ≤ (i 0 : Nat)
          ∧ (i 0 : Nat) < win9_1.index t9_9 0 * win9_1.size 0 + win9_1.xsize (grid9.coords t9_9) 0
        rw [show win9_1.index t9_9 0 * win9_1.size 0 = 0 from by decide +kernel,
          show win9_1.xsize (grid9.coords t9_9) 0 = 1 from by decide +kernel]
        omega
      | ⟨1, _⟩ =>
        show win9_1.index t9_9 1 * win9_1.size 1 ≤ (i 1 : Nat)
          ∧ (i 1 : Nat) < win9_1.index t9_9 1 * win9_1.size 1 + win9_1.xsize (grid9.coords t9_9) 1
        rw [show win9_1.index t9_9 1 * win9_1.size 1 = 0 from by decide +kernel,
          show win9_1.xsize (grid9.coords t9_9) 1 = 1 from by decide +kernel]
        omega⟩

end Region9

end Cert.KernelIdeal.Blocks
-- ==== Proof.Stages.lean ====
import proofs.«176382_j6528350290006_1_alg».proof.Proof.Spec
import Idealize.ShloMosaic.PureOps.Ideal

noncomputable section

namespace Cert.KernelIdeal.Stages

open Cert.KernelIdeal Cert.KernelIdeal.Facts₀ Cert.KernelIdeal.Facts
open Idealize.ShloMosaic

/-! The host stretches of the program between its kernel regions, as functions of the arrays they read: row gathers by
    (wrapped) index, the two halves of a weight transposed, a bias as a row, messages added up by destination node, the
    in-degree as a column; and one layer, one encoder pass and the loss read off them. All at exact arithmetic. -/

abbrev AE := (⟨S1000000x64, .f32⟩ : BufTy).Contents (Elt Ideal)
abbrev AN := (⟨S100000x64, .f32⟩ : BufTy).Contents (Elt Ideal)
abbrev IE := (⟨S1000000, .i32⟩ : BufTy).Contents (Elt Ideal)
abbrev AW := (⟨S64x128, .f32⟩ : BufTy).Contents (Elt Ideal)
abbrev AB := (⟨S64, .f32⟩ : BufTy).Contents (Elt Ideal)
abbrev A0 := (⟨S_, .f32⟩ : BufTy).Contents (Elt Ideal)

/-- A negative index counts from the end: `n` is added to it. -/
def wrapIdx (n : BitVec 32) (x : IE) : IE :=
  select (cmpi .slt x (broadcastInDim S1000000 ![] bcast_S_S1000000 (constantI S_ 32 0#32)))
    (addi x (broadcastInDim S1000000 ![] bcast_S_S1000000 (constantI S_ 32 n))) x
def colIdx (x : IE) : (⟨S1000000x1, .i32⟩ : BufTy).Contents (Elt Ideal) := broadcastInDim S1000000x1 ![0] bcast_S1000000_S1000000x1_0 x
/-- Every edge's source node row. -/
def gathN (h : AN) (src : IE) : AE := Host.gather gather_S100000x64_S1000000x1_S1000000x64_1_0_n_n_0_1_164 h (colIdx (wrapIdx 100000#32 src))
/-- The edge features permuted. -/
def gathE (ef : AE) (perm : IE) : AE := Host.gather gather_S1000000x64_S1000000x1_S1000000x64_1_0_n_n_0_1_164 ef (colIdx (wrapIdx 1000000#32 perm))
def Tlo (W : AW) : (⟨S64x64, .f32⟩ : BufTy).Contents (Elt Ideal) := transpose S64x64 [1, 0] (extractStridedSlice S64x64 ![0, 0] W slices_S64x128_S64x64_0_0) transposes_S64x64_S64x64_1_0
def Thi (W : AW) : (⟨S64x64, .f32⟩ : BufTy).Contents (Elt Ideal) := transpose S64x64 [1, 0] (extractStridedSlice S64x64 ![0, 64] W slices_S64x128_S64x64_0_64) transposes_S64x64_S64x64_1_0
def rowOf (b : AB) : (⟨S1x64, .f32⟩ : BufTy).Contents (Elt Ideal) := shapeCast S1x64 b shapeCasts_S64_S1x64
/-- The messages added up by destination node. -/
def scat (dst : IE) (msg : AE) : AN :=
  Host.scatterAdd scatter_S100000x64_S1000000x1_S1000000x64_1_0_0_1 (broadcastInDim S100000x64 ![] bcast_S_S100000x64 (constant (F := Ideal) S_ .f32 0x00000000#32))
    (broadcastInDim S1000000x1 ![0] bcast_S1000000_S1000000x1_0 dst) msg
/-- The in-degrees: ones added up by destination node. -/
def cntOf (dst : IE) : (⟨S100000, .f32⟩ : BufTy).Contents (Elt Ideal) :=
  Host.scatterAdd scatter_S100000_S1000000x1_S1000000_n_0_0_1 (broadcastInDim S100000 ![] bcast_S_S100000 (constant (F := Ideal) S_ .f32 0x00000000#32))
    (broadcastInDim S1000000x1 ![0] bcast_S1000000_S1000000x1_0 dst) (broadcastInDim S1000000 ![] bcast_S_S1000000 (constant (F := Ideal) S_ .f32 0x3F800000#32))
def cntCol (dst : IE) : (⟨S100000x1, .f32⟩ : BufTy).Contents (Elt Ideal) := shapeCast S100000x1 (cntOf dst) shapeCasts_S100000_S100000x1
def msgOf (hs ef : AE) (W : AW) (b : AB) : AE := Spec.msgG hs ef (Tlo W) (Thi W) (rowOf b)
/-- One layer: messages from the gathered source rows, added up by destination, averaged into the node update. -/
def layer (h : AN) (ef : AE) (src dst : IE) (Wm : AW) (bm : AB) (Wa : AW) (ba : AB) : AN :=
  Spec.updG h (scat dst (msgOf (gathN h src) ef Wm bm)) (cntCol dst) (Tlo Wa) (Thi Wa) (rowOf ba)
/-- A total, as the scalar the program divides by the number of entries. -/
def meanOf (tot : EReal) : A0 :=
  Host.divf (shapeCast S_ (fun _ : S1x1.Idx => tot) shapeCasts_S1x1_S_) (constant (F := Ideal) S_ .f32 0x4AC35000#32)

end Cert.KernelIdeal.Stages

end
-- ==== Proof.KiChain.lean ====
import proofs.«176382_j6528350290006_1_alg».proof.Proof.KiRun
import proofs.«176382_j6528350290006_1_alg».proof.Proof.KiArray0
import proofs.«176382_j6528350290006_1_alg».proof.Proof.KiArray1
import proofs.«176382_j6528350290006_1_alg».proof.Proof.KiArray2
import proofs.«176382_j6528350290006_1_alg».proof.Proof.KiArray3
import proofs.«176382_j6528350290006_1_alg».proof.Proof.KiArray4
import proofs.«176382_j6528350290006_1_alg».proof.Proof.KiArray5
import proofs.«176382_j6528350290006_1_alg».proof.Proof.KiArray6
import proofs.«176382_j6528350290006_1_alg».proof.Proof.KiArray7
import proofs.«176382_j6528350290006_1_alg».proof.Proof.LossArray
import proofs.«176382_j6528350290006_1_alg».proof.Proof.Stages
import Idealize.ShloMosaic.Lib.StableHlo.Run

set_option maxRecDepth 16384
set_option maxHeartbeats 4000000

noncomputable section

namespace Cert.KernelIdeal.Blocks

open Cert.KernelIdeal Cert.KernelIdeal.Gen Cert.KernelIdeal.Stages
open Idealize.ShloMosaic Idealize.ShloMosaic.TcCoe Idealize.SL.Sem Idealize.ShloMosaic.StableHlo

variable (m : (ℓ : Loc nD τ sig) → Buf (Elt Ideal) ℓ) (c : Dev nD)

/-- An argument array as launched. -/
abbrev argv (r : Ref sig .tc) : Buf (Elt Ideal) ((c.tc : Thread nD τ).loc r) := m ((c.tc : Thread nD τ).loc r)

/-- The four node encodings the program computes: two layers on the given edge features, two on the permuted ones. -/
def Hp0 : AN := layer (argv m c main_arg0) (argv m c main_arg1) (argv m c main_arg2) (argv m c main_arg3) (argv m c main_arg5) (argv m c main_arg6) (argv m c main_arg7) (argv m c main_arg8)
def Hp1 : AN := layer (Hp0 m c) (argv m c main_arg1) (argv m c main_arg2) (argv m c main_arg3) (argv m c main_arg9) (argv m c main_arg10) (argv m c main_arg11) (argv m c main_arg12)
def EFn : AE := gathE (argv m c main_arg1) (argv m c main_arg4)
def Hn0 : AN := layer (argv m c main_arg0) (EFn m c) (argv m c main_arg2) (argv m c main_arg3) (argv m c main_arg5) (argv m c main_arg6) (argv m c main_arg7) (argv m c main_arg8)
def Hn1 : AN := layer (Hn0 m c) (EFn m c) (argv m c main_arg2) (argv m c main_arg3) (argv m c main_arg9) (argv m c main_arg10) (argv m c main_arg11) (argv m c main_arg12)

/-! Layer p0: boundaries 0 to 4. -/
theorem arg0_at0 : W0 m c (Proc.devRef .tc main_arg0) = (argv m c main_arg0) := rfl
theorem arg2_at0 : W0 m c (Proc.devRef .tc main_arg2) = (argv m c main_arg2) := rfl
theorem arg5_at0 : W0 m c (Proc.devRef .tc main_arg5) = (argv m c main_arg5) := rfl
theorem arg6_at0 : W0 m c (Proc.devRef .tc main_arg6) = (argv m c main_arg6) := rfl
theorem gath_p0 : W1 m c (Proc.devRef .tc main_v6) = gathN (argv m c main_arg0) (argv m c main_arg2) := by
  show StableHlo.after hostOps0 (W0 m c) (Proc.devRef .tc main_v6) = _
  simp only [hostOps0]
  after_results
  rw [arg0_at0 m c, arg2_at0 m c]
  rfl
theorem tlo_p0 : W1 m c (Proc.devRef .tc main_v8) = Tlo (argv m c main_arg5) := by
  show StableHlo.after hostOps0 (W0 m c) (Proc.devRef .tc main_v8) = _
  simp only [hostOps0]
  after_results
  rw [arg5_at0 m c]
  rfl
theorem thi_p0 : W1 m c (Proc.devRef .tc main_v10) = Thi (argv m c main_arg5) := by
  show StableHlo.after hostOps0 (W0 m c) (Proc.devRef .tc main_v10) = _
  simp only [hostOps0]
  after_results
  rw [arg5_at0 m c]
  rfl
theorem row_p0 : W1 m c (Proc.devRef .tc main_v11) = rowOf (argv m c main_arg6) := by
  show StableHlo.after hostOps0 (W0 m c) (Proc.devRef .tc main_v11) = _
  simp only [hostOps0]
  after_results
  rw [arg6_at0 m c]
  rfl
theorem keep_main_arg1_1_0 : W1 m c (Proc.devRef .tc main_arg1) = W0 m c (Proc.devRef .tc main_arg1) :=
  (StableHlo.after_of_writes_sub hostOps0 _ hostOps0_writes (by decide) : W1 m c (Proc.devRef .tc main_arg1) = W0 m c (Proc.devRef .tc main_arg1)).trans <| rfl
theorem arg1_at1 : W1 m c (Proc.devRef .tc main_arg1) = (argv m c main_arg1) := keep_main_arg1_1_0 m c
theorem ef_p0 : W1 m c (Proc.devRef .tc main_arg1) = (argv m c main_arg1) := arg1_at1 m c
theorem msg_p0 : W2 m c (Proc.devRef .tc main_v12) = msgOf (gathN (argv m c main_arg0) (argv m c main_arg2)) (argv m c main_arg1) (argv m c main_arg5) (argv m c main_arg6) :=
  (W2_arr m c 5).trans ((final0 (U1 m) c).trans (by
    show Spec.msgG (W1 m c (Proc.devRef .tc main_v6)) (W1 m c (Proc.devRef .tc main_arg1)) (W1 m c (Proc.devRef .tc main_v8)) (W1 m c (Proc.devRef .tc main_v10)) (W1 m c (Proc.devRef .tc main_v11)) = _
    rw [gath_p0 m c, ef_p0 m c, tlo_p0 m c, thi_p0 m c, row_p0 m c]
    rfl))
theorem keep_main_arg3_2_0 : W2 m c (Proc.devRef .tc main_arg3) = W0 m c (Proc.devRef .tc main_arg3) :=
  (W2_of_ne m c main_arg3 (by decide)).trans <|
    (StableHlo.after_of_writes_sub hostOps0 _ hostOps0_writes (by decide) : W1 m c (Proc.devRef .tc main_arg3) = W0 m c (Proc.devRef .tc main_arg3)).trans <| rfl
theorem arg3_at2 : W2 m c (Proc.devRef .tc main_arg3) = (argv m c main_arg3) := keep_main_arg3_2_0 m c
theorem keep_main_arg7_2_0 : W2 m c (Proc.devRef .tc main_arg7) = W0 m c (Proc.devRef .tc main_arg7) :=
  (W2_of_ne m c main_arg7 (by decide)).trans <|
    (StableHlo.after_of_writes_sub hostOps0 _ hostOps0_writes (by decide) : W1 m c (Proc.devRef .tc main_arg7) = W0 m c (Proc.devRef .tc main_arg7)).trans <| rfl
theorem arg7_at2 : W2 m c (Proc.devRef .tc main_arg7) = (argv m c main_arg7) := keep_main_arg7_2_0 m c
theorem keep_main_arg8_2_0 : W2 m c (Proc.devRef .tc main_arg8) = W0 m c (Proc.devRef .tc main_arg8) :=
  (W2_of_ne m c main_arg8 (by decide)).trans <|
    (StableHlo.after_of_writes_sub hostOps0 _ hostOps0_writes (by decide) : W1 m c (Proc.devRef .tc main_arg8) = W0 m c (Proc.devRef .tc main_arg8)).trans <| rfl
theorem arg8_at2 : W2 m c (Proc.devRef .tc main_arg8) = (argv m c main_arg8) := keep_main_arg8_2_0 m c
theorem scat_p0 : W3 m c (Proc.devRef .tc main_v15) = scat (argv m c main_arg3) (msgOf (gathN (argv m c main_arg0) (argv m c main_arg2)) (argv m c main_arg1) (argv m c main_arg5) (argv m c main_arg6)) := by
  show StableHlo.after hostOps1 (W2 m c) (Proc.devRef .tc main_v15) = _
  simp only [hostOps1]
  after_results
  rw [msg_p0 m c, arg3_at2 m c]
  rfl
theorem cnt_p0 : W3 m c (Proc.devRef .tc main_v20) = cntCol (argv m c main_arg3) := by
  show StableHlo.after hostOps1 (W2 m c) (Proc.devRef .tc main_v20) = _
  simp only [hostOps1]
  after_results
  rw [arg3_at2 m c]
  rfl
theorem tlo2_p0 : W3 m c (Proc.devRef .tc main_v22) = Tlo (argv m c main_arg7) := by
  show StableHlo.after hostOps1 (W2 m c) (Proc.devRef .tc main_v22) = _
  simp only [hostOps1]
  after_results
  rw [arg7_at2 m c]
  rfl
theorem thi2_p0 : W3 m c (Proc.devRef .tc main_v24) = Thi (argv m c main_arg7) := by
  show StableHlo.after hostOps1 (W2 m c) (Proc.devRef .tc main_v24) = _
  simp only [hostOps1]
  after_results
  rw [arg7_at2 m c]
  rfl
theorem row2_p0 : W3 m c (Proc.devRef .tc main_v25) = rowOf (argv m c main_arg8) := by
  show StableHlo.after hostOps1 (W2 m c) (Proc.devRef .tc main_v25) = _
  simp only [hostOps1]
  after_results
  rw [arg8_at2 m c]
  rfl
theorem keep_main_arg0_3_0 : W3 m c (Proc.devRef .tc main_arg0) = W0 m c (Proc.devRef .tc main_arg0) :=
  (StableHlo.after_of_writes_sub hostOps1 _ hostOps1_writes (by decide) : W3 m c (Proc.devRef .tc main_arg0) = W2 m c (Proc.devRef .tc main_arg0)).trans <|
    (W2_of_ne m c main_arg0 (by decide)).trans <|
    (StableHlo.after_of_writes_sub hostOps0 _ hostOps0_writes (by decide) : W1 m c (Proc.devRef .tc main_arg0) = W0 m c (Proc.devRef .tc main_arg0)).trans <| rfl
theorem arg0_at3 : W3 m c (Proc.devRef .tc main_arg0) = (argv m c main_arg0) := keep_main_arg0_3_0 m c
theorem h3_p0 : W3 m c (Proc.devRef .tc main_arg0) = (argv m c main_arg0) := arg0_at3 m c
theorem out_p0 : W4 m c (Proc.devRef .tc main_v26) = Hp0 m c :=
  (W4_arr m c 6).trans ((final1 (U3 m) c).trans (by
    show Spec.updG (W3 m c (Proc.devRef .tc main_arg0)) (W3 m c (Proc.devRef .tc main_v15)) (W3 m c (Proc.devRef .tc main_v20)) (W3 m c (Proc.devRef .tc main_v22)) (W3 m c (Proc.devRef .tc main_v24)) (W3 m c (Proc.devRef .tc main_v25)) = _
    rw [h3_p0 m c, scat_p0 m c, cnt_p0 m c, tlo2_p0 m c, thi2_p0 m c, row2_p0 m c]
    rfl))

/-! Layer p1: boundaries 4 to 8. -/
theorem keep_main_arg2_4_0 : W4 m c (Proc.devRef .tc main_arg2) = W0 m c (Proc.devRef .tc main_arg2) :=
  (W4_of_ne m c main_arg2 (by decide)).trans <|
    (StableHlo.after_of_writes_sub hostOps1 _ hostOps1_writes (by decide) : W3 m c (Proc.devRef .tc main_arg2) = W2 m c (Proc.devRef .tc main_arg2)).trans <|
    (W2_of_ne m c main_arg2 (by decide)).trans <|
    (StableHlo.after_of_writes_sub hostOps0 _ hostOps0_writes (by decide) : W1 m c (Proc.devRef .tc main_arg2) = W0 m c (Proc.devRef .tc main_arg2)).trans <| rfl
theorem arg2_at4 : W4 m c (Proc.devRef .tc main_arg2) = (argv m c main_arg2) := keep_main_arg2_4_0 m c
theorem keep_main_arg9_4_0 : W4 m c (Proc.devRef .tc main_arg9) = W0 m c (Proc.devRef .tc main_arg9) :=
  (W4_of_ne m c main_arg9 (by decide)).trans <|
    (StableHlo.after_of_writes_sub hostOps1 _ hostOps1_writes (by decide) : W3 m c (Proc.devRef .tc main_arg9) = W2 m c (Proc.devRef .tc main_arg9)).trans <|
    (W2_of_ne m c main_arg9 (by decide)).trans <|
    (StableHlo.after_of_writes_sub hostOps0 _ hostOps0_writes (by decide) : W1 m c (Proc.devRef .tc main_arg9) = W0 m c (Proc.devRef .tc main_arg9)).trans <| rfl
theorem arg9_at4 : W4 m c (Proc.devRef .tc main_arg9) = (argv m c main_arg9) := keep_main_arg9_4_0 m c
theorem keep_main_arg10_4_0 : W4 m c (Proc.devRef .tc main_arg10) = W0 m c (Proc.devRef .tc main_arg10) :=
  (W4_of_ne m c main_arg10 (by decide)).trans <|
    (StableHlo.after_of_writes_sub hostOps1 _ hostOps1_writes (by decide) : W3 m c (Proc.devRef .tc main_arg10) = W2 m c (Proc.devRef .tc main_arg10)).trans <|
    (W2_of_ne m c main_arg10 (by decide)).trans <|
    (StableHlo.after_of_writes_sub hostOps0 _ hostOps0_writes (by decide) : W1 m c (Proc.devRef .tc main_arg10) = W0 m c (Proc.devRef .tc main_arg10)).trans <| rfl
theorem arg10_at4 : W4 m c (Proc.devRef .tc main_arg10) = (argv m c main_arg10) := keep_main_arg10_4_0 m c
theorem gath_p1 : W5 m c (Proc.devRef .tc main_v33) = gathN (Hp0 m c) (argv m c main_arg2) := by
  show StableHlo.after hostOps2 (W4 m c) (Proc.devRef .tc main_v33) = _
  simp only [hostOps2]
  after_results
  rw [out_p0 m c, arg2_at4 m c]
  rfl
theorem tlo_p1 : W5 m c (Proc.devRef .tc main_v35) = Tlo (argv m c main_arg9) := by
  show StableHlo.after hostOps2 (W4 m c) (Proc.devRef .tc main_v35) = _
  simp only [hostOps2]
  after_results
  rw [arg9_at4 m c]
  rfl
theorem thi_p1 : W5 m c (Proc.devRef .tc main_v37) = Thi (argv m c main_arg9) := by
  show StableHlo.after hostOps2 (W4 m c) (Proc.devRef .tc main_v37) = _
  simp only [hostOps2]
  after_results
  rw [arg9_at4 m c]
  rfl
theorem row_p1 : W5 m c (Proc.devRef .tc main_v38) = rowOf (argv m c main_arg10) := by
  show StableHlo.after hostOps2 (W4 m c) (Proc.devRef .tc main_v38) = _
  simp only [hostOps2]
  after_results
  rw [arg10_at4 m c]
  rfl
theorem keep_main_arg1_5_0 : W5 m c (Proc.devRef .tc main_arg1) = W0 m c (Proc.devRef .tc main_arg1) :=
  (StableHlo.after_of_writes_sub hostOps2 _ hostOps2_writes (by decide) : W5 m c (Proc.devRef .tc main_arg1) = W4 m c (Proc.devRef .tc main_arg1)).trans <|
    (W4_of_ne m c main_arg1 (by decide)).trans <|
    (StableHlo.after_of_writes_sub hostOps1 _ hostOps1_writes (by decide) : W3 m c (Proc.devRef .tc main_arg1) = W2 m c (Proc.devRef .tc main_arg1)).trans <|
    ((W2_arr m c 1).trans (((dat0 (U1 m) c).arrAt_in 1 rfl _).trans (A_eq0 (U1 m) c 1))).trans <|
    (StableHlo.after_of_writes_sub hostOps0 _ hostOps0_writes (by decide) : W1 m c (Proc.devRef .tc main_arg1) = W0 m c (Proc.devRef .tc main_arg1)).trans <| rfl
theorem arg1_at5 : W5 m c (Proc.devRef .tc main_arg1) = (argv m c main_arg1) := keep_main_arg1_5_0 m c
theorem ef_p1 : W5 m c (Proc.devRef .tc main_arg1) = (argv m c main_arg1) := arg1_at5 m c
theorem msg_p1 : W6 m c (Proc.devRef .tc main_v39) = msgOf (gathN (Hp0 m c) (argv m c main_arg2)) (argv m c main_arg1) (argv m c main_arg9) (argv m c main_arg10) :=
  (W6_arr m c 5).trans ((final2 (U5 m) c).trans (by
    show Spec.msgG (W5 m c (Proc.devRef .tc main_v33)) (W5 m c (Proc.devRef .tc main_arg1)) (W5 m c (Proc.devRef .tc main_v35)) (W5 m c (Proc.devRef .tc main_v37)) (W5 m c (Proc.devRef .tc main_v38)) = _
    rw [gath_p1 m c, ef_p1 m c, tlo_p1 m c, thi_p1 m c, row_p1 m c]
    rfl))
theorem keep_main_arg3_6_0 : W6 m c (Proc.devRef .tc main_arg3) = W0 m c (Proc.devRef .tc main_arg3) :=
  (W6_of_ne m c main_arg3 (by decide)).trans <|
    (StableHlo.after_of_writes_sub hostOps2 _ hostOps2_writes (by decide) : W5 m c (Proc.devRef .tc main_arg3) = W4 m c (Proc.devRef .tc main_arg3)).trans <|
    (W4_of_ne m c main_arg3 (by decide)).trans <|
    (StableHlo.after_of_writes_sub hostOps1 _ hostOps1_writes (by decide) : W3 m c (Proc.devRef .tc main_arg3) = W2 m c (Proc.devRef .tc main_arg3)).trans <|
    (W2_of_ne m c main_arg3 (by decide)).trans <|
    (StableHlo.after_of_writes_sub hostOps0 _ hostOps0_writes (by decide) : W1 m c (Proc.devRef .tc main_arg3) = W0 m c (Proc.devRef .tc main_arg3)).trans <| rfl
theorem arg3_at6 : W6 m c (Proc.devRef .tc main_arg3) = (argv m c main_arg3) := keep_main_arg3_6_0 m c
theorem keep_main_arg11_6_0 : W6 m c (Proc.devRef .tc main_arg11) = W0 m c (Proc.devRef .tc main_arg11) :=
  (W6_of_ne m c main_arg11 (by decide)).trans <|
    (StableHlo.after_of_writes_sub hostOps2 _ hostOps2_writes (by decide) : W5 m c (Proc.devRef .tc main_arg11) = W4 m c (Proc.devRef .tc main_arg11)).trans <|
    (W4_of_ne m c main_arg11 (by decide)).trans <|
    (StableHlo.after_of_writes_sub hostOps1 _ hostOps1_writes (by decide) : W3 m c (Proc.devRef .tc main_arg11) = W2 m c (Proc.devRef .tc main_arg11)).trans <|
    (W2_of_ne m c main_arg11 (by decide)).trans <|
    (StableHlo.after_of_writes_sub hostOps0 _ hostOps0_writes (by decide) : W1 m c (Proc.devRef .tc main_arg11) = W0 m c (Proc.devRef .tc main_arg11)).trans <| rfl
theorem arg11_at6 : W6 m c (Proc.devRef .tc main_arg11) = (argv m c main_arg11) := keep_main_arg11_6_0 m c
theorem keep_main_arg12_6_0 : W6 m c (Proc.devRef .tc main_arg12) = W0 m c (Proc.devRef .tc main_arg12) :=
  (W6_of_ne m c main_arg12 (by decide)).trans <|
    (StableHlo.after_of_writes_sub hostOps2 _ hostOps2_writes (by decide) : W5 m c (Proc.devRef .tc main_arg12) = W4 m c (Proc.devRef .tc main_arg12)).trans <|
    (W4_of_ne m c main_arg12 (by decide)).trans <|
    (StableHlo.after_of_writes_sub hostOps1 _ hostOps1_writes (by decide) : W3 m c (Proc.devRef .tc main_arg12) = W2 m c (Proc.devRef .tc main_arg12)).trans <|
    (W2_of_ne m c main_arg12 (by decide)).trans <|
    (StableHlo.after_of_writes_sub hostOps0 _ hostOps0_writes (by decide) : W1 m c (Proc.devRef .tc main_arg12) = W0 m c (Proc.devRef .tc main_arg12)).trans <| rfl
theorem arg12_at6 : W6 m c (Proc.devRef .tc main_arg12) = (argv m c main_arg12) := keep_main_arg12_6_0 m c
theorem scat_p1 : W7 m c (Proc.devRef .tc main_v42) = scat (argv m c main_arg3) (msgOf (gathN (Hp0 m c) (argv m c main_arg2)) (argv m c main_arg1) (argv m c main_arg9) (argv m c main_arg10)) := by
  show StableHlo.after hostOps3 (W6 m c) (Proc.devRef .tc main_v42) = _
  simp only [hostOps3]
  after_results
  rw [msg_p1 m c, arg3_at6 m c]
  rfl
theorem cnt_p1 : W7 m c (Proc.devRef .tc main_v47) = cntCol (argv m c main_arg3) := by
  show StableHlo.after hostOps3 (W6 m c) (Proc.devRef .tc main_v47) = _
  simp only [hostOps3]
  after_results
  rw [arg3_at6 m c]
  rfl
theorem tlo2_p1 : W7 m c (Proc.devRef .tc main_v49) = Tlo (argv m c main_arg11) := by
  show StableHlo.after hostOps3 (W6 m c) (Proc.devRef .tc main_v49) = _
  simp only [hostOps3]
  after_results
  rw [arg11_at6 m c]
  rfl
theorem thi2_p1 : W7 m c (Proc.devRef .tc main_v51) = Thi (argv m c main_arg11) := by
  show StableHlo.after hostOps3 (W6 m c) (Proc.devRef .tc main_v51) = _
  simp only [hostOps3]
  after_results
  rw [arg11_at6 m c]
  rfl
theorem row2_p1 : W7 m c (Proc.devRef .tc main_v52) = rowOf (argv m c main_arg12) := by
  show StableHlo.after hostOps3 (W6 m c) (Proc.devRef .tc main_v52) = _
  simp only [hostOps3]
  after_results
  rw [arg12_at6 m c]
  rfl
theorem keep_main_v26_7_4 : W7 m c (Proc.devRef .tc main_v26) = W4 m c (Proc.devRef .tc main_v26) :=
  (StableHlo.after_of_writes_sub hostOps3 _ hostOps3_writes (by decide) : W7 m c (Proc.devRef .tc main_v26) = W6 m c (Proc.devRef .tc main_v26)).trans <|
    (W6_of_ne m c main_v26 (by decide)).trans <|
    (StableHlo.after_of_writes_sub hostOps2 _ hostOps2_writes (by decide) : W5 m c (Proc.devRef .tc main_v26) = W4 m c (Proc.devRef .tc main_v26)).trans <| rfl
theorem h3_p1 : W7 m c (Proc.devRef .tc main_v26) = (Hp0 m c) := (keep_main_v26_7_4 m c).trans (out_p0 m c)
theorem out_p1 : W8 m c (Proc.devRef .tc main_v53) = Hp1 m c :=
  (W8_arr m c 6).trans ((final3 (U7 m) c).trans (by
    show Spec.updG (W7 m c (Proc.devRef .tc main_v26)) (W7 m c (Proc.devRef .tc main_v42)) (W7 m c (Proc.devRef .tc main_v47)) (W7 m c (Proc.devRef .tc main_v49)) (W7 m c (Proc.devRef .tc main_v51)) (W7 m c (Proc.devRef .tc main_v52)) = _
    rw [h3_p1 m c, scat_p1 m c, cnt_p1 m c, tlo2_p1 m c, thi2_p1 m c, row2_p1 m c]
    rfl))

/-! Layer n0: boundaries 8 to 12. -/
theorem keep_main_arg0_8_0 : W8 m c (Proc.devRef .tc main_arg0) = W0 m c (Proc.devRef .tc main_arg0) :=
  (W8_of_ne m c main_arg0 (by decide)).trans <|
    (StableHlo.after_of_writes_sub hostOps3 _ hostOps3_writes (by decide) : W7 m c (Proc.devRef .tc main_arg0) = W6 m c (Proc.devRef .tc main_arg0)).trans <|
    (W6_of_ne m c main_arg0 (by decide)).trans <|
    (StableHlo.after_of_writes_sub hostOps2 _ hostOps2_writes (by decide) : W5 m c (Proc.devRef .tc main_arg0) = W4 m c (Proc.devRef .tc main_arg0)).trans <|
    ((W4_arr m c 0).trans (((dat1 (U3 m) c).arrAt_in 0 rfl _).trans (A_eq1 (U3 m) c 0))).trans <|
    (StableHlo.after_of_writes_sub hostOps1 _ hostOps1_writes (by decide) : W3 m c (Proc.devRef .tc main_arg0) = W2 m c (Proc.devRef .tc main_arg0)).trans <|
    (W2_of_ne m c main_arg0 (by decide)).trans <|
    (StableHlo.after_of_writes_sub hostOps0 _ hostOps0_writes (by decide) : W1 m c (Proc.devRef .tc main_arg0) = W0 m c (Proc.devRef .tc main_arg0)).trans <| rfl
theorem arg0_at8 : W8 m c (Proc.devRef .tc main_arg0) = (argv m c main_arg0) := keep_main_arg0_8_0 m c
theorem keep_main_arg2_8_0 : W8 m c (Proc.devRef .tc main_arg2) = W0 m c (Proc.devRef .tc main_arg2) :=
  (W8_of_ne m c main_arg2 (by decide)).trans <|
    (StableHlo.after_of_writes_sub hostOps3 _ hostOps3_writes (by decide) : W7 m c (Proc.devRef .tc main_arg2) = W6 m c (Proc.devRef .tc main_arg2)).trans <|
    (W6_of_ne m c main_arg2 (by decide)).trans <|
    (StableHlo.after_of_writes_sub hostOps2 _ hostOps2_writes (by decide) : W5 m c (Proc.devRef .tc main_arg2) = W4 m c (Proc.devRef .tc main_arg2)).trans <|
    (W4_of_ne m c main_arg2 (by decide)).trans <|
    (StableHlo.after_of_writes_sub hostOps1 _ hostOps1_writes (by decide) : W3 m c (Proc.devRef .tc main_arg2) = W2 m c (Proc.devRef .tc main_arg2)).trans <|
    (W2_of_ne m c main_arg2 (by decide)).trans <|
    (StableHlo.after_of_writes_sub hostOps0 _ hostOps0_writes (by decide) : W1 m c (Proc.devRef .tc main_arg2) = W0 m c (Proc.devRef .tc main_arg2)).trans <| rfl
theorem arg2_at8 : W8 m c (Proc.devRef .tc main_arg2) = (argv m c main_arg2) := keep_main_arg2_8_0 m c
theorem keep_main_arg5_8_0 : W8 m c (Proc.devRef .tc main_arg5) = W0 m c (Proc.devRef .tc main_arg5) :=
  (W8_of_ne m c main_arg5 (by decide)).trans <|
    (StableHlo.after_of_writes_sub hostOps3 _ hostOps3_writes (by decide) : W7 m c (Proc.devRef .tc main_arg5) = W6 m c (Proc.devRef .tc main_arg5)).trans <|
    (W6_of_ne m c main_arg5 (by decide)).trans <|
    (StableHlo.after_of_writes_sub hostOps2 _ hostOps2_writes (by decide) : W5 m c (Proc.devRef .tc main_arg5) = W4 m c (Proc.devRef .tc main_arg5)).trans <|
    (W4_of_ne m c main_arg5 (by decide)).trans <|
    (StableHlo.after_of_writes_sub hostOps1 _ hostOps1_writes (by decide) : W3 m c (Proc.devRef .tc main_arg5) = W2 m c (Proc.devRef .tc main_arg5)).trans <|
    (W2_of_ne m c main_arg5 (by decide)).trans <|
    (StableHlo.after_of_writes_sub hostOps0 _ hostOps0_writes (by decide) : W1 m c (Proc.devRef .tc main_arg5) = W0 m c (Proc.devRef .tc main_arg5)).trans <| rfl
theorem arg5_at8 : W8 m c (Proc.devRef .tc main_arg5) = (argv m c main_arg5) := keep_main_arg5_8_0 m c
theorem keep_main_arg6_8_0 : W8 m c (Proc.devRef .tc main_arg6) = W0 m c (Proc.devRef .tc main_arg6) :=
  (W8_of_ne m c main_arg6 (by decide)).trans <|
    (StableHlo.after_of_writes_sub hostOps3 _ hostOps3_writes (by decide) : W7 m c (Proc.devRef .tc main_arg6) = W6 m c (Proc.devRef .tc main_arg6)).trans <|
    (W6_of_ne m c main_arg6 (by decide)).trans <|
    (StableHlo.after_of_writes_sub hostOps2 _ hostOps2_writes (by decide) : W5 m c (Proc.devRef .tc main_arg6) = W4 m c (Proc.devRef .tc main_arg6)).trans <|
    (W4_of_ne m c main_arg6 (by decide)).trans <|
    (StableHlo.after_of_writes_sub hostOps1 _ hostOps1_writes (by decide) : W3 m c (Proc.devRef .tc main_arg6) = W2 m c (Proc.devRef .tc main_arg6)).trans <|
    (W2_of_ne m c main_arg6 (by decide)).trans <|
    (StableHlo.after_of_writes_sub hostOps0 _ hostOps0_writes (by decide) : W1 m c (Proc.devRef .tc main_arg6) = W0 m c (Proc.devRef .tc main_arg6)).trans <| rfl
theorem arg6_at8 : W8 m c (Proc.devRef .tc main_arg6) = (argv m c main_arg6) := keep_main_arg6_8_0 m c
theorem gath_n0 : W9 m c (Proc.devRef .tc main_v67) = gathN (argv m c main_arg0) (argv m c main_arg2) := by
  show StableHlo.after hostOps4 (W8 m c) (Proc.devRef .tc main_v67) = _
  simp only [hostOps4]
  after_results
  rw [arg0_at8 m c, arg2_at8 m c]
  rfl
theorem tlo_n0 : W9 m c (Proc.devRef .tc main_v69) = Tlo (argv m c main_arg5) := by
  show StableHlo.after hostOps4 (W8 m c) (Proc.devRef .tc main_v69) = _
  simp only [hostOps4]
  after_results
  rw [arg5_at8 m c]
  rfl
theorem thi_n0 : W9 m c (Proc.devRef .tc main_v71) = Thi (argv m c main_arg5) := by
  show StableHlo.after hostOps4 (W8 m c) (Proc.devRef .tc main_v71) = _
  simp only [hostOps4]
  after_results
  rw [arg5_at8 m c]
  rfl
theorem row_n0 : W9 m c (Proc.devRef .tc main_v72) = rowOf (argv m c main_arg6) := by
  show StableHlo.after hostOps4 (W8 m c) (Proc.devRef .tc main_v72) = _
  simp only [hostOps4]
  after_results
  rw [arg6_at8 m c]
  rfl
theorem keep_main_arg1_8_0 : W8 m c (Proc.devRef .tc main_arg1) = W0 m c (Proc.devRef .tc main_arg1) :=
  (W8_of_ne m c main_arg1 (by decide)).trans <|
    (StableHlo.after_of_writes_sub hostOps3 _ hostOps3_writes (by decide) : W7 m c (Proc.devRef .tc main_arg1) = W6 m c (Proc.devRef .tc main_arg1)).trans <|
    ((W6_arr m c 1).trans (((dat2 (U5 m) c).arrAt_in 1 rfl _).trans (A_eq2 (U5 m) c 1))).trans <|
    (StableHlo.after_of_writes_sub hostOps2 _ hostOps2_writes (by decide) : W5 m c (Proc.devRef .tc main_arg1) = W4 m c (Proc.devRef .tc main_arg1)).trans <|
    (W4_of_ne m c main_arg1 (by decide)).trans <|
    (StableHlo.after_of_writes_sub hostOps1 _ hostOps1_writes (by decide) : W3 m c (Proc.devRef .tc main_arg1) = W2 m c (Proc.devRef .tc main_arg1)).trans <|
    ((W2_arr m c 1).trans (((dat0 (U1 m) c).arrAt_in 1 rfl _).trans (A_eq0 (U1 m) c 1))).trans <|
    (StableHlo.after_of_writes_sub hostOps0 _ hostOps0_writes (by decide) : W1 m c (Proc.devRef .tc main_arg1) = W0 m c (Proc.devRef .tc main_arg1)).trans <| rfl
theorem arg1_at8 : W8 m c (Proc.devRef .tc main_arg1) = (argv m c main_arg1) := keep_main_arg1_8_0 m c
theorem keep_main_arg4_8_0 : W8 m c (Proc.devRef .tc main_arg4) = W0 m c (Proc.devRef .tc main_arg4) :=
  (W8_of_ne m c main_arg4 (by decide)).trans <|
    (StableHlo.after_of_writes_sub hostOps3 _ hostOps3_writes (by decide) : W7 m c (Proc.devRef .tc main_arg4) = W6 m c (Proc.devRef .tc main_arg4)).trans <|
    (W6_of_ne m c main_arg4 (by decide)).trans <|
    (StableHlo.after_of_writes_sub hostOps2 _ hostOps2_writes (by decide) : W5 m c (Proc.devRef .tc main_arg4) = W4 m c (Proc.devRef .tc main_arg4)).trans <|
    (W4_of_ne m c main_arg4 (by decide)).trans <|
    (StableHlo.after_of_writes_sub hostOps1 _ hostOps1_writes (by decide) : W3 m c (Proc.devRef .tc main_arg4) = W2 m c (Proc.devRef .tc main_arg4)).trans <|
    (W2_of_ne m c main_arg4 (by decide)).trans <|
    (StableHlo.after_of_writes_sub hostOps0 _ hostOps0_writes (by decide) : W1 m c (Proc.devRef .tc main_arg4) = W0 m c (Proc.devRef .tc main_arg4)).trans <| rfl
theorem arg4_at8 : W8 m c (Proc.devRef .tc main_arg4) = (argv m c main_arg4) := keep_main_arg4_8_0 m c
theorem ef_n0 : W9 m c (Proc.devRef .tc main_v60) = (EFn m c) := by
  show StableHlo.after hostOps4 (W8 m c) (Proc.devRef .tc main_v60) = _
  simp only [hostOps4]
  after_results
  rw [arg1_at8 m c, arg4_at8 m c]
  rfl
theorem msg_n0 : W10 m c (Proc.devRef .tc main_v73) = msgOf (gathN (argv m c main_arg0) (argv m c main_arg2)) (EFn m c) (argv m c main_arg5) (argv m c main_arg6) :=
  (W10_arr m c 5).trans ((final4 (U9 m) c).trans (by
    show Spec.msgG (W9 m c (Proc.devRef .tc main_v67)) (W9 m c (Proc.devRef .tc main_v60)) (W9 m c (Proc.devRef .tc main_v69)) (W9 m c (Proc.devRef .tc main_v71)) (W9 m c (Proc.devRef .tc main_v72)) = _
    rw [gath_n0 m c, ef_n0 m c, tlo_n0 m c, thi_n0 m c, row_n0 m c]
    rfl))
theorem keep_main_arg3_10_0 : W10 m c (Proc.devRef .tc main_arg3) = W0 m c (Proc.devRef .tc main_arg3) :=
  (W10_of_ne m c main_arg3 (by decide)).trans <|
    (StableHlo.after_of_writes_sub hostOps4 _ hostOps4_writes (by decide) : W9 m c (Proc.devRef .tc main_arg3) = W8 m c (Proc.devRef .tc main_arg3)).trans <|
    (W8_of_ne m c main_arg3 (by decide)).trans <|
    (StableHlo.after_of_writes_sub hostOps3 _ hostOps3_writes (by decide) : W7 m c (Proc.devRef .tc main_arg3) = W6 m c (Proc.devRef .tc main_arg3)).trans <|
    (W6_of_ne m c main_arg3 (by decide)).trans <|
    (StableHlo.after_of_writes_sub hostOps2 _ hostOps2_writes (by decide) : W5 m c (Proc.devRef .tc main_arg3) = W4 m c (Proc.devRef .tc main_arg3)).trans <|
    (W4_of_ne m c main_arg3 (by decide)).trans <|
    (StableHlo.after_of_writes_sub hostOps1 _ hostOps1_writes (by decide) : W3 m c (Proc.devRef .tc main_arg3) = W2 m c (Proc.devRef .tc main_arg3)).trans <|
    (W2_of_ne m c main_arg3 (by decide)).trans <|
    (StableHlo.after_of_writes_sub hostOps0 _ hostOps0_writes (by decide) : W1 m c (Proc.devRef .tc main_arg3) = W0 m c (Proc.devRef .tc main_arg3)).trans <| rfl
theorem arg3_at10 : W10 m c (Proc.devRef .tc main_arg3) = (argv m c main_arg3) := keep_main_arg3_10_0 m c
theorem keep_main_arg7_10_0 : W10 m c (Proc.devRef .tc main_arg7) = W0 m c (Proc.devRef .tc main_arg7) :=
  (W10_of_ne m c main_arg7 (by decide)).trans <|
    (StableHlo.after_of_writes_sub hostOps4 _ hostOps4_writes (by decide) : W9 m c (Proc.devRef .tc main_arg7) = W8 m c (Proc.devRef .tc main_arg7)).trans <|
    (W8_of_ne m c main_arg7 (by decide)).trans <|
    (StableHlo.after_of_writes_sub hostOps3 _ hostOps3_writes (by decide) : W7 m c (Proc.devRef .tc main_arg7) = W6 m c (Proc.devRef .tc main_arg7)).trans <|
    (W6_of_ne m c main_arg7 (by decide)).trans <|
    (StableHlo.after_of_writes_sub hostOps2 _ hostOps2_writes (by decide) : W5 m c (Proc.devRef .tc main_arg7) = W4 m c (Proc.devRef .tc main_arg7)).trans <|
    (W4_of_ne m c main_arg7 (by decide)).trans <|
    (StableHlo.after_of_writes_sub hostOps1 _ hostOps1_writes (by decide) : W3 m c (Proc.devRef .tc main_arg7) = W2 m c (Proc.devRef .tc main_arg7)).trans <|
    (W2_of_ne m c main_arg7 (by decide)).trans <|
    (StableHlo.after_of_writes_sub hostOps0 _ hostOps0_writes (by decide) : W1 m c (Proc.devRef .tc main_arg7) = W0 m c (Proc.devRef .tc main_arg7)).trans <| rfl
theorem arg7_at10 : W10 m c (Proc.devRef .tc main_arg7) = (argv m c main_arg7) := keep_main_arg7_10_0 m c
theorem keep_main_arg8_10_0 : W10 m c (Proc.devRef .tc main_arg8) = W0 m c (Proc.devRef .tc main_arg8) :=
  (W10_of_ne m c main_arg8 (by decide)).trans <|
    (StableHlo.after_of_writes_sub hostOps4 _ hostOps4_writes (by decide) : W9 m c (Proc.devRef .tc main_arg8) = W8 m c (Proc.devRef .tc main_arg8)).trans <|
    (W8_of_ne m c main_arg8 (by decide)).trans <|
    (StableHlo.after_of_writes_sub hostOps3 _ hostOps3_writes (by decide) : W7 m c (Proc.devRef .tc main_arg8) = W6 m c (Proc.devRef .tc main_arg8)).trans <|
    (W6_of_ne m c main_arg8 (by decide)).trans <|
    (StableHlo.after_of_writes_sub hostOps2 _ hostOps2_writes (by decide) : W5 m c (Proc.devRef .tc main_arg8) = W4 m c (Proc.devRef .tc main_arg8)).trans <|
    (W4_of_ne m c main_arg8 (by decide)).trans <|
    (StableHlo.after_of_writes_sub hostOps1 _ hostOps1_writes (by decide) : W3 m c (Proc.devRef .tc main_arg8) = W2 m c (Proc.devRef .tc main_arg8)).trans <|
    (W2_of_ne m c main_arg8 (by decide)).trans <|
    (StableHlo.after_of_writes_sub hostOps0 _ hostOps0_writes (by decide) : W1 m c (Proc.devRef .tc main_arg8) = W0 m c (Proc.devRef .tc main_arg8)).trans <| rfl
theorem arg8_at10 : W10 m c (Proc.devRef .tc main_arg8) = (argv m c main_arg8) := keep_main_arg8_10_0 m c
theorem scat_n0 : W11 m c (Proc.devRef .tc main_v76) = scat (argv m c main_arg3) (msgOf (gathN (argv m c main_arg0) (argv m c main_arg2)) (EFn m c) (argv m c main_arg5) (argv m c main_arg6)) := by
  show StableHlo.after hostOps5 (W10 m c) (Proc.devRef .tc main_v76) = _
  simp only [hostOps5]
  after_results
  rw [msg_n0 m c, arg3_at10 m c]
  rfl
theorem cnt_n0 : W11 m c (Proc.devRef .tc main_v81) = cntCol (argv m c main_arg3) := by
  show StableHlo.after hostOps5 (W10 m c) (Proc.devRef .tc main_v81) = _
  simp only [hostOps5]
  after_results
  rw [arg3_at10 m c]
  rfl
theorem tlo2_n0 : W11 m c (Proc.devRef .tc main_v83) = Tlo (argv m c main_arg7) := by
  show StableHlo.after hostOps5 (W10 m c) (Proc.devRef .tc main_v83) = _
  simp only [hostOps5]
  after_results
  rw [arg7_at10 m c]
  rfl
theorem thi2_n0 : W11 m c (Proc.devRef .tc main_v85) = Thi (argv m c main_arg7) := by
  show StableHlo.after hostOps5 (W10 m c) (Proc.devRef .tc main_v85) = _
  simp only [hostOps5]
  after_results
  rw [arg7_at10 m c]
  rfl
theorem row2_n0 : W11 m c (Proc.devRef .tc main_v86) = rowOf (argv m c main_arg8) := by
  show StableHlo.after hostOps5 (W10 m c) (Proc.devRef .tc main_v86) = _
  simp only [hostOps5]
  after_results
  rw [arg8_at10 m c]
  rfl
theorem keep_main_arg0_11_0 : W11 m c (Proc.devRef .tc main_arg0) = W0 m c (Proc.devRef .tc main_arg0) :=
  (StableHlo.after_of_writes_sub hostOps5 _ hostOps5_writes (by decide) : W11 m c (Proc.devRef .tc main_arg0) = W10 m c (Proc.devRef .tc main_arg0)).trans <|
    (W10_of_ne m c main_arg0 (by decide)).trans <|
    (StableHlo.after_of_writes_sub hostOps4 _ hostOps4_writes (by decide) : W9 m c (Proc.devRef .tc main_arg0) = W8 m c (Proc.devRef .tc main_arg0)).trans <|
    (W8_of_ne m c main_arg0 (by decide)).trans <|
    (StableHlo.after_of_writes_sub hostOps3 _ hostOps3_writes (by decide) : W7 m c (Proc.devRef .tc main_arg0) = W6 m c (Proc.devRef .tc main_arg0)).trans <|
    (W6_of_ne m c main_arg0 (by decide)).trans <|
    (StableHlo.after_of_writes_sub hostOps2 _ hostOps2_writes (by decide) : W5 m c (Proc.devRef .tc main_arg0) = W4 m c (Proc.devRef .tc main_arg0)).trans <|
    ((W4_arr m c 0).trans (((dat1 (U3 m) c).arrAt_in 0 rfl _).trans (A_eq1 (U3 m) c 0))).trans <|
    (StableHlo.after_of_writes_sub hostOps1 _ hostOps1_writes (by decide) : W3 m c (Proc.devRef .tc main_arg0) = W2 m c (Proc.devRef .tc main_arg0)).trans <|
    (W2_of_ne m c main_arg0 (by decide)).trans <|
    (StableHlo.after_of_writes_sub hostOps0 _ hostOps0_writes (by decide) : W1 m c (Proc.devRef .tc main_arg0) = W0 m c (Proc.devRef .tc main_arg0)).trans <| rfl
theorem arg0_at11 : W11 m c (Proc.devRef .tc main_arg0) = (argv m c main_arg0) := keep_main_arg0_11_0 m c
theorem h3_n0 : W11 m c (Proc.devRef .tc main_arg0) = (argv m c main_arg0) := arg0_at11 m c
theorem out_n0 : W12 m c (Proc.devRef .tc main_v87) = Hn0 m c :=
  (W12_arr m c 6).trans ((final5 (U11 m) c).trans (by
    show Spec.updG (W11 m c (Proc.devRef .tc main_arg0)) (W11 m c (Proc.devRef .tc main_v76)) (W11 m c (Proc.devRef .tc main_v81)) (W11 m c (Proc.devRef .tc main_v83)) (W11 m c (Proc.devRef .tc main_v85)) (W11 m c (Proc.devRef .tc main_v86)) = _
    rw [h3_n0 m c, scat_n0 m c, cnt_n0 m c, tlo2_n0 m c, thi2_n0 m c, row2_n0 m c]
    rfl))

/-! Layer n1: boundaries 12 to 16. -/
theorem keep_main_arg2_12_0 : W12 m c (Proc.devRef .tc main_arg2) = W0 m c (Proc.devRef .tc main_arg2) :=
  (W12_of_ne m c main_arg2 (by decide)).trans <|
    (StableHlo.after_of_writes_sub hostOps5 _ hostOps5_writes (by decide) : W11 m c (Proc.devRef .tc main_arg2) = W10 m c (Proc.devRef .tc main_arg2)).trans <|
    (W10_of_ne m c main_arg2 (by decide)).trans <|
    (StableHlo.after_of_writes_sub hostOps4 _ hostOps4_writes (by decide) : W9 m c (Proc.devRef .tc main_arg2) = W8 m c (Proc.devRef .tc main_arg2)).trans <|
    (W8_of_ne m c main_arg2 (by decide)).trans <|
    (StableHlo.after_of_writes_sub hostOps3 _ hostOps3_writes (by decide) : W7 m c (Proc.devRef .tc main_arg2) = W6 m c (Proc.devRef .tc main_arg2)).trans <|
    (W6_of_ne m c main_arg2 (by decide)).trans <|
    (StableHlo.after_of_writes_sub hostOps2 _ hostOps2_writes (by decide) : W5 m c (Proc.devRef .tc main_arg2) = W4 m c (Proc.devRef .tc main_arg2)).trans <|
    (W4_of_ne m c main_arg2 (by decide)).trans <|
    (StableHlo.after_of_writes_sub hostOps1 _ hostOps1_writes (by decide) : W3 m c (Proc.devRef .tc main_arg2) = W2 m c (Proc.devRef .tc main_arg2)).trans <|
    (W2_of_ne m c main_arg2 (by decide)).trans <|
    (StableHlo.after_of_writes_sub hostOps0 _ hostOps0_writes (by decide) : W1 m c (Proc.devRef .tc main_arg2) = W0 m c (Proc.devRef .tc main_arg2)).trans <| rfl
theorem arg2_at12 : W12 m c (Proc.devRef .tc main_arg2) = (argv m c main_arg2) := keep_main_arg2_12_0 m c
theorem keep_main_arg9_12_0 : W12 m c (Proc.devRef .tc main_arg9) = W0 m c (Proc.devRef .tc main_arg9) :=
  (W12_of_ne m c main_arg9 (by decide)).trans <|
    (StableHlo.after_of_writes_sub hostOps5 _ hostOps5_writes (by decide) : W11 m c (Proc.devRef .tc main_arg9) = W10 m c (Proc.devRef .tc main_arg9)).trans <|
    (W10_of_ne m c main_arg9 (by decide)).trans <|
    (StableHlo.after_of_writes_sub hostOps4 _ hostOps4_writes (by decide) : W9 m c (Proc.devRef .tc main_arg9) = W8 m c (Proc.devRef .tc main_arg9)).trans <|
    (W8_of_ne m c main_arg9 (by decide)).trans <|
    (StableHlo.after_of_writes_sub hostOps3 _ hostOps3_writes (by decide) : W7 m c (Proc.devRef .tc main_arg9) = W6 m c (Proc.devRef .tc main_arg9)).trans <|
    (W6_of_ne m c main_arg9 (by decide)).trans <|
    (StableHlo.after_of_writes_sub hostOps2 _ hostOps2_writes (by decide) : W5 m c (Proc.devRef .tc main_arg9) = W4 m c (Proc.devRef .tc main_arg9)).trans <|
    (W4_of_ne m c main_arg9 (by decide)).trans <|
    (StableHlo.after_of_writes_sub hostOps1 _ hostOps1_writes (by decide) : W3 m c (Proc.devRef .tc main_arg9) = W2 m c (Proc.devRef .tc main_arg9)).trans <|
    (W2_of_ne m c main_arg9 (by decide)).trans <|
    (StableHlo.after_of_writes_sub hostOps0 _ hostOps0_writes (by decide) : W1 m c (Proc.devRef .tc main_arg9) = W0 m c (Proc.devRef .tc main_arg9)).trans <| rfl
theorem arg9_at12 : W12 m c (Proc.devRef .tc main_arg9) = (argv m c main_arg9) := keep_main_arg9_12_0 m c
theorem keep_main_arg10_12_0 : W12 m c (Proc.devRef .tc main_arg10) = W0 m c (Proc.devRef .tc main_arg10) :=
  (W12_of_ne m c main_arg10 (by decide)).trans <|
    (StableHlo.after_of_writes_sub hostOps5 _ hostOps5_writes (by decide) : W11 m c (Proc.devRef .tc main_arg10) = W10 m c (Proc.devRef .tc main_arg10)).trans <|
    (W10_of_ne m c main_arg10 (by decide)).trans <|
    (StableHlo.after_of_writes_sub hostOps4 _ hostOps4_writes (by decide) : W9 m c (Proc.devRef .tc main_arg10) = W8 m c (Proc.devRef .tc main_arg10)).trans <|
    (W8_of_ne m c main_arg10 (by decide)).trans <|
    (StableHlo.after_of_writes_sub hostOps3 _ hostOps3_writes (by decide) : W7 m c (Proc.devRef .tc main_arg10) = W6 m c (Proc.devRef .tc main_arg10)).trans <|
    (W6_of_ne m c main_arg10 (by decide)).trans <|
    (StableHlo.after_of_writes_sub hostOps2 _ hostOps2_writes (by decide) : W5 m c (Proc.devRef .tc main_arg10) = W4 m c (Proc.devRef .tc main_arg10)).trans <|
    (W4_of_ne m c main_arg10 (by decide)).trans <|
    (StableHlo.after_of_writes_sub hostOps1 _ hostOps1_writes (by decide) : W3 m c (Proc.devRef .tc main_arg10) = W2 m c (Proc.devRef .tc main_arg10)).trans <|
    (W2_of_ne m c main_arg10 (by decide)).trans <|
    (StableHlo.after_of_writes_sub hostOps0 _ hostOps0_writes (by decide) : W1 m c (Proc.devRef .tc main_arg10) = W0 m c (Proc.devRef .tc main_arg10)).trans <| rfl
theorem arg10_at12 : W12 m c (Proc.devRef .tc main_arg10) = (argv m c main_arg10) := keep_main_arg10_12_0 m c
theorem gath_n1 : W13 m c (Proc.devRef .tc main_v94) = gathN (Hn0 m c) (argv m c main_arg2) := by
  show StableHlo.after hostOps6 (W12 m c) (Proc.devRef .tc main_v94) = _
  simp only [hostOps6]
  after_results
  rw [out_n0 m c, arg2_at12 m c]
  rfl
theorem tlo_n1 : W13 m c (Proc.devRef .tc main_v96) = Tlo (argv m c main_arg9) := by
  show StableHlo.after hostOps6 (W12 m c) (Proc.devRef .tc main_v96) = _
  simp only [hostOps6]
  after_results
  rw [arg9_at12 m c]
  rfl
theorem thi_n1 : W13 m c (Proc.devRef .tc main_v98) = Thi (argv m c main_arg9) := by
  show StableHlo.after hostOps6 (W12 m c) (Proc.devRef .tc main_v98) = _
  simp only [hostOps6]
  after_results
  rw [arg9_at12 m c]
  rfl
theorem row_n1 : W13 m c (Proc.devRef .tc main_v99) = rowOf (argv m c main_arg10) := by
  show StableHlo.after hostOps6 (W12 m c) (Proc.devRef .tc main_v99) = _
  simp only [hostOps6]
  after_results
  rw [arg10_at12 m c]
  rfl
theorem keep_main_v60_13_9 : W13 m c (Proc.devRef .tc main_v60) = W9 m c (Proc.devRef .tc main_v60) :=
  (StableHlo.after_of_writes_sub hostOps6 _ hostOps6_writes (by decide) : W13 m c (Proc.devRef .tc main_v60) = W12 m c (Proc.devRef .tc main_v60)).trans <|
    (W12_of_ne m c main_v60 (by decide)).trans <|
    (StableHlo.after_of_writes_sub hostOps5 _ hostOps5_writes (by decide) : W11 m c (Proc.devRef .tc main_v60) = W10 m c (Proc.devRef .tc main_v60)).trans <|
    ((W10_arr m c 1).trans (((dat4 (U9 m) c).arrAt_in 1 rfl _).trans (A_eq4 (U9 m) c 1))).trans <| rfl
theorem ef_n1 : W13 m c (Proc.devRef .tc main_v60) = (EFn m c) := (keep_main_v60_13_9 m c).trans (ef_n0 m c)
theorem msg_n1 : W14 m c (Proc.devRef .tc main_v100) = msgOf (gathN (Hn0 m c) (argv m c main_arg2)) (EFn m c) (argv m c main_arg9) (argv m c main_arg10) :=
  (W14_arr m c 5).trans ((final6 (U13 m) c).trans (by
    show Spec.msgG (W13 m c (Proc.devRef .tc main_v94)) (W13 m c (Proc.devRef .tc main_v60)) (W13 m c (Proc.devRef .tc main_v96)) (W13 m c (Proc.devRef .tc main_v98)) (W13 m c (Proc.devRef .tc main_v99)) = _
    rw [gath_n1 m c, ef_n1 m c, tlo_n1 m c, thi_n1 m c, row_n1 m c]
    rfl))
theorem keep_main_arg3_14_0 : W14 m c (Proc.devRef .tc main_arg3) = W0 m c (Proc.devRef .tc main_arg3) :=
  (W14_of_ne m c main_arg3 (by decide)).trans <|
    (StableHlo.after_of_writes_sub hostOps6 _ hostOps6_writes (by decide) : W13 m c (Proc.devRef .tc main_arg3) = W12 m c (Proc.devRef .tc main_arg3)).trans <|
    (W12_of_ne m c main_arg3 (by decide)).trans <|
    (StableHlo.after_of_writes_sub hostOps5 _ hostOps5_writes (by decide) : W11 m c (Proc.devRef .tc main_arg3) = W10 m c (Proc.devRef .tc main_arg3)).trans <|
    (W10_of_ne m c main_arg3 (by decide)).trans <|
    (StableHlo.after_of_writes_sub hostOps4 _ hostOps4_writes (by decide) : W9 m c (Proc.devRef .tc main_arg3) = W8 m c (Proc.devRef .tc main_arg3)).trans <|
    (W8_of_ne m c main_arg3 (by decide)).trans <|
    (StableHlo.after_of_writes_sub hostOps3 _ hostOps3_writes (by decide) : W7 m c (Proc.devRef .tc main_arg3) = W6 m c (Proc.devRef .tc main_arg3)).trans <|
    (W6_of_ne m c main_arg3 (by decide)).trans <|
    (StableHlo.after_of_writes_sub hostOps2 _ hostOps2_writes (by decide) : W5 m c (Proc.devRef .tc main_arg3) = W4 m c (Proc.devRef .tc main_arg3)).trans <|
    (W4_of_ne m c main_arg3 (by decide)).trans <|
    (StableHlo.after_of_writes_sub hostOps1 _ hostOps1_writes (by decide) : W3 m c (Proc.devRef .tc main_arg3) = W2 m c (Proc.devRef .tc main_arg3)).trans <|
    (W2_of_ne m c main_arg3 (by decide)).trans <|
    (StableHlo.after_of_writes_sub hostOps0 _ hostOps0_writes (by decide) : W1 m c (Proc.devRef .tc main_arg3) = W0 m c (Proc.devRef .tc main_arg3)).trans <| rfl
theorem arg3_at14 : W14 m c (Proc.devRef .tc main_arg3) = (argv m c main_arg3) := keep_main_arg3_14_0 m c
theorem keep_main_arg11_14_0 : W14 m c (Proc.devRef .tc main_arg11) = W0 m c (Proc.devRef .tc main_arg11) :=
  (W14_of_ne m c main_arg11 (by decide)).trans <|
    (StableHlo.after_of_writes_sub hostOps6 _ hostOps6_writes (by decide) : W13 m c (Proc.devRef .tc main_arg11) = W12 m c (Proc.devRef .tc main_arg11)).trans <|
    (W12_of_ne m c main_arg11 (by decide)).trans <|
    (StableHlo.after_of_writes_sub hostOps5 _ hostOps5_writes (by decide) : W11 m c (Proc.devRef .tc main_arg11) = W10 m c (Proc.devRef .tc main_arg11)).trans <|
    (W10_of_ne m c main_arg11 (by decide)).trans <|
    (StableHlo.after_of_writes_sub hostOps4 _ hostOps4_writes (by decide) : W9 m c (Proc.devRef .tc main_arg11) = W8 m c (Proc.devRef .tc main_arg11)).trans <|
    (W8_of_ne m c main_arg11 (by decide)).trans <|
    (StableHlo.after_of_writes_sub hostOps3 _ hostOps3_writes (by decide) : W7 m c (Proc.devRef .tc main_arg11) = W6 m c (Proc.devRef .tc main_arg11)).trans <|
    (W6_of_ne m c main_arg11 (by decide)).trans <|
    (StableHlo.after_of_writes_sub hostOps2 _ hostOps2_writes (by decide) : W5 m c (Proc.devRef .tc main_arg11) = W4 m c (Proc.devRef .tc main_arg11)).trans <|
    (W4_of_ne m c main_arg11 (by decide)).trans <|
    (StableHlo.after_of_writes_sub hostOps1 _ hostOps1_writes (by decide) : W3 m c (Proc.devRef .tc main_arg11) = W2 m c (Proc.devRef .tc main_arg11)).trans <|
    (W2_of_ne m c main_arg11 (by decide)).trans <|
    (StableHlo.after_of_writes_sub hostOps0 _ hostOps0_writes (by decide) : W1 m c (Proc.devRef .tc main_arg11) = W0 m c (Proc.devRef .tc main_arg11)).trans <| rfl
theorem arg11_at14 : W14 m c (Proc.devRef .tc main_arg11) = (argv m c main_arg11) := keep_main_arg11_14_0 m c
theorem keep_main_arg12_14_0 : W14 m c (Proc.devRef .tc main_arg12) = W0 m c (Proc.devRef .tc main_arg12) :=
  (W14_of_ne m c main_arg12 (by decide)).trans <|
    (StableHlo.after_of_writes_sub hostOps6 _ hostOps6_writes (by decide) : W13 m c (Proc.devRef .tc main_arg12) = W12 m c (Proc.devRef .tc main_arg12)).trans <|
    (W12_of_ne m c main_arg12 (by decide)).trans <|
    (StableHlo.after_of_writes_sub hostOps5 _ hostOps5_writes (by decide) : W11 m c (Proc.devRef .tc main_arg12) = W10 m c (Proc.devRef .tc main_arg12)).trans <|
    (W10_of_ne m c main_arg12 (by decide)).trans <|
    (StableHlo.after_of_writes_sub hostOps4 _ hostOps4_writes (by decide) : W9 m c (Proc.devRef .tc main_arg12) = W8 m c (Proc.devRef .tc main_arg12)).trans <|
    (W8_of_ne m c main_arg12 (by decide)).trans <|
    (StableHlo.after_of_writes_sub hostOps3 _ hostOps3_writes (by decide) : W7 m c (Proc.devRef .tc main_arg12) = W6 m c (Proc.devRef .tc main_arg12)).trans <|
    (W6_of_ne m c main_arg12 (by decide)).trans <|
    (StableHlo.after_of_writes_sub hostOps2 _ hostOps2_writes (by decide) : W5 m c (Proc.devRef .tc main_arg12) = W4 m c (Proc.devRef .tc main_arg12)).trans <|
    (W4_of_ne m c main_arg12 (by decide)).trans <|
    (StableHlo.after_of_writes_sub hostOps1 _ hostOps1_writes (by decide) : W3 m c (Proc.devRef .tc main_arg12) = W2 m c (Proc.devRef .tc main_arg12)).trans <|
    (W2_of_ne m c main_arg12 (by decide)).trans <|
    (StableHlo.after_of_writes_sub hostOps0 _ hostOps0_writes (by decide) : W1 m c (Proc.devRef .tc main_arg12) = W0 m c (Proc.devRef .tc main_arg12)).trans <| rfl
theorem arg12_at14 : W14 m c (Proc.devRef .tc main_arg12) = (argv m c main_arg12) := keep_main_arg12_14_0 m c
theorem scat_n1 : W15 m c (Proc.devRef .tc main_v103) = scat (argv m c main_arg3) (msgOf (gathN (Hn0 m c) (argv m c main_arg2)) (EFn m c) (argv m c main_arg9) (argv m c main_arg10)) := by
  show StableHlo.after hostOps7 (W14 m c) (Proc.devRef .tc main_v103) = _
  simp only [hostOps7]
  after_results
  rw [msg_n1 m c, arg3_at14 m c]
  rfl
theorem cnt_n1 : W15 m c (Proc.devRef .tc main_v108) = cntCol (argv m c main_arg3) := by
  show StableHlo.after hostOps7 (W14 m c) (Proc.devRef .tc main_v108) = _
  simp only [hostOps7]
  after_results
  rw [arg3_at14 m c]
  rfl
theorem tlo2_n1 : W15 m c (Proc.devRef .tc main_v110) = Tlo (argv m c main_arg11) := by
  show StableHlo.after hostOps7 (W14 m c) (Proc.devRef .tc main_v110) = _
  simp only [hostOps7]
  after_results
  rw [arg11_at14 m c]
  rfl
theorem thi2_n1 : W15 m c (Proc.devRef .tc main_v112) = Thi (argv m c main_arg11) := by
  show StableHlo.after hostOps7 (W14 m c) (Proc.devRef .tc main_v112) = _
  simp only [hostOps7]
  after_results
  rw [arg11_at14 m c]
  rfl
theorem row2_n1 : W15 m c (Proc.devRef .tc main_v113) = rowOf (argv m c main_arg12) := by
  show StableHlo.after hostOps7 (W14 m c) (Proc.devRef .tc main_v113) = _
  simp only [hostOps7]
  after_results
  rw [arg12_at14 m c]
  rfl
theorem keep_main_v87_15_12 : W15 m c (Proc.devRef .tc main_v87) = W12 m c (Proc.devRef .tc main_v87) :=
  (StableHlo.after_of_writes_sub hostOps7 _ hostOps7_writes (by decide) : W15 m c (Proc.devRef .tc main_v87) = W14 m c (Proc.devRef .tc main_v87)).trans <|
    (W14_of_ne m c main_v87 (by decide)).trans <|
    (StableHlo.after_of_writes_sub hostOps6 _ hostOps6_writes (by decide) : W13 m c (Proc.devRef .tc main_v87) = W12 m c (Proc.devRef .tc main_v87)).trans <| rfl
theorem h3_n1 : W15 m c (Proc.devRef .tc main_v87) = (Hn0 m c) := (keep_main_v87_15_12 m c).trans (out_n0 m c)
theorem out_n1 : W16 m c (Proc.devRef .tc main_v114) = Hn1 m c :=
  (W16_arr m c 6).trans ((final7 (U15 m) c).trans (by
    show Spec.updG (W15 m c (Proc.devRef .tc main_v87)) (W15 m c (Proc.devRef .tc main_v103)) (W15 m c (Proc.devRef .tc main_v108)) (W15 m c (Proc.devRef .tc main_v110)) (W15 m c (Proc.devRef .tc main_v112)) (W15 m c (Proc.devRef .tc main_v113)) = _
    rw [h3_n1 m c, scat_n1 m c, cnt_n1 m c, tlo2_n1 m c, thi2_n1 m c, row2_n1 m c]
    rfl))
theorem keep_main_v53_16_8 : W16 m c (Proc.devRef .tc main_v53) = W8 m c (Proc.devRef .tc main_v53) :=
  (W16_of_ne m c main_v53 (by decide)).trans <|
    (StableHlo.after_of_writes_sub hostOps7 _ hostOps7_writes (by decide) : W15 m c (Proc.devRef .tc main_v53) = W14 m c (Proc.devRef .tc main_v53)).trans <|
    (W14_of_ne m c main_v53 (by decide)).trans <|
    (StableHlo.after_of_writes_sub hostOps6 _ hostOps6_writes (by decide) : W13 m c (Proc.devRef .tc main_v53) = W12 m c (Proc.devRef .tc main_v53)).trans <|
    (W12_of_ne m c main_v53 (by decide)).trans <|
    (StableHlo.after_of_writes_sub hostOps5 _ hostOps5_writes (by decide) : W11 m c (Proc.devRef .tc main_v53) = W10 m c (Proc.devRef .tc main_v53)).trans <|
    (W10_of_ne m c main_v53 (by decide)).trans <|
    (StableHlo.after_of_writes_sub hostOps4 _ hostOps4_writes (by decide) : W9 m c (Proc.devRef .tc main_v53) = W8 m c (Proc.devRef .tc main_v53)).trans <| rfl
theorem keep_main_v114_18_16 : W18 m c (Proc.devRef .tc main_v114) = W16 m c (Proc.devRef .tc main_v114) :=
  (StableHlo.after_of_writes_sub hostOps9 _ hostOps9_writes (by decide) : W18 m c (Proc.devRef .tc main_v114) = W17 m c (Proc.devRef .tc main_v114)).trans <|
    (W17_of_ne m c main_v114 (by decide)).trans <| rfl
theorem keep_main_v117_19_18 : W19 m c (Proc.devRef .tc main_v117) = W18 m c (Proc.devRef .tc main_v117) :=
  (W19_of_ne m c main_v117 (by decide)).trans <| rfl

/-! The two losses and their sum. -/
theorem sc8 : scores8 (U16 m) c = Hp1 m c := (keep_main_v53_16_8 m c).trans (out_p1 m c)
theorem tot8 : W17 m c (Proc.devRef .tc main_v115) = fun _ => ∑ i : S100000x64.Idx, PayloadAt.bceTerm1 (Hp1 m c i) :=
  (W17_arr m c 1).trans ((final8 (U16 m) c).trans (by unfold total8; rw [sc8 m c]))
theorem mean8 : W18 m c (Proc.devRef .tc main_v117) = meanOf (∑ i : S100000x64.Idx, PayloadAt.bceTerm1 (Hp1 m c i)) := by
  show StableHlo.after hostOps9 (W17 m c) (Proc.devRef .tc main_v117) = _
  simp only [hostOps9]
  after_results
  rw [tot8 m c]
  rfl
theorem sc9 : scores9 (U18 m) c = Hn1 m c := (keep_main_v114_18_16 m c).trans (out_n1 m c)
theorem tot9 : W19 m c (Proc.devRef .tc main_v118) = fun _ => ∑ i : S100000x64.Idx, PayloadAt.bceTerm0 (Hn1 m c i) :=
  (W19_arr m c 1).trans ((final9 (U18 m) c).trans (by unfold total9; rw [sc9 m c]))
/-- The program's result: the mean of the loss terms of the first encoding plus the mean of those of the second. -/
theorem result_eq : W20 m c (Proc.devRef .tc main_v121)
    = addf (F := Ideal) (s := S_) (φ := .f32) (meanOf (∑ i : S100000x64.Idx, PayloadAt.bceTerm1 (Hp1 m c i))) (meanOf (∑ i : S100000x64.Idx, PayloadAt.bceTerm0 (Hn1 m c i))) := by
  show StableHlo.after hostOps10 (W19 m c) (Proc.devRef .tc main_v121) = _
  simp only [hostOps10]
  after_results
  rw [tot9 m c, (keep_main_v117_19_18 m c).trans (mean8 m c)]
  rfl

end Cert.KernelIdeal.Blocks

end
-- ==== Proof.LayoutAt.lean ====
import proofs.«176382_j6528350290006_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.LayoutAt

open Cert.KernelIdeal Cert.KernelIdeal.Gen Idealize.ShloMosaic Idealize.ShloMosaic.TcCoe Idealize.SL.Sem Idealize.ShloMosaic.StableHlo
open Idealize.ShloMosaic.ValueIdx (ix1 ix2)

/-! ## The host layout operations of the kernel program, read at an index

Each lemma takes the operation's shape evidence as a hypothesis, so it applies whichever proof of that evidence the
program's text cites. -/

/-- The transposed left half of a [64, 128] weight: entry `(k, q)` is the weight's entry `(q, k)`. -/
theorem slice_lo_transpose_at (W : (⟨S64x128, .f32⟩ : BufTy).Contents (Elt Ideal))
    (hs : S64x128.Slices ![0, 0] S64x64) (ht : S64x64.Transposes [1, 0] S64x64) (k q : Fin 64) :
    transpose S64x64 [1, 0] (extractStridedSlice S64x64 ![0, 0] W hs) ht (ix2 k q)
      = W (ix2 q (⟨k.val, by omega⟩ : Fin 128)) := by
  refine (transpose_apply [1, 0] _ ht (ix2 k q) (ix2 q k) (fun b => match b with
    | ⟨0, _⟩ => rfl
    | ⟨1, _⟩ => rfl)).trans ?_
  exact extractStridedSlice_apply ![0, 0] W hs (ix2 q k) (ix2 q (⟨k.val, by omega⟩ : Fin 128)) (fun a => match a with
    | ⟨0, _⟩ => by show q.val = 0 + q.val; omega
    | ⟨1, _⟩ => by show k.val = 0 + k.val; omega)

/-- The transposed right half of a [64, 128] weight: entry `(k, q)` is the weight's entry `(q, k + 64)`. -/
theorem slice_hi_transpose_at (W : (⟨S64x128, .f32⟩ : BufTy).Contents (Elt Ideal))
    (hs : S64x128.Slices ![0, 64] S64x64) (ht : S64x64.Transposes [1, 0] S64x64) (k q : Fin 64) :
    transpose S64x64 [1, 0] (extractStridedSlice S64x64 ![0, 64] W hs) ht (ix2 k q)
      = W (ix2 q (⟨k.val + 64, by omega⟩ : Fin 128)) := by
  refine (transpose_apply [1, 0] _ ht (ix2 k q) (ix2 q k) (fun b => match b with
    | ⟨0, _⟩ => rfl
    | ⟨1, _⟩ => rfl)).trans ?_
  exact extractStridedSlice_apply ![0, 64] W hs (ix2 q k) (ix2 q (⟨k.val + 64, by omega⟩ : Fin 128)) (fun a => match a with
    | ⟨0, _⟩ => by show q.val = 0 + q.val; omega
    | ⟨1, _⟩ => by show k.val + 64 = 64 + k.val; omega)

/-- The same with the column written `64 + k`. -/
theorem slice_hi_transpose_at' (W : (⟨S64x128, .f32⟩ : BufTy).Contents (Elt Ideal))
    (hs : S64x128.Slices ![0, 64] S64x64) (ht : S64x64.Transposes [1, 0] S64x64) (k q : Fin 64) :
    transpose S64x64 [1, 0] (extractStridedSlice S64x64 ![0, 64] W hs) ht (ix2 k q)
      = W (ix2 q (⟨64 + k.val, by omega⟩ : Fin 128)) :=
  (slice_hi_transpose_at W hs ht k q).trans (congrArg (fun j : Fin 128 => W (ix2 q j)) (Fin.ext (Nat.add_comm _ _)))

/-- A [64] vector viewed as one row [1, 64]: entry `(0, q)` is the vector's entry `q`. -/
theorem reshape_row_at (b : (⟨S64, .f32⟩ : BufTy).Contents (Elt Ideal)) (h : S64.ShapeCasts S1x64) (q : Fin 64) :
    shapeCast S1x64 b h (ix2 (0 : Fin 1) q) = b (ix1 q) := by
  refine shapeCast_apply b h (ix2 (0 : Fin 1) q) (ix1 q) ?_
  rw [Shape.rowMajor_val_one, Shape.rowMajor_val_two]
  show q.val = (0 : Fin 1).val * 64 + q.val
  simp

/-- A [100000] vector viewed as one column [100000, 1]: entry `(r, 0)` is the vector's entry `r`. -/
theorem reshape_col_at {α : Type} (x : S100000.Idx → α) (h : S100000.ShapeCasts S100000x1) (r : Fin 100000) :
    shapeCast S100000x1 x h (ix2 r (0 : Fin 1)) = x (ix1 r) := by
  refine shapeCast_apply x h (ix2 r (0 : Fin 1)) (ix1 r) ?_
  rw [Shape.rowMajor_val_one, Shape.rowMajor_val_two]
  show r.val = r.val * 1 + (0 : Fin 1).val
  simp

end Cert.KernelIdeal.LayoutAt
-- ==== Proof.Laws.lean ====
import proofs.«176382_j6528350290006_1_alg».proof.Proof.Spec
import proofs.«176382_j6528350290006_1_alg».proof.Proof.LayoutAt
import proofs.«176382_j6528350290006_1_alg».proof.Proof.PayloadAt
import Idealize.ShloMosaic.Lib.IdealHost

/-! # The kernel program's stages as plain expressions of the argument arrays

The message stage and the node update stage, applied to the weight's two transposed halves and the bias viewed
as one row, read at an index as sums over the weight's own columns; and the loss kernels' per-entry term with the
subtraction from zero written as the opposite. All over the extended reals. -/

noncomputable section

namespace Cert.KernelIdeal.Laws

open Cert.KernelIdeal Cert.KernelIdeal.Gen
open Idealize.ShloMosaic Idealize.SL.Sem Idealize.ShloMosaic.StableHlo
open Idealize.ShloMosaic.ValueIdx (ix1 ix2)

/-- The message stage on the weight's two transposed halves and the bias row: at `(e, c)`, row `e` of the gathered
    node features against the first 64 columns of row `c` of the weight, plus row `e` of the edge features against the
    last 64, plus the bias's entry `c`. -/
theorem msg_law (hs ef : S1000000x64.Idx → EReal) (W : S64x128.Idx → EReal) (b : S64.Idx → EReal)
    (hs0 : S64x128.Slices ![0, 0] S64x64) (hs1 : S64x128.Slices ![0, 64] S64x64)
    (ht : S64x64.Transposes [1, 0] S64x64) (hb : S64.ShapeCasts S1x64) (i : S1000000x64.Idx) :
    Spec.msgG hs ef (transpose S64x64 [1, 0] (extractStridedSlice S64x64 ![0, 0] W hs0) ht)
        (transpose S64x64 [1, 0] (extractStridedSlice S64x64 ![0, 64] W hs1) ht) (shapeCast S1x64 b hb) i
      = (∑ k : Fin 64, hs (ix2 (n0 := 1000000) (i 0) k) * W (ix2 (n0 := 64) (i 1) (⟨k.val, by omega⟩ : Fin 128)))
        + (∑ k : Fin 64, ef (ix2 (n0 := 1000000) (i 0) k) * W (ix2 (n0 := 64) (i 1) (⟨64 + k.val, by omega⟩ : Fin 128)))
        + b (ix1 (n := 64) (i 1)) := by
  unfold Spec.msgG
  refine congrArg₂ (· + ·) (congrArg₂ (· + ·) (Finset.sum_congr rfl fun k _ => ?_)
    (Finset.sum_congr rfl fun k _ => ?_)) ?_
  · exact congrArg (hs (ix2 (n0 := 1000000) (i 0) k) * ·) (LayoutAt.slice_lo_transpose_at W hs0 ht k (i 1))
  · refine congrArg (ef (ix2 (n0 := 1000000) (i 0) k) * ·)
      ((LayoutAt.slice_hi_transpose_at W hs1 ht k (i 1)).trans (congrArg W ?_))
    exact congrArg (ix2 (n0 := 64) (i 1)) (Fin.ext (Nat.add_comm k.val 64))
  · exact LayoutAt.reshape_row_at b hb (i 1)

/-- The node update stage on the in-degree viewed as a column, the weight's two transposed halves and the bias row: at
    `(n, c)`, the node's own row against the first 64 columns of row `c` of the weight, plus its aggregated messages
    divided by its in-degree (at least one) against the last 64, plus the bias's entry `c`; negative values cut to zero. -/
theorem upd_law (h s : S100000x64.Idx → EReal) (cnt : S100000.Idx → EReal) (W : S64x128.Idx → EReal)
    (b : S64.Idx → EReal) (hc : S100000.ShapeCasts S100000x1)
    (hs0 : S64x128.Slices ![0, 0] S64x64) (hs1 : S64x128.Slices ![0, 64] S64x64)
    (ht : S64x64.Transposes [1, 0] S64x64) (hb : S64.ShapeCasts S1x64) (i : S100000x64.Idx) :
    Spec.updG h s (shapeCast S100000x1 cnt hc)
        (transpose S64x64 [1, 0] (extractStridedSlice S64x64 ![0, 0] W hs0) ht)
        (transpose S64x64 [1, 0] (extractStridedSlice S64x64 ![0, 64] W hs1) ht) (shapeCast S1x64 b hb) i
      = max ((∑ k : Fin 64, h (ix2 (n0 := 100000) (i 0) k) * W (ix2 (n0 := 64) (i 1) (⟨k.val, by omega⟩ : Fin 128)))
          + (∑ k : Fin 64, Ideal.div (s (ix2 (n0 := 100000) (i 0) k)) (max (cnt (ix1 (n := 100000) (i 0))) 1)
              * W (ix2 (n0 := 64) (i 1) (⟨64 + k.val, by omega⟩ : Fin 128)))
          + b (ix1 (n := 64) (i 1))) 0 := by
  unfold Spec.updG
  refine congrArg (max · 0) (congrArg₂ (· + ·) (congrArg₂ (· + ·) (Finset.sum_congr rfl fun k _ => ?_)
    (Finset.sum_congr rfl fun k _ => ?_)) ?_)
  · exact congrArg (h (ix2 (n0 := 100000) (i 0) k) * ·) (LayoutAt.slice_lo_transpose_at W hs0 ht k (i 1))
  · refine congrArg₂ (· * ·) (congrArg (Ideal.div (s (ix2 (n0 := 100000) (i 0) k)))
        (congrArg₂ max (LayoutAt.reshape_col_at cnt hc (i 0)) Ideal.ofBits_one_f32))
      ((LayoutAt.slice_hi_transpose_at W hs1 ht k (i 1)).trans (congrArg W ?_))
    exact congrArg (ix2 (n0 := 64) (i 1)) (Fin.ext (Nat.add_comm k.val 64))
  · exact LayoutAt.reshape_row_at b hb (i 1)

/-- The per-entry term of the loss with weight `c`, the subtraction from zero written as the opposite. -/
theorem bceTerm_eq (c z : EReal) :
    PayloadAt.bceTerm c z = max 0 z + Ideal.log1p (Ideal.exp (-(max (0 - z) (-(0 - z))))) - z * c := by
  unfold PayloadAt.bceTerm
  rw [zero_sub (max (0 - z) (-(0 - z)))]

/-- The first loss kernel's term: the last product is by one. -/
theorem bceTerm1_eq (z : EReal) :
    PayloadAt.bceTerm1 z = max 0 z + Ideal.log1p (Ideal.exp (-(max (0 - z) (-(0 - z))))) - z * 1 := by
  unfold PayloadAt.bceTerm1
  rw [bceTerm_eq, Ideal.ofBits_one_f32]

/-- The second loss kernel's term: the last product is by zero. -/
theorem bceTerm0_eq (z : EReal) :
    PayloadAt.bceTerm0 z = max 0 z + Ideal.log1p (Ideal.exp (-(max (0 - z) (-(0 - z))))) - z * 0 := by
  unfold PayloadAt.bceTerm0
  exact bceTerm_eq 0 z

end Cert.KernelIdeal.Laws
-- ==== Proof.RefAtG.lean ====
import proofs.«176382_j6528350290006_1_alg».proof.Proof.RefSpec
import Idealize.ShloMosaic.Lib.Pipeline.Value
import Idealize.ShloMosaic.Lib.ValueIdx
import Idealize.ShloMosaic.PureOps.Ideal.Laws
import Idealize.ShloMosaic.Lib.IdealHost

noncomputable section

namespace Cert.ReferenceIdeal.RefAtG

open Cert.ReferenceIdeal Cert.ReferenceIdeal.Gen Idealize.ShloMosaic Idealize.ShloMosaic.TcCoe Idealize.SL.Sem Idealize.ShloMosaic.StableHlo
open Idealize.ShloMosaic.ValueIdx (ix0 ix1 ix2)

/-! ## Columns of a 128-wide row: the first 64 and the last 64 -/

/-- Column `k` of the first half of a 128-wide row. -/
abbrev lo (k : Fin 64) : Fin 128 := ⟨k.val, by omega⟩
/-- Column `64 + k`: column `k` of the second half of a 128-wide row. -/
abbrev hi (k : Fin 64) : Fin 128 := ⟨64 + k.val, by omega⟩

/-- A sum over 128 columns is the sum over the first 64 plus the sum over the last 64. -/
theorem sum_fin128 {M : Type*} [AddCommMonoid M] (f : Fin 128 → M) :
    ∑ k : Fin 128, f k = (∑ k : Fin 64, f (lo k)) + ∑ k : Fin 64, f (hi k) :=
  Fin.sum_univ_add (a := 64) (b := 64) f

/-! ## A two-piece concatenation of [R, 64] arrays along the columns, at an index -/

section Concat
variable {α : Type} {R : Nat}

/-- In its first 64 columns the concatenation is the first piece. -/
theorem concat_lo (x₁ x₂ : (⟨2, ![R, 64]⟩ : Shape).Idx → α)
    (h : Shape.Concatenates [(⟨2, ![R, 64]⟩ : Shape), ⟨2, ![R, 64]⟩] ⟨2, ![R, 128]⟩ 1) (r : Fin R) (k : Fin 64) :
    concatenate (⟨2, ![R, 128]⟩ : Shape) 1 [⟨⟨2, ![R, 64]⟩, x₁⟩, ⟨⟨2, ![R, 64]⟩, x₂⟩] h (ix2 r (lo k)) = x₁ (ix2 r k) := by
  refine concatenate_pair_apply_left 1 x₁ x₂ h (ix2 r (lo k)) rfl (ix2 r k) (fun b => ?_)
  match b with
  | ⟨0, _⟩ => rfl
  | ⟨1, _⟩ => rfl

/-- In its last 64 columns the concatenation is the second piece, 64 columns to the left. -/
theorem concat_hi (x₁ x₂ : (⟨2, ![R, 64]⟩ : Shape).Idx → α)
    (h : Shape.Concatenates [(⟨2, ![R, 64]⟩ : Shape), ⟨2, ![R, 64]⟩] ⟨2, ![R, 128]⟩ 1) (r : Fin R) (k : Fin 64) :
    concatenate (⟨2, ![R, 128]⟩ : Shape) 1 [⟨⟨2, ![R, 64]⟩, x₁⟩, ⟨⟨2, ![R, 64]⟩, x₂⟩] h (ix2 r (hi k)) = x₂ (ix2 r k) := by
  refine concatenate_pair_apply_right 1 x₁ x₂ h (ix2 r (hi k)) rfl rfl (ix2 r k) (fun b hb => ?_) ?_
  · match b with
    | ⟨0, _⟩ => rfl
    | ⟨1, _⟩ => exact absurd rfl hb
  · show k.val + 64 = 64 + k.val
    omega

end Concat

/-! ## A contraction of a concatenated 128-wide row against a 128-deep weight, split into its two halves -/

section Core
variable {R : Nat}

/-- The 128-term contraction of a row `[A | B]` (two 64-wide pieces) against a weight is the 64-term contraction of
    `A` against the weight's first 64 columns plus that of `B` against its last 64. The left operand is read through
    `lidx` and the right one through `ridx`, as the dot product's index functions give them. -/
theorem dot_concat_split (v7 : (⟨2, ![R, 128]⟩ : Shape).Idx → EReal) (v8 : (⟨2, ![128, 64]⟩ : Shape).Idx → EReal)
    (A B : (⟨2, ![R, 64]⟩ : Shape).Idx → EReal) (W : (⟨2, ![64, 128]⟩ : Shape).Idx → EReal)
    (lidx : Fin 128 → (⟨2, ![R, 128]⟩ : Shape).Idx) (ridx : Fin 128 → (⟨2, ![128, 64]⟩ : Shape).Idx)
    (r : Fin R) (c : Fin 64)
    (hl : ∀ k, lidx k = ix2 r k) (hr : ∀ k, v8 (ridx k) = W (ix2 c k))
    (hlo : ∀ k, v7 (ix2 r (lo k)) = A (ix2 r k)) (hhi : ∀ k, v7 (ix2 r (hi k)) = B (ix2 r k)) :
    ∑ k : Fin 128, v7 (lidx k) * v8 (ridx k)
      = (∑ k : Fin 64, A (ix2 r k) * W (ix2 c (lo k))) + ∑ k : Fin 64, B (ix2 r k) * W (ix2 c (hi k)) := by
  rw [sum_fin128]
  congr 1
  · refine Finset.sum_congr rfl fun k _ => ?_
    rw [hl, hr, hlo]
  · refine Finset.sum_congr rfl fun k _ => ?_
    rw [hl, hr, hhi]

end Core

/-! ## The reference's operations read at an index, over variable arrays

Each lemma takes the operation's shape evidence as a hypothesis, so it applies whichever proof of that evidence a
definition cites. -/

theorem lhs_dotE_0 (i : S1000000x64.Idx) (q : dot_S1000000x128_S128x64_S1000000x64_1_0_0_1_n_n.contr.Idx) :
    (dot_S1000000x128_S128x64_S1000000x64_1_0_0_1_n_n.lhsIdx i q 0).val = (i 0).val := by
  unfold DotDims.lhsIdx
  rw [dif_neg (show ¬(0 : Fin S1000000x128.rank) ∈ dot_S1000000x128_S128x64_S1000000x64_1_0_0_1_n_n.lhsBatch by decide), dif_pos (show (0 : Fin S1000000x128.rank) ∈ dot_S1000000x128_S128x64_S1000000x64_1_0_0_1_n_n.lhsNonContracting by decide)]
  rfl
theorem lhs_dotE_1 (i : S1000000x64.Idx) (q : dot_S1000000x128_S128x64_S1000000x64_1_0_0_1_n_n.contr.Idx) :
    (dot_S1000000x128_S128x64_S1000000x64_1_0_0_1_n_n.lhsIdx i q 1).val = (q ⟨0, by decide⟩).val :=
  dot_S1000000x128_S128x64_S1000000x64_1_0_0_1_n_n.lhsIdx_val_of_single rfl i q
theorem rhs_dotE_0 (i : S1000000x64.Idx) (q : dot_S1000000x128_S128x64_S1000000x64_1_0_0_1_n_n.contr.Idx) :
    (dot_S1000000x128_S128x64_S1000000x64_1_0_0_1_n_n.rhsIdx i q 0).val = (q ⟨0, by decide⟩).val :=
  dot_S1000000x128_S128x64_S1000000x64_1_0_0_1_n_n.rhsIdx_val_of_single rfl i q
theorem rhs_dotE_1 (i : S1000000x64.Idx) (q : dot_S1000000x128_S128x64_S1000000x64_1_0_0_1_n_n.contr.Idx) :
    (dot_S1000000x128_S128x64_S1000000x64_1_0_0_1_n_n.rhsIdx i q 1).val = (i 1).val := by
  unfold DotDims.rhsIdx
  rw [dif_neg (show ¬(1 : Fin S128x64.rank) ∈ dot_S1000000x128_S128x64_S1000000x64_1_0_0_1_n_n.rhsBatch by decide), dif_pos (show (1 : Fin S128x64.rank) ∈ dot_S1000000x128_S128x64_S1000000x64_1_0_0_1_n_n.rhsNonContracting by decide)]
  rfl

/-- The [1000000, 128] × [128, 64] product at row `r`, column `c`: the sum over the 128 contracted positions. -/
theorem dotE_ix (y0 : FVec Ideal S1000000x128 .f32) (y1 : FVec Ideal S128x64 .f32) (r : Fin 1000000) (c : Fin 64) :
    Host.dotGeneral (F := Ideal) dot_S1000000x128_S128x64_S1000000x64_1_0_0_1_n_n none y0 y1 (ix2 r c)
      = ∑ k : Fin 128, y0 (ix2 r k) * y1 (ix2 k c) := by
  simp only [Host.dotGeneral]
  rw [Ideal.dotGeneral_apply, ← Equiv.sum_comp (ValueIdx.contrEquiv1 dot_S1000000x128_S128x64_S1000000x64_1_0_0_1_n_n 128 rfl rfl).symm]
  refine Finset.sum_congr rfl fun k _ => ?_
  have hk := ValueIdx.contrEquiv1_symm_val dot_S1000000x128_S128x64_S1000000x64_1_0_0_1_n_n 128 rfl rfl k
  have el : dot_S1000000x128_S128x64_S1000000x64_1_0_0_1_n_n.lhsIdx (ix2 r c) ((ValueIdx.contrEquiv1 dot_S1000000x128_S128x64_S1000000x64_1_0_0_1_n_n 128 rfl rfl).symm k) = ix2 r k := funext fun a => Fin.ext (by
    match a with
    | ⟨0, _⟩ => exact lhs_dotE_0 _ _
    | ⟨1, _⟩ => exact (lhs_dotE_1 _ _).trans hk)
  have er : dot_S1000000x128_S128x64_S1000000x64_1_0_0_1_n_n.rhsIdx (ix2 r c) ((ValueIdx.contrEquiv1 dot_S1000000x128_S128x64_S1000000x64_1_0_0_1_n_n 128 rfl rfl).symm k) = ix2 k c := funext fun a => Fin.ext (by
    match a with
    | ⟨0, _⟩ => exact (rhs_dotE_0 _ _).trans hk
    | ⟨1, _⟩ => exact rhs_dotE_1 _ _)
  rw [el, er]

theorem lhs_dotN_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs_dotN_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_dotN_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_dotN_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The [100000, 128] × [128, 64] product at row `r`, column `c`: the sum over the 128 contracted positions. -/
theorem dotN_ix (y0 : FVec Ideal S100000x128 .f32) (y1 : FVec Ideal S128x64 .f32) (r : Fin 100000) (c : Fin 64) :
    Host.dotGeneral (F := Ideal) dot_S100000x128_S128x64_S100000x64_1_0_0_1_n_n none y0 y1 (ix2 r c)
      = ∑ k : Fin 128, y0 (ix2 r k) * y1 (ix2 k c) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r c) ((ValueIdx.contrEquiv1 dot_S100000x128_S128x64_S100000x64_1_0_0_1_n_n 128 rfl rfl).symm k) = ix2 r k := funext fun a => Fin.ext (by
    match a with
    | ⟨0, _⟩ => exact lhs_dotN_0 _ _
    | ⟨1, _⟩ => exact (lhs_dotN_1 _ _).trans hk)
  have er : dot_S100000x128_S128x64_S100000x64_1_0_0_1_n_n.rhsIdx (ix2 r c) ((ValueIdx.contrEquiv1 dot_S100000x128_S128x64_S100000x64_1_0_0_1_n_n 128 rfl rfl).symm k) = ix2 k c := funext fun a => Fin.ext (by
    match a with
    | ⟨0, _⟩ => exact (rhs_dotN_0 _ _).trans hk
    | ⟨1, _⟩ => exact rhs_dotN_1 _ _)
  rw [el, er]

section Ops
variable {R : Nat}

/-- A [64, 128] weight transposed, at `(k, c)`: the weight at `(c, k)`. -/
theorem transposeW_ix (W : FVec Ideal S64x128 .f32) (ht : S64x128.Transposes [1, 0] S128x64) (k : Fin 128) (c : Fin 64) :
    transpose S128x64 [1, 0] W ht (ix2 k c) = W (ix2 c k) :=
  transpose_apply [1, 0] W ht (ix2 k c) (ix2 c k) (fun b => match b with
    | ⟨0, _⟩ => rfl
    | ⟨1, _⟩ => rfl)

/-- A [64] bias broadcast to one row and then down `R` rows, at `(r, c)`: the bias at `c`. -/
theorem bias_ix {α : Type} (b : S64.Idx → α) (hb1 : S64.BroadcastsInDim S1x64 (![1] : Fin 1 → Fin S1x64.rank))
    (hb2 : S1x64.BroadcastsInDim (⟨2, ![R, 64]⟩ : Shape) (![0, 1] : Fin 2 → Fin 2)) (r : Fin R) (c : Fin 64) :
    broadcastInDim (⟨2, ![R, 64]⟩ : Shape) ![0, 1] hb2 (broadcastInDim S1x64 ![1] hb1 b) (ix2 r c) = b (ix1 c) := by
  refine (broadcastInDim_apply _ hb2 _ (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])).trans ?_
  exact broadcastInDim_apply _ hb1 b (ix2 (0 : Fin 1) c) (ix1 c) (fun a => match a with
    | ⟨0, _⟩ => by show c.val = if (64 : Nat) = 1 then 0 else c.val; rw [if_neg (by decide)])

/-- A [100000] vector broadcast to one column and then across 64 columns, at `(r, k)`: the vector at `r`. -/
theorem col_ix {α : Type} (y : S100000.Idx → α) (hb3 : S100000.BroadcastsInDim S100000x1 (![0] : Fin 1 → Fin S100000x1.rank))
    (hb4 : S100000x1.BroadcastsInDim S100000x64 (![0, 1] : Fin 2 → Fin S100000x64.rank)) (r : Fin 100000) (k : Fin 64) :
    broadcastInDim S100000x64 ![0, 1] hb4 (broadcastInDim S100000x1 ![0] hb3 y) (ix2 r k) = y (ix1 r) := by
  refine (broadcastInDim_apply _ hb4 _ (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans ?_
  exact broadcastInDim_apply _ hb3 y (ix2 r (0 : Fin 1)) (ix1 r) (fun a => match a with
    | ⟨0, _⟩ => by show r.val = if (100000 : Nat) = 1 then 0 else r.val; rw [if_neg (by decide)])

/-- The literal zero broadcast to any shape is zero everywhere. -/
theorem zeros_ix {T : Shape} (h : S_.BroadcastsInDim T ![]) (j : T.Idx) :
    broadcastInDim T ![] h (constant (F := Ideal) S_ .f32 0x00000000#32) j = 0 :=
  (ValueIdx.broadcastInDim_scalar_apply h _ j).trans Ideal.ofBits_zero_f32

/-- The literal one broadcast to any shape is one everywhere. -/
theorem ones_ix {T : Shape} (h : S_.BroadcastsInDim T ![]) (j : T.Idx) :
    broadcastInDim T ![] h (constant (F := Ideal) S_ .f32 0x3F800000#32) j = 1 :=
  (ValueIdx.broadcastInDim_scalar_apply h _ j).trans Ideal.ofBits_one_f32

end Ops

/-! ## The message stage and the node update stage, as expressions of variable arrays -/

/-- The message expression at edge `r`, column `c`: the row `[hs | ef]` against the transposed weight plus the bias is the
    `hs` row against the weight's first 64 columns, plus the `ef` row against its last 64, plus the bias's entry. -/
theorem msg_expr_ix (hs ef : FVec Ideal S1000000x64 .f32) (W : FVec Ideal S64x128 .f32) (b : FVec Ideal S64 .f32)
    (hc : Shape.Concatenates [S1000000x64, S1000000x64] S1000000x128 1) (ht : S64x128.Transposes [1, 0] S128x64)
    (hb1 : S64.BroadcastsInDim S1x64 (![1] : Fin 1 → Fin S1x64.rank))
    (hb2 : S1x64.BroadcastsInDim S1000000x64 (![0, 1] : Fin 2 → Fin S1000000x64.rank)) (r : Fin 1000000) (c : Fin 64) :
    addf (Host.dotGeneral (F := Ideal) dot_S1000000x128_S128x64_S1000000x64_1_0_0_1_n_n none
          (concatenate S1000000x128 1 [⟨S1000000x64, hs⟩, ⟨S1000000x64, ef⟩] hc) (transpose S128x64 [1, 0] W ht))
        (broadcastInDim S1000000x64 ![0, 1] hb2 (broadcastInDim S1x64 ![1] hb1 b)) (ix2 r c)
      = (∑ k : Fin 64, hs (ix2 r k) * W (ix2 c (lo k))) + (∑ k : Fin 64, ef (ix2 r k) * W (ix2 c (hi k))) + b (ix1 c) := by
  rw [ValueIdx.addf_apply, dotE_ix]
  congr 1
  · exact dot_concat_split _ _ hs ef W (fun k => ix2 r k) (fun k => ix2 k c) r c (fun k => rfl)
      (fun k => transposeW_ix W ht k c) (fun k => concat_lo _ _ _ r k) (fun k => concat_hi _ _ _ r k)
  · exact bias_ix b hb1 hb2 r c

/-- The aggregated message at node `r`, column `k`: the scattered sum divided by the larger of the node's count and one. -/
theorem div_expr_ix (s : FVec Ideal S100000x64 .f32) (cnt : FVec Ideal S100000 .f32)
    (hb0 : S_.BroadcastsInDim S100000 (![] : Fin 0 → Fin S100000.rank))
    (hb3 : S100000.BroadcastsInDim S100000x1 (![0] : Fin 1 → Fin S100000x1.rank))
    (hb4 : S100000x1.BroadcastsInDim S100000x64 (![0, 1] : Fin 2 → Fin S100000x64.rank)) (r : Fin 100000) (k : Fin 64) :
    Host.divf (F := Ideal) s (broadcastInDim S100000x64 ![0, 1] hb4 (broadcastInDim S100000x1 ![0] hb3
        (maximumf cnt (broadcastInDim S100000 ![] hb0 (constant (F := Ideal) S_ .f32 0x3F800000#32))))) (ix2 r k)
      = Ideal.div (s (ix2 r k)) (max (cnt (ix1 r)) 1) := by
  rw [ValueIdx.hostDivf_apply, col_ix, ValueIdx.maximumf_apply, ones_ix]

/-- The node update expression at node `r`, column `c`: the row `[h | aggregated message]` against the transposed weight
    plus the bias, clamped below at zero. -/
theorem upd_expr_ix (h s : FVec Ideal S100000x64 .f32) (cnt : FVec Ideal S100000 .f32) (W : FVec Ideal S64x128 .f32) (b : FVec Ideal S64 .f32)
    (hc : Shape.Concatenates [S100000x64, S100000x64] S100000x128 1) (ht : S64x128.Transposes [1, 0] S128x64)
    (hb1 : S64.BroadcastsInDim S1x64 (![1] : Fin 1 → Fin S1x64.rank))
    (hb2 : S1x64.BroadcastsInDim S100000x64 (![0, 1] : Fin 2 → Fin S100000x64.rank))
    (hb0 : S_.BroadcastsInDim S100000 (![] : Fin 0 → Fin S100000.rank))
    (hb3 : S100000.BroadcastsInDim S100000x1 (![0] : Fin 1 → Fin S100000x1.rank))
    (hb4 : S100000x1.BroadcastsInDim S100000x64 (![0, 1] : Fin 2 → Fin S100000x64.rank))
    (hb5 : S_.BroadcastsInDim S100000x64 (![] : Fin 0 → Fin S100000x64.rank)) (r : Fin 100000) (c : Fin 64) :
    maximumf (addf (Host.dotGeneral (F := Ideal) dot_S100000x128_S128x64_S100000x64_1_0_0_1_n_n none
          (concatenate S100000x128 1 [⟨S100000x64, h⟩, ⟨S100000x64, Host.divf (F := Ideal) s
            (broadcastInDim S100000x64 ![0, 1] hb4 (broadcastInDim S100000x1 ![0] hb3
              (maximumf cnt (broadcastInDim S100000 ![] hb0 (constant (F := Ideal) S_ .f32 0x3F800000#32)))))⟩] hc)
          (transpose S128x64 [1, 0] W ht))
        (broadcastInDim S100000x64 ![0, 1] hb2 (broadcastInDim S1x64 ![1] hb1 b)))
      (broadcastInDim S100000x64 ![] hb5 (constant (F := Ideal) S_ .f32 0x00000000#32)) (ix2 r c)
      = max ((∑ k : Fin 64, h (ix2 r k) * W (ix2 c (lo k)))
          + (∑ k : Fin 64, Ideal.div (s (ix2 r k)) (max (cnt (ix1 r)) 1) * W (ix2 c (hi k)))
          + b (ix1 c)) 0 := by
  rw [ValueIdx.maximumf_apply, ValueIdx.addf_apply, dotN_ix, zeros_ix]
  congr 2
  · refine (dot_concat_split _ _ h _ W (fun k => ix2 r k) (fun k => ix2 k c) r c (fun k => rfl)
      (fun k => transposeW_ix W ht k c) (fun k => concat_lo _ _ _ r k) (fun k => concat_hi _ _ _ r k)).trans ?_
    refine congrArg (HAdd.hAdd _) (Finset.sum_congr rfl fun k _ => ?_)
    rw [div_expr_ix]
  · exact bias_ix b hb1 hb2 r c

/-! ## The loss stages: a sum over the whole final node array of a pointwise term, divided by a constant -/

/-- The pointwise term of a loss stage at a node value `z`, with `c` the constant its last product multiplies by:
    `select (0 - z ≠ 0 - z) (0 + z) (max 0 z + log1p (exp (-|0 - z|))) - z * c`, each operation the extended reals' own
    (the absolute value is `max y (-y)`). -/
def lossTerm (c z : EReal) : EReal :=
  Scalar.select (Ideal.cmp .une (0 - z) (0 - z)) (0 + z)
      (max 0 z + Ideal.log1p (Ideal.exp (-(max (0 - z) (-(0 - z)))))) - z * c

/-- No extended real differs from itself, so the selection takes its second branch. -/
theorem lossTerm_eq (c z : EReal) :
    lossTerm c z = max 0 z + Ideal.log1p (Ideal.exp (-(max (0 - z) (-(0 - z))))) - z * c := by
  unfold lossTerm
  have h : Ideal.cmp .une (0 - z) (0 - z) = 0#1 := by
    show BitVec.ofBool (decide ((0 - z) ≠ (0 - z))) = 0#1
    rw [decide_eq_false (by simp)]
    rfl
  rw [h, ValueIdx.select_zero]

/-- The constant both loss stages divide by is the real number 6400000 (the number of node entries, 100000 · 64). -/
theorem ofBits_6400000 : Ideal.ofBits .f32 0x4AC35000#32 = ((6400000 : ℝ) : EReal) := by
  simp [Ideal.ofBits, Ideal.ieee, -EReal.coe_mul]; norm_num

/-- The loss stage's summand at a node entry is the loss term of the node value there, the constant being the target
    word's value. -/
theorem loss_elem_ix (x : FVec Ideal S100000x64 .f32) (tgt : BitVec 32)
    (hb : S_.BroadcastsInDim S100000x64 (![] : Fin 0 → Fin S100000x64.rank)) (j : S100000x64.Idx) :
    (subf
        (select (cmpf .une (subf (broadcastInDim S100000x64 ![] hb (constant (F := Ideal) S_ .f32 0x00000000#32)) x) (subf (broadcastInDim S100000x64 ![] hb (constant (F := Ideal) S_ .f32 0x00000000#32)) x)) (addf (broadcastInDim S100000x64 ![] hb (constant (F := Ideal) S_ .f32 0x00000000#32)) x)
          (addf (maximumf (broadcastInDim S100000x64 ![] hb (constant (F := Ideal) S_ .f32 0x00000000#32)) x) (Host.log1p (Host.exp (Host.negf (Host.absf (subf (broadcastInDim S100000x64 ![] hb (constant (F := Ideal) S_ .f32 0x00000000#32)) x)))))))
        (mulf x (broadcastInDim S100000x64 ![] hb (constant (F := Ideal) S_ .f32 tgt)))) j
      = lossTerm (Ideal.ofBits .f32 tgt) (x j) := by
  have key : (subf
        (select (cmpf .une (subf (broadcastInDim S100000x64 ![] hb (constant (F := Ideal) S_ .f32 0x00000000#32)) x) (subf (broadcastInDim S100000x64 ![] hb (constant (F := Ideal) S_ .f32 0x00000000#32)) x)) (addf (broadcastInDim S100000x64 ![] hb (constant (F := Ideal) S_ .f32 0x00000000#32)) x)
          (addf (maximumf (broadcastInDim S100000x64 ![] hb (constant (F := Ideal) S_ .f32 0x00000000#32)) x) (Host.log1p (Host.exp (Host.negf (Host.absf (subf (broadcastInDim S100000x64 ![] hb (constant (F := Ideal) S_ .f32 0x00000000#32)) x)))))))
        (mulf x (broadcastInDim S100000x64 ![] hb (constant (F := Ideal) S_ .f32 tgt)))) j
      = Scalar.select (Ideal.cmp .une ((broadcastInDim S100000x64 ![] hb (constant (F := Ideal) S_ .f32 0x00000000#32)) j - x j) ((broadcastInDim S100000x64 ![] hb (constant (F := Ideal) S_ .f32 0x00000000#32)) j - x j)) ((broadcastInDim S100000x64 ![] hb (constant (F := Ideal) S_ .f32 0x00000000#32)) j + x j)
          (max ((broadcastInDim S100000x64 ![] hb (constant (F := Ideal) S_ .f32 0x00000000#32)) j) (x j) + Ideal.log1p (Ideal.exp (-(max ((broadcastInDim S100000x64 ![] hb (constant (F := Ideal) S_ .f32 0x00000000#32)) j - x j) (-((broadcastInDim S100000x64 ![] hb (constant (F := Ideal) S_ .f32 0x00000000#32)) j - x j))))))
        - x j * (broadcastInDim S100000x64 ![] hb (constant (F := Ideal) S_ .f32 tgt)) j := rfl
  rw [key, zeros_ix hb j, ValueIdx.broadcastInDim_scalar_apply hb _ j]
  rfl

/-- The loss expression: zero plus the sum over every node entry of the loss term, divided by the program's constant. -/
theorem loss_expr_at (x : FVec Ideal S100000x64 .f32) (tgt : BitVec 32)
    (hb : S_.BroadcastsInDim S100000x64 (![] : Fin 0 → Fin S100000x64.rank))
    (hr : S100000x64.ReducesTo [0, 1] S_) (hu : 0 < S_.numel) (j : S_.Idx) :
    Host.divf (F := Ideal) (Host.reduceAdd (F := Ideal)
      (subf
        (select (cmpf .une (subf (broadcastInDim S100000x64 ![] hb (constant (F := Ideal) S_ .f32 0x00000000#32)) x) (subf (broadcastInDim S100000x64 ![] hb (constant (F := Ideal) S_ .f32 0x00000000#32)) x)) (addf (broadcastInDim S100000x64 ![] hb (constant (F := Ideal) S_ .f32 0x00000000#32)) x)
          (addf (maximumf (broadcastInDim S100000x64 ![] hb (constant (F := Ideal) S_ .f32 0x00000000#32)) x) (Host.log1p (Host.exp (Host.negf (Host.absf (subf (broadcastInDim S100000x64 ![] hb (constant (F := Ideal) S_ .f32 0x00000000#32)) x)))))))
        (mulf x (broadcastInDim S100000x64 ![] hb (constant (F := Ideal) S_ .f32 tgt))))
      (constant (F := Ideal) S_ .f32 0x00000000#32) hr hu) (constant (F := Ideal) S_ .f32 0x4AC35000#32) j
      = Ideal.div (0 + ∑ i : S100000x64.Idx, lossTerm (Ideal.ofBits .f32 tgt) (x i)) (Ideal.ofBits .f32 0x4AC35000#32) := by
  rw [ValueIdx.hostDivf_apply, ValueIdx.hostReduceAdd_apply, Ideal.hostReduceAdd_total hr (fun b => b.elim0)]
  have e0 : constant (F := Ideal) S_ .f32 0x00000000#32 (Shape.Idx.first hu) = 0 := Ideal.ofBits_zero_f32
  rw [e0, Finset.sum_congr rfl fun i _ => loss_elem_ix x tgt hb i]
  rfl

/-! ## The reference's stage functions at an index -/

/-- The message stage at edge `r`, column `c`. -/
theorem rMsg_ix (hs ef : RefSpec.AE Ideal) (W : RefSpec.AW Ideal) (b : RefSpec.AB Ideal) (r : Fin 1000000) (c : Fin 64) :
    RefSpec.rMsg (F := Ideal) hs ef W b (ix2 r c)
      = (∑ k : Fin 64, hs (ix2 r k) * W (ix2 c (lo k))) + (∑ k : Fin 64, ef (ix2 r k) * W (ix2 c (hi k))) + b (ix1 c) := by
  unfold RefSpec.rMsg
  exact msg_expr_ix hs ef W b _ _ _ _ r c

/-- The same at any index `i`, by its two coordinates. -/
theorem rMsg_at (hs ef : RefSpec.AE Ideal) (W : RefSpec.AW Ideal) (b : RefSpec.AB Ideal) (i : S1000000x64.Idx) :
    RefSpec.rMsg (F := Ideal) hs ef W b i
      = (∑ k : Fin 64, hs (ix2 (n0 := 1000000) (i 0) k) * W (ix2 (n0 := 64) (i 1) (lo k)))
        + (∑ k : Fin 64, ef (ix2 (n0 := 1000000) (i 0) k) * W (ix2 (n0 := 64) (i 1) (hi k)))
        + b (ix1 (n := 64) (i 1)) :=
  (congrArg (RefSpec.rMsg (F := Ideal) hs ef W b) (ValueIdx.eq_ix2 i)).trans (rMsg_ix hs ef W b (i 0) (i 1))

/-- The node update stage at node `r`, column `c`. -/
theorem rUpd_ix (h s : RefSpec.AN Ideal) (cnt : RefSpec.AC Ideal) (W : RefSpec.AW Ideal) (b : RefSpec.AB Ideal)
    (r : Fin 100000) (c : Fin 64) :
    RefSpec.rUpd (F := Ideal) h s cnt W b (ix2 r c)
      = max ((∑ k : Fin 64, h (ix2 r k) * W (ix2 c (lo k)))
          + (∑ k : Fin 64, Ideal.div (s (ix2 r k)) (max (cnt (ix1 r)) 1) * W (ix2 c (hi k)))
          + b (ix1 c)) 0 := by
  unfold RefSpec.rUpd
  exact upd_expr_ix h s cnt W b _ _ _ _ _ _ _ _ r c

/-- The same at any index `i`, by its two coordinates. -/
theorem rUpd_at (h s : RefSpec.AN Ideal) (cnt : RefSpec.AC Ideal) (W : RefSpec.AW Ideal) (b : RefSpec.AB Ideal)
    (i : S100000x64.Idx) :
    RefSpec.rUpd (F := Ideal) h s cnt W b i
      = max ((∑ k : Fin 64, h (ix2 (n0 := 100000) (i 0) k) * W (ix2 (n0 := 64) (i 1) (lo k)))
          + (∑ k : Fin 64, Ideal.div (s (ix2 (n0 := 100000) (i 0) k)) (max (cnt (ix1 (n := 100000) (i 0))) 1)
              * W (ix2 (n0 := 64) (i 1) (hi k)))
          + b (ix1 (n := 64) (i 1))) 0 :=
  (congrArg (RefSpec.rUpd (F := Ideal) h s cnt W b) (ValueIdx.eq_ix2 i)).trans (rUpd_ix h s cnt W b (i 0) (i 1))

/-- The loss stage against the target word `tgt`. -/
theorem rLoss_at (tgt : BitVec 32) (x : RefSpec.AN Ideal) (j : S_.Idx) :
    RefSpec.rLoss (F := Ideal) tgt x j
      = Ideal.div (0 + ∑ i : S100000x64.Idx, lossTerm (Ideal.ofBits .f32 tgt) (x i)) (Ideal.ofBits .f32 0x4AC35000#32) := by
  unfold RefSpec.rLoss
  exact loss_expr_at x tgt _ _ _ j

/-- Against the target one. -/
theorem rLoss_one_at (x : RefSpec.AN Ideal) (j : S_.Idx) :
    RefSpec.rLoss (F := Ideal) 0x3F800000#32 x j
      = Ideal.div (0 + ∑ i : S100000x64.Idx, lossTerm 1 (x i)) (Ideal.ofBits .f32 0x4AC35000#32) := by
  rw [rLoss_at, Ideal.ofBits_one_f32]

/-- Against the target zero. -/
theorem rLoss_zero_at (x : RefSpec.AN Ideal) (j : S_.Idx) :
    RefSpec.rLoss (F := Ideal) 0x00000000#32 x j
      = Ideal.div (0 + ∑ i : S100000x64.Idx, lossTerm 0 (x i)) (Ideal.ofBits .f32 0x4AC35000#32) := by
  rw [rLoss_at, Ideal.ofBits_zero_f32]

end Cert.ReferenceIdeal.RefAtG

end
-- ==== Proof.Bridge.lean ====
import proofs.«176382_j6528350290006_1_alg».proof.Defs
import proofs.«176382_j6528350290006_1_alg».proof.Proof.KiChain
import proofs.«176382_j6528350290006_1_alg».proof.Proof.Laws
import proofs.«176382_j6528350290006_1_alg».proof.Proof.RefSpec
import proofs.«176382_j6528350290006_1_alg».proof.Proof.RefAtG
import proofs.«176382_j6528350290006_1_alg».proof.Proof.RefRun

set_option maxRecDepth 16384
set_option maxHeartbeats 4000000

noncomputable section

namespace Cert.Bridge

open Cert.KernelIdeal Cert.KernelIdeal.Stages Cert.KernelIdeal.Facts₀ Cert.KernelIdeal.Facts
open Cert.ReferenceIdeal.RefSpec Cert.ReferenceIdeal.RefAtG
open Idealize.ShloMosaic Idealize.ShloMosaic.TcCoe Idealize.SL.Sem

/-! Stage by stage the program's arrays are the reference's. A layer's messages: the row [gathered node row | edge row]
    against the 128-column weight is the node half plus the edge half. A layer's update: likewise for [own row | mean of
    messages]. The host operations between are the same on both sides. -/

section Stages

variable (h : AN) (ef : AE) (src dst perm : IE) (Wm : AW) (bm : AB) (Wa : AW) (ba : AB)

/-- One layer of the program is one layer of the reference, whatever node features and edge features it is given. -/
theorem layer_eq : layer h ef src dst Wm bm Wa ba = rLayer h ef src dst Wm bm Wa ba := by
  have hg : gathN h src = rGath h src := rfl
  have hm : msgOf (rGath h src) ef Wm bm = rMsg (rGath h src) ef Wm bm := funext fun i =>
    (Cert.KernelIdeal.Laws.msg_law (rGath h src) ef Wm bm slices_S64x128_S64x64_0_0 slices_S64x128_S64x64_0_64 transposes_S64x64_S64x64_1_0 shapeCasts_S64_S1x64 i).trans (rMsg_at (rGath h src) ef Wm bm i).symm
  have hs : scat dst (rMsg (rGath h src) ef Wm bm) = rScat dst (rMsg (rGath h src) ef Wm bm) := rfl
  have hc : cntOf dst = rCnt dst := rfl
  funext i
  unfold layer cntCol rLayer
  rw [hg, hm, hs, hc]
  exact (Cert.KernelIdeal.Laws.upd_law h (rScat dst (rMsg (rGath h src) ef Wm bm)) (rCnt dst) Wa ba shapeCasts_S100000_S100000x1 slices_S64x128_S64x64_0_0 slices_S64x128_S64x64_0_64 transposes_S64x64_S64x64_1_0 shapeCasts_S64_S1x64 i).trans
    (rUpd_at h (rScat dst (rMsg (rGath h src) ef Wm bm)) (rCnt dst) Wa ba i).symm

theorem permuted_eq : gathE ef perm = rGathE ef perm := rfl

/-- A mean loss of the program is the reference's loss stage: the loss term is the same scalar function on both sides,
    and the reference's sum over all entries starts from zero. -/
theorem loss_one (x : AN) : meanOf (∑ i : S100000x64.Idx, Cert.KernelIdeal.PayloadAt.bceTerm1 (x i)) = rLoss 0x3F800000#32 x := by
  funext j
  rw [rLoss_one_at, zero_add]
  have e1 : ∀ z, Cert.KernelIdeal.PayloadAt.bceTerm1 z = lossTerm 1 z := fun z => (Cert.KernelIdeal.Laws.bceTerm1_eq z).trans (lossTerm_eq 1 z).symm
  simp only [e1]
  rfl
theorem loss_zero (x : AN) : meanOf (∑ i : S100000x64.Idx, Cert.KernelIdeal.PayloadAt.bceTerm0 (x i)) = rLoss 0x00000000#32 x := by
  funext j
  rw [rLoss_zero_at, zero_add]
  have e0 : ∀ z, Cert.KernelIdeal.PayloadAt.bceTerm0 z = lossTerm 0 z := fun z => (Cert.KernelIdeal.Laws.bceTerm0_eq z).trans (lossTerm_eq 0 z).symm
  simp only [e0]
  rfl

end Stages

open Cert.KernelIdeal.Blocks in
/-- The program's result buffer at the end of the run is the reference's result term of the same arguments. -/
theorem kernel_value (m : (ℓ : Loc nD τ sig) → Buf (Elt Ideal) ℓ) (c : Dev nD) :
    W20 m c (Proc.devRef .tc main_v121) = rTotal (argv m c main_arg0) (argv m c main_arg1) (argv m c main_arg2) (argv m c main_arg3) (argv m c main_arg4) (argv m c main_arg5) (argv m c main_arg6) (argv m c main_arg7) (argv m c main_arg8) (argv m c main_arg9) (argv m c main_arg10) (argv m c main_arg11) (argv m c main_arg12) := by
  rw [result_eq m c]
  unfold Hp1 Hn1 Hp0 Hn0 EFn rTotal
  rw [loss_one, loss_zero]
  simp only [layer_eq, permuted_eq]
  try rfl

open Cert.KernelIdeal.Blocks in
/-- From memories agreeing on the arguments both programs run to the end and hold the same result. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => W20 m c (Proc.devRef .tc main_v121), ?_, ?_⟩
  · exact (θ_run Cert.KernelIdeal.defs _ _).mono (fun r h c => ⟨h c _ (mem_uc main_v121 (by decide)),
      (h c _ (mem_uc main_arg0 (by decide))).trans (W20_main_arg0 m c),
      (h c _ (mem_uc main_arg1 (by decide))).trans (W20_main_arg1 m c),
      (h c _ (mem_uc main_arg2 (by decide))).trans (W20_main_arg2 m c),
      (h c _ (mem_uc main_arg3 (by decide))).trans (W20_main_arg3 m c),
      (h c _ (mem_uc main_arg4 (by decide))).trans (W20_main_arg4 m c),
      (h c _ (mem_uc main_arg5 (by decide))).trans (W20_main_arg5 m c),
      (h c _ (mem_uc main_arg6 (by decide))).trans (W20_main_arg6 m c),
      (h c _ (mem_uc main_arg7 (by decide))).trans (W20_main_arg7 m c),
      (h c _ (mem_uc main_arg8 (by decide))).trans (W20_main_arg8 m c),
      (h c _ (mem_uc main_arg9 (by decide))).trans (W20_main_arg9 m c),
      (h c _ (mem_uc main_arg10 (by decide))).trans (W20_main_arg10 m c),
      (h c _ (mem_uc main_arg11 (by decide))).trans (W20_main_arg11 m c),
      (h c _ (mem_uc main_arg12 (by decide))).trans (W20_main_arg12 m c)⟩) (run_all m ρ)
  · refine (θ_run Cert.ReferenceIdeal.defs _ _).mono (fun r h c => ⟨(h c).1.trans ?_, (h c).2⟩)
      (Cert.ReferenceIdeal.HandRun.ref_run m' ρ')
    obtain ⟨h0, h1, h2, h3, h4, h5, h6, h7, h8, h9, h10, h11, h12⟩ := hagree c
    rw [h0, h1, h2, h3, h4, h5, h6, h7, h8, h9, h10, h11, h12]
    exact (kernel_value m c).symm

end Cert.Bridge

end
-- ==== Proof.lean ====
/- The kernel is a two-layer mean-aggregating message-passing encoder applied to a graph and to a copy of it with
   permuted edge features, followed by a logistic loss of the two encodings. Its ten kernel regions are: per layer and
   per view a region that forms every edge's message (the gathered source row against one half of a weight, the edge's
   features against the other half, plus a bias) and a region that updates every node (its own row against one half of a
   weight, the mean of its incoming messages against the other half, plus a bias, cut off at zero); and per view a region
   that sums the loss terms of all entries block by block in a carried accumulator. Between the regions the host gathers
   rows by source node, adds messages up by destination node and counts in-degrees.
   The frame claims: each region's blocks are staged, computed and written back point by point; a host stretch writes only
   its own results; so every argument ends as launched. The value claim: at exact arithmetic a product of a row with a
   128-column weight is the sum of the products with its two 64-column halves, and a sum over all entries is the sum over
   blocks of the blocks' sums; with these the kernel's result is the reference's, stage by stage. -/
import proofs.«176382_j6528350290006_1_alg».proof.Defs
import proofs.«176382_j6528350290006_1_alg».proof.Proof.Gen.Kernel
import proofs.«176382_j6528350290006_1_alg».proof.Proof.Gen.KernelIdeal
import proofs.«176382_j6528350290006_1_alg».proof.Proof.Gen.ReferenceIdeal
import proofs.«176382_j6528350290006_1_alg».proof.Proof.Gen.Pre_finite_inputs
import proofs.«176382_j6528350290006_1_alg».proof.Proof.RefRun
import proofs.«176382_j6528350290006_1_alg».proof.Proof.KbRun
import proofs.«176382_j6528350290006_1_alg».proof.Proof.KiRun
import proofs.«176382_j6528350290006_1_alg».proof.Proof.Bridge
import Idealize.ShloMosaic.Adequacy
import Idealize.ShloMosaic.Init

noncomputable section

namespace Cert.Proof

open Idealize.ShloMosaic Idealize.SL.Sem

/-- The word-level program runs to the end, nothing faulting, and leaves every argument as launched. -/
theorem frame_kernel [Cert.Kernel.Facts] [Cert.Pre_finite_inputs.Facts] : Cert.frame_Kernel := fun m ρ _ =>
  (θ_run Cert.Kernel.defs _ _).mono (fun r h c => ⟨(h c _ (Cert.Kernel.Blocks.mem_uc Cert.Kernel.main_arg0 (by decide))).trans (Cert.Kernel.Blocks.W20_main_arg0 m c),
    (h c _ (Cert.Kernel.Blocks.mem_uc Cert.Kernel.main_arg1 (by decide))).trans (Cert.Kernel.Blocks.W20_main_arg1 m c),
    (h c _ (Cert.Kernel.Blocks.mem_uc Cert.Kernel.main_arg2 (by decide))).trans (Cert.Kernel.Blocks.W20_main_arg2 m c),
    (h c _ (Cert.Kernel.Blocks.mem_uc Cert.Kernel.main_arg3 (by decide))).trans (Cert.Kernel.Blocks.W20_main_arg3 m c),
    (h c _ (Cert.Kernel.Blocks.mem_uc Cert.Kernel.main_arg4 (by decide))).trans (Cert.Kernel.Blocks.W20_main_arg4 m c),
    (h c _ (Cert.Kernel.Blocks.mem_uc Cert.Kernel.main_arg5 (by decide))).trans (Cert.Kernel.Blocks.W20_main_arg5 m c),
    (h c _ (Cert.Kernel.Blocks.mem_uc Cert.Kernel.main_arg6 (by decide))).trans (Cert.Kernel.Blocks.W20_main_arg6 m c),
    (h c _ (Cert.Kernel.Blocks.mem_uc Cert.Kernel.main_arg7 (by decide))).trans (Cert.Kernel.Blocks.W20_main_arg7 m c),
    (h c _ (Cert.Kernel.Blocks.mem_uc Cert.Kernel.main_arg8 (by decide))).trans (Cert.Kernel.Blocks.W20_main_arg8 m c),
    (h c _ (Cert.Kernel.Blocks.mem_uc Cert.Kernel.main_arg9 (by decide))).trans (Cert.Kernel.Blocks.W20_main_arg9 m c),
    (h c _ (Cert.Kernel.Blocks.mem_uc Cert.Kernel.main_arg10 (by decide))).trans (Cert.Kernel.Blocks.W20_main_arg10 m c),
    (h c _ (Cert.Kernel.Blocks.mem_uc Cert.Kernel.main_arg11 (by decide))).trans (Cert.Kernel.Blocks.W20_main_arg11 m c),
    (h c _ (Cert.Kernel.Blocks.mem_uc Cert.Kernel.main_arg12 (by decide))).trans (Cert.Kernel.Blocks.W20_main_arg12 m c)⟩)
    (Cert.Kernel.Blocks.run_all m ρ)

/-- So does the program read at exact arithmetic. -/
theorem frame_kernelIdeal [Cert.KernelIdeal.Facts] [Cert.Pre_finite_inputs.Facts] : Cert.frame_KernelIdeal := fun m ρ _ =>
  (θ_run Cert.KernelIdeal.defs _ _).mono (fun r h c => ⟨(h c _ (Cert.KernelIdeal.Blocks.mem_uc Cert.KernelIdeal.main_arg0 (by decide))).trans (Cert.KernelIdeal.Blocks.W20_main_arg0 m c),
    (h c _ (Cert.KernelIdeal.Blocks.mem_uc Cert.KernelIdeal.main_arg1 (by decide))).trans (Cert.KernelIdeal.Blocks.W20_main_arg1 m c),
    (h c _ (Cert.KernelIdeal.Blocks.mem_uc Cert.KernelIdeal.main_arg2 (by decide))).trans (Cert.KernelIdeal.Blocks.W20_main_arg2 m c),
    (h c _ (Cert.KernelIdeal.Blocks.mem_uc Cert.KernelIdeal.main_arg3 (by decide))).trans (Cert.KernelIdeal.Blocks.W20_main_arg3 m c),
    (h c _ (Cert.KernelIdeal.Blocks.mem_uc Cert.KernelIdeal.main_arg4 (by decide))).trans (Cert.KernelIdeal.Blocks.W20_main_arg4 m c),
    (h c _ (Cert.KernelIdeal.Blocks.mem_uc Cert.KernelIdeal.main_arg5 (by decide))).trans (Cert.KernelIdeal.Blocks.W20_main_arg5 m c),
    (h c _ (Cert.KernelIdeal.Blocks.mem_uc Cert.KernelIdeal.main_arg6 (by decide))).trans (Cert.KernelIdeal.Blocks.W20_main_arg6 m c),
    (h c _ (Cert.KernelIdeal.Blocks.mem_uc Cert.KernelIdeal.main_arg7 (by decide))).trans (Cert.KernelIdeal.Blocks.W20_main_arg7 m c),
    (h c _ (Cert.KernelIdeal.Blocks.mem_uc Cert.KernelIdeal.main_arg8 (by decide))).trans (Cert.KernelIdeal.Blocks.W20_main_arg8 m c),
    (h c _ (Cert.KernelIdeal.Blocks.mem_uc Cert.KernelIdeal.main_arg9 (by decide))).trans (Cert.KernelIdeal.Blocks.W20_main_arg9 m c),
    (h c _ (Cert.KernelIdeal.Blocks.mem_uc Cert.KernelIdeal.main_arg10 (by decide))).trans (Cert.KernelIdeal.Blocks.W20_main_arg10 m c),
    (h c _ (Cert.KernelIdeal.Blocks.mem_uc Cert.KernelIdeal.main_arg11 (by decide))).trans (Cert.KernelIdeal.Blocks.W20_main_arg11 m c),
    (h c _ (Cert.KernelIdeal.Blocks.mem_uc Cert.KernelIdeal.main_arg12 (by decide))).trans (Cert.KernelIdeal.Blocks.W20_main_arg12 m c)⟩)
    (Cert.KernelIdeal.Blocks.run_all m ρ)

/-- The reference is a straight line of host operations: its run, with the result dropped. -/
theorem frame_referenceIdeal [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.HandRun.ref_run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
